-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x4096x128 : Shape := ⟨4, ![8, 8, 4096, 128]⟩
abbrev S_ : Shape := ⟨0, ![]⟩

class Facts : Prop where
  bcast_S_S8x8x4096x128 : S_.BroadcastsInDim S8x8x4096x128 (![] : Fin 0 → Fin S8x8x4096x128.rank)
  reducesTo_S8x8x4096x128_S_d0_1_2_3 : S8x8x4096x128.ReducesTo [0, 1, 2, 3] S_
  h_S_ : 0 < S_.numel

variable [Facts]

def fn {F : FTy → Type} [FloatOps F] (main_arg0 : FVec F S8x8x4096x128 .f32) : IVec S_ 1 :=
  let main_v0 : FVec F S8x8x4096x128 .f32 := Host.absf main_arg0
  let main_cst : FVec F S_ .f32 := constant S_ .f32 0x7F800000#32
  let main_v1 : FVec F S8x8x4096x128 .f32 := broadcastInDim S8x8x4096x128 ![] bcast_S_S8x8x4096x128 main_cst
  let main_v2 : IVec S8x8x4096x128 1 := cmpf .olt main_v0 main_v1
  let main_c : IVec S_ 1 := constantI S_ 1 1#1
  let main_v3 : IVec S_ 1 := (fun x v => Host.reduce IntOp.andi x v reducesTo_S8x8x4096x128_S_d0_1_2_3 h_S_) main_v2 main_c
  main_v3
-- ==== Kernel.lean ====
abbrev S8x8x4096x128 : Shape := ⟨4, ![8, 8, 4096, 128]⟩
abbrev S64x4096x128 : Shape := ⟨3, ![64, 4096, 128]⟩
abbrev S64x128 : Shape := ⟨2, ![64, 128]⟩
abbrev S640x128 : Shape := ⟨2, ![640, 128]⟩
abbrev S2x128 : Shape := ⟨2, ![2, 128]⟩
abbrev S_ : Shape := ⟨0, ![]⟩
abbrev S320x128 : Shape := ⟨2, ![320, 128]⟩
abbrev S1x320x128 : Shape := ⟨3, ![1, 320, 128]⟩
abbrev S16 : Shape := ⟨1, ![16]⟩
abbrev S1x16 : Shape := ⟨2, ![1, 16]⟩
abbrev S4x2816x128 : Shape := ⟨3, ![4, 2816, 128]⟩
abbrev S4 : Shape := ⟨1, ![4]⟩
abbrev S1 : Shape := ⟨1, ![1]⟩
abbrev S1x2816x128 : Shape := ⟨3, ![1, 2816, 128]⟩
abbrev S2816x128 : Shape := ⟨2, ![2816, 128]⟩
abbrev S128 : Shape := ⟨1, ![128]⟩
abbrev S1x128 : Shape := ⟨2, ![1, 128]⟩
abbrev S8x8x128 : Shape := ⟨3, ![8, 8, 128]⟩

abbrev nBuf : Table → Nat
  | .hbm => 10
  | .local .tc .vmem => 2
  | .local .scVector .vmem => 2
  | _ => 0

abbrev bufTy : (tb : Table) → Fin (nBuf tb) → BufTy
  | .hbm, ⟨0, _⟩ => ⟨S8x8x4096x128, .f32⟩
  | .hbm, ⟨1, _⟩ => ⟨S64x4096x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .i1⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S8x8x128, .f32⟩
  | .local .tc .vmem, ⟨0, _⟩ => ⟨S64x128, .f32⟩
  | .local .tc .vmem, ⟨1, _⟩ => ⟨S4x2816x128, .f32⟩
  | .local .scVector .vmem, ⟨0, _⟩ => ⟨S640x128, .f32⟩
  | .local .scVector .vmem, ⟨1, _⟩ => ⟨S2x128, .f32⟩
  | _, _ => ⟨S8x8x4096x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_scratch0 : Ref sig .tc := ⟨.vmem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_3 : BitVec 32 := 0#32
  let c0_i32_4 : BitVec 32 := 0#32
  ![v3.toNat, 0, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c320_i32_10 : BitVec 32 := 320#32
  let c0_i32_11 : BitVec 32 := 0#32
  ![v3.toNat, 320, 0]
@[reducible] def k0_t1_loop : Scf.Loop 32 :=
  let c0_i32_23 : BitVec 32 := 0#32
  let c2_i32_24 : BitVec 32 := 2#32
  let v24 : BitVec 32 := Scalar.addi c0_i32_23 c2_i32_24
  let c1_i32 : BitVec 32 := 1#32
  ⟨c0_i32_23, v24, c1_i32⟩
def k0_off3 (i : grid0.Coords) (k0_t1 : Fin k0_t1_loop.trips) (c0_i32_96 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2_i32_95 : BitVec 32 := 2#32
  let c0_i32_23 : BitVec 32 := 0#32
  let c1_i32 : BitVec 32 := 1#32
  let arg8 : BitVec 32 := Scf.iv c0_i32_23 c1_i32 k0_t1
  let v145 : BitVec 32 := Scalar.muli c2_i32_95 arg8
  let v146 : BitVec 32 := Scalar.addi v145 c0_i32_96
  let c320_i32_97 : BitVec 32 := 320#32
  let v147 : BitVec 32 := Scalar.muli v146 c320_i32_97
  let c0_i32_100 : BitVec 32 := 0#32
  ![v3.toNat, v147.toNat, 0]
@[reducible] def k0_t2_loop : Scf.Loop 32 :=
  let c0_i32_104 : BitVec 32 := 0#32
  let c80_i32 : BitVec 32 := 80#32
  let v154 : BitVec 32 := Scalar.addi c0_i32_104 c80_i32
  let c1_i32_105 : BitVec 32 := 1#32
  ⟨c0_i32_104, v154, c1_i32_105⟩
def k0_off4 (k0_t2 : Fin k0_t2_loop.trips) (c0_i32_127 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v177 : BitVec 32 := Scalar.addi v176 c0_i32_127
  let v178 : Index := Scalar.indexCast v177
  let c0_128 : Index := 0#32
  ![v178.toNat, 0]
def k0_off5 (k0_t2 : Fin k0_t2_loop.trips) (c0_i32_129 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v182 : BitVec 32 := Scalar.addi v176 c0_i32_129
  let v183 : Index := Scalar.indexCast v182
  let c16_130 : Index := 16#32
  ![v183.toNat, 16]
def k0_off6 (k0_t2 : Fin k0_t2_loop.trips) (c0_i32_131 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v187 : BitVec 32 := Scalar.addi v176 c0_i32_131
  let v188 : Index := Scalar.indexCast v187
  let c32_132 : Index := 32#32
  ![v188.toNat, 32]
def k0_off7 (k0_t2 : Fin k0_t2_loop.trips) (c0_i32_133 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v192 : BitVec 32 := Scalar.addi v176 c0_i32_133
  let v193 : Index := Scalar.indexCast v192
  let c48_134 : Index := 48#32
  ![v193.toNat, 48]
def k0_off8 (k0_t2 : Fin k0_t2_loop.trips) (c0_i32_135 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v197 : BitVec 32 := Scalar.addi v176 c0_i32_135
  let v198 : Index := Scalar.indexCast v197
  let c64_136 : Index := 64#32
  ![v198.toNat, 64]
def k0_off9 (k0_t2 : Fin k0_t2_loop.trips) (c0_i32_137 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v202 : BitVec 32 := Scalar.addi v176 c0_i32_137
  let v203 : Index := Scalar.indexCast v202
  let c80_138 : Index := 80#32
  ![v203.toNat, 80]
def k0_off10 (k0_t2 : Fin k0_t2_loop.trips) (c0_i32_139 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v207 : BitVec 32 := Scalar.addi v176 c0_i32_139
  let v208 : Index := Scalar.indexCast v207
  let c96_140 : Index := 96#32
  ![v208.toNat, 96]
def k0_off11 (k0_t2 : Fin k0_t2_loop.trips) (c0_i32_141 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t2
  let c4_i32_125 : BitVec 32 := 4#32
  let v175 : BitVec 32 := Scalar.muli arg17 c4_i32_125
  let v176 : BitVec 32 := Scalar.addi c0_i32_126 v175
  let v212 : BitVec 32 := Scalar.addi v176 c0_i32_141
  let v213 : Index := Scalar.indexCast v212
  let c112_142 : Index := 112#32
  ![v213.toNat, 112]
def k0_cond1 (k0_t1 : Fin k0_t1_loop.trips) : BitVec 1 :=
  let c2_i32_95 : BitVec 32 := 2#32
  let c0_i32_23 : BitVec 32 := 0#32
  let c1_i32 : BitVec 32 := 1#32
  let arg8 : BitVec 32 := Scf.iv c0_i32_23 c1_i32 k0_t1
  let v145 : BitVec 32 := Scalar.muli c2_i32_95 arg8
  let c0_i32_96 : BitVec 32 := 0#32
  let v146 : BitVec 32 := Scalar.addi v145 c0_i32_96
  let c2_i32_107 : BitVec 32 := 2#32
  let v156 : BitVec 32 := Scalar.addi v146 c2_i32_107
  let c4_i32 : BitVec 32 := 4#32
  let v157 : BitVec 1 := Scalar.cmpi .slt v156 c4_i32
  let v158 : BitVec 32 := Scalar.extui v157
  let c0_i32_108 : BitVec 32 := 0#32
  let v159 : BitVec 1 := Scalar.cmpi .ne v158 c0_i32_108
  v159

def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2_i32_95 : BitVec 32 := 2#32
  let c0_i32_23 : BitVec 32 := 0#32
  let c1_i32 : BitVec 32 := 1#32
  let arg8 : BitVec 32 := Scf.iv c0_i32_23 c1_i32 k0_t1
  let v145 : BitVec 32 := Scalar.muli c2_i32_95 arg8
  let c0_i32_96 : BitVec 32 := 0#32
  let v146 : BitVec 32 := Scalar.addi v145 c0_i32_96
  let c2_i32_125 : BitVec 32 := 2#32
  let v175 : BitVec 32 := Scalar.addi v146 c2_i32_125
  let c320_i32_126 : BitVec 32 := 320#32
  let v176 : BitVec 32 := Scalar.muli v175 c320_i32_126
  let c0_i32_129 : BitVec 32 := 0#32
  ![v3.toNat, v176.toNat, 0]
@[reducible] def k0_t3_loop : Scf.Loop 32 :=
  let c0_i32_118 : BitVec 32 := 0#32
  let c80_i32_119 : BitVec 32 := 80#32
  let v169 : BitVec 32 := Scalar.addi c0_i32_118 c80_i32_119
  let c1_i32_120 : BitVec 32 := 1#32
  ⟨c0_i32_118, v169, c1_i32_120⟩
def k0_off13 (k0_t3 : Fin k0_t3_loop.trips) (c0_i32_127 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v177 : BitVec 32 := Scalar.addi v176 c0_i32_127
  let v178 : Index := Scalar.indexCast v177
  let c0_128 : Index := 0#32
  ![v178.toNat, 0]
def k0_off14 (k0_t3 : Fin k0_t3_loop.trips) (c0_i32_129 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v182 : BitVec 32 := Scalar.addi v176 c0_i32_129
  let v183 : Index := Scalar.indexCast v182
  let c16_130 : Index := 16#32
  ![v183.toNat, 16]
def k0_off15 (k0_t3 : Fin k0_t3_loop.trips) (c0_i32_131 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v187 : BitVec 32 := Scalar.addi v176 c0_i32_131
  let v188 : Index := Scalar.indexCast v187
  let c32_132 : Index := 32#32
  ![v188.toNat, 32]
def k0_off16 (k0_t3 : Fin k0_t3_loop.trips) (c0_i32_133 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v192 : BitVec 32 := Scalar.addi v176 c0_i32_133
  let v193 : Index := Scalar.indexCast v192
  let c48_134 : Index := 48#32
  ![v193.toNat, 48]
def k0_off17 (k0_t3 : Fin k0_t3_loop.trips) (c0_i32_135 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v197 : BitVec 32 := Scalar.addi v176 c0_i32_135
  let v198 : Index := Scalar.indexCast v197
  let c64_136 : Index := 64#32
  ![v198.toNat, 64]
def k0_off18 (k0_t3 : Fin k0_t3_loop.trips) (c0_i32_137 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v202 : BitVec 32 := Scalar.addi v176 c0_i32_137
  let v203 : Index := Scalar.indexCast v202
  let c80_138 : Index := 80#32
  ![v203.toNat, 80]
def k0_off19 (k0_t3 : Fin k0_t3_loop.trips) (c0_i32_139 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v207 : BitVec 32 := Scalar.addi v176 c0_i32_139
  let v208 : Index := Scalar.indexCast v207
  let c96_140 : Index := 96#32
  ![v208.toNat, 96]
def k0_off20 (k0_t3 : Fin k0_t3_loop.trips) (c0_i32_141 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t3
  let c4_i32_125 : BitVec 32 := 4#32
  let v175 : BitVec 32 := Scalar.muli arg17 c4_i32_125
  let v176 : BitVec 32 := Scalar.addi c320_i32_126 v175
  let v212 : BitVec 32 := Scalar.addi v176 c0_i32_141
  let v213 : Index := Scalar.indexCast v212
  let c112_142 : Index := 112#32
  ![v213.toNat, 112]
def k0_cond2 (k0_t1 : Fin k0_t1_loop.trips) : BitVec 1 :=
  let c2_i32_109 : BitVec 32 := 2#32
  let c0_i32_23 : BitVec 32 := 0#32
  let c1_i32 : BitVec 32 := 1#32
  let arg8 : BitVec 32 := Scf.iv c0_i32_23 c1_i32 k0_t1
  let v160 : BitVec 32 := Scalar.muli c2_i32_109 arg8
  let c1_i32_110 : BitVec 32 := 1#32
  let v161 : BitVec 32 := Scalar.addi v160 c1_i32_110
  let c2_i32_122 : BitVec 32 := 2#32
  let v171 : BitVec 32 := Scalar.addi v161 c2_i32_122
  let c4_i32_123 : BitVec 32 := 4#32
  let v172 : BitVec 1 := Scalar.cmpi .slt v171 c4_i32_123
  let v173 : BitVec 32 := Scalar.extui v172
  let c0_i32_124 : BitVec 32 := 0#32
  let v174 : BitVec 1 := Scalar.cmpi .ne v173 c0_i32_124
  v174

def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2_i32_109 : BitVec 32 := 2#32
  let c0_i32_23 : BitVec 32 := 0#32
  let c1_i32 : BitVec 32 := 1#32
  let arg8 : BitVec 32 := Scf.iv c0_i32_23 c1_i32 k0_t1
  let v160 : BitVec 32 := Scalar.muli c2_i32_109 arg8
  let c1_i32_110 : BitVec 32 := 1#32
  let v161 : BitVec 32 := Scalar.addi v160 c1_i32_110
  let c2_i32_125 : BitVec 32 := 2#32
  let v175 : BitVec 32 := Scalar.addi v161 c2_i32_125
  let c320_i32_126 : BitVec 32 := 320#32
  let v176 : BitVec 32 := Scalar.muli v175 c320_i32_126
  let c0_i32_129 : BitVec 32 := 0#32
  ![v3.toNat, v176.toNat, 0]
@[reducible] def k0_t4_loop : Scf.Loop 32 :=
  let c0_i32_67 : BitVec 32 := 0#32
  let c2_i32_68 : BitVec 32 := 2#32
  let v95 : BitVec 32 := Scalar.addi c0_i32_67 c2_i32_68
  let c1_i32_69 : BitVec 32 := 1#32
  ⟨c0_i32_67, v95, c1_i32_69⟩
def k0_off22 (i : grid0.Coords) (k0_t4 : Fin k0_t4_loop.trips) (c0_i32_96 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_42 : BitVec 32 := 1#32
  let v74 : BitVec 32 := Scalar.addi v2 c1_i32_42
  let c2_i32_95 : BitVec 32 := 2#32
  let c0_i32_67 : BitVec 32 := 0#32
  let c1_i32_69 : BitVec 32 := 1#32
  let arg8 : BitVec 32 := Scf.iv c0_i32_67 c1_i32_69 k0_t4
  let v145 : BitVec 32 := Scalar.muli c2_i32_95 arg8
  let v146 : BitVec 32 := Scalar.addi v145 c0_i32_96
  let c320_i32_97 : BitVec 32 := 320#32
  let v147 : BitVec 32 := Scalar.muli v146 c320_i32_97
  let c0_i32_100 : BitVec 32 := 0#32
  ![v74.toNat, v147.toNat, 0]
@[reducible] def k0_t5_loop : Scf.Loop 32 :=
  let c0_i32_104 : BitVec 32 := 0#32
  let c80_i32 : BitVec 32 := 80#32
  let v154 : BitVec 32 := Scalar.addi c0_i32_104 c80_i32
  let c1_i32_105 : BitVec 32 := 1#32
  ⟨c0_i32_104, v154, c1_i32_105⟩
def k0_off23 (k0_t5 : Fin k0_t5_loop.trips) (c0_i32_127 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v177 : BitVec 32 := Scalar.addi v176 c0_i32_127
  let v178 : Index := Scalar.indexCast v177
  let c0_128 : Index := 0#32
  ![v178.toNat, 0]
def k0_off24 (k0_t5 : Fin k0_t5_loop.trips) (c0_i32_129 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v182 : BitVec 32 := Scalar.addi v176 c0_i32_129
  let v183 : Index := Scalar.indexCast v182
  let c16_130 : Index := 16#32
  ![v183.toNat, 16]
def k0_off25 (k0_t5 : Fin k0_t5_loop.trips) (c0_i32_131 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v187 : BitVec 32 := Scalar.addi v176 c0_i32_131
  let v188 : Index := Scalar.indexCast v187
  let c32_132 : Index := 32#32
  ![v188.toNat, 32]
def k0_off26 (k0_t5 : Fin k0_t5_loop.trips) (c0_i32_133 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v192 : BitVec 32 := Scalar.addi v176 c0_i32_133
  let v193 : Index := Scalar.indexCast v192
  let c48_134 : Index := 48#32
  ![v193.toNat, 48]
def k0_off27 (k0_t5 : Fin k0_t5_loop.trips) (c0_i32_135 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v197 : BitVec 32 := Scalar.addi v176 c0_i32_135
  let v198 : Index := Scalar.indexCast v197
  let c64_136 : Index := 64#32
  ![v198.toNat, 64]
def k0_off28 (k0_t5 : Fin k0_t5_loop.trips) (c0_i32_137 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v202 : BitVec 32 := Scalar.addi v176 c0_i32_137
  let v203 : Index := Scalar.indexCast v202
  let c80_138 : Index := 80#32
  ![v203.toNat, 80]
def k0_off29 (k0_t5 : Fin k0_t5_loop.trips) (c0_i32_139 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v207 : BitVec 32 := Scalar.addi v176 c0_i32_139
  let v208 : Index := Scalar.indexCast v207
  let c96_140 : Index := 96#32
  ![v208.toNat, 96]
def k0_off30 (k0_t5 : Fin k0_t5_loop.trips) (c0_i32_141 : BitVec 32) : Fin 2 → Nat :=
  let c0_i32_126 : BitVec 32 := 0#32
  let c0_i32_104 : BitVec 32 := 0#32
  let c1_i32_105 : BitVec 32 := 1#32
  let arg17 : BitVec 32 := Scf.iv c0_i32_104 c1_i32_105 k0_t5
  let c4_i32_125 : BitVec 32 := 4#32
  let v175 : BitVec 32 := Scalar.muli arg17 c4_i32_125
  let v176 : BitVec 32 := Scalar.addi c0_i32_126 v175
  let v212 : BitVec 32 := Scalar.addi v176 c0_i32_141
  let v213 : Index := Scalar.indexCast v212
  let c112_142 : Index := 112#32
  ![v213.toNat, 112]
def k0_cond3 (k0_t4 : Fin k0_t4_loop.trips) : BitVec 1 :=
  let c2_i32_95 : BitVec 32 := 2#32
  let c0_i32_67 : BitVec 32 := 0#32
  let c1_i32_69 : BitVec 32 := 1#32
  let arg8 : BitVec 32 := Scf.iv c0_i32_67 c1_i32_69 k0_t4
  let v145 : BitVec 32 := Scalar.muli c2_i32_95 arg8
  let c0_i32_96 : BitVec 32 := 0#32
  let v146 : BitVec 32 := Scalar.addi v145 c0_i32_96
  let c2_i32_107 : BitVec 32 := 2#32
  let v156 : BitVec 32 := Scalar.addi v146 c2_i32_107
  let c4_i32 : BitVec 32 := 4#32
  let v157 : BitVec 1 := Scalar.cmpi .slt v156 c4_i32
  let v158 : BitVec 32 := Scalar.extui v157
  let c0_i32_108 : BitVec 32 := 0#32
  let v159 : BitVec 1 := Scalar.cmpi .ne v158 c0_i32_108
  v159

def k0_off31 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_42 : BitVec 32 := 1#32
  let v74 : BitVec 32 := Scalar.addi v2 c1_i32_42
  let c2_i32_95 : BitVec 32 := 2#32
  let c0_i32_67 : BitVec 32 := 0#32
  let c1_i32_69 : BitVec 32 := 1#32
  let arg8 : BitVec 32 := Scf.iv c0_i32_67 c1_i32_69 k0_t4
  let v145 : BitVec 32 := Scalar.muli c2_i32_95 arg8
  let c0_i32_96 : BitVec 32 := 0#32
  let v146 : BitVec 32 := Scalar.addi v145 c0_i32_96
  let c2_i32_125 : BitVec 32 := 2#32
  let v175 : BitVec 32 := Scalar.addi v146 c2_i32_125
  let c320_i32_126 : BitVec 32 := 320#32
  let v176 : BitVec 32 := Scalar.muli v175 c320_i32_126
  let c0_i32_129 : BitVec 32 := 0#32
  ![v74.toNat, v176.toNat, 0]
@[reducible] def k0_t6_loop : Scf.Loop 32 :=
  let c0_i32_118 : BitVec 32 := 0#32
  let c80_i32_119 : BitVec 32 := 80#32
  let v169 : BitVec 32 := Scalar.addi c0_i32_118 c80_i32_119
  let c1_i32_120 : BitVec 32 := 1#32
  ⟨c0_i32_118, v169, c1_i32_120⟩
def k0_off32 (k0_t6 : Fin k0_t6_loop.trips) (c0_i32_127 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v177 : BitVec 32 := Scalar.addi v176 c0_i32_127
  let v178 : Index := Scalar.indexCast v177
  let c0_128 : Index := 0#32
  ![v178.toNat, 0]
def k0_off33 (k0_t6 : Fin k0_t6_loop.trips) (c0_i32_129 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v182 : BitVec 32 := Scalar.addi v176 c0_i32_129
  let v183 : Index := Scalar.indexCast v182
  let c16_130 : Index := 16#32
  ![v183.toNat, 16]
def k0_off34 (k0_t6 : Fin k0_t6_loop.trips) (c0_i32_131 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v187 : BitVec 32 := Scalar.addi v176 c0_i32_131
  let v188 : Index := Scalar.indexCast v187
  let c32_132 : Index := 32#32
  ![v188.toNat, 32]
def k0_off35 (k0_t6 : Fin k0_t6_loop.trips) (c0_i32_133 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v192 : BitVec 32 := Scalar.addi v176 c0_i32_133
  let v193 : Index := Scalar.indexCast v192
  let c48_134 : Index := 48#32
  ![v193.toNat, 48]
def k0_off36 (k0_t6 : Fin k0_t6_loop.trips) (c0_i32_135 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v197 : BitVec 32 := Scalar.addi v176 c0_i32_135
  let v198 : Index := Scalar.indexCast v197
  let c64_136 : Index := 64#32
  ![v198.toNat, 64]
def k0_off37 (k0_t6 : Fin k0_t6_loop.trips) (c0_i32_137 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v202 : BitVec 32 := Scalar.addi v176 c0_i32_137
  let v203 : Index := Scalar.indexCast v202
  let c80_138 : Index := 80#32
  ![v203.toNat, 80]
def k0_off38 (k0_t6 : Fin k0_t6_loop.trips) (c0_i32_139 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v207 : BitVec 32 := Scalar.addi v176 c0_i32_139
  let v208 : Index := Scalar.indexCast v207
  let c96_140 : Index := 96#32
  ![v208.toNat, 96]
def k0_off39 (k0_t6 : Fin k0_t6_loop.trips) (c0_i32_141 : BitVec 32) : Fin 2 → Nat :=
  let c320_i32_126 : BitVec 32 := 320#32
  let c0_i32_118 : BitVec 32 := 0#32
  let c1_i32_120 : BitVec 32 := 1#32
  let arg17 : BitVec 32 := Scf.iv c0_i32_118 c1_i32_120 k0_t6
  let c4_i32_125 : BitVec 32 := 4#32
  let v175 : BitVec 32 := Scalar.muli arg17 c4_i32_125
  let v176 : BitVec 32 := Scalar.addi c320_i32_126 v175
  let v212 : BitVec 32 := Scalar.addi v176 c0_i32_141
  let v213 : Index := Scalar.indexCast v212
  let c112_142 : Index := 112#32
  ![v213.toNat, 112]
def k0_cond4 (k0_t4 : Fin k0_t4_loop.trips) : BitVec 1 :=
  let c2_i32_109 : BitVec 32 := 2#32
  let c0_i32_67 : BitVec 32 := 0#32
  let c1_i32_69 : BitVec 32 := 1#32
  let arg8 : BitVec 32 := Scf.iv c0_i32_67 c1_i32_69 k0_t4
  let v160 : BitVec 32 := Scalar.muli c2_i32_109 arg8
  let c1_i32_110 : BitVec 32 := 1#32
  let v161 : BitVec 32 := Scalar.addi v160 c1_i32_110
  let c2_i32_122 : BitVec 32 := 2#32
  let v171 : BitVec 32 := Scalar.addi v161 c2_i32_122
  let c4_i32_123 : BitVec 32 := 4#32
  let v172 : BitVec 1 := Scalar.cmpi .slt v171 c4_i32_123
  let v173 : BitVec 32 := Scalar.extui v172
  let c0_i32_124 : BitVec 32 := 0#32
  let v174 : BitVec 1 := Scalar.cmpi .ne v173 c0_i32_124
  v174

def k0_off40 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_42 : BitVec 32 := 1#32
  let v74 : BitVec 32 := Scalar.addi v2 c1_i32_42
  let c2_i32_109 : BitVec 32 := 2#32
  let c0_i32_67 : BitVec 32 := 0#32
  let c1_i32_69 : BitVec 32 := 1#32
  let arg8 : BitVec 32 := Scf.iv c0_i32_67 c1_i32_69 k0_t4
  let v160 : BitVec 32 := Scalar.muli c2_i32_109 arg8
  let c1_i32_110 : BitVec 32 := 1#32
  let v161 : BitVec 32 := Scalar.addi v160 c1_i32_110
  let c2_i32_125 : BitVec 32 := 2#32
  let v175 : BitVec 32 := Scalar.addi v161 c2_i32_125
  let c320_i32_126 : BitVec 32 := 320#32
  let v176 : BitVec 32 := Scalar.muli v175 c320_i32_126
  let c0_i32_129 : BitVec 32 := 0#32
  ![v74.toNat, v176.toNat, 0]
def k0_off41 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_95_r0 : BitVec 32 := 0#32
  ![v2.toNat, 0]
abbrev grid1 : Pipeline.Grid := .none

@[reducible] def k1_t1_loop : Scf.Loop 32 :=
  let c0_i32_23 : BitVec 32 := 0#32
  let c16_i32 : BitVec 32 := 16#32
  let v24 : BitVec 32 := Scalar.addi c0_i32_23 c16_i32
  let c1_i32_24 : BitVec 32 := 1#32
  ⟨c0_i32_23, v24, c1_i32_24⟩
def k1_off1 (k1_t1 : Fin k1_t1_loop.trips) (c0_i32_26 : BitVec 32) : Fin 3 → Nat :=
  let c4_i32 : BitVec 32 := 4#32
  let c0_i32_23 : BitVec 32 := 0#32
  let c1_i32_24 : BitVec 32 := 1#32
  let arg4 : BitVec 32 := Scf.iv c0_i32_23 c1_i32_24 k1_t1
  let v25 : BitVec 32 := Scalar.muli c4_i32 arg4
  let v26 : BitVec 32 := Scalar.addi v25 c0_i32_26
  let c1280_i32_31 : BitVec 32 := 1280#32
  let c0_i32_32 : BitVec 32 := 0#32
  ![v26.toNat, 1280, 0]
def k1_off2 (k1_t1 : Fin k1_t1_loop.trips) (c0_i32_26 : BitVec 32) : Fin 2 → Nat :=
  let c4_i32 : BitVec 32 := 4#32
  let c0_i32_23 : BitVec 32 := 0#32
  let c1_i32_24 : BitVec 32 := 1#32
  let arg4 : BitVec 32 := Scf.iv c0_i32_23 c1_i32_24 k1_t1
  let v25 : BitVec 32 := Scalar.muli c4_i32 arg4
  let v26 : BitVec 32 := Scalar.addi v25 c0_i32_26
  let v39 : Index := Scalar.indexCast v26
  let c0_36 : Index := 0#32
  ![v39.toNat, 0]
def k1_cond1 (k1_t1 : Fin k1_t1_loop.trips) : BitVec 1 :=
  let c4_i32 : BitVec 32 := 4#32
  let c0_i32_23 : BitVec 32 := 0#32
  let c1_i32_24 : BitVec 32 := 1#32
  let arg4 : BitVec 32 := Scf.iv c0_i32_23 c1_i32_24 k1_t1
  let v25 : BitVec 32 := Scalar.muli c4_i32 arg4
  let c0_i32_26 : BitVec 32 := 0#32
  let v26 : BitVec 32 := Scalar.addi v25 c0_i32_26
  let c4_i32_37 : BitVec 32 := 4#32
  let v41 : BitVec 32 := Scalar.addi v26 c4_i32_37
  let c64_i32 : BitVec 32 := 64#32
  let v42 : BitVec 1 := Scalar.cmpi .slt v41 c64_i32
  let v43 : BitVec 32 := Scalar.extui v42
  let c0_i32_38 : BitVec 32 := 0#32
  let v44 : BitVec 1 := Scalar.cmpi .ne v43 c0_i32_38
  v44

def k1_off3 (k1_t1 : Fin k1_t1_loop.trips) : Fin 3 → Nat :=
  let c4_i32 : BitVec 32 := 4#32
  let c0_i32_23 : BitVec 32 := 0#32
  let c1_i32_24 : BitVec 32 := 1#32
  let arg4 : BitVec 32 := Scf.iv c0_i32_23 c1_i32_24 k1_t1
  let v25 : BitVec 32 := Scalar.muli c4_i32 arg4
  let c0_i32_26 : BitVec 32 := 0#32
  let v26 : BitVec 32 := Scalar.addi v25 c0_i32_26
  let c4_i32_87 : BitVec 32 := 4#32
  let v105 : BitVec 32 := Scalar.addi v26 c4_i32_87
  let c1280_i32_92 : BitVec 32 := 1280#32
  let c0_i32_93 : BitVec 32 := 0#32
  ![v105.toNat, 1280, 0]
def k1_cond2 (k1_t1 : Fin k1_t1_loop.trips) : BitVec 1 :=
  let c4_i32_39 : BitVec 32 := 4#32
  let c0_i32_23 : BitVec 32 := 0#32
  let c1_i32_24 : BitVec 32 := 1#32
  let arg4 : BitVec 32 := Scf.iv c0_i32_23 c1_i32_24 k1_t1
  let v45 : BitVec 32 := Scalar.muli c4_i32_39 arg4
  let c1_i32_40 : BitVec 32 := 1#32
  let v46 : BitVec 32 := Scalar.addi v45 c1_i32_40
  let c4_i32_52 : BitVec 32 := 4#32
  let v61 : BitVec 32 := Scalar.addi v46 c4_i32_52
  let c64_i32_53 : BitVec 32 := 64#32
  let v62 : BitVec 1 := Scalar.cmpi .slt v61 c64_i32_53
  let v63 : BitVec 32 := Scalar.extui v62
  let c0_i32_54 : BitVec 32 := 0#32
  let v64 : BitVec 1 := Scalar.cmpi .ne v63 c0_i32_54
  v64

def k1_off4 (k1_t1 : Fin k1_t1_loop.trips) : Fin 3 → Nat :=
  let c4_i32_39 : BitVec 32 := 4#32
  let c0_i32_23 : BitVec 32 := 0#32
  let c1_i32_24 : BitVec 32 := 1#32
  let arg4 : BitVec 32 := Scf.iv c0_i32_23 c1_i32_24 k1_t1
  let v45 : BitVec 32 := Scalar.muli c4_i32_39 arg4
  let c1_i32_40 : BitVec 32 := 1#32
  let v46 : BitVec 32 := Scalar.addi v45 c1_i32_40
  let c4_i32_87 : BitVec 32 := 4#32
  let v105 : BitVec 32 := Scalar.addi v46 c4_i32_87
  let c1280_i32_92 : BitVec 32 := 1280#32
  let c0_i32_93 : BitVec 32 := 0#32
  ![v105.toNat, 1280, 0]
def k1_cond3 (k1_t1 : Fin k1_t1_loop.trips) : BitVec 1 :=
  let c4_i32_55 : BitVec 32 := 4#32
  let c0_i32_23 : BitVec 32 := 0#32
  let c1_i32_24 : BitVec 32 := 1#32
  let arg4 : BitVec 32 := Scf.iv c0_i32_23 c1_i32_24 k1_t1
  let v65 : BitVec 32 := Scalar.muli c4_i32_55 arg4
  let c2_i32_56 : BitVec 32 := 2#32
  let v66 : BitVec 32 := Scalar.addi v65 c2_i32_56
  let c4_i32_68 : BitVec 32 := 4#32
  let v81 : BitVec 32 := Scalar.addi v66 c4_i32_68
  let c64_i32_69 : BitVec 32 := 64#32
  let v82 : BitVec 1 := Scalar.cmpi .slt v81 c64_i32_69
  let v83 : BitVec 32 := Scalar.extui v82
  let c0_i32_70 : BitVec 32 := 0#32
  let v84 : BitVec 1 := Scalar.cmpi .ne v83 c0_i32_70
  v84

def k1_off5 (k1_t1 : Fin k1_t1_loop.trips) : Fin 3 → Nat :=
  let c4_i32_55 : BitVec 32 := 4#32
  let c0_i32_23 : BitVec 32 := 0#32
  let c1_i32_24 : BitVec 32 := 1#32
  let arg4 : BitVec 32 := Scf.iv c0_i32_23 c1_i32_24 k1_t1
  let v65 : BitVec 32 := Scalar.muli c4_i32_55 arg4
  let c2_i32_56 : BitVec 32 := 2#32
  let v66 : BitVec 32 := Scalar.addi v65 c2_i32_56
  let c4_i32_87 : BitVec 32 := 4#32
  let v105 : BitVec 32 := Scalar.addi v66 c4_i32_87
  let c1280_i32_92 : BitVec 32 := 1280#32
  let c0_i32_93 : BitVec 32 := 0#32
  ![v105.toNat, 1280, 0]
def k1_cond4 (k1_t1 : Fin k1_t1_loop.trips) : BitVec 1 :=
  let c4_i32_71 : BitVec 32 := 4#32
  let c0_i32_23 : BitVec 32 := 0#32
  let c1_i32_24 : BitVec 32 := 1#32
  let arg4 : BitVec 32 := Scf.iv c0_i32_23 c1_i32_24 k1_t1
  let v85 : BitVec 32 := Scalar.muli c4_i32_71 arg4
  let c3_i32_72 : BitVec 32 := 3#32
  let v86 : BitVec 32 := Scalar.addi v85 c3_i32_72
  let c4_i32_84 : BitVec 32 := 4#32
  let v101 : BitVec 32 := Scalar.addi v86 c4_i32_84
  let c64_i32_85 : BitVec 32 := 64#32
  let v102 : BitVec 1 := Scalar.cmpi .slt v101 c64_i32_85
  let v103 : BitVec 32 := Scalar.extui v102
  let c0_i32_86 : BitVec 32 := 0#32
  let v104 : BitVec 1 := Scalar.cmpi .ne v103 c0_i32_86
  v104

def k1_off6 (k1_t1 : Fin k1_t1_loop.trips) : Fin 3 → Nat :=
  let c4_i32_71 : BitVec 32 := 4#32
  let c0_i32_23 : BitVec 32 := 0#32
  let c1_i32_24 : BitVec 32 := 1#32
  let arg4 : BitVec 32 := Scf.iv c0_i32_23 c1_i32_24 k1_t1
  let v85 : BitVec 32 := Scalar.muli c4_i32_71 arg4
  let c3_i32_72 : BitVec 32 := 3#32
  let v86 : BitVec 32 := Scalar.addi v85 c3_i32_72
  let c4_i32_87 : BitVec 32 := 4#32
  let v105 : BitVec 32 := Scalar.addi v86 c4_i32_87
  let c1280_i32_92 : BitVec 32 := 1280#32
  let c0_i32_93 : BitVec 32 := 0#32
  ![v105.toNat, 1280, 0]
abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x8x4096x128_S64x4096x128 : S8x8x4096x128.ShapeCasts S64x4096x128
  inb_S640x128_S320x128_0_0 : ∀ a, (![0, 0] : Fin 2 → Nat) a + S320x128.size a ≤ S640x128.size a
  squeezes_S1x320x128_S320x128 : S1x320x128.Squeezes S320x128
  inb_S640x128_S320x128_320_0 : ∀ a, (![320, 0] : Fin 2 → Nat) a + S320x128.size a ≤ S640x128.size a
  h_S1x16 : 0 < S1x16.numel
  shapeCasts_S1x16_S16 : S1x16.ShapeCasts S16
  inb_S2x128_S1x16_0_0 : ∀ a, (![0, 0] : Fin 2 → Nat) a + S1x16.size a ≤ S2x128.size a
  shapeCasts_S16_S1x16 : S16.ShapeCasts S1x16
  inb_S2x128_S1x16_0_16 : ∀ a, (![0, 16] : Fin 2 → Nat) a + S1x16.size a ≤ S2x128.size a
  inb_S2x128_S1x16_0_32 : ∀ a, (![0, 32] : Fin 2 → Nat) a + S1x16.size a ≤ S2x128.size a
  inb_S2x128_S1x16_0_48 : ∀ a, (![0, 48] : Fin 2 → Nat) a + S1x16.size a ≤ S2x128.size a
  inb_S2x128_S1x16_0_64 : ∀ a, (![0, 64] : Fin 2 → Nat) a + S1x16.size a ≤ S2x128.size a
  inb_S2x128_S1x16_0_80 : ∀ a, (![0, 80] : Fin 2 → Nat) a + S1x16.size a ≤ S2x128.size a
  inb_S2x128_S1x16_0_96 : ∀ a, (![0, 96] : Fin 2 → Nat) a + S1x16.size a ≤ S2x128.size a
  inb_S2x128_S1x16_0_112 : ∀ a, (![0, 112] : Fin 2 → Nat) a + S1x16.size a ≤ S2x128.size a
  inb_S2x128_S1x16_1_0 : ∀ a, (![1, 0] : Fin 2 → Nat) a + S1x16.size a ≤ S2x128.size a
  inb_S2x128_S1x16_1_16 : ∀ a, (![1, 16] : Fin 2 → Nat) a + S1x16.size a ≤ S2x128.size a
  inb_S2x128_S1x16_1_32 : ∀ a, (![1, 32] : Fin 2 → Nat) a + S1x16.size a ≤ S2x128.size a
  inb_S2x128_S1x16_1_48 : ∀ a, (![1, 48] : Fin 2 → Nat) a + S1x16.size a ≤ S2x128.size a
  inb_S2x128_S1x16_1_64 : ∀ a, (![1, 64] : Fin 2 → Nat) a + S1x16.size a ≤ S2x128.size a
  inb_S2x128_S1x16_1_80 : ∀ a, (![1, 80] : Fin 2 → Nat) a + S1x16.size a ≤ S2x128.size a
  inb_S2x128_S1x16_1_96 : ∀ a, (![1, 96] : Fin 2 → Nat) a + S1x16.size a ≤ S2x128.size a
  inb_S2x128_S1x16_1_112 : ∀ a, (![1, 112] : Fin 2 → Nat) a + S1x16.size a ≤ S2x128.size a
  inb_S4_S1_0 : ∀ a, (![0] : Fin 1 → Nat) a + S1.size a ≤ S4.size a
  squeezes_S1_S_ : S1.Squeezes S_
  inb_S4x2816x128_S1x2816x128_0_0_0 : ∀ a, (![0, 0, 0] : Fin 3 → Nat) a + S1x2816x128.size a ≤ S4x2816x128.size a
  squeezes_S1x2816x128_S2816x128 : S1x2816x128.Squeezes S2816x128
  inb_S64x4096x128_S1x2816x128_0_1280_0 : ∀ a, (![0, 1280, 0] : Fin 3 → Nat) a + S1x2816x128.size a ≤ S64x4096x128.size a
  inb_S4_S1_1 : ∀ a, (![1] : Fin 1 → Nat) a + S1.size a ≤ S4.size a
  inb_S4x2816x128_S1x2816x128_1_0_0 : ∀ a, (![1, 0, 0] : Fin 3 → Nat) a + S1x2816x128.size a ≤ S4x2816x128.size a
  inb_S64x4096x128_S1x2816x128_1_1280_0 : ∀ a, (![1, 1280, 0] : Fin 3 → Nat) a + S1x2816x128.size a ≤ S64x4096x128.size a
  inb_S4_S1_2 : ∀ a, (![2] : Fin 1 → Nat) a + S1.size a ≤ S4.size a
  inb_S4x2816x128_S1x2816x128_2_0_0 : ∀ a, (![2, 0, 0] : Fin 3 → Nat) a + S1x2816x128.size a ≤ S4x2816x128.size a
  inb_S64x4096x128_S1x2816x128_2_1280_0 : ∀ a, (![2, 1280, 0] : Fin 3 → Nat) a + S1x2816x128.size a ≤ S64x4096x128.size a
  inb_S4_S1_3 : ∀ a, (![3] : Fin 1 → Nat) a + S1.size a ≤ S4.size a
  inb_S4x2816x128_S1x2816x128_3_0_0 : ∀ a, (![3, 0, 0] : Fin 3 → Nat) a + S1x2816x128.size a ≤ S4x2816x128.size a
  inb_S64x4096x128_S1x2816x128_3_1280_0 : ∀ a, (![3, 1280, 0] : Fin 3 → Nat) a + S1x2816x128.size a ≤ S64x4096x128.size a
  h_S1x2816x128 : 0 < S1x2816x128.numel
  shapeCasts_S1x2816x128_S2816x128 : S1x2816x128.ShapeCasts S2816x128
  reduces_S2816x128_S128 : S2816x128.Reduces [0] S128
  shapeCasts_S128_S1x128 : S128.ShapeCasts S1x128
  h_S1x128 : 0 < S1x128.numel
  bcast_S_S64x128 : S_.BroadcastsInDim S64x128 (![] : Fin 0 → Fin S64x128.rank)
  shapeCasts_S64x128_S8x8x128 : S64x128.ShapeCasts S8x8x128
  hcc0_scratch2 : 0 + S_.numel ≤ 8
  hcc0_scratch3 : 1 + S_.numel ≤ 8
  hcc0_scoped0 : 2 + S_.numel ≤ 8
  hcc1_scratch1 : 4 + S4.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x320x128.size a ≤ S64x4096x128.size a
  k0_off2_inb : ∀ i : grid0.Coords, ∀ (r : Fin 2), ∀ a, (k0_off2 i (BitVec.ofNat 32 r.val)) a + S1x320x128.size a ≤ S64x4096x128.size a
  k0_t1_ok : k0_t1_loop.OK
  k0_off3_inb : ∀ (i : grid0.Coords) (k0_t1 : Fin k0_t1_loop.trips), ∀ (r : Fin 2), ∀ a, (k0_off3 i k0_t1 (BitVec.ofNat 32 r.val)) a + S1x320x128.size a ≤ S64x4096x128.size a
  k0_t2_ok : k0_t2_loop.OK
  k0_off4_inb : ∀ k0_t2 : Fin k0_t2_loop.trips, ∀ (r : Fin 4), ∀ a, (k0_off4 k0_t2 (BitVec.ofNat 32 r.val)) a + S1x16.size a ≤ S640x128.size a
  k0_off5_inb : ∀ k0_t2 : Fin k0_t2_loop.trips, ∀ (r : Fin 4), ∀ a, (k0_off5 k0_t2 (BitVec.ofNat 32 r.val)) a + S1x16.size a ≤ S640x128.size a
  k0_off6_inb : ∀ k0_t2 : Fin k0_t2_loop.trips, ∀ (r : Fin 4), ∀ a, (k0_off6 k0_t2 (BitVec.ofNat 32 r.val)) a + S1x16.size a ≤ S640x128.size a
  k0_off7_inb : ∀ k0_t2 : Fin k0_t2_loop.trips, ∀ (r : Fin 4), ∀ a, (k0_off7 k0_t2 (BitVec.ofNat 32 r.val)) a + S1x16.size a ≤ S640x128.size a
  k0_off8_inb : ∀ k0_t2 : Fin k0_t2_loop.trips, ∀ (r : Fin 4), ∀ a, (k0_off8 k0_t2 (BitVec.ofNat 32 r.val)) a + S1x16.size a ≤ S640x128.size a
  k0_off9_inb : ∀ k0_t2 : Fin k0_t2_loop.trips, ∀ (r : Fin 4), ∀ a, (k0_off9 k0_t2 (BitVec.ofNat 32 r.val)) a + S1x16.size a ≤ S640x128.size a
  k0_off10_inb : ∀ k0_t2 : Fin k0_t2_loop.trips, ∀ (r : Fin 4), ∀ a, (k0_off10 k0_t2 (BitVec.ofNat 32 r.val)) a + S1x16.size a ≤ S640x128.size a
  k0_off11_inb : ∀ k0_t2 : Fin k0_t2_loop.trips, ∀ (r : Fin 4), ∀ a, (k0_off11 k0_t2 (BitVec.ofNat 32 r.val)) a + S1x16.size a ≤ S640x128.size a
  k0_off12_inb : ∀ (i : grid0.Coords) (k0_t1 : Fin k0_t1_loop.trips), ∀ (k0_h1 : k0_cond1 k0_t1 = 1#1), ∀ a, (k0_off12 i k0_t1) a + S1x320x128.size a ≤ S64x4096x128.size a
  k0_t3_ok : k0_t3_loop.OK
  k0_off13_inb : ∀ k0_t3 : Fin k0_t3_loop.trips, ∀ (r : Fin 4), ∀ a, (k0_off13 k0_t3 (BitVec.ofNat 32 r.val)) a + S1x16.size a ≤ S640x128.size a
  k0_off14_inb : ∀ k0_t3 : Fin k0_t3_loop.trips, ∀ (r : Fin 4), ∀ a, (k0_off14 k0_t3 (BitVec.ofNat 32 r.val)) a + S1x16.size a ≤ S640x128.size a
  k0_off15_inb : ∀ k0_t3 : Fin k0_t3_loop.trips, ∀ (r : Fin 4), ∀ a, (k0_off15 k0_t3 (BitVec.ofNat 32 r.val)) a + S1x16.size a ≤ S640x128.size a
  k0_off16_inb : ∀ k0_t3 : Fin k0_t3_loop.trips, ∀ (r : Fin 4), ∀ a, (k0_off16 k0_t3 (BitVec.ofNat 32 r.val)) a + S1x16.size a ≤ S640x128.size a
  k0_off17_inb : ∀ k0_t3 : Fin k0_t3_loop.trips, ∀ (r : Fin 4), ∀ a, (k0_off17 k0_t3 (BitVec.ofNat 32 r.val)) a + S1x16.size a ≤ S640x128.size a
  k0_off18_inb : ∀ k0_t3 : Fin k0_t3_loop.trips, ∀ (r : Fin 4), ∀ a, (k0_off18 k0_t3 (BitVec.ofNat 32 r.val)) a + S1x16.size a ≤ S640x128.size a
  k0_off19_inb : ∀ k0_t3 : Fin k0_t3_loop.trips, ∀ (r : Fin 4), ∀ a, (k0_off19 k0_t3 (BitVec.ofNat 32 r.val)) a + S1x16.size a ≤ S640x128.size a
  k0_off20_inb : ∀ k0_t3 : Fin k0_t3_loop.trips, ∀ (r : Fin 4), ∀ a, (k0_off20 k0_t3 (BitVec.ofNat 32 r.val)) a + S1x16.size a ≤ S640x128.size a
  k0_off21_inb : ∀ (i : grid0.Coords) (k0_t1 : Fin k0_t1_loop.trips), ∀ (k0_h2 : k0_cond2 k0_t1 = 1#1), ∀ a, (k0_off21 i k0_t1) a + S1x320x128.size a ≤ S64x4096x128.size a
  k0_t4_ok : k0_t4_loop.OK
  k0_off22_inb : ∀ (i : grid0.Coords) (k0_t4 : Fin k0_t4_loop.trips), ∀ (r : Fin 2), ∀ a, (k0_off22 i k0_t4 (BitVec.ofNat 32 r.val)) a + S1x320x128.size a ≤ S64x4096x128.size a
  k0_t5_ok : k0_t5_loop.OK
  k0_off23_inb : ∀ k0_t5 : Fin k0_t5_loop.trips, ∀ (r : Fin 4), ∀ a, (k0_off23 k0_t5 (BitVec.ofNat 32 r.val)) a + S1x16.size a ≤ S640x128.size a
  k0_off24_inb : ∀ k0_t5 : Fin k0_t5_loop.trips, ∀ (r : Fin 4), ∀ a, (k0_off24 k0_t5 (BitVec.ofNat 32 r.val)) a + S1x16.size a ≤ S640x128.size a
  k0_off25_inb : ∀ k0_t5 : Fin k0_t5_loop.trips, ∀ (r : Fin 4), ∀ a, (k0_off25 k0_t5 (BitVec.ofNat 32 r.val)) a + S1x16.size a ≤ S640x128.size a
  k0_off26_inb : ∀ k0_t5 : Fin k0_t5_loop.trips, ∀ (r : Fin 4), ∀ a, (k0_off26 k0_t5 (BitVec.ofNat 32 r.val)) a + S1x16.size a ≤ S640x128.size a
  k0_off27_inb : ∀ k0_t5 : Fin k0_t5_loop.trips, ∀ (r : Fin 4), ∀ a, (k0_off27 k0_t5 (BitVec.ofNat 32 r.val)) a + S1x16.size a ≤ S640x128.size a
  k0_off28_inb : ∀ k0_t5 : Fin k0_t5_loop.trips, ∀ (r : Fin 4), ∀ a, (k0_off28 k0_t5 (BitVec.ofNat 32 r.val)) a + S1x16.size a ≤ S640x128.size a
  k0_off29_inb : ∀ k0_t5 : Fin k0_t5_loop.trips, ∀ (r : Fin 4), ∀ a, (k0_off29 k0_t5 (BitVec.ofNat 32 r.val)) a + S1x16.size a ≤ S640x128.size a
  k0_off30_inb : ∀ k0_t5 : Fin k0_t5_loop.trips, ∀ (r : Fin 4), ∀ a, (k0_off30 k0_t5 (BitVec.ofNat 32 r.val)) a + S1x16.size a ≤ S640x128.size a
  k0_off31_inb : ∀ (i : grid0.Coords) (k0_t4 : Fin k0_t4_loop.trips), ∀ (k0_h3 : k0_cond3 k0_t4 = 1#1), ∀ a, (k0_off31 i k0_t4) a + S1x320x128.size a ≤ S64x4096x128.size a
  k0_t6_ok : k0_t6_loop.OK
  k0_off32_inb : ∀ k0_t6 : Fin k0_t6_loop.trips, ∀ (r : Fin 4), ∀ a, (k0_off32 k0_t6 (BitVec.ofNat 32 r.val)) a + S1x16.size a ≤ S640x128.size a
  k0_off33_inb : ∀ k0_t6 : Fin k0_t6_loop.trips, ∀ (r : Fin 4), ∀ a, (k0_off33 k0_t6 (BitVec.ofNat 32 r.val)) a + S1x16.size a ≤ S640x128.size a
  k0_off34_inb : ∀ k0_t6 : Fin k0_t6_loop.trips, ∀ (r : Fin 4), ∀ a, (k0_off34 k0_t6 (BitVec.ofNat 32 r.val)) a + S1x16.size a ≤ S640x128.size a
  k0_off35_inb : ∀ k0_t6 : Fin k0_t6_loop.trips, ∀ (r : Fin 4), ∀ a, (k0_off35 k0_t6 (BitVec.ofNat 32 r.val)) a + S1x16.size a ≤ S640x128.size a
  k0_off36_inb : ∀ k0_t6 : Fin k0_t6_loop.trips, ∀ (r : Fin 4), ∀ a, (k0_off36 k0_t6 (BitVec.ofNat 32 r.val)) a + S1x16.size a ≤ S640x128.size a
  k0_off37_inb : ∀ k0_t6 : Fin k0_t6_loop.trips, ∀ (r : Fin 4), ∀ a, (k0_off37 k0_t6 (BitVec.ofNat 32 r.val)) a + S1x16.size a ≤ S640x128.size a
  k0_off38_inb : ∀ k0_t6 : Fin k0_t6_loop.trips, ∀ (r : Fin 4), ∀ a, (k0_off38 k0_t6 (BitVec.ofNat 32 r.val)) a + S1x16.size a ≤ S640x128.size a
  k0_off39_inb : ∀ k0_t6 : Fin k0_t6_loop.trips, ∀ (r : Fin 4), ∀ a, (k0_off39 k0_t6 (BitVec.ofNat 32 r.val)) a + S1x16.size a ≤ S640x128.size a
  k0_off40_inb : ∀ (i : grid0.Coords) (k0_t4 : Fin k0_t4_loop.trips), ∀ (k0_h4 : k0_cond4 k0_t4 = 1#1), ∀ a, (k0_off40 i k0_t4) a + S1x320x128.size a ≤ S64x4096x128.size a
  k0_off41_inb : ∀ i : grid0.Coords, ∀ a, (k0_off41 i) a + S2x128.size a ≤ S64x128.size a
  k1_t1_ok : k1_t1_loop.OK
  k1_off1_inb : ∀ k1_t1 : Fin k1_t1_loop.trips, ∀ (r : Fin 4), ∀ a, (k1_off1 k1_t1 (BitVec.ofNat 32 r.val)) a + S1x2816x128.size a ≤ S64x4096x128.size a
  k1_off2_inb : ∀ k1_t1 : Fin k1_t1_loop.trips, ∀ (r : Fin 4), ∀ a, (k1_off2 k1_t1 (BitVec.ofNat 32 r.val)) a + S1x128.size a ≤ S64x128.size a
  k1_off3_inb : ∀ k1_t1 : Fin k1_t1_loop.trips, ∀ (k1_h1 : k1_cond1 k1_t1 = 1#1), ∀ a, (k1_off3 k1_t1) a + S1x2816x128.size a ≤ S64x4096x128.size a
  k1_off4_inb : ∀ k1_t1 : Fin k1_t1_loop.trips, ∀ (k1_h2 : k1_cond2 k1_t1 = 1#1), ∀ a, (k1_off4 k1_t1) a + S1x2816x128.size a ≤ S64x4096x128.size a
  k1_off5_inb : ∀ k1_t1 : Fin k1_t1_loop.trips, ∀ (k1_h3 : k1_cond3 k1_t1 = 1#1), ∀ a, (k1_off5 k1_t1) a + S1x2816x128.size a ≤ S64x4096x128.size a
  k1_off6_inb : ∀ k1_t1 : Fin k1_t1_loop.trips, ∀ (k1_h4 : k1_cond4 k1_t1 = 1#1), ∀ a, (k1_off6 k1_t1) a + S1x2816x128.size a ≤ S64x4096x128.size a
  hstage1_0 : ∀ j, (stage1_0 j).IsWhole

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc1_scratch1 : DmaSems sig S4 := SemArray.consecutive 4 S4 hcc1_scratch1

abbrev win1_0 : Pipeline.Window sig grid1 :=
  Pipeline.Window.whole (Memref.whole main_v2) true false (stage1_0 0) (sem1_0 0) (Memref.isWhole_whole _) (hstage1_0 0)

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S8x8x4096x128 : Shape := ⟨4, ![8, 8, 4096, 128]⟩
abbrev S_ : Shape := ⟨0, ![]⟩
abbrev S8x8x1 : Shape := ⟨3, ![8, 8, 1]⟩
abbrev S8x8x128 : Shape := ⟨3, ![8, 8, 128]⟩

abbrev nBuf : Space → Nat
  | .hbm => 11
  | .vmem => 0
  | .smem => 0
  | _ => 0

abbrev bufTy : (tb : Table) → Fin (tcTables nBuf tb) → BufTy
  | .hbm, ⟨0, _⟩ => ⟨S8x8x4096x128, .f32⟩
  | .hbm, ⟨1, _⟩ => ⟨S_, .f32⟩
  | .hbm, ⟨2, _⟩ => ⟨S8x8x1, .f32⟩
  | .hbm, ⟨3, _⟩ => ⟨S_, .f32⟩
  | .hbm, ⟨4, _⟩ => ⟨S8x8x128, .f32⟩
  | .hbm, ⟨5, _⟩ => ⟨S8x8x128, .f32⟩
  | .hbm, ⟨6, _⟩ => ⟨S8x8x128, .f32⟩
  | .hbm, ⟨7, _⟩ => ⟨S8x8x128, .i1⟩
  | .hbm, ⟨8, _⟩ => ⟨S_, .f32⟩
  | .hbm, ⟨9, _⟩ => ⟨S8x8x128, .f32⟩
  | .hbm, ⟨10, _⟩ => ⟨S8x8x128, .f32⟩
  | _, _ => ⟨S8x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S8x8x1 : S_.BroadcastsInDim S8x8x1 (![] : Fin 0 → Fin S8x8x1.rank)
  reducesTo_S8x8x4096x128_S8x8x128_d2 : S8x8x4096x128.ReducesTo [2] S8x8x128
  h_S_ : 0 < S_.numel
  bcast_S8x8x1_S8x8x128_0_1_2 : S8x8x1.BroadcastsInDim S8x8x128 (![0, 1, 2] : Fin 3 → Fin S8x8x128.rank)
  bcast_S_S8x8x128 : S_.BroadcastsInDim S8x8x128 (![] : Fin 0 → Fin S8x8x128.rank)

variable [Facts₀]

class Facts : Prop extends Facts₀ where

variable [Facts]
-- ==== Proof.Spec.lean ====
/-
  The kernel's result as a function of its input, for any reading of the floats.

  The input is viewed as 64 segments of 4096 rows of 128 columns.  Column `c` of segment `s` is averaged in two parts:
  the first 1280 rows are added one after the other, in row order, to an accumulator that starts at zero
  (`accN`), and the total is multiplied by 1/128; the remaining 2816 rows are added by one reduction along the row
  axis, and that total is multiplied by 1/128 as well.  The two parts are added, a result that is not equal to
  itself is replaced by zero, and the 64 segments are laid out again as 8 × 8.
-/
import Idealize.ShloMosaic.PureOps
import Idealize.ShloMosaic.Lib.ValueIdx

noncomputable section

namespace Cert.Spec

open Idealize.ShloMosaic Idealize.ShloMosaic.ValueIdx

abbrev S8x8x4096x128 : Shape := ⟨4, ![8, 8, 4096, 128]⟩
abbrev S64x4096x128 : Shape := ⟨3, ![64, 4096, 128]⟩
abbrev S64x128 : Shape := ⟨2, ![64, 128]⟩
abbrev S2816x128 : Shape := ⟨2, ![2816, 128]⟩
abbrev S128 : Shape := ⟨1, ![128]⟩
abbrev S8x8x128 : Shape := ⟨3, ![8, 8, 128]⟩
abbrev S_ : Shape := ⟨0, ![]⟩

variable {F : FTy → Type} [FloatOps F]

/-- The accumulator after the first `n` terms of `x` have been added to it, one after the other, from zero. -/
def accN (x : Nat → F .f32) : Nat → F .f32
  | 0 => FloatOps.ofBits .f32 0x00000000#32
  | n + 1 => FloatOps.addf (accN x n) (x n)

/-- Row `l` of column `c` of segment `s` (zero past the last row: never read). -/
def rowAt (X : S64x4096x128.Idx → F .f32) (s : Fin 64) (c : Fin 128) (l : Nat) : F .f32 :=
  if h : l < 4096 then X (ix3 s ⟨l, h⟩ c) else FloatOps.ofBits .f32 0x00000000#32

/-- The part computed from the first 1280 rows: their total, accumulated in row order, times 1/128. -/
def scVal (X : S64x4096x128.Idx → F .f32) : S64x128.Idx → F .f32 :=
  fun j => FloatOps.mulf (accN (rowAt X (j 0) (j 1)) 1280) (FloatOps.ofBits .f32 0x3C000000#32)

/-- Rows 1280 … 4095 of segment `s`, as a 2816 × 128 array. -/
def tailRows (X : S64x4096x128.Idx → F .f32) (s : Fin 64) : S2816x128.Idx → F .f32 :=
  fun k => X (ix3 s ⟨1280 + (k 0).val, by have := (k 0).isLt; simp at this; omega⟩ (k 1))

/-- The part computed from the last 2816 rows: their total by one reduction along the rows, times 1/128. -/
def tcVal (hr : S2816x128.Reduces [0] S128) (X : S64x4096x128.Idx → F .f32) : S64x128.Idx → F .f32 :=
  fun j => FloatOps.mulf (multiReduction .add [0] S128 (tailRows X (j 0)) 0x00000000#32 hr (.inl rfl) rfl (ix1 (j 1)))
    (FloatOps.ofBits .f32 0x3C000000#32)

/-- The two parts added; a total that is not equal to itself replaced by zero. -/
def hostVal (hb : S_.BroadcastsInDim S64x128 (![] : Fin 0 → Fin S64x128.rank)) (a b : S64x128.Idx → F .f32) : S64x128.Idx → F .f32 :=
  select (cmpf .une (addf a b) (addf a b)) (broadcastInDim S64x128 ![] hb (constant S_ .f32 0x00000000#32)) (addf a b)

/-- The kernel's result array as a function of its argument array. -/
def kernelOut (h1 : S8x8x4096x128.ShapeCasts S64x4096x128) (h2 : S64x128.ShapeCasts S8x8x128)
    (hr : S2816x128.Reduces [0] S128) (hb : S_.BroadcastsInDim S64x128 (![] : Fin 0 → Fin S64x128.rank))
    (X0 : S8x8x4096x128.Idx → F .f32) : S8x8x128.Idx → F .f32 :=
  shapeCast S8x8x128 (hostVal hb (scVal (shapeCast S64x4096x128 X0 h1)) (tcVal hr (shapeCast S64x4096x128 X0 h1))) h2

end Cert.Spec

end
-- ==== Proof.LibScRegion.lean ====
/-
  GENERAL (no kernel's names): a pipelined TensorCore region inside a SparseCore program.

  A program with SparseCore kernels prints a TensorCore pallas_call of its @main as
  `Prog.lift (.customCall (SparseCore.inner (Pipeline.entry p)) ())`: the pipeline's entry label under the SparseCore
  layer of labels, run under the extended body table `K.defs (Pipeline.defs pcs defs₀)`. The region rule of the
  pipeline library speaks of the call `customCall (Pipeline.entry p) ()` under `Pipeline.defs pcs defs₀`. The two
  meet by lifting: a proof about a program in the pipelines' signature is a proof about the lifted program.
  So, from a region record `R` (its layout facts, body obligation, wait evidence and four entailments) at the
  index `none` of the SparseCore launch's index type and the launch's level table, the region's line of @main runs
  from `boundary ∗ R.pre c`, the level facts and the pipeline's staging cells' ghost state and duty tokens to
  `boundary ∗ R.post c` under any postcondition — inside the launch theorem's obligation for @main, whose other
  lines are host operations and the SparseCore calls.
-/
import Idealize.ShloMosaic.Lib.SparseCore.Launch
import Idealize.ShloMosaic.Lib.Pipeline.Regions

noncomputable section

namespace Cert.LibScRegion

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Labels} {P : Type} [Fintype P] [DecidableEq P] {Q : ℕ}
  {Name : Type} [DecidableEq Name] [Infinite Name] {U : Type} [URA U] [∀ e, Nonempty (Val e)]

local notation "𝕄" => MT nD τ sig (HIx Q) Val Name U ℕ

/-- The region's line of @main under the SparseCore layer, from the region's record. -/
theorem region_line (pcs : P → Pipeline.PCfg sig Λ₀ Val) (a : (p : P) → (pcs p).Adm)
    (K : SparseCore.Cfg τ sig (Pipeline.Sig Λ₀ P fun p => (pcs p).Adm) Q)
    (rdats : (p : P) → (c : Dev nD) → Pipeline.RDat τ Val (HIx Q) Name U ℕ (Pipeline.pin pcs a p) c)
    (phinj : Function.Injective (Pipeline.cellOf (nD := nD) (τ := τ) (Pipeline.pin pcs a)))
    (EP : Emb (URounds (GSem nD τ sig) Unit) (MT nD τ sig (HIx Q) Val Name U ℕ)) [EP.LandsIn (upEmb : UEmb _ 𝕄)]
    (defs₀ : Defs nD τ sig Val Λ₀) (𝒱₀ : Variants) (lv : GSem nD τ sig → HIx Q → ℕ)
    {p : P} (R : Pipeline.RDat.RegionSeg pcs a rdats (none : HIx Q) defs₀ 𝒱₀ K.L lv p) (c : Dev nD) (Φ : PUnit → sProp 𝕄) :
    iprop((iprop(boundary (SparseCore.T c) ∗ R.post c) -∗ Φ ⟨⟩)
        ∗ boundary (SparseCore.T c) ∗ R.pre c ∗ levAts K.L lv
        ∗ Pipeline.cellsGhost (Pipeline.pin pcs a) EP p c ∗ Pipeline.toksInit (Pipeline.pin pcs a) EP p c)
      ⊢ wp frame (wpE (K.defs (Pipeline.defs pcs defs₀)) 𝒱₀.lift (SparseCore.T c) none) Set.univ
          (Prog.lift (.customCall (SparseCore.inner (Pipeline.entry p)) ())) Φ := by
  have h1 := K.wp_liftProg (Pipeline.defs pcs defs₀) 𝒱₀.lift (SparseCore.T c) Set.univ none
    (Prog.op (TpuEff.customCall (Pipeline.entry p) ()) (fun _ => Prog.ret PUnit.unit)) Φ
  have h2 := Pipeline.RDat.RegionSeg.wp pcs a rdats (none : HIx Q) phinj EP defs₀ 𝒱₀ K.L lv R c none (fun u hu => nomatch hu)
    (fun _ => Prog.ret PUnit.unit) Φ
  have h0 : iprop((iprop(boundary (SparseCore.T c) ∗ R.post c) -∗ Φ ⟨⟩)
        ∗ boundary (SparseCore.T c) ∗ R.pre c ∗ levAts K.L lv
        ∗ Pipeline.cellsGhost (Pipeline.pin pcs a) EP p c ∗ Pipeline.toksInit (Pipeline.pin pcs a) EP p c)
      ⊢ iprop((iprop(boundary (SparseCore.T c) ∗ R.post c) -∗ wp frame (wpE (Pipeline.defs pcs defs₀) 𝒱₀.lift (SparseCore.T c) none) Set.univ (Prog.ret PUnit.unit) Φ)
        ∗ boundary (SparseCore.T c) ∗ R.pre c ∗ levAts K.L lv
        ∗ Pipeline.cellsGhost (Pipeline.pin pcs a) EP p c ∗ Pipeline.toksInit (Pipeline.pin pcs a) EP p c) := by
    iintro ⟨Hk, Hrest⟩
    isplitl [Hk]
    · iintro H
      rw [wp_ret]; imodintro
      iapply Hk; iexact H
    · iexact Hrest
  exact h0.trans (h2.trans h1)

end Cert.LibScRegion

end
-- ==== Proof.KI.LaunchA.lean ====
/-
  The launch of the kernel program: the resources the threads exchange.

  The device runs thirty-five threads: the TensorCore runs @main; each of the two SparseCores has a sequencer and
  sixteen vector subcores.  The segment array (the input viewed as 64 × 4096 × 128) is only read by the
  SparseCore kernel, so every vector subcore is lent a read share of the whole array; the SparseCore result (64 × 128)
  is written two rows per vector subcore — vector subcore `i` of SparseCore `c` is worker `2 i + c` and owns rows
  `2 (2 i + c)` and `2 (2 i + c) + 1` —, so each is handed exactly those two rows and returns them holding the
  specified partial means.  The shares and the rows are recombined on the TensorCore after the call.
-/
import proofs.«210774_g2740189135076_cont_9to1_1653_26_alg».proof.KernelIdeal
import proofs.«210774_g2740189135076_cont_9to1_1653_26_alg».proof.Proof.Gen.KernelIdeal
import proofs.«210774_g2740189135076_cont_9to1_1653_26_alg».proof.Proof.Gen.KernelIdeal.Launch
import proofs.«210774_g2740189135076_cont_9to1_1653_26_alg».proof.Proof.Spec
import proofs.«210774_g2740189135076_cont_9to1_1653_26_alg».proof.Proof.LibScRegion
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KI.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
abbrev ER : Emb (UK × Counters) (MT nD τ sig (HIx 1) (Elt F) ℕ UU ℕ) := embR
def EK : Emb UK (MT nD τ sig (HIx 1) (Elt F) ℕ UU ℕ) := (Emb.inl : Emb UK (UK × Counters)).trans ER

instance EK_landsIn : (EK : Emb UK 𝕄).LandsIn (upEmb : UEmb _ 𝕄) := by unfold EK ER embR; infer_instance

/-! ## The buffers -/

abbrev aLoc (d : Dev nD) : Loc nD τ sig := (SparseCore.T d).loc main_arg0
abbrev xLoc (d : Dev nD) : Loc nD τ sig := (SparseCore.T d).loc main_v0
abbrev sLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v7

/-- The two result rows of worker `w`. -/
def rowsOf (w : ℕ) : Finset S64x128.Idx := Finset.univ.filter fun j => (j 0).val / 2 = w

/-- The read share of the segment array lent to vector subcore `i` of SparseCore `c`. -/
def tok (c i : ℕ) : PosShare TreeShare := shareTokN (shareTokN fullShare c) i

variable [FloatOps F]

/-- The SparseCore part of the result, as contents of its buffer. -/
def scBuf (d : Dev nD) (X : Buf (Elt F) (xLoc d)) : Buf (Elt F) (sLoc d) := Cert.Spec.scVal (F := F) X

/-- What vector subcore `i` of SparseCore `c` is handed: its read share of the segment array at `X`, its two result rows. -/
def goN (d : Dev nD) (X : Buf (Elt F) (xLoc d)) (c i : ℕ) : sProp 𝕄 :=
  iprop((xLoc d ↦{tok c i} X) ∗ ∃ f : Buf (Elt F) (sLoc d), sLoc d ↦[rowsOf (i * 2 + c)]{fullShare} f)
/-- What it returns: the share, and its two rows at the specified values. -/
def tdN (d : Dev nD) (X : Buf (Elt F) (xLoc d)) (c i : ℕ) : sProp 𝕄 :=
  iprop((xLoc d ↦{tok c i} X) ∗ sLoc d ↦[rowsOf (i * 2 + c)]{fullShare} scBuf d X)

instance goN_storable (d : Dev nD) (X : Buf (Elt F) (xLoc d)) (c i : ℕ) : BI.Storable (upEmb : UEmb _ 𝕄) (goN d X c i) := by
  unfold goN; infer_instance
instance tdN_storable (d : Dev nD) (X : Buf (Elt F) (xLoc d)) (c i : ℕ) : BI.Storable (upEmb : UEmb _ 𝕄) (tdN d X c i) := by
  unfold tdN; infer_instance

variable (X : (d : Dev nD) → Buf (Elt F) (xLoc d))

/-- The call's payloads: a SparseCore is handed what its sixteen vector subcores are. -/
def P : (K (F := F)).Pay (nD := nD) (Val := Elt F) (Name := ℕ) (U := UU) where
  st := fun _ d c => bigSep Finset.univ fun i : Fin 16 => goN d (X d) c.val i.val
  dn := fun _ d c => bigSep Finset.univ fun i : Fin 16 => tdN d (X d) c.val i.val
  go := fun _ d c i => goN d (X d) c.val i.val
  td := fun _ d c i => tdN d (X d) c.val i.val
  x := fun _ _ => iprop(emp)

instance P_storable : (P X).IsStorable where
  st _ d c := by unfold P; infer_instance
  dn _ d c := by unfold P; infer_instance
  go _ _ _ _ := by unfold P; infer_instance
  td _ _ _ _ := by unfold P; infer_instance

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X) 0 := by
  intro d c
  show (bigSep Finset.univ fun i : Fin 16 => goN d (X d) c.val i.val) ⊢ |={Set.univ}=> iprop(
      (bigSep Finset.univ fun i : Fin ((K (F := F)).nSub 0) => goN d (X d) c.val i.val)
      ∗ ((bigSep Finset.univ fun i : Fin ((K (F := F)).nSub 0) => tdN d (X d) c.val i.val)
          -∗ bigSep Finset.univ fun i : Fin 16 => tdN d (X d) c.val i.val))
  rw [show (bigSep Finset.univ fun i : Fin ((K (F := F)).nSub 0) => goN d (X d) c.val i.val)
        = bigSep Finset.univ fun i : Fin 16 => goN d (X d) c.val i.val from bigSep_tasks (F := F) (fun i => goN d (X d) c.val i.val),
      show (bigSep Finset.univ fun i : Fin ((K (F := F)).nSub 0) => tdN d (X d) c.val i.val)
        = bigSep Finset.univ fun i : Fin 16 => tdN d (X d) c.val i.val from bigSep_tasks (F := F) (fun i => tdN d (X d) c.val i.val)]
  iintro H; imodintro
  isplitl [H]; · iexact H
  iintro H; iexact H

/-! ## The vector subcores' obligation, from the body's theorem at a symbolic tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scratch2 cc0_scratch3 cc0_scoped0) ⟨⟩ c s := rfl

/-- The worker number of the vector subcore at grid coordinates `L`. -/
def wid (L : grid0.Coords) : ℕ := (L 1).val * 2 + (L 0).val

/-- What the body's proof delivers at a symbolic tile: from a read share of the segment array and the tile's two
    result rows, the body runs and leaves the rows at the specified values. -/
def TileSpec : Prop :=
  ∀ (d : Dev nD) (L : grid0.Coords) (q : PosShare TreeShare) (X : Buf (Elt F) (xLoc d))
    (O : CellTallies nD τ sig (HIx 1)) (W : Waits sig (HIx 1)), (∀ g, O g none = 0) →
    iprop(levAts (K (F := F)).L (K (F := F)).lev ∗ (xLoc d ↦{q} X) ∗ (∃ f : Buf (Elt F) (sLoc d), sLoc d ↦[rowsOf (wid L)]{fullShare} f)
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scratch2 cc0_scratch3 cc0_scoped0)
          fun _ => (iprop((xLoc d ↦{q} X) ∗ (sLoc d ↦[rowsOf (wid L)]{fullShare} scBuf d X)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W') : sProp 𝕄)

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hT : TileSpec (F := F)) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((hT d (coordsV ⟨_, hc.1⟩ ⟨_, hc.2⟩) (tok c.val i.val) (X d) O W hO).trans (wp_mono frame _ _ fun _ => ?_))
  · show iprop(_ ∗ iprop(emp) ∗ goN d (X d) c.val i.val ∗ _) ⊢ _
    unfold goN
    iintro ⟨Hlv, -, ⟨Hx, Hs⟩, Hrest⟩
    isplitl [Hlv]; · iexact Hlv
    isplitl [Hx]; · iexact Hx
    isplitl [Hs]; · iexact Hs
    iexact Hrest
  · show _ ⊢ iprop(tdN d (X d) c.val i.val ∗ _)
    unfold tdN
    iintro ⟨Hx, Hs, Hb, Hss, %W', %hW', HO⟩
    isplitl [Hx Hs]
    · isplitl [Hx]; · iexact Hx
      iexact Hs
    isplitl [Hb]; · iexact Hb
    isplitl [Hss]; · iexact Hss
    iexists W'; isplitr
    · ipureintro; exact fun p hp => (hW' p hp).imp_right Or.inl
    · iexact HO

end Cert.KI.Launch

end
-- ==== Proof.KI.LaunchB.lean ====
/-
  The launch element of the ghost state, and how the TensorCore's two arrays are dealt to the thirty-two vector
  subcores and gathered again.

  The read shares: the full share of the segment array is halved twice to give each SparseCore a share, and each
  SparseCore's share sixteen times to give each vector subcore one; what remains after each round of halving stays
  with the TensorCore during the call and the whole is put together again afterwards.  The result rows: worker
  `w = 2 i + c` owns the rows whose number halves to `w`; these thirty-two pairs of rows are disjoint and cover the
  64 rows.
-/
import proofs.«210774_g2740189135076_cont_9to1_1653_26_alg».proof.Proof.KI.LaunchA

noncomputable section

namespace Cert.KI.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop shareTok pointsTo_toks)

variable {F : FTy → Type}

local notation "𝕄" => MT nD τ sig (HIx 1) (Elt F) ℕ UU ℕ

/-! ## The staging cells of the TensorCore call -/

abbrev aP : (p : Fin 1) → (pcfgs (F := F) p).Adm := fun q => (cfgs q).toPCfg_adm
abbrev cfgsP : Fin 1 → Pipeline.Cfg sig Λ₀ := Pipeline.pin (pcfgs (F := F)) aP

theorem phinj : Function.Injective (Pipeline.cellOf (nD := nD) (τ := τ) (cfgsP (F := F))) := Gen.cellOf_inj

/-- What @main's proof starts from beside the launch's deal: the staging cells' ghost state and duty tokens. -/
def G (d : Dev nD) : sProp 𝕄 :=
  iprop(Pipeline.cellsGhost (cfgsP (F := F)) EK 0 d ∗ Pipeline.toksInit (cfgsP (F := F)) EK 0 d)

def u₀ : UU := (initOf (K (F := F)).hsCells (K (F := F)).hsToks,
  (initOf (Pipeline.cells (cfgsP (F := F)) phinj) (Pipeline.launchToks (cfgsP (F := F)) phinj), 1))

theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} from rfl, bigSep_singleton]

theorem own_EK (b : UK) (c : Counters) :
    (BI.own ((ER (F := F)) (b, c)) : sProp 𝕄) ⊢ iprop(BI.own ((EK (F := F)) b) ∗ BI.own (((Emb.inr : Emb Counters (UK × Counters)).trans (ER (F := F))) c)) :=
  own_pair_emb (ER (F := F)) b c

variable [FloatOps F] (X : (d : Dev nD) → Buf (Elt F) (xLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X).x q thr) := by
  unfold u₀
  iintro Hu
  ihave H := (ownU_pair _ _) $$ Hu
  icases H with ⟨HH, HR⟩
  ihave H2 := (own_EK (F := F) _ _) $$ HR
  icases H2 with ⟨HK, HC⟩
  imod (Pipeline.fund_ghost (cfgsP (F := F)) (EK (F := F)) phinj) $$ HK with ⟨Hg, Ht⟩
  imodintro
  isplitl [HH]; · iexact HH
  isplitl [Hg Ht]
  · unfold G
    rw [bigSep_sep']
    isplitl [Hg]
    · iapply (Entails.of_eq (bigSep_congr fun c _ => bigSep_fin1 (F := F) (fun p => Pipeline.cellsGhost (cfgsP (F := F)) EK p c)))
      iexact Hg
    · iapply (Entails.of_eq (bigSep_congr fun c _ => bigSep_fin1 (F := F) (fun p => Pipeline.toksInit (cfgsP (F := F)) EK p c)))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The read shares of the segment array -/

section Shares

variable {ℓ : Loc nD τ sig} (f : Buf (Elt F) ℓ)

/-- What stays with the TensorCore during the call. -/
def shareRem : sProp 𝕄 :=
  iprop((ℓ ↦{shareDrop fullShare 2} f) ∗ bigSep Finset.univ fun c : Fin 2 => ℓ ↦{shareDrop (shareTokN fullShare c.val) 16} f)

omit [FloatOps F] in
theorem shares_split : (ℓ ↦{fullShare} f : sProp 𝕄)
    ⊢ iprop(shareRem f ∗ bigSep Finset.univ fun c : Fin 2 => bigSep Finset.univ fun i : Fin 16 => ℓ ↦{tok c.val i.val} f) := by
  unfold shareRem
  refine (pointsTo_toks (ℓ := ℓ) (S := Finset.univ) (f := f) fullShare 2).1.trans ?_
  refine (sep_mono .rfl (bigSep_mono (s := Finset.univ) (Ψ := fun c : Fin 2 => iprop((ℓ ↦{shareDrop (shareTokN fullShare c.val) 16} f)
      ∗ bigSep Finset.univ fun i : Fin 16 => ℓ ↦{tok c.val i.val} f))
    fun c _ => (pointsTo_toks (ℓ := ℓ) (S := Finset.univ) (f := f) (shareTokN fullShare c.val) 16).1)).trans ?_
  rw [bigSep_sep']
  iintro ⟨Hd, Hr, Ht⟩
  isplitl [Hd Hr]
  · isplitl [Hd]; · iexact Hd
    iexact Hr
  iexact Ht

omit [FloatOps F] in
theorem shares_join : iprop(shareRem f ∗ bigSep Finset.univ fun c : Fin 2 => bigSep Finset.univ fun i : Fin 16 => ℓ ↦{tok c.val i.val} f)
    ⊢ (ℓ ↦{fullShare} f : sProp 𝕄) := by
  unfold shareRem
  refine BIBase.Entails.trans ?_ (pointsTo_toks (ℓ := ℓ) (S := Finset.univ) (f := f) fullShare 2).2
  refine BIBase.Entails.trans ?_ (sep_mono .rfl (bigSep_mono (s := Finset.univ) (Φ := fun c : Fin 2 => iprop((ℓ ↦{shareDrop (shareTokN fullShare c.val) 16} f)
      ∗ bigSep Finset.univ fun i : Fin 16 => ℓ ↦{tok c.val i.val} f))
    fun c _ => (pointsTo_toks (ℓ := ℓ) (S := Finset.univ) (f := f) (shareTokN fullShare c.val) 16).2))
  rw [bigSep_sep']
  iintro ⟨⟨Hd, Hr⟩, Ht⟩
  isplitl [Hd]; · iexact Hd
  isplitl [Hr]; · iexact Hr
  iexact Ht

end Shares

/-! ## The result rows -/

omit [FloatOps F] in
theorem rows_disjoint : ∀ p ∈ (Finset.univ : Finset (Fin 2 × Fin 16)), ∀ p' ∈ (Finset.univ : Finset (Fin 2 × Fin 16)), p ≠ p' →
    Disjoint (rowsOf (p.2.val * 2 + p.1.val)) (rowsOf (p'.2.val * 2 + p'.1.val)) := by
  intro p _ p' _ hne
  rw [Finset.disjoint_left]
  intro j hj hj'
  simp only [rowsOf, Finset.mem_filter, Finset.mem_univ, true_and] at hj hj'
  apply hne
  have h1 := p.1.isLt; have h2 := p'.1.isLt
  have : p.2.val * 2 + p.1.val = p'.2.val * 2 + p'.1.val := hj.symm.trans hj'
  exact Prod.ext (Fin.ext (by omega)) (Fin.ext (by omega))

omit [FloatOps F] in
theorem rows_cover : (Finset.univ : Finset (Fin 2 × Fin 16)).biUnion (fun p => rowsOf (p.2.val * 2 + p.1.val)) = Finset.univ := by
  ext j
  simp only [Finset.mem_biUnion, Finset.mem_univ, true_and, iff_true, rowsOf, Finset.mem_filter]
  have hj : (j 0).val < 64 := (j 0).isLt
  exact ⟨(⟨(j 0).val / 2 % 2, by omega⟩, ⟨(j 0).val / 2 / 2, by omega⟩), by show _ = (j 0).val / 2 / 2 * 2 + (j 0).val / 2 % 2; omega⟩

omit [FloatOps F] in
theorem rows_split (d : Dev nD) (f : Buf (Elt F) (sLoc d)) :
    (sLoc d ↦{fullShare} f : sProp 𝕄)
      = bigSep Finset.univ fun c : Fin 2 => bigSep Finset.univ fun i : Fin 16 => sLoc d ↦[rowsOf (i.val * 2 + c.val)]{fullShare} f := by
  rw [← bigSep_univ_prod (fun p : Fin 2 × Fin 16 => (sLoc d ↦[rowsOf (p.2.val * 2 + p.1.val)]{fullShare} f : sProp 𝕄)),
    ← pointsTo_biUnion Finset.univ (ℓ := sLoc d) (fun p : Fin 2 × Fin 16 => rowsOf (p.2.val * 2 + p.1.val)) rows_disjoint, rows_cover]

end Cert.KI.Launch

end
-- ==== Proof.KI.LaunchC.lean ====
/-
  @main on the TensorCore.

  @main reshapes the input into 64 segments, calls the SparseCore kernel (lending every vector subcore a read share of
  the segment array and its two result rows, and gathering them again), runs the TensorCore kernel's region (which
  reads the segment array and fills its own 64 × 128 result), adds the two results, replaces every total that is not
  equal to itself by zero and reshapes.  The arrays are held as one family over all the TensorCore's unscoped
  buffers; the two kernels' operands are taken out of the family and put back at their new contents.
-/
import proofs.«210774_g2740189135076_cont_9to1_1653_26_alg».proof.Proof.KI.LaunchB

noncomputable section

namespace Cert.KI.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_congr)
open Idealize.ShloMosaic.Tactic

variable {F : FTy → Type}

local notation "𝕄" => MT nD τ sig (HIx 1) (Elt F) ℕ UU ℕ

/-! ## The TensorCore's arrays as one family -/

abbrev a' : DevRef τ sig := Proc.devRef .tc (main_arg0 : Ref sig .tc)
abbrev x' : DevRef τ sig := Proc.devRef .tc (main_v0 : Ref sig .tc)
abbrev s' : DevRef τ sig := Proc.devRef .tc (main_v1 : Ref sig .tc)
abbrev t' : DevRef τ sig := Proc.devRef .tc (main_v2 : Ref sig .tc)
abbrev o' : DevRef τ sig := Proc.devRef .tc (main_v7 : Ref sig .tc)

/-- All the TensorCore's unscoped buffers. -/
def SU : Finset (DevRef τ sig) :=
  (Finset.univ.filter fun b : Ref sig .tc => ¬ b.isScoped).map ⟨Proc.devRef .tc, Proc.devRef_injective _⟩

variable (m : (ℓ : Loc nD τ sig) → Buf (Elt F) ℓ) (ρ : Dev nD → PrngReg)

abbrev V0 (d : Dev nD) : Valuation τ sig (Elt F) := fun b => m (d, b)

theorem unscoped_held (d : Dev nD) : (unscopedBufs d (fun b => m ((SparseCore.T d).loc b)) : sProp 𝕄) = held (T d) SU (V0 m d) := by
  unfold unscopedBufs held SU
  rw [bigSep_map]
  rfl

theorem held_take (c : Thread nD τ) (S : Finset (DevRef τ sig)) (W : Valuation τ sig (Elt F)) {b : DevRef τ sig} (hb : b ∈ S) :
    (held c S W : sProp 𝕄) = iprop((((c.1, b) : Loc nD τ sig) ↦{fullShare} W b) ∗ held c (S.erase b) W) :=
  SparseCore.bigSep_erase' hb

theorem held_put (c : Thread nD τ) (S : Finset (DevRef τ sig)) (W : Valuation τ sig (Elt F)) {b : DevRef τ sig} (hb : b ∈ S)
    (f : Buf (Elt F) ((c.1, b) : Loc nD τ sig)) :
    (iprop((((c.1, b) : Loc nD τ sig) ↦{fullShare} f) ∗ held c (S.erase b) W) : sProp 𝕄) = held c S (Function.update W b f) := by
  rw [held_take c S (Function.update W b f) hb, Function.update_self,
    held_congr c (S := S.erase b) (V := Function.update W b f) (V' := W) fun b' hb' => Function.update_of_ne (Finset.ne_of_mem_erase hb') _ _]

variable [FloatOps F]

/-! ## The host operations -/

abbrev opR0 : HloOp τ sig (Elt F) := StableHlo.reshape main_arg0 main_v0 rfl shapeCasts_S8x8x4096x128_S64x4096x128
abbrev opAdd : HloOp τ sig (Elt F) := StableHlo.binary main_v1 main_v2 main_v3 (addf : (⟨S64x128, .f32⟩ : BufTy).Contents (Elt F) → (⟨S64x128, .f32⟩ : BufTy).Contents (Elt F) → (⟨S64x128, .f32⟩ : BufTy).Contents (Elt F))
abbrev opCmp : HloOp τ sig (Elt F) := StableHlo.binary main_v3 main_v3 main_v4 (cmpf .une : (⟨S64x128, .f32⟩ : BufTy).Contents (Elt F) → (⟨S64x128, .f32⟩ : BufTy).Contents (Elt F) → (⟨S64x128, .i1⟩ : BufTy).Contents (Elt F))
abbrev opCst : HloOp τ sig (Elt F) := StableHlo.nullary main_cst (constant S_ .f32 0x00000000#32)
abbrev opBc : HloOp τ sig (Elt F) := StableHlo.unary main_cst main_v5 (broadcastInDim S64x128 ![] bcast_S_S64x128 : (⟨S_, .f32⟩ : BufTy).Contents (Elt F) → (⟨S64x128, .f32⟩ : BufTy).Contents (Elt F))
abbrev opSel : HloOp τ sig (Elt F) := StableHlo.TRef.ternary (.of main_v4) (.of main_v5) (.of main_v3) main_call0.v0 select
abbrev opR1 : HloOp τ sig (Elt F) := StableHlo.reshape main_v6 main_v7 rfl shapeCasts_S64x128_S8x8x128

theorem hR0 : (opR0 (F := F)).bufs ⊆ SU := show ({a', x'} : Finset (DevRef τ sig)) ⊆ SU by decide
theorem hAdd : (opAdd (F := F)).bufs ⊆ SU := show ({s', t', Proc.devRef .tc (main_v3 : Ref sig .tc)} : Finset (DevRef τ sig)) ⊆ SU by decide
theorem hCmp : (opCmp (F := F)).bufs ⊆ SU :=
  show ({Proc.devRef .tc (main_v3 : Ref sig .tc), Proc.devRef .tc (main_v3 : Ref sig .tc), Proc.devRef .tc (main_v4 : Ref sig .tc)} : Finset (DevRef τ sig)) ⊆ SU by decide
theorem hCst : (opCst (F := F)).bufs ⊆ SU := show ({Proc.devRef .tc (main_cst : Ref sig .tc)} : Finset (DevRef τ sig)) ⊆ SU by decide
theorem hBc : (opBc (F := F)).bufs ⊆ SU :=
  show ({Proc.devRef .tc (main_cst : Ref sig .tc), Proc.devRef .tc (main_v5 : Ref sig .tc)} : Finset (DevRef τ sig)) ⊆ SU by decide
theorem hSel : (opSel (F := F)).bufs ⊆ SU :=
  show ({Proc.devRef .tc (main_v4 : Ref sig .tc), Proc.devRef .tc (main_v5 : Ref sig .tc), Proc.devRef .tc (main_v3 : Ref sig .tc),
    Proc.devRef .tc (main_v6 : Ref sig .tc)} : Finset (DevRef τ sig)) ⊆ SU by decide
theorem hR1 : (opR1 (F := F)).bufs ⊆ SU := show ({Proc.devRef .tc (main_v6 : Ref sig .tc), o'} : Finset (DevRef τ sig)) ⊆ SU by decide

/-! ## The contents along @main -/

section Run

variable (d : Dev nD)

abbrev V1 : Valuation τ sig (Elt F) := (opR0 (F := F)).result (V0 m d)
/-- The segment array: the input laid out as 64 segments. -/
abbrev Xof : Buf (Elt F) (xLoc d) := V1 m d x'
/-- The TensorCore part of the result, as contents of its buffer. -/
def tcBuf (X : Buf (Elt F) (xLoc d)) : Buf (Elt F) (tLoc d) := Cert.Spec.tcVal (F := F) reduces_S2816x128_S128 X
/-- After the two kernels: the SparseCore result and the TensorCore result at their specified values. -/
abbrev V3 : Valuation τ sig (Elt F) :=
  Function.update (Function.update (Function.update (V1 m d) t' (tcBuf d (Xof m d))) s' (scBuf d (Xof m d))) x' (Xof m d)
abbrev V4 : Valuation τ sig (Elt F) := (opAdd (F := F)).result (V3 m d)
abbrev V5 : Valuation τ sig (Elt F) := (opCmp (F := F)).result (V4 m d)
abbrev V6 : Valuation τ sig (Elt F) := (opCst (F := F)).result (V5 m d)
abbrev V7 : Valuation τ sig (Elt F) := (opBc (F := F)).result (V6 m d)
abbrev V8 : Valuation τ sig (Elt F) := (opSel (F := F)).result (V7 m d)
abbrev V9 : Valuation τ sig (Elt F) := (opR1 (F := F)).result (V8 m d)

end Run

/-! ## What the TensorCore kernel's region delivers -/

/-- The region's record for any contents `X` of the segment array, any contents `Y` of the TensorCore result's buffer
    at entry and any recorded waits `W₀` of the TensorCore: entered from the two arrays and the TensorCore owing
    nothing, it leaves the result at the specified values and the recorded waits grown only by waits at no call. -/
def RegionSpec : Prop :=
  ∀ (X : (c : Dev nD) → Buf (Elt F) (xLoc c)) (Y : (c : Dev nD) → Buf (Elt F) (tLoc c)) (W₀ : Dev nD → Waits sig (HIx 1)),
    ∃ (rdats : (p : Fin 1) → (c : Dev nD) → Pipeline.RDat τ (Elt F) (HIx 1) ℕ UU ℕ (cfgsP (F := F) p) c)
      (R : Pipeline.RDat.RegionSeg (pcfgs (F := F)) aP rdats (none : HIx 1) defs₀ 𝒱₀ (K (F := F)).L (K (F := F)).lev 0),
      (∀ c, (iprop((xLoc c ↦{fullShare} X c) ∗ (tLoc c ↦{fullShare} Y c) ∗ owes (T c) 0 (W₀ c)) : sProp 𝕄) ⊢ R.pre c)
      ∧ (∀ c, R.post c ⊢ (iprop((xLoc c ↦{fullShare} X c) ∗ (tLoc c ↦{fullShare} tcBuf c (X c))
          ∗ ∃ W', ⌜∀ p ∈ W', p ∈ W₀ c ∨ p.2 = none⌝ ∗ owes (T c) 0 W') : sProp 𝕄))

/-! ## The call's operands, dealt and gathered -/

omit [FloatOps F] in
theorem go_intro (d : Dev nD) (X : Buf (Elt F) (xLoc d)) (f : Buf (Elt F) (sLoc d)) (c i : ℕ) :
    (iprop((xLoc d ↦{tok c i} X) ∗ sLoc d ↦[rowsOf (i * 2 + c)]{fullShare} f) : sProp 𝕄) ⊢ goN d X c i := by
  unfold goN
  iintro ⟨Hx, Hs⟩
  isplitl [Hx]; · iexact Hx
  iexists f; iexact Hs

theorem st_intro (d : Dev nD) (f : Buf (Elt F) (sLoc d)) :
    (iprop((bigSep Finset.univ fun c : Fin 2 => bigSep Finset.univ fun i : Fin 16 => xLoc d ↦{tok c.val i.val} Xof m d)
        ∗ (bigSep Finset.univ fun c : Fin 2 => bigSep Finset.univ fun i : Fin 16 => sLoc d ↦[rowsOf (i.val * 2 + c.val)]{fullShare} f)) : sProp 𝕄)
      ⊢ bigSep Finset.univ fun c : Fin ((K (F := F)).nCore 0) => (P (Xof m)).st 0 d c := by
  show _ ⊢ bigSep Finset.univ fun c : Fin 2 => bigSep Finset.univ fun i : Fin 16 => goN d (Xof m d) c.val i.val
  rw [← bigSep_sep']
  refine bigSep_mono fun c _ => ?_
  rw [← bigSep_sep']
  exact bigSep_mono fun i _ => go_intro d (Xof m d) f c.val i.val

theorem td_elim (d : Dev nD) (X : Buf (Elt F) (xLoc d)) (c i : ℕ) :
    tdN d X c i ⊢ (iprop((xLoc d ↦{tok c i} X) ∗ sLoc d ↦[rowsOf (i * 2 + c)]{fullShare} scBuf d X) : sProp 𝕄) :=
  Entails.of_eq rfl

theorem dn_elim (d : Dev nD) :
    (bigSep Finset.univ fun c : Fin ((K (F := F)).nCore 0) => (P (Xof m)).dn 0 d c)
      ⊢ (iprop((bigSep Finset.univ fun c : Fin 2 => bigSep Finset.univ fun i : Fin 16 => xLoc d ↦{tok c.val i.val} Xof m d)
        ∗ (bigSep Finset.univ fun c : Fin 2 => bigSep Finset.univ fun i : Fin 16 => sLoc d ↦[rowsOf (i.val * 2 + c.val)]{fullShare} scBuf d (Xof m d))) : sProp 𝕄) := by
  show (bigSep Finset.univ fun c : Fin 2 => bigSep Finset.univ fun i : Fin 16 => tdN d (Xof m d) c.val i.val) ⊢ _
  rw [← bigSep_sep']
  refine bigSep_mono fun c _ => ?_
  rw [← bigSep_sep']
  exact bigSep_mono fun i _ => td_elim d (Xof m d) c.val i.val

/-! ## The TensorCore's handshake state around the region -/

theorem Otc_one (d : Dev nD) : (K (F := F)).Otc d 1 = 0 := by
  unfold SparseCore.Cfg.Otc
  exact Finset.sum_eq_zero fun q _ => if_neg (by have := q.isLt; omega)

/-- The TensorCore's handshake state after the one call, opened: what it owes (nothing) with its recorded waits, and the rest. -/
theorem tcSt_one (d : Dev nD) :
    ((K (F := F)).tcSt EH d 1 : sProp 𝕄) = iprop((∃ W, ⌜(K (F := F)).WBelow (T d) W (8 * 1)⌝ ∗ owes (T d) (0 : CellTallies nD τ sig (HIx 1)) W)
      ∗ atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q : Fin 1 => bigSep Finset.univ fun c : Fin ((K (F := F)).nCore q) =>
          iprop(dutyTok EH ((K (F := F)).startCell d ((K (F := F)).core q c)) ((K (F := F)).sRank ((K (F := F)).core q c) q.val) 0
            ∗ cred (tallyAt ((K (F := F)).doneCell d) (some q) 1))) := by
  unfold SparseCore.Cfg.tcSt
  rw [Otc_one]

/-- What @main leaves the claim: the input unchanged, the result at the last valuation. -/
def FIN (d : Dev nD) : sProp 𝕄 := iprop((aLoc d ↦{fullShare} V9 m d a') ∗ (oLoc d ↦{fullShare} V9 m d o'))

set_option maxHeartbeats 1600000 in
theorem hmain [∀ e, Nonempty (Elt F e)] (hReg : RegionSpec (F := F)) (κ : GSem nD τ sig → ℕ) (d : Dev nD) :
    iprop((K (F := F)).ctx EH (P (Xof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_where.body, wp_bind, wp_pure]
  iintro ⟨#Hctx, Hst, ⟨Hb, Hheld, -, -⟩, HG⟩
  -- the reshape into segments
  iapply (wp_hlo_within 𝒱 (SparseCore.T d) none Set.univ (op := opR0) (S := SU) hR0 (V := V0 m d)) $$ [Hb Hheld]
  · isplitl [Hb]; · iexact Hb
    iexact Hheld
  iintro ⟨Hb, Hheld⟩
  rw [wp_ret]; imodintro
  -- the segment array and the SparseCore result's buffer, out of the family
  ihave H1 := (Entails.of_eq (held_take (F := F) (T d) SU (V1 m d) (b := x') (by decide))) $$ Hheld
  icases H1 with ⟨Hx, Hheld⟩
  ihave H2 := (Entails.of_eq (held_take (F := F) (T d) (SU.erase x') (V1 m d) (b := s') (by decide))) $$ Hheld
  icases H2 with ⟨Hs, Hheld⟩
  ihave H3 := (shares_split (F := F) (ℓ := xLoc d) (Xof m d)) $$ Hx
  icases H3 with ⟨Hrem, Htoks⟩
  ihave H4 := (Entails.of_eq (rows_split (F := F) d (V1 m d s'))) $$ Hs
  ihave Hstp := (st_intro m d (V1 m d s')) $$ [Htoks H4]
  · isplitl [Htoks]; · iexact Htoks
    iexact H4
  -- the SparseCore call
  iapply ((K (F := F)).wp_run (D (F := F)) 𝒱 (EH := EH) (P := P (Xof m)) κ d 0) $$ [Hst Hstp Hb Hheld Hrem HG]
  isplitr; · iexact Hctx
  isplitl [Hst]; · iexact Hst
  isplitl [Hstp]; · iexact Hstp
  iintro ⟨Hst, Hdn⟩
  ihave H5 := (dn_elim m d) $$ Hdn
  icases H5 with ⟨Htoks, Hrows⟩
  ihave Hx := (shares_join (F := F) (ℓ := xLoc d) (Xof m d)) $$ [Hrem Htoks]
  · isplitl [Hrem]; · iexact Hrem
    iexact Htoks
  ihave Hs := (Entails.of_eq (rows_split (F := F) d (scBuf d (Xof m d))).symm) $$ Hrows
  -- the TensorCore kernel's region
  ihave H6 := (Entails.of_eq (held_take (F := F) (T d) ((SU.erase x').erase s') (V1 m d) (b := t') (by decide))) $$ Hheld
  icases H6 with ⟨Ht, Hheld⟩
  ihave H7 := (Entails.of_eq (show ((K (F := F)).tcSt EH d ((0 : Fin 1).val + 1) : sProp 𝕄) = _ from tcSt_one (F := F) d)) $$ Hst
  icases H7 with ⟨⟨%W, %hW, HO⟩, Hst⟩
  obtain ⟨rdats, R, hpre, hpost⟩ := hReg (Xof m) (fun c => V1 m c t') (fun _ => W)
  ihave Hlv := ((K (F := F)).ctx_levAts (EH := EH) (P := P (Xof m)) κ) $$ Hctx
  ihave Hpre := (hpre d) $$ [Hx Ht HO]
  · isplitl [Hx]; · iexact Hx
    isplitl [Ht]; · iexact Ht
    iexact HO
  ihave HG' := (Entails.of_eq (show G (F := F) d = iprop(Pipeline.cellsGhost (cfgsP (F := F)) EK 0 d ∗ Pipeline.toksInit (cfgsP (F := F)) EK 0 d) from rfl)) $$ HG
  icases HG' with ⟨Hcg, Hti⟩
  iapply (Cert.LibScRegion.region_line (pcfgs (F := F)) aP (K (F := F)) rdats phinj (EK (F := F)) defs₀ 𝒱₀ (K (F := F)).lev R d _) $$ [Hb Hpre Hlv Hcg Hti Hs Hheld Hst]
  isplitr [Hb Hpre Hlv Hcg Hti]
  swap
  · isplitl [Hb]; · iexact Hb
    isplitl [Hpre]; · iexact Hpre
    isplitl [Hlv]; · iexact Hlv
    isplitl [Hcg]; · iexact Hcg
    iexact Hti
  iintro ⟨Hb, Hpost⟩
  ihave H8 := (hpost d) $$ Hpost
  icases H8 with ⟨Hx, Ht, %W', %hW', HO⟩
  -- the three arrays back into the family
  ihave Hh1 := (Entails.of_eq (held_put (F := F) (T d) ((SU.erase x').erase s') (V1 m d) (b := t') (by decide) (tcBuf d (Xof m d)))) $$ [Ht Hheld]
  · isplitl [Ht]; · iexact Ht
    iexact Hheld
  ihave Hh2 := (Entails.of_eq (held_put (F := F) (T d) (SU.erase x') (Function.update (V1 m d) t' (tcBuf d (Xof m d))) (b := s') (by decide) (scBuf d (Xof m d)))) $$ [Hs Hh1]
  · isplitl [Hs]; · iexact Hs
    iexact Hh1
  ihave Hheld := (Entails.of_eq (held_put (F := F) (T d) SU (Function.update (Function.update (V1 m d) t' (tcBuf d (Xof m d))) s' (scBuf d (Xof m d))) (b := x') (by decide) (Xof m d))) $$ [Hx Hh2]
  · isplitl [Hx]; · iexact Hx
    iexact Hh2
  -- the host operations after the kernels
  iapply (wp_hlo_within 𝒱 (SparseCore.T d) none Set.univ (op := opAdd) (S := SU) hAdd (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opCmp) (S := SU) hCmp (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opCst) (S := SU) hCst (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := opBc) (S := SU) hBc (V := V6 m d)) $$ [Hb Hheld]
  · isplitl [Hb]; · iexact Hb
    iexact Hheld
  iintro ⟨Hb, Hheld⟩
  rw [wp_ret]; imodintro
  iapply (wp_hlo_within 𝒱 (SparseCore.T d) none Set.univ (op := opSel) (S := SU) hSel (V := V7 m d)) $$ [Hb Hheld]
  · isplitl [Hb]; · iexact Hb
    iexact Hheld
  iintro ⟨Hb, Hheld⟩
  rw [wp_ret]; imodintro
  imodintro
  iapply (wp_hlo_within 𝒱 (SparseCore.T d) none Set.univ (op := opR1) (S := SU) hR1 (V := V8 m d)) $$ [Hb Hheld]
  · isplitl [Hb]; · iexact Hb
    iexact Hheld
  iintro ⟨Hb, Hheld⟩
  rw [wp_ret]; imodintro; imodintro
  isplitl [Hst HO]
  · iapply (Entails.of_eq (tcSt_one (F := F) d).symm)
    isplitl [HO]
    · iexists W'; isplitr
      · ipureintro
        exact fun p hp => (hW' p hp).elim (hW p) (fun h => by rw [h, SparseCore.Cfg.lev_none]; exact Nat.zero_le _)
      · iexact HO
    iexact Hst
  ihave H9 := (Entails.of_eq (held_take (F := F) (T d) SU (V9 m d) (b := a') (by decide))) $$ Hheld
  icases H9 with ⟨Ha, Hheld⟩
  ihave H10 := (Entails.of_eq (held_take (F := F) (T d) (SU.erase a') (V9 m d) (b := o') (by decide))) $$ Hheld
  icases H10 with ⟨Ho, -⟩
  unfold FIN
  isplitl [Ha]; · iexact Ha
  iexact Ho

end Cert.KI.Launch

end
-- ==== Proof.KI.LaunchD.lean ====
/-
  The kernel program's run.

  Along @main no operation writes the input, so at the end its buffer holds what it held at the launch; and the
  result buffer holds the last reshape of the selection between zero and the sum of the two kernels' results, which
  is, operation by operation, the specified result of the launch contents of the input.  The launch theorem then
  gives the run of all thirty-five threads from the vector subcores' obligation and @main's proof, and what @main
  leaves — the two buffers at those contents — is read off the final memory.
-/
import proofs.«210774_g2740189135076_cont_9to1_1653_26_alg».proof.Proof.KI.LaunchC
import proofs.«210774_g2740189135076_cont_9to1_1653_26_alg».proof.Proof.Gen.KernelIdeal

noncomputable section

namespace Cert.KI.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The last valuation at the two buffers of the claim -/

section Vals

variable (d : Dev nD)

/-- No operation of @main writes the input: its buffer holds at the end what it held at the launch. -/
theorem V9_arg : V9 m d a' = m (aLoc d) :=
  ((opR1 (F := F)).result_of_not_mem (V8 m d) (b := a') (show a' ∉ ({o'} : Finset (DevRef τ sig)) by decide)).trans <|
  ((opSel (F := F)).result_of_not_mem (V7 m d) (b := a') (show a' ∉ ({Proc.devRef .tc (main_v6 : Ref sig .tc)} : Finset (DevRef τ sig)) by decide)).trans <|
  ((opBc (F := F)).result_of_not_mem (V6 m d) (b := a') (show a' ∉ ({Proc.devRef .tc (main_v5 : Ref sig .tc)} : Finset (DevRef τ sig)) by decide)).trans <|
  ((opCst (F := F)).result_of_not_mem (V5 m d) (b := a') (show a' ∉ ({Proc.devRef .tc (main_cst : Ref sig .tc)} : Finset (DevRef τ sig)) by decide)).trans <|
  ((opCmp (F := F)).result_of_not_mem (V4 m d) (b := a') (show a' ∉ ({Proc.devRef .tc (main_v4 : Ref sig .tc)} : Finset (DevRef τ sig)) by decide)).trans <|
  ((opAdd (F := F)).result_of_not_mem (V3 m d) (b := a') (show a' ∉ ({Proc.devRef .tc (main_v3 : Ref sig .tc)} : Finset (DevRef τ sig)) by decide)).trans <|
  (Function.update_of_ne (show a' ≠ x' by decide) _ _).trans <|
  (Function.update_of_ne (show a' ≠ s' by decide) _ _).trans <|
  (Function.update_of_ne (show a' ≠ t' by decide) _ _).trans <|
  ((opR0 (F := F)).result_of_not_mem (V0 m d) (b := a') (show a' ∉ ({x'} : Finset (DevRef τ sig)) by decide))

/-- The result buffer holds at the end the specified result of the input's launch contents: the segment array is
    the input reshaped, the two kernels left their specified parts, and the host operations after them are the
    specification's own. -/
theorem V9_out : V9 m d o' = Cert.Spec.kernelOut (F := F) shapeCasts_S8x8x4096x128_S64x4096x128 shapeCasts_S64x128_S8x8x128
    reduces_S2816x128_S128 bcast_S_S64x128 (m (aLoc d)) := by
  have hx : Xof m d = shapeCast S64x4096x128 (m (aLoc d)) shapeCasts_S8x8x4096x128_S64x4096x128 :=
    StableHlo.reshape_result main_arg0 main_v0 rfl shapeCasts_S8x8x4096x128_S64x4096x128 ⟨by decide, rfl⟩ ⟨by decide, rfl⟩ (V0 m d)
  have hs : V3 m d s' = scBuf d (Xof m d) :=
    (Function.update_of_ne (show s' ≠ x' by decide) _ _).trans (Function.update_self _ _ _)
  have ht : V3 m d t' = tcBuf d (Xof m d) :=
    (Function.update_of_ne (show t' ≠ x' by decide) _ _).trans
      ((Function.update_of_ne (show t' ≠ s' by decide) _ _).trans (Function.update_self _ _ _))
  have h4 : V4 m d (Proc.devRef .tc (main_v3 : Ref sig .tc)) = _ :=
    StableHlo.binary_result main_v1 main_v2 main_v3 _ ⟨by decide, rfl⟩ ⟨by decide, rfl⟩ ⟨by decide, rfl⟩ (V3 m d)
  have h5 : V5 m d (Proc.devRef .tc (main_v4 : Ref sig .tc)) = _ :=
    StableHlo.binary_result main_v3 main_v3 main_v4 _ ⟨by decide, rfl⟩ ⟨by decide, rfl⟩ ⟨by decide, rfl⟩ (V4 m d)
  have h5' : V5 m d (Proc.devRef .tc (main_v3 : Ref sig .tc)) = V4 m d (Proc.devRef .tc (main_v3 : Ref sig .tc)) :=
    StableHlo.binary_result_ne main_v3 main_v3 main_v4 _ ⟨by decide, rfl⟩ ⟨by decide, rfl⟩ ⟨by decide, rfl⟩ (V4 m d) (by decide)
  have h6 : V6 m d (Proc.devRef .tc (main_cst : Ref sig .tc)) = _ :=
    StableHlo.nullary_result main_cst _ ⟨by decide, rfl⟩ (V5 m d)
  have h6' : V6 m d (Proc.devRef .tc (main_v4 : Ref sig .tc)) = V5 m d (Proc.devRef .tc (main_v4 : Ref sig .tc)) :=
    StableHlo.nullary_result_ne main_cst _ ⟨by decide, rfl⟩ (V5 m d) (by decide)
  have h6'' : V6 m d (Proc.devRef .tc (main_v3 : Ref sig .tc)) = V5 m d (Proc.devRef .tc (main_v3 : Ref sig .tc)) :=
    StableHlo.nullary_result_ne main_cst _ ⟨by decide, rfl⟩ (V5 m d) (by decide)
  have h7 : V7 m d (Proc.devRef .tc (main_v5 : Ref sig .tc)) = _ :=
    StableHlo.unary_result main_cst main_v5 _ ⟨by decide, rfl⟩ ⟨by decide, rfl⟩ (V6 m d)
  have h7' : V7 m d (Proc.devRef .tc (main_v4 : Ref sig .tc)) = V6 m d (Proc.devRef .tc (main_v4 : Ref sig .tc)) :=
    StableHlo.unary_result_ne main_cst main_v5 _ ⟨by decide, rfl⟩ ⟨by decide, rfl⟩ (V6 m d) (by decide)
  have h7'' : V7 m d (Proc.devRef .tc (main_v3 : Ref sig .tc)) = V6 m d (Proc.devRef .tc (main_v3 : Ref sig .tc)) :=
    StableHlo.unary_result_ne main_cst main_v5 _ ⟨by decide, rfl⟩ ⟨by decide, rfl⟩ (V6 m d) (by decide)
  have h8 : V8 m d (Proc.devRef .tc (main_v6 : Ref sig .tc)) = _ :=
    StableHlo.ternary_result main_v4 main_v5 main_v3 main_v6 _ ⟨by decide, rfl⟩ ⟨by decide, rfl⟩ ⟨by decide, rfl⟩ ⟨by decide, rfl⟩ (V7 m d)
  have h9 : V9 m d o' = _ :=
    StableHlo.reshape_result main_v6 main_v7 rfl shapeCasts_S64x128_S8x8x128 ⟨by decide, rfl⟩ ⟨by decide, rfl⟩ (V8 m d)
  rw [h9, h8, h7, h7', h7'', h6, h6', h6'', h5, h5', h4, hs, ht, hx]
  rfl

end Vals

/-! ## The run of all the threads -/

/-- What the final memory is asked on device `d`: the result buffer at the specified result of the input's launch
    contents, the input's buffer at its launch contents. -/
def fq (d : Dev nD) (s' : Phys nD τ sig (Elt F)) : Prop :=
  s'.mem.mem (oLoc d) = Cert.Spec.kernelOut (F := F) shapeCasts_S8x8x4096x128_S64x4096x128 shapeCasts_S64x128_S8x8x128
      reduces_S2816x128_S128 bcast_S_S64x128 (m (aLoc d))
    ∧ s'.mem.mem (aLoc d) = m (aLoc d)

/-- What @main leaves pins both buffers in the final memory. -/
theorem hfin (d : Dev nD) (s' : Phys nD τ sig (Elt F)) : iprop(FIN m d ∗ SI s') ⊢ (⌜fq m d s'⌝ : sProp 𝕄) := by
  unfold FIN
  iintro ⟨⟨Ha, Ho⟩, HSI⟩
  icombine HSI Ha gives %ha
  icombine HSI Ho gives %ho
  ipureintro
  exact ⟨(funext fun i => ho i (Finset.mem_univ i)).trans (V9_out m d),
    (funext fun i => ha i (Finset.mem_univ i)).trans (V9_arg m d)⟩

/-- The run's post: on every device the result is the specified one and the input is unchanged. -/
def QC : PUnit × MemSt nD τ sig (Elt F) → Prop := fun r => ∀ c : Dev nD,
  r.2.mem (oLoc c) = Cert.Spec.kernelOut (F := F) shapeCasts_S8x8x4096x128_S64x4096x128 shapeCasts_S64x128_S8x8x128
      reduces_S2816x128_S128 bcast_S_S64x128 (m (aLoc c))
    ∧ r.2.mem (aLoc c) = m (aLoc c)

/-- From the vector subcores' body at a symbolic tile and the TensorCore kernel's region: every weakly fair execution
    of the thirty-five threads terminates with the result at its specified value and the input unchanged. -/
theorem run_main [∀ e, Nonempty (Elt F e)] (hT : TileSpec (F := F)) (hReg : RegionSpec (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Xof m)) facts v₀
    (fun q hq => match q with | 0 => nomatch hq)
    (fun q _ => match q with | 0 => tileObl (Xof m) hT)
    (fun q _ => match q with | 0 => SparseCore.Cfg.VecSplit.of_plain (vecSplit (Xof m)))
    m ρ main (G (F := F)) (FIN m) (u₀ (F := F)) (sep_elim_left.trans (hu₀ (Xof m))) (hmain m ρ hReg) (fq m) (hfin m) (QC m)
    (fun _ h => h)

end Cert.KI.Launch

end
-- ==== Proof.BridgeSum.lean ====
/-
  The arithmetic between the two arrangements of one column's average, on the extended reals.

  A column of 4096 real entries is averaged by the kernel in two parts: the first 1280 entries are accumulated one
  after the other from zero and the total is multiplied by 2⁻⁷; the other 2816 entries are added by one sum and that
  total is multiplied by 2⁻⁷ too; the two products are added.  The reference adds all 4096 entries to zero and divides
  by 128.  When every entry is a real number both are the real number (Σ entries) / 128: the coercion of the reals into
  the extended reals commutes with finite sums and with products, the range 0 … 4095 splits at 1280, and
  a · 2⁻⁷ + b · 2⁻⁷ = (a + b) / 128 in ℝ.  The three float words that occur (0, 2⁻⁷ and 128) are evaluated here, once.
-/
import Idealize.ShloMosaic.PureOps.Ideal
import Idealize.ShloMosaic.PureOps.Ideal.Laws
import proofs.«210774_g2740189135076_cont_9to1_1653_26_alg».proof.Proof.Spec

noncomputable section

namespace Cert.Bridge

open Idealize.ShloMosaic
open scoped BigOperators

/-- The word `0x3C000000` denotes 2⁻⁷ = 1/128. -/
theorem ofBits_inv128 : Ideal.ofBits .f32 0x3C000000#32 = ((1 / 128 : ℝ) : EReal) := by
  simp [Ideal.ofBits, Ideal.ieee, -EReal.coe_mul]; norm_num

/-- The word `0x43000000` denotes 128. -/
theorem ofBits_128 : Ideal.ofBits .f32 0x43000000#32 = ((128 : ℝ) : EReal) := by
  simp [Ideal.ofBits, Ideal.ieee, -EReal.coe_mul]; norm_num

/-- The word `0x7F800000` denotes +∞. -/
theorem ofBits_inf : Ideal.ofBits .f32 0x7F800000#32 = ⊤ := by
  simp [Ideal.ofBits, Ideal.ieee]

/-- The last stage of both programs on one entry: zero where the entry is not equal to itself, else the entry. -/
def selfOrZero (t : EReal) : EReal := Scalar.select (Ideal.cmp .une t t) (Ideal.ofBits .f32 0x00000000#32) t

/-- The coercion of the reals into the extended reals commutes with a finite sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Accumulating the first `n` real entries one after the other from zero gives their sum. -/
theorem accN_coe (x : Nat → Ideal .f32) (r : Nat → ℝ) (hx : ∀ l, x l = (r l : EReal)) (n : Nat) :
    Cert.Spec.accN (F := Ideal) x n = ((∑ k ∈ Finset.range n, r k : ℝ) : EReal) := by
  induction n with
  | zero => simp [Cert.Spec.accN]
  | succ n ih =>
    rw [Cert.Spec.accN, ih, Finset.sum_range_succ, EReal.coe_add, hx]
    rfl

/-- The two-part average of a column of real entries is the sum of all its entries divided by 128. -/
theorem avg_split (x : Nat → Ideal .f32) (r : Nat → ℝ) (hx : ∀ l, x l = (r l : EReal)) :
    Cert.Spec.accN (F := Ideal) x 1280 * Ideal.ofBits .f32 0x3C000000#32
        + (∑ k : Fin 2816, x (1280 + k.val)) * Ideal.ofBits .f32 0x3C000000#32
      = Ideal.div (Ideal.ofBits .f32 0x00000000#32 + ∑ l : Fin 4096, x l.val) (Ideal.ofBits .f32 0x43000000#32) := by
  have e1 : (∑ k : Fin 2816, x (1280 + k.val)) = ((∑ k ∈ Finset.range 2816, r (1280 + k) : ℝ) : EReal) := by
    rw [Fin.sum_univ_eq_sum_range (fun k => x (1280 + k)) 2816, ← coe_sum]
    exact Finset.sum_congr rfl fun k _ => hx _
  have e2 : (∑ l : Fin 4096, x l.val) = ((∑ l ∈ Finset.range 4096, r l : ℝ) : EReal) := by
    rw [Fin.sum_univ_eq_sum_range (fun l => x l) 4096, ← coe_sum]
    exact Finset.sum_congr rfl fun k _ => hx _
  rw [accN_coe x r hx, e1, e2, ofBits_inv128, ofBits_128, Ideal.ofBits_zero_f32, zero_add,
    Ideal.div_coe (by norm_num : (128 : ℝ) ≠ 0), ← EReal.coe_mul, ← EReal.coe_mul, ← EReal.coe_mul, ← EReal.coe_add,
    show (4096 : ℕ) = 1280 + 2816 from rfl, Finset.sum_range_add]
  congr 1
  ring

end Cert.Bridge

end
-- ==== Proof.BridgeKernel.lean ====
/-
  The kernel's specified result read at one index.

  Entry (a, b, c) of the 8 × 8 × 128 result is entry (8a + b, c) of the 64 × 128 array before the last reshape, and
  entry (8a + b, l, c) of the 64 × 4096 × 128 view of the argument is its entry (a, b, l, c): both reshapes keep the
  row-major position.  At that entry the two parts are the accumulated total of rows 0 … 1279 of the column times 2⁻⁷
  and the sum over k < 2816 of row 1280 + k of the column times 2⁻⁷ (a reduction along one axis is the sum over that
  axis's coordinates), and the last stage selects between zero and their sum by comparing the sum with itself.
-/
import proofs.«210774_g2740189135076_cont_9to1_1653_26_alg».proof.Proof.Spec
import proofs.«210774_g2740189135076_cont_9to1_1653_26_alg».proof.Proof.BridgeSum
import Idealize.ShloMosaic.PureOps.Ideal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx Cert.Spec
open scoped BigOperators

/-- The segment that holds rows (a, b, ·, ·) of the argument: 8a + b. -/
def seg (a b : Fin 8) : Fin 64 := ⟨8 * a.val + b.val, by omega⟩

/-- The 64 × 4096 × 128 view of the argument at (8a + b, l, c) is the argument at (a, b, l, c). -/
theorem flat_apply {α : Type} (h1 : S8x8x4096x128.ShapeCasts S64x4096x128) (X0 : S8x8x4096x128.Idx → α)
    (a b : Fin 8) (l : Fin 4096) (c : Fin 128) :
    shapeCast S64x4096x128 X0 h1 (ix3 (seg a b) l c) = X0 (ix4 a b l c) := by
  refine shapeCast_apply X0 h1 _ _ ?_
  rw [Shape.rowMajor_val_four, Shape.rowMajor_val_three]
  show ((a.val * 8 + b.val) * 4096 + l.val) * 128 + c.val = ((8 * a.val + b.val) * 4096 + l.val) * 128 + c.val
  omega

/-- The 8 × 8 × 128 view of a 64 × 128 array at (a, b, c) is the array at (8a + b, c). -/
theorem unflat_apply {α : Type} (h2 : S64x128.ShapeCasts S8x8x128) (Y : S64x128.Idx → α) (a b : Fin 8) (c : Fin 128) :
    shapeCast S8x8x128 Y h2 (ix3 a b c) = Y (ix2 (seg a b) c) := by
  refine shapeCast_apply Y h2 _ _ ?_
  rw [Shape.rowMajor_val_two, Shape.rowMajor_val_three]
  show (8 * a.val + b.val) * 128 + c.val = (a.val * 8 + b.val) * 128 + c.val
  omega

/-- The part from the first 1280 rows at (s, c): the accumulated total of the column's rows times 2⁻⁷. -/
theorem sc_apply (X : S64x4096x128.Idx → Ideal .f32) (s : Fin 64) (c : Fin 128) :
    scVal (F := Ideal) X (ix2 s c) = accN (F := Ideal) (rowAt (F := Ideal) X s c) 1280 * Ideal.ofBits .f32 0x3C000000#32 := rfl

/-- The part from the last 2816 rows at (s, c): the sum over k < 2816 of row 1280 + k of the column, times 2⁻⁷. -/
theorem tc_apply (hr : S2816x128.Reduces [0] S128) (X : S64x4096x128.Idx → Ideal .f32) (s : Fin 64) (c : Fin 128) :
    tcVal (F := Ideal) hr X (ix2 s c)
      = (∑ k : Fin 2816, rowAt (F := Ideal) X s c (1280 + k.val)) * Ideal.ofBits .f32 0x3C000000#32 := by
  show multiReduction (F := Ideal) .add [0] S128 (tailRows (F := Ideal) X s) 0x00000000#32 hr (.inl rfl) rfl (ix1 c)
      * Ideal.ofBits .f32 0x3C000000#32 = _
  refine congrArg (· * Ideal.ofBits .f32 0x3C000000#32) ?_
  refine (Ideal.multiReduction_add_single (tailRows (F := Ideal) X s) 0x00000000#32 hr (.inl rfl) rfl (ix1 c)).trans ?_
  refine Finset.sum_congr rfl fun k _ => ?_
  have hk : 1280 + k.val < 4096 := by have : k.val < 2816 := k.isLt; omega
  show X (ix3 s ⟨1280 + (hr.lift (ix1 c) k 0).val, _⟩ (hr.lift (ix1 c) k 1)) = rowAt (F := Ideal) X s c (1280 + k.val)
  unfold rowAt
  rw [dif_pos hk]
  refine congrArg X (funext fun d => ?_)
  match d with
  | ⟨0, _⟩ => rfl
  | ⟨1, _⟩ => exact Fin.ext rfl
  | ⟨2, _⟩ => exact Fin.ext rfl

/-- The last stage at an index: zero where the sum of the two parts is not equal to itself, else the sum. -/
theorem hostVal_apply (hb : S_.BroadcastsInDim S64x128 (![] : Fin 0 → Fin S64x128.rank)) (u v : S64x128.Idx → Ideal .f32)
    (j : S64x128.Idx) :
    hostVal (F := Ideal) hb u v j = selfOrZero (u j + v j) := rfl

/-- The kernel's specified result at (a, b, c), over the rows of column c of segment 8a + b of the flattened argument. -/
theorem kernelOut_apply (h1 : S8x8x4096x128.ShapeCasts S64x4096x128) (h2 : S64x128.ShapeCasts S8x8x128)
    (hr : S2816x128.Reduces [0] S128) (hb : S_.BroadcastsInDim S64x128 (![] : Fin 0 → Fin S64x128.rank))
    (X0 : S8x8x4096x128.Idx → Ideal .f32) (a b : Fin 8) (c : Fin 128) :
    kernelOut (F := Ideal) h1 h2 hr hb X0 (ix3 a b c)
      = selfOrZero
          (accN (F := Ideal) (rowAt (F := Ideal) (shapeCast S64x4096x128 X0 h1) (seg a b) c) 1280 * Ideal.ofBits .f32 0x3C000000#32
            + (∑ k : Fin 2816, rowAt (F := Ideal) (shapeCast S64x4096x128 X0 h1) (seg a b) c (1280 + k.val))
                * Ideal.ofBits .f32 0x3C000000#32) := by
  unfold kernelOut
  rw [unflat_apply, hostVal_apply, sc_apply, tc_apply]

end Cert.Bridge

end
-- ==== Proof.BridgeRef.lean ====
/-
  The reference's result read at one index.

  Entry (a, b, c) of the reference's result is, stage by stage: the sum, from zero, over l < 4096 of the argument at
  (a, b, l, c) (the reduction along axis 2 read as a sum over that axis's coordinates); divided by the constant 128
  broadcast to every entry; and zero selected where the quotient is not equal to itself, else the quotient.
-/
import proofs.«210774_g2740189135076_cont_9to1_1653_26_alg».proof.ReferenceIdeal
import proofs.«210774_g2740189135076_cont_9to1_1653_26_alg».proof.Proof.Gen.ReferenceIdeal.Run
import proofs.«210774_g2740189135076_cont_9to1_1653_26_alg».proof.Proof.Gen.ReferenceIdeal.Read
import proofs.«210774_g2740189135076_cont_9to1_1653_26_alg».proof.Proof.BridgeSum
import Idealize.ShloMosaic.PureOps.Ideal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx
open Cert.ReferenceIdeal Cert.ReferenceIdeal.Gen Cert.ReferenceIdeal.Read
open scoped BigOperators

/-- The index the reference's sum reads at (a, b, c) and coordinate k of the reduced axis is (a, b, k, c). -/
theorem idx_sum (a b : Fin 8) (c : Fin 128) (k : Fin 4096) : idx_main_v1 (ix3 a b c) k = ix4 a b k c :=
  funext fun d => Fin.ext (by match d with | ⟨0, _⟩ => rfl | ⟨1, _⟩ => rfl | ⟨2, _⟩ => rfl | ⟨3, _⟩ => rfl)

/-- The reference's result at (a, b, c): the total of the column from zero, divided by 128, with zero selected where
    the quotient is not equal to itself. -/
theorem ref_apply (X0 : (⟨S8x8x4096x128, .f32⟩ : BufTy).Contents (Elt Ideal)) (a b : Fin 8) (c : Fin 128) :
    val_main_v6 (F := Ideal) X0 (ix3 a b c)
      = selfOrZero
          (Ideal.div (Ideal.ofBits .f32 0x00000000#32 + ∑ l : Fin 4096, X0 (ix4 a b l c))
            (Ideal.ofBits .f32 0x43000000#32)) := by
  rw [val_main_v6_apply, val_main_v4_apply, val_main_v5_apply, val_main_cst_1_apply, val_main_v3_apply,
    val_main_v1_apply, val_main_v2_apply, val_main_v0_apply, val_main_cst_apply, val_main_cst_0_apply]
  simp only [idx_sum, Ideal.hostDivf_def, Ideal.ofBits_def, Ideal.cmpf_def]
  rfl

end Cert.Bridge

end
-- ==== Proof.Bridge.lean ====
/-
  The kernel's specified result is the reference's result when every entry of the argument is a real number, and
  the precondition says that every entry is one.

  At entry (a, b, c) both results apply the same last stage (zero where the entry is not equal to itself) to a
  number: the kernel's to the two-part average of column c of rows (a, b, ·) — rows 0 … 1279 accumulated one after the
  other and rows 1280 … 4095 added by one sum, each total times 2⁻⁷ —, the reference's to the sum of all 4096 rows
  divided by 128.  With every row a real number the two numbers are equal (the arithmetic of the two arrangements),
  so the results are.  The precondition compares the absolute value of every entry with +∞ and takes the conjunction
  over all entries; an extended real whose absolute value is below +∞ is neither of the two infinities.
-/
import proofs.«210774_g2740189135076_cont_9to1_1653_26_alg».proof.Proof.Spec
import proofs.«210774_g2740189135076_cont_9to1_1653_26_alg».proof.Proof.BridgeSum
import proofs.«210774_g2740189135076_cont_9to1_1653_26_alg».proof.Proof.BridgeKernel
import proofs.«210774_g2740189135076_cont_9to1_1653_26_alg».proof.Proof.BridgeRef
import proofs.«210774_g2740189135076_cont_9to1_1653_26_alg».proof.ReferenceIdeal
import proofs.«210774_g2740189135076_cont_9to1_1653_26_alg».proof.Pre_finite_inputs
import proofs.«210774_g2740189135076_cont_9to1_1653_26_alg».proof.Proof.Gen.ReferenceIdeal.Run
import proofs.«210774_g2740189135076_cont_9to1_1653_26_alg».proof.Proof.Gen.ReferenceIdeal.Read
import proofs.«210774_g2740189135076_cont_9to1_1653_26_alg».proof.Proof.Gen.Pre_finite_inputs
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Cert.Bridge

open Idealize.ShloMosaic Idealize.ShloMosaic.ValueIdx
open scoped BigOperators

/-- With every entry of the argument a real number, the kernel's specified result is the last stage of the
    reference, the stage its run ends at. -/
theorem kernelOut_eq_val (h1 : Cert.Spec.S8x8x4096x128.ShapeCasts Cert.Spec.S64x4096x128)
    (h2 : Cert.Spec.S64x128.ShapeCasts Cert.Spec.S8x8x128) (hr : Cert.Spec.S2816x128.Reduces [0] Cert.Spec.S128)
    (hb : Cert.Spec.S_.BroadcastsInDim Cert.Spec.S64x128 (![] : Fin 0 → Fin Cert.Spec.S64x128.rank))
    (X0 : Cert.Spec.S8x8x4096x128.Idx → EReal) (hfin : ∀ i, ∃ r : ℝ, X0 i = (r : EReal)) :
    Cert.Spec.kernelOut (F := Ideal) h1 h2 hr hb X0 = Cert.ReferenceIdeal.Read.val_main_v6 (F := Ideal) X0 := by
  choose R hR using hfin
  funext i
  obtain ⟨a, b, c, rfl⟩ : ∃ (a b : Fin 8) (c : Fin 128), i = ix3 a b c := ⟨i 0, i 1, i 2, eq_ix3 i⟩
  rw [kernelOut_apply, ref_apply]
  refine congrArg selfOrZero ?_
  -- row l of the column, as the flattened view reads it, is the argument at (a, b, l, c)
  have hrow : ∀ l : Fin 4096,
      Cert.Spec.rowAt (F := Ideal) (shapeCast Cert.Spec.S64x4096x128 X0 h1) (seg a b) c l.val = X0 (ix4 a b l c) := by
    intro l
    unfold Cert.Spec.rowAt
    rw [dif_pos l.isLt]
    exact flat_apply h1 X0 a b l c
  -- the column's rows as real numbers (zero past the last row)
  have hx : ∀ l : Nat, Cert.Spec.rowAt (F := Ideal) (shapeCast Cert.Spec.S64x4096x128 X0 h1) (seg a b) c l
      = (((fun l : Nat => if h : l < 4096 then R (ix4 a b ⟨l, h⟩ c) else 0) l : ℝ) : EReal) := by
    intro l
    beta_reduce
    by_cases h : l < 4096
    · rw [dif_pos h, ← hR]
      exact hrow ⟨l, h⟩
    · rw [dif_neg h]
      unfold Cert.Spec.rowAt
      rw [dif_neg h, EReal.coe_zero]
      exact Ideal.ofBits_zero_f32
  rw [avg_split _ _ hx]
  refine congrArg (fun t => Ideal.div (Ideal.ofBits .f32 0x00000000#32 + t) (Ideal.ofBits .f32 0x43000000#32)) ?_
  exact Finset.sum_congr rfl fun l _ => hrow l

open Cert.ReferenceIdeal Cert.ReferenceIdeal.Gen in
/-- The same with the reference's result spelt as the term its run states. -/
theorem kernelOut_eq_reference (h1 : Cert.Spec.S8x8x4096x128.ShapeCasts Cert.Spec.S64x4096x128)
    (h2 : Cert.Spec.S64x128.ShapeCasts Cert.Spec.S8x8x128) (hr : Cert.Spec.S2816x128.Reduces [0] Cert.Spec.S128)
    (hb : Cert.Spec.S_.BroadcastsInDim Cert.Spec.S64x128 (![] : Fin 0 → Fin Cert.Spec.S64x128.rank))
    (X0 : Cert.Spec.S8x8x4096x128.Idx → EReal) (hfin : ∀ i, ∃ r : ℝ, X0 i = (r : EReal)) :
    Cert.Spec.kernelOut (F := Ideal) h1 h2 hr hb X0
      = select (cmpf .une (Host.divf (Host.reduceAdd (F := Ideal) (X0) (constant S_ .f32 0x00000000#32) reducesTo_S8x8x4096x128_S8x8x128_d2 h_S_) (broadcastInDim S8x8x128 ![0, 1, 2] bcast_S8x8x1_S8x8x128_0_1_2 (broadcastInDim S8x8x1 ![] bcast_S_S8x8x1 (constant S_ .f32 0x43000000#32)))) (Host.divf (Host.reduceAdd (F := Ideal) (X0) (constant S_ .f32 0x00000000#32) reducesTo_S8x8x4096x128_S8x8x128_d2 h_S_) (broadcastInDim S8x8x128 ![0, 1, 2] bcast_S8x8x1_S8x8x128_0_1_2 (broadcastInDim S8x8x1 ![] bcast_S_S8x8x1 (constant S_ .f32 0x43000000#32))))) (broadcastInDim S8x8x128 ![] bcast_S_S8x8x128 (constant (F := Ideal) S_ .f32 0x00000000#32)) (Host.divf (Host.reduceAdd (F := Ideal) (X0) (constant S_ .f32 0x00000000#32) reducesTo_S8x8x4096x128_S8x8x128_d2 h_S_) (broadcastInDim S8x8x128 ![0, 1, 2] bcast_S8x8x1_S8x8x128_0_1_2 (broadcastInDim S8x8x1 ![] bcast_S_S8x8x1 (constant S_ .f32 0x43000000#32)))) :=
  (kernelOut_eq_val h1 h2 hr hb X0 hfin).trans (Cert.ReferenceIdeal.Read.val_main_v6_eq (F := Ideal) X0).symm

/-- The scalar shape has one index. -/
instance : Subsingleton Cert.Pre_finite_inputs.S_.Idx := ⟨fun _ _ => funext fun d => d.elim0⟩

/-- The precondition — the conjunction over all entries of "the absolute value is below +∞" is 1 — gives that every
    entry of the argument is a real number. -/
theorem finite_of_pre [Cert.Pre_finite_inputs.Facts] (X0 : FVec Ideal Cert.Pre_finite_inputs.S8x8x4096x128 .f32)
    (h : Cert.Pre_finite_inputs.fn (F := Ideal) X0 = fun _ => 1#1) : ∀ i, ∃ r : ℝ, X0 i = (r : EReal) := by
  intro i
  have h0 := congrFun h ix0
  dsimp only [Cert.Pre_finite_inputs.fn] at h0
  have hi := Host.reduce_andi_all _ _ _ _ _ h0 i
  have hi' : Ideal.cmp .olt (max (X0 i) (-(X0 i))) (Ideal.ofBits .f32 0x7F800000#32) = 1#1 := hi
  rw [ofBits_inf] at hi'
  generalize X0 i = x at hi'
  induction x using EReal.rec with
  | bot => simp [Ideal.cmp] at hi'
  | top => simp [Ideal.cmp] at hi'
  | coe r => exact ⟨r, rfl⟩

end Cert.Bridge

end
-- ==== Proof.Claims.lean ====
/-
  The claims about the idealized kernel and the idealized reference, from the two facts about the kernels' bodies.

  Given the vector subcores' body at a symbolic tile and the TensorCore kernel's region, the kernel program runs and
  ends with the input unchanged and the result at its specified value (its frame is that run with the value
  dropped); the reference runs and ends with its result at the operations' composed term of its input (its frame
  likewise).  From memories that agree on the input, under the precondition every entry of the input is a real
  number, so the specified value is the reference's term: both programs end with equal results.
-/
import proofs.«210774_g2740189135076_cont_9to1_1653_26_alg».proof.Defs
import proofs.«210774_g2740189135076_cont_9to1_1653_26_alg».proof.Proof.KI.LaunchD
import proofs.«210774_g2740189135076_cont_9to1_1653_26_alg».proof.Proof.Bridge
import proofs.«210774_g2740189135076_cont_9to1_1653_26_alg».proof.Proof.Gen.ReferenceIdeal.Run
import proofs.«210774_g2740189135076_cont_9to1_1653_26_alg».proof.Proof.Gen.ReferenceIdeal.Read
import proofs.«210774_g2740189135076_cont_9to1_1653_26_alg».proof.Proof.Gen.KernelIdeal
import proofs.«210774_g2740189135076_cont_9to1_1653_26_alg».proof.Proof.Gen.ReferenceIdeal
import proofs.«210774_g2740189135076_cont_9to1_1653_26_alg».proof.Proof.Gen.Pre_finite_inputs

noncomputable section

namespace Cert.Proof.Claims

open Idealize.ShloMosaic Idealize.ShloMosaic.TcCoe Idealize.SL.Sem

/-- The idealized kernel program runs and leaves its input unchanged: its run with the result's value dropped. -/
theorem frame_KernelIdeal (hT : Cert.KI.Launch.TileSpec (F := Ideal)) (hReg : Cert.KI.Launch.RegionSpec (F := Ideal)) :
    Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KI.Launch.run_main (F := Ideal) m ρ hT hReg)

/-- The idealized reference runs and leaves its input unchanged: its run with the result's value dropped. -/
theorem frame_ReferenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the input, under the precondition, both programs run and end with equal results: the
    kernel's at its specified value, which for an input of real numbers is the reference's term. -/
theorem algebraic (hT : Cert.KI.Launch.TileSpec (F := Ideal)) (hReg : Cert.KI.Launch.RegionSpec (F := Ideal)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.kernelOut (F := Ideal) Cert.KernelIdeal.Gen.shapeCasts_S8x8x4096x128_S64x4096x128
    Cert.KernelIdeal.Gen.shapeCasts_S64x128_S8x8x128 Cert.KernelIdeal.Gen.reduces_S2816x128_S128 Cert.KernelIdeal.Gen.bcast_S_S64x128
    (m (Cert.KI.Launch.aLoc c)), Cert.KI.Launch.run_main (F := Ideal) m ρ hT hReg, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.Bridge.kernelOut_eq_reference _ _ _ _ _ (Cert.Bridge.finite_of_pre _ (hpre c))).symm

end Cert.Proof.Claims

end
-- ==== Proof.KB.LaunchA.lean ====
/-
  The launch of the kernel program: the resources the threads exchange.

  The device runs thirty-five threads: the TensorCore runs @main; each of the two SparseCores has a sequencer and
  sixteen vector subcores.  The segment array (the input viewed as 64 × 4096 × 128) is only read by the
  SparseCore kernel, so every vector subcore is lent a read share of the whole array; the SparseCore result (64 × 128)
  is written two rows per vector subcore — vector subcore `i` of SparseCore `c` is worker `2 i + c` and owns rows
  `2 (2 i + c)` and `2 (2 i + c) + 1` —, so each is handed exactly those two rows and returns them holding the
  specified partial means.  The shares and the rows are recombined on the TensorCore after the call.
-/
import proofs.«210774_g2740189135076_cont_9to1_1653_26_alg».proof.Kernel
import proofs.«210774_g2740189135076_cont_9to1_1653_26_alg».proof.Proof.Gen.Kernel
import proofs.«210774_g2740189135076_cont_9to1_1653_26_alg».proof.Proof.Gen.Kernel.Launch
import proofs.«210774_g2740189135076_cont_9to1_1653_26_alg».proof.Proof.Spec
import proofs.«210774_g2740189135076_cont_9to1_1653_26_alg».proof.Proof.LibScRegion
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KB.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
abbrev ER : Emb (UK × Counters) (MT nD τ sig (HIx 1) (Elt F) ℕ UU ℕ) := embR
def EK : Emb UK (MT nD τ sig (HIx 1) (Elt F) ℕ UU ℕ) := (Emb.inl : Emb UK (UK × Counters)).trans ER

instance EK_landsIn : (EK : Emb UK 𝕄).LandsIn (upEmb : UEmb _ 𝕄) := by unfold EK ER embR; infer_instance

/-! ## The buffers -/

abbrev aLoc (d : Dev nD) : Loc nD τ sig := (SparseCore.T d).loc main_arg0
abbrev xLoc (d : Dev nD) : Loc nD τ sig := (SparseCore.T d).loc main_v0
abbrev sLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v7

/-- The two result rows of worker `w`. -/
def rowsOf (w : ℕ) : Finset S64x128.Idx := Finset.univ.filter fun j => (j 0).val / 2 = w

/-- The read share of the segment array lent to vector subcore `i` of SparseCore `c`. -/
def tok (c i : ℕ) : PosShare TreeShare := shareTokN (shareTokN fullShare c) i

variable [FloatOps F]

/-- The SparseCore part of the result, as contents of its buffer. -/
def scBuf (d : Dev nD) (X : Buf (Elt F) (xLoc d)) : Buf (Elt F) (sLoc d) := Cert.Spec.scVal (F := F) X

/-- What vector subcore `i` of SparseCore `c` is handed: its read share of the segment array at `X`, its two result rows. -/
def goN (d : Dev nD) (X : Buf (Elt F) (xLoc d)) (c i : ℕ) : sProp 𝕄 :=
  iprop((xLoc d ↦{tok c i} X) ∗ ∃ f : Buf (Elt F) (sLoc d), sLoc d ↦[rowsOf (i * 2 + c)]{fullShare} f)
/-- What it returns: the share, and its two rows at the specified values. -/
def tdN (d : Dev nD) (X : Buf (Elt F) (xLoc d)) (c i : ℕ) : sProp 𝕄 :=
  iprop((xLoc d ↦{tok c i} X) ∗ sLoc d ↦[rowsOf (i * 2 + c)]{fullShare} scBuf d X)

instance goN_storable (d : Dev nD) (X : Buf (Elt F) (xLoc d)) (c i : ℕ) : BI.Storable (upEmb : UEmb _ 𝕄) (goN d X c i) := by
  unfold goN; infer_instance
instance tdN_storable (d : Dev nD) (X : Buf (Elt F) (xLoc d)) (c i : ℕ) : BI.Storable (upEmb : UEmb _ 𝕄) (tdN d X c i) := by
  unfold tdN; infer_instance

variable (X : (d : Dev nD) → Buf (Elt F) (xLoc d))

/-- The call's payloads: a SparseCore is handed what its sixteen vector subcores are. -/
def P : (K (F := F)).Pay (nD := nD) (Val := Elt F) (Name := ℕ) (U := UU) where
  st := fun _ d c => bigSep Finset.univ fun i : Fin 16 => goN d (X d) c.val i.val
  dn := fun _ d c => bigSep Finset.univ fun i : Fin 16 => tdN d (X d) c.val i.val
  go := fun _ d c i => goN d (X d) c.val i.val
  td := fun _ d c i => tdN d (X d) c.val i.val
  x := fun _ _ => iprop(emp)

instance P_storable : (P X).IsStorable where
  st _ d c := by unfold P; infer_instance
  dn _ d c := by unfold P; infer_instance
  go _ _ _ _ := by unfold P; infer_instance
  td _ _ _ _ := by unfold P; infer_instance

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X) 0 := by
  intro d c
  show (bigSep Finset.univ fun i : Fin 16 => goN d (X d) c.val i.val) ⊢ |={Set.univ}=> iprop(
      (bigSep Finset.univ fun i : Fin ((K (F := F)).nSub 0) => goN d (X d) c.val i.val)
      ∗ ((bigSep Finset.univ fun i : Fin ((K (F := F)).nSub 0) => tdN d (X d) c.val i.val)
          -∗ bigSep Finset.univ fun i : Fin 16 => tdN d (X d) c.val i.val))
  rw [show (bigSep Finset.univ fun i : Fin ((K (F := F)).nSub 0) => goN d (X d) c.val i.val)
        = bigSep Finset.univ fun i : Fin 16 => goN d (X d) c.val i.val from bigSep_tasks (F := F) (fun i => goN d (X d) c.val i.val),
      show (bigSep Finset.univ fun i : Fin ((K (F := F)).nSub 0) => tdN d (X d) c.val i.val)
        = bigSep Finset.univ fun i : Fin 16 => tdN d (X d) c.val i.val from bigSep_tasks (F := F) (fun i => tdN d (X d) c.val i.val)]
  iintro H; imodintro
  isplitl [H]; · iexact H
  iintro H; iexact H

/-! ## The vector subcores' obligation, from the body's theorem at a symbolic tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scratch2 cc0_scratch3 cc0_scoped0) ⟨⟩ c s := rfl

/-- The worker number of the vector subcore at grid coordinates `L`. -/
def wid (L : grid0.Coords) : ℕ := (L 1).val * 2 + (L 0).val

/-- What the body's proof delivers at a symbolic tile: from a read share of the segment array and the tile's two
    result rows, the body runs and leaves the rows at the specified values. -/
def TileSpec : Prop :=
  ∀ (d : Dev nD) (L : grid0.Coords) (q : PosShare TreeShare) (X : Buf (Elt F) (xLoc d))
    (O : CellTallies nD τ sig (HIx 1)) (W : Waits sig (HIx 1)), (∀ g, O g none = 0) →
    iprop(levAts (K (F := F)).L (K (F := F)).lev ∗ (xLoc d ↦{q} X) ∗ (∃ f : Buf (Elt F) (sLoc d), sLoc d ↦[rowsOf (wid L)]{fullShare} f)
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scratch2 cc0_scratch3 cc0_scoped0)
          fun _ => (iprop((xLoc d ↦{q} X) ∗ (sLoc d ↦[rowsOf (wid L)]{fullShare} scBuf d X)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W') : sProp 𝕄)

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hT : TileSpec (F := F)) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((hT d (coordsV ⟨_, hc.1⟩ ⟨_, hc.2⟩) (tok c.val i.val) (X d) O W hO).trans (wp_mono frame _ _ fun _ => ?_))
  · show iprop(_ ∗ iprop(emp) ∗ goN d (X d) c.val i.val ∗ _) ⊢ _
    unfold goN
    iintro ⟨Hlv, -, ⟨Hx, Hs⟩, Hrest⟩
    isplitl [Hlv]; · iexact Hlv
    isplitl [Hx]; · iexact Hx
    isplitl [Hs]; · iexact Hs
    iexact Hrest
  · show _ ⊢ iprop(tdN d (X d) c.val i.val ∗ _)
    unfold tdN
    iintro ⟨Hx, Hs, Hb, Hss, %W', %hW', HO⟩
    isplitl [Hx Hs]
    · isplitl [Hx]; · iexact Hx
      iexact Hs
    isplitl [Hb]; · iexact Hb
    isplitl [Hss]; · iexact Hss
    iexists W'; isplitr
    · ipureintro; exact fun p hp => (hW' p hp).imp_right Or.inl
    · iexact HO

end Cert.KB.Launch

end
-- ==== Proof.KB.LaunchB.lean ====
/-
  The launch element of the ghost state, and how the TensorCore's two arrays are dealt to the thirty-two vector
  subcores and gathered again.

  The read shares: the full share of the segment array is halved twice to give each SparseCore a share, and each
  SparseCore's share sixteen times to give each vector subcore one; what remains after each round of halving stays
  with the TensorCore during the call and the whole is put together again afterwards.  The result rows: worker
  `w = 2 i + c` owns the rows whose number halves to `w`; these thirty-two pairs of rows are disjoint and cover the
  64 rows.
-/
import proofs.«210774_g2740189135076_cont_9to1_1653_26_alg».proof.Proof.KB.LaunchA

noncomputable section

namespace Cert.KB.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop shareTok pointsTo_toks)

variable {F : FTy → Type}

local notation "𝕄" => MT nD τ sig (HIx 1) (Elt F) ℕ UU ℕ

/-! ## The staging cells of the TensorCore call -/

abbrev aP : (p : Fin 1) → (pcfgs (F := F) p).Adm := fun q => (cfgs q).toPCfg_adm
abbrev cfgsP : Fin 1 → Pipeline.Cfg sig Λ₀ := Pipeline.pin (pcfgs (F := F)) aP

theorem phinj : Function.Injective (Pipeline.cellOf (nD := nD) (τ := τ) (cfgsP (F := F))) := Gen.cellOf_inj

/-- What @main's proof starts from beside the launch's deal: the staging cells' ghost state and duty tokens. -/
def G (d : Dev nD) : sProp 𝕄 :=
  iprop(Pipeline.cellsGhost (cfgsP (F := F)) EK 0 d ∗ Pipeline.toksInit (cfgsP (F := F)) EK 0 d)

def u₀ : UU := (initOf (K (F := F)).hsCells (K (F := F)).hsToks,
  (initOf (Pipeline.cells (cfgsP (F := F)) phinj) (Pipeline.launchToks (cfgsP (F := F)) phinj), 1))

theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} from rfl, bigSep_singleton]

theorem own_EK (b : UK) (c : Counters) :
    (BI.own ((ER (F := F)) (b, c)) : sProp 𝕄) ⊢ iprop(BI.own ((EK (F := F)) b) ∗ BI.own (((Emb.inr : Emb Counters (UK × Counters)).trans (ER (F := F))) c)) :=
  own_pair_emb (ER (F := F)) b c

variable [FloatOps F] (X : (d : Dev nD) → Buf (Elt F) (xLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X).x q thr) := by
  unfold u₀
  iintro Hu
  ihave H := (ownU_pair _ _) $$ Hu
  icases H with ⟨HH, HR⟩
  ihave H2 := (own_EK (F := F) _ _) $$ HR
  icases H2 with ⟨HK, HC⟩
  imod (Pipeline.fund_ghost (cfgsP (F := F)) (EK (F := F)) phinj) $$ HK with ⟨Hg, Ht⟩
  imodintro
  isplitl [HH]; · iexact HH
  isplitl [Hg Ht]
  · unfold G
    rw [bigSep_sep']
    isplitl [Hg]
    · iapply (Entails.of_eq (bigSep_congr fun c _ => bigSep_fin1 (F := F) (fun p => Pipeline.cellsGhost (cfgsP (F := F)) EK p c)))
      iexact Hg
    · iapply (Entails.of_eq (bigSep_congr fun c _ => bigSep_fin1 (F := F) (fun p => Pipeline.toksInit (cfgsP (F := F)) EK p c)))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The read shares of the segment array -/

section Shares

variable {ℓ : Loc nD τ sig} (f : Buf (Elt F) ℓ)

/-- What stays with the TensorCore during the call. -/
def shareRem : sProp 𝕄 :=
  iprop((ℓ ↦{shareDrop fullShare 2} f) ∗ bigSep Finset.univ fun c : Fin 2 => ℓ ↦{shareDrop (shareTokN fullShare c.val) 16} f)

omit [FloatOps F] in
theorem shares_split : (ℓ ↦{fullShare} f : sProp 𝕄)
    ⊢ iprop(shareRem f ∗ bigSep Finset.univ fun c : Fin 2 => bigSep Finset.univ fun i : Fin 16 => ℓ ↦{tok c.val i.val} f) := by
  unfold shareRem
  refine (pointsTo_toks (ℓ := ℓ) (S := Finset.univ) (f := f) fullShare 2).1.trans ?_
  refine (sep_mono .rfl (bigSep_mono (s := Finset.univ) (Ψ := fun c : Fin 2 => iprop((ℓ ↦{shareDrop (shareTokN fullShare c.val) 16} f)
      ∗ bigSep Finset.univ fun i : Fin 16 => ℓ ↦{tok c.val i.val} f))
    fun c _ => (pointsTo_toks (ℓ := ℓ) (S := Finset.univ) (f := f) (shareTokN fullShare c.val) 16).1)).trans ?_
  rw [bigSep_sep']
  iintro ⟨Hd, Hr, Ht⟩
  isplitl [Hd Hr]
  · isplitl [Hd]; · iexact Hd
    iexact Hr
  iexact Ht

omit [FloatOps F] in
theorem shares_join : iprop(shareRem f ∗ bigSep Finset.univ fun c : Fin 2 => bigSep Finset.univ fun i : Fin 16 => ℓ ↦{tok c.val i.val} f)
    ⊢ (ℓ ↦{fullShare} f : sProp 𝕄) := by
  unfold shareRem
  refine BIBase.Entails.trans ?_ (pointsTo_toks (ℓ := ℓ) (S := Finset.univ) (f := f) fullShare 2).2
  refine BIBase.Entails.trans ?_ (sep_mono .rfl (bigSep_mono (s := Finset.univ) (Φ := fun c : Fin 2 => iprop((ℓ ↦{shareDrop (shareTokN fullShare c.val) 16} f)
      ∗ bigSep Finset.univ fun i : Fin 16 => ℓ ↦{tok c.val i.val} f))
    fun c _ => (pointsTo_toks (ℓ := ℓ) (S := Finset.univ) (f := f) (shareTokN fullShare c.val) 16).2))
  rw [bigSep_sep']
  iintro ⟨⟨Hd, Hr⟩, Ht⟩
  isplitl [Hd]; · iexact Hd
  isplitl [Hr]; · iexact Hr
  iexact Ht

end Shares

/-! ## The result rows -/

omit [FloatOps F] in
theorem rows_disjoint : ∀ p ∈ (Finset.univ : Finset (Fin 2 × Fin 16)), ∀ p' ∈ (Finset.univ : Finset (Fin 2 × Fin 16)), p ≠ p' →
    Disjoint (rowsOf (p.2.val * 2 + p.1.val)) (rowsOf (p'.2.val * 2 + p'.1.val)) := by
  intro p _ p' _ hne
  rw [Finset.disjoint_left]
  intro j hj hj'
  simp only [rowsOf, Finset.mem_filter, Finset.mem_univ, true_and] at hj hj'
  apply hne
  have h1 := p.1.isLt; have h2 := p'.1.isLt
  have : p.2.val * 2 + p.1.val = p'.2.val * 2 + p'.1.val := hj.symm.trans hj'
  exact Prod.ext (Fin.ext (by omega)) (Fin.ext (by omega))

omit [FloatOps F] in
theorem rows_cover : (Finset.univ : Finset (Fin 2 × Fin 16)).biUnion (fun p => rowsOf (p.2.val * 2 + p.1.val)) = Finset.univ := by
  ext j
  simp only [Finset.mem_biUnion, Finset.mem_univ, true_and, iff_true, rowsOf, Finset.mem_filter]
  have hj : (j 0).val < 64 := (j 0).isLt
  exact ⟨(⟨(j 0).val / 2 % 2, by omega⟩, ⟨(j 0).val / 2 / 2, by omega⟩), by show _ = (j 0).val / 2 / 2 * 2 + (j 0).val / 2 % 2; omega⟩

omit [FloatOps F] in
theorem rows_split (d : Dev nD) (f : Buf (Elt F) (sLoc d)) :
    (sLoc d ↦{fullShare} f : sProp 𝕄)
      = bigSep Finset.univ fun c : Fin 2 => bigSep Finset.univ fun i : Fin 16 => sLoc d ↦[rowsOf (i.val * 2 + c.val)]{fullShare} f := by
  rw [← bigSep_univ_prod (fun p : Fin 2 × Fin 16 => (sLoc d ↦[rowsOf (p.2.val * 2 + p.1.val)]{fullShare} f : sProp 𝕄)),
    ← pointsTo_biUnion Finset.univ (ℓ := sLoc d) (fun p : Fin 2 × Fin 16 => rowsOf (p.2.val * 2 + p.1.val)) rows_disjoint, rows_cover]

end Cert.KB.Launch

end
-- ==== Proof.KB.LaunchC.lean ====
/-
  @main on the TensorCore.

  @main reshapes the input into 64 segments, calls the SparseCore kernel (lending every vector subcore a read share of
  the segment array and its two result rows, and gathering them again), runs the TensorCore kernel's region (which
  reads the segment array and fills its own 64 × 128 result), adds the two results, replaces every total that is not
  equal to itself by zero and reshapes.  The arrays are held as one family over all the TensorCore's unscoped
  buffers; the two kernels' operands are taken out of the family and put back at their new contents.
-/
import proofs.«210774_g2740189135076_cont_9to1_1653_26_alg».proof.Proof.KB.LaunchB

noncomputable section

namespace Cert.KB.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_congr)
open Idealize.ShloMosaic.Tactic

variable {F : FTy → Type}

local notation "𝕄" => MT nD τ sig (HIx 1) (Elt F) ℕ UU ℕ

/-! ## The TensorCore's arrays as one family -/

abbrev a' : DevRef τ sig := Proc.devRef .tc (main_arg0 : Ref sig .tc)
abbrev x' : DevRef τ sig := Proc.devRef .tc (main_v0 : Ref sig .tc)
abbrev s' : DevRef τ sig := Proc.devRef .tc (main_v1 : Ref sig .tc)
abbrev t' : DevRef τ sig := Proc.devRef .tc (main_v2 : Ref sig .tc)
abbrev o' : DevRef τ sig := Proc.devRef .tc (main_v7 : Ref sig .tc)

/-- All the TensorCore's unscoped buffers. -/
def SU : Finset (DevRef τ sig) :=
  (Finset.univ.filter fun b : Ref sig .tc => ¬ b.isScoped).map ⟨Proc.devRef .tc, Proc.devRef_injective _⟩

variable (m : (ℓ : Loc nD τ sig) → Buf (Elt F) ℓ) (ρ : Dev nD → PrngReg)

abbrev V0 (d : Dev nD) : Valuation τ sig (Elt F) := fun b => m (d, b)

theorem unscoped_held (d : Dev nD) : (unscopedBufs d (fun b => m ((SparseCore.T d).loc b)) : sProp 𝕄) = held (T d) SU (V0 m d) := by
  unfold unscopedBufs held SU
  rw [bigSep_map]
  rfl

theorem held_take (c : Thread nD τ) (S : Finset (DevRef τ sig)) (W : Valuation τ sig (Elt F)) {b : DevRef τ sig} (hb : b ∈ S) :
    (held c S W : sProp 𝕄) = iprop((((c.1, b) : Loc nD τ sig) ↦{fullShare} W b) ∗ held c (S.erase b) W) :=
  SparseCore.bigSep_erase' hb

theorem held_put (c : Thread nD τ) (S : Finset (DevRef τ sig)) (W : Valuation τ sig (Elt F)) {b : DevRef τ sig} (hb : b ∈ S)
    (f : Buf (Elt F) ((c.1, b) : Loc nD τ sig)) :
    (iprop((((c.1, b) : Loc nD τ sig) ↦{fullShare} f) ∗ held c (S.erase b) W) : sProp 𝕄) = held c S (Function.update W b f) := by
  rw [held_take c S (Function.update W b f) hb, Function.update_self,
    held_congr c (S := S.erase b) (V := Function.update W b f) (V' := W) fun b' hb' => Function.update_of_ne (Finset.ne_of_mem_erase hb') _ _]

variable [FloatOps F]

/-! ## The host operations -/

abbrev opR0 : HloOp τ sig (Elt F) := StableHlo.reshape main_arg0 main_v0 rfl shapeCasts_S8x8x4096x128_S64x4096x128
abbrev opAdd : HloOp τ sig (Elt F) := StableHlo.binary main_v1 main_v2 main_v3 (addf : (⟨S64x128, .f32⟩ : BufTy).Contents (Elt F) → (⟨S64x128, .f32⟩ : BufTy).Contents (Elt F) → (⟨S64x128, .f32⟩ : BufTy).Contents (Elt F))
abbrev opCmp : HloOp τ sig (Elt F) := StableHlo.binary main_v3 main_v3 main_v4 (cmpf .une : (⟨S64x128, .f32⟩ : BufTy).Contents (Elt F) → (⟨S64x128, .f32⟩ : BufTy).Contents (Elt F) → (⟨S64x128, .i1⟩ : BufTy).Contents (Elt F))
abbrev opCst : HloOp τ sig (Elt F) := StableHlo.nullary main_cst (constant S_ .f32 0x00000000#32)
abbrev opBc : HloOp τ sig (Elt F) := StableHlo.unary main_cst main_v5 (broadcastInDim S64x128 ![] bcast_S_S64x128 : (⟨S_, .f32⟩ : BufTy).Contents (Elt F) → (⟨S64x128, .f32⟩ : BufTy).Contents (Elt F))
abbrev opSel : HloOp τ sig (Elt F) := StableHlo.TRef.ternary (.of main_v4) (.of main_v5) (.of main_v3) main_call0.v0 select
abbrev opR1 : HloOp τ sig (Elt F) := StableHlo.reshape main_v6 main_v7 rfl shapeCasts_S64x128_S8x8x128

theorem hR0 : (opR0 (F := F)).bufs ⊆ SU := show ({a', x'} : Finset (DevRef τ sig)) ⊆ SU by decide
theorem hAdd : (opAdd (F := F)).bufs ⊆ SU := show ({s', t', Proc.devRef .tc (main_v3 : Ref sig .tc)} : Finset (DevRef τ sig)) ⊆ SU by decide
theorem hCmp : (opCmp (F := F)).bufs ⊆ SU :=
  show ({Proc.devRef .tc (main_v3 : Ref sig .tc), Proc.devRef .tc (main_v3 : Ref sig .tc), Proc.devRef .tc (main_v4 : Ref sig .tc)} : Finset (DevRef τ sig)) ⊆ SU by decide
theorem hCst : (opCst (F := F)).bufs ⊆ SU := show ({Proc.devRef .tc (main_cst : Ref sig .tc)} : Finset (DevRef τ sig)) ⊆ SU by decide
theorem hBc : (opBc (F := F)).bufs ⊆ SU :=
  show ({Proc.devRef .tc (main_cst : Ref sig .tc), Proc.devRef .tc (main_v5 : Ref sig .tc)} : Finset (DevRef τ sig)) ⊆ SU by decide
theorem hSel : (opSel (F := F)).bufs ⊆ SU :=
  show ({Proc.devRef .tc (main_v4 : Ref sig .tc), Proc.devRef .tc (main_v5 : Ref sig .tc), Proc.devRef .tc (main_v3 : Ref sig .tc),
    Proc.devRef .tc (main_v6 : Ref sig .tc)} : Finset (DevRef τ sig)) ⊆ SU by decide
theorem hR1 : (opR1 (F := F)).bufs ⊆ SU := show ({Proc.devRef .tc (main_v6 : Ref sig .tc), o'} : Finset (DevRef τ sig)) ⊆ SU by decide

/-! ## The contents along @main -/

section Run

variable (d : Dev nD)

abbrev V1 : Valuation τ sig (Elt F) := (opR0 (F := F)).result (V0 m d)
/-- The segment array: the input laid out as 64 segments. -/
abbrev Xof : Buf (Elt F) (xLoc d) := V1 m d x'
/-- The TensorCore part of the result, as contents of its buffer. -/
def tcBuf (X : Buf (Elt F) (xLoc d)) : Buf (Elt F) (tLoc d) := Cert.Spec.tcVal (F := F) reduces_S2816x128_S128 X
/-- After the two kernels: the SparseCore result and the TensorCore result at their specified values. -/
abbrev V3 : Valuation τ sig (Elt F) :=
  Function.update (Function.update (Function.update (V1 m d) t' (tcBuf d (Xof m d))) s' (scBuf d (Xof m d))) x' (Xof m d)
abbrev V4 : Valuation τ sig (Elt F) := (opAdd (F := F)).result (V3 m d)
abbrev V5 : Valuation τ sig (Elt F) := (opCmp (F := F)).result (V4 m d)
abbrev V6 : Valuation τ sig (Elt F) := (opCst (F := F)).result (V5 m d)
abbrev V7 : Valuation τ sig (Elt F) := (opBc (F := F)).result (V6 m d)
abbrev V8 : Valuation τ sig (Elt F) := (opSel (F := F)).result (V7 m d)
abbrev V9 : Valuation τ sig (Elt F) := (opR1 (F := F)).result (V8 m d)

end Run

/-! ## What the TensorCore kernel's region delivers -/

/-- The region's record for any contents `X` of the segment array, any contents `Y` of the TensorCore result's buffer
    at entry and any recorded waits `W₀` of the TensorCore: entered from the two arrays and the TensorCore owing
    nothing, it leaves the result at the specified values and the recorded waits grown only by waits at no call. -/
def RegionSpec : Prop :=
  ∀ (X : (c : Dev nD) → Buf (Elt F) (xLoc c)) (Y : (c : Dev nD) → Buf (Elt F) (tLoc c)) (W₀ : Dev nD → Waits sig (HIx 1)),
    ∃ (rdats : (p : Fin 1) → (c : Dev nD) → Pipeline.RDat τ (Elt F) (HIx 1) ℕ UU ℕ (cfgsP (F := F) p) c)
      (R : Pipeline.RDat.RegionSeg (pcfgs (F := F)) aP rdats (none : HIx 1) defs₀ 𝒱₀ (K (F := F)).L (K (F := F)).lev 0),
      (∀ c, (iprop((xLoc c ↦{fullShare} X c) ∗ (tLoc c ↦{fullShare} Y c) ∗ owes (T c) 0 (W₀ c)) : sProp 𝕄) ⊢ R.pre c)
      ∧ (∀ c, R.post c ⊢ (iprop((xLoc c ↦{fullShare} X c) ∗ (tLoc c ↦{fullShare} tcBuf c (X c))
          ∗ ∃ W', ⌜∀ p ∈ W', p ∈ W₀ c ∨ p.2 = none⌝ ∗ owes (T c) 0 W') : sProp 𝕄))

/-! ## The call's operands, dealt and gathered -/

omit [FloatOps F] in
theorem go_intro (d : Dev nD) (X : Buf (Elt F) (xLoc d)) (f : Buf (Elt F) (sLoc d)) (c i : ℕ) :
    (iprop((xLoc d ↦{tok c i} X) ∗ sLoc d ↦[rowsOf (i * 2 + c)]{fullShare} f) : sProp 𝕄) ⊢ goN d X c i := by
  unfold goN
  iintro ⟨Hx, Hs⟩
  isplitl [Hx]; · iexact Hx
  iexists f; iexact Hs

theorem st_intro (d : Dev nD) (f : Buf (Elt F) (sLoc d)) :
    (iprop((bigSep Finset.univ fun c : Fin 2 => bigSep Finset.univ fun i : Fin 16 => xLoc d ↦{tok c.val i.val} Xof m d)
        ∗ (bigSep Finset.univ fun c : Fin 2 => bigSep Finset.univ fun i : Fin 16 => sLoc d ↦[rowsOf (i.val * 2 + c.val)]{fullShare} f)) : sProp 𝕄)
      ⊢ bigSep Finset.univ fun c : Fin ((K (F := F)).nCore 0) => (P (Xof m)).st 0 d c := by
  show _ ⊢ bigSep Finset.univ fun c : Fin 2 => bigSep Finset.univ fun i : Fin 16 => goN d (Xof m d) c.val i.val
  rw [← bigSep_sep']
  refine bigSep_mono fun c _ => ?_
  rw [← bigSep_sep']
  exact bigSep_mono fun i _ => go_intro d (Xof m d) f c.val i.val

theorem td_elim (d : Dev nD) (X : Buf (Elt F) (xLoc d)) (c i : ℕ) :
    tdN d X c i ⊢ (iprop((xLoc d ↦{tok c i} X) ∗ sLoc d ↦[rowsOf (i * 2 + c)]{fullShare} scBuf d X) : sProp 𝕄) :=
  Entails.of_eq rfl

theorem dn_elim (d : Dev nD) :
    (bigSep Finset.univ fun c : Fin ((K (F := F)).nCore 0) => (P (Xof m)).dn 0 d c)
      ⊢ (iprop((bigSep Finset.univ fun c : Fin 2 => bigSep Finset.univ fun i : Fin 16 => xLoc d ↦{tok c.val i.val} Xof m d)
        ∗ (bigSep Finset.univ fun c : Fin 2 => bigSep Finset.univ fun i : Fin 16 => sLoc d ↦[rowsOf (i.val * 2 + c.val)]{fullShare} scBuf d (Xof m d))) : sProp 𝕄) := by
  show (bigSep Finset.univ fun c : Fin 2 => bigSep Finset.univ fun i : Fin 16 => tdN d (Xof m d) c.val i.val) ⊢ _
  rw [← bigSep_sep']
  refine bigSep_mono fun c _ => ?_
  rw [← bigSep_sep']
  exact bigSep_mono fun i _ => td_elim d (Xof m d) c.val i.val

/-! ## The TensorCore's handshake state around the region -/

theorem Otc_one (d : Dev nD) : (K (F := F)).Otc d 1 = 0 := by
  unfold SparseCore.Cfg.Otc
  exact Finset.sum_eq_zero fun q _ => if_neg (by have := q.isLt; omega)

/-- The TensorCore's handshake state after the one call, opened: what it owes (nothing) with its recorded waits, and the rest. -/
theorem tcSt_one (d : Dev nD) :
    ((K (F := F)).tcSt EH d 1 : sProp 𝕄) = iprop((∃ W, ⌜(K (F := F)).WBelow (T d) W (8 * 1)⌝ ∗ owes (T d) (0 : CellTallies nD τ sig (HIx 1)) W)
      ∗ atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q : Fin 1 => bigSep Finset.univ fun c : Fin ((K (F := F)).nCore q) =>
          iprop(dutyTok EH ((K (F := F)).startCell d ((K (F := F)).core q c)) ((K (F := F)).sRank ((K (F := F)).core q c) q.val) 0
            ∗ cred (tallyAt ((K (F := F)).doneCell d) (some q) 1))) := by
  unfold SparseCore.Cfg.tcSt
  rw [Otc_one]

/-- What @main leaves the claim: the input unchanged, the result at the last valuation. -/
def FIN (d : Dev nD) : sProp 𝕄 := iprop((aLoc d ↦{fullShare} V9 m d a') ∗ (oLoc d ↦{fullShare} V9 m d o'))

set_option maxHeartbeats 1600000 in
theorem hmain [∀ e, Nonempty (Elt F e)] (hReg : RegionSpec (F := F)) (κ : GSem nD τ sig → ℕ) (d : Dev nD) :
    iprop((K (F := F)).ctx EH (P (Xof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_where.body, wp_bind, wp_pure]
  iintro ⟨#Hctx, Hst, ⟨Hb, Hheld, -, -⟩, HG⟩
  -- the reshape into segments
  iapply (wp_hlo_within 𝒱 (SparseCore.T d) none Set.univ (op := opR0) (S := SU) hR0 (V := V0 m d)) $$ [Hb Hheld]
  · isplitl [Hb]; · iexact Hb
    iexact Hheld
  iintro ⟨Hb, Hheld⟩
  rw [wp_ret]; imodintro
  -- the segment array and the SparseCore result's buffer, out of the family
  ihave H1 := (Entails.of_eq (held_take (F := F) (T d) SU (V1 m d) (b := x') (by decide))) $$ Hheld
  icases H1 with ⟨Hx, Hheld⟩
  ihave H2 := (Entails.of_eq (held_take (F := F) (T d) (SU.erase x') (V1 m d) (b := s') (by decide))) $$ Hheld
  icases H2 with ⟨Hs, Hheld⟩
  ihave H3 := (shares_split (F := F) (ℓ := xLoc d) (Xof m d)) $$ Hx
  icases H3 with ⟨Hrem, Htoks⟩
  ihave H4 := (Entails.of_eq (rows_split (F := F) d (V1 m d s'))) $$ Hs
  ihave Hstp := (st_intro m d (V1 m d s')) $$ [Htoks H4]
  · isplitl [Htoks]; · iexact Htoks
    iexact H4
  -- the SparseCore call
  iapply ((K (F := F)).wp_run (D (F := F)) 𝒱 (EH := EH) (P := P (Xof m)) κ d 0) $$ [Hst Hstp Hb Hheld Hrem HG]
  isplitr; · iexact Hctx
  isplitl [Hst]; · iexact Hst
  isplitl [Hstp]; · iexact Hstp
  iintro ⟨Hst, Hdn⟩
  ihave H5 := (dn_elim m d) $$ Hdn
  icases H5 with ⟨Htoks, Hrows⟩
  ihave Hx := (shares_join (F := F) (ℓ := xLoc d) (Xof m d)) $$ [Hrem Htoks]
  · isplitl [Hrem]; · iexact Hrem
    iexact Htoks
  ihave Hs := (Entails.of_eq (rows_split (F := F) d (scBuf d (Xof m d))).symm) $$ Hrows
  -- the TensorCore kernel's region
  ihave H6 := (Entails.of_eq (held_take (F := F) (T d) ((SU.erase x').erase s') (V1 m d) (b := t') (by decide))) $$ Hheld
  icases H6 with ⟨Ht, Hheld⟩
  ihave H7 := (Entails.of_eq (show ((K (F := F)).tcSt EH d ((0 : Fin 1).val + 1) : sProp 𝕄) = _ from tcSt_one (F := F) d)) $$ Hst
  icases H7 with ⟨⟨%W, %hW, HO⟩, Hst⟩
  obtain ⟨rdats, R, hpre, hpost⟩ := hReg (Xof m) (fun c => V1 m c t') (fun _ => W)
  ihave Hlv := ((K (F := F)).ctx_levAts (EH := EH) (P := P (Xof m)) κ) $$ Hctx
  ihave Hpre := (hpre d) $$ [Hx Ht HO]
  · isplitl [Hx]; · iexact Hx
    isplitl [Ht]; · iexact Ht
    iexact HO
  ihave HG' := (Entails.of_eq (show G (F := F) d = iprop(Pipeline.cellsGhost (cfgsP (F := F)) EK 0 d ∗ Pipeline.toksInit (cfgsP (F := F)) EK 0 d) from rfl)) $$ HG
  icases HG' with ⟨Hcg, Hti⟩
  iapply (Cert.LibScRegion.region_line (pcfgs (F := F)) aP (K (F := F)) rdats phinj (EK (F := F)) defs₀ 𝒱₀ (K (F := F)).lev R d _) $$ [Hb Hpre Hlv Hcg Hti Hs Hheld Hst]
  isplitr [Hb Hpre Hlv Hcg Hti]
  swap
  · isplitl [Hb]; · iexact Hb
    isplitl [Hpre]; · iexact Hpre
    isplitl [Hlv]; · iexact Hlv
    isplitl [Hcg]; · iexact Hcg
    iexact Hti
  iintro ⟨Hb, Hpost⟩
  ihave H8 := (hpost d) $$ Hpost
  icases H8 with ⟨Hx, Ht, %W', %hW', HO⟩
  -- the three arrays back into the family
  ihave Hh1 := (Entails.of_eq (held_put (F := F) (T d) ((SU.erase x').erase s') (V1 m d) (b := t') (by decide) (tcBuf d (Xof m d)))) $$ [Ht Hheld]
  · isplitl [Ht]; · iexact Ht
    iexact Hheld
  ihave Hh2 := (Entails.of_eq (held_put (F := F) (T d) (SU.erase x') (Function.update (V1 m d) t' (tcBuf d (Xof m d))) (b := s') (by decide) (scBuf d (Xof m d)))) $$ [Hs Hh1]
  · isplitl [Hs]; · iexact Hs
    iexact Hh1
  ihave Hheld := (Entails.of_eq (held_put (F := F) (T d) SU (Function.update (Function.update (V1 m d) t' (tcBuf d (Xof m d))) s' (scBuf d (Xof m d))) (b := x') (by decide) (Xof m d))) $$ [Hx Hh2]
  · isplitl [Hx]; · iexact Hx
    iexact Hh2
  -- the host operations after the kernels
  iapply (wp_hlo_within 𝒱 (SparseCore.T d) none Set.univ (op := opAdd) (S := SU) hAdd (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opCmp) (S := SU) hCmp (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opCst) (S := SU) hCst (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := opBc) (S := SU) hBc (V := V6 m d)) $$ [Hb Hheld]
  · isplitl [Hb]; · iexact Hb
    iexact Hheld
  iintro ⟨Hb, Hheld⟩
  rw [wp_ret]; imodintro
  iapply (wp_hlo_within 𝒱 (SparseCore.T d) none Set.univ (op := opSel) (S := SU) hSel (V := V7 m d)) $$ [Hb Hheld]
  · isplitl [Hb]; · iexact Hb
    iexact Hheld
  iintro ⟨Hb, Hheld⟩
  rw [wp_ret]; imodintro
  imodintro
  iapply (wp_hlo_within 𝒱 (SparseCore.T d) none Set.univ (op := opR1) (S := SU) hR1 (V := V8 m d)) $$ [Hb Hheld]
  · isplitl [Hb]; · iexact Hb
    iexact Hheld
  iintro ⟨Hb, Hheld⟩
  rw [wp_ret]; imodintro; imodintro
  isplitl [Hst HO]
  · iapply (Entails.of_eq (tcSt_one (F := F) d).symm)
    isplitl [HO]
    · iexists W'; isplitr
      · ipureintro
        exact fun p hp => (hW' p hp).elim (hW p) (fun h => by rw [h, SparseCore.Cfg.lev_none]; exact Nat.zero_le _)
      · iexact HO
    iexact Hst
  ihave H9 := (Entails.of_eq (held_take (F := F) (T d) SU (V9 m d) (b := a') (by decide))) $$ Hheld
  icases H9 with ⟨Ha, Hheld⟩
  ihave H10 := (Entails.of_eq (held_take (F := F) (T d) (SU.erase a') (V9 m d) (b := o') (by decide))) $$ Hheld
  icases H10 with ⟨Ho, -⟩
  unfold FIN
  isplitl [Ha]; · iexact Ha
  iexact Ho

end Cert.KB.Launch

end
-- ==== Proof.KB.LaunchD.lean ====
/-
  The kernel program's run.

  Along @main no operation writes the input, so at the end its buffer holds what it held at the launch; and the
  result buffer holds the last reshape of the selection between zero and the sum of the two kernels' results, which
  is, operation by operation, the specified result of the launch contents of the input.  The launch theorem then
  gives the run of all thirty-five threads from the vector subcores' obligation and @main's proof, and what @main
  leaves — the two buffers at those contents — is read off the final memory.
-/
import proofs.«210774_g2740189135076_cont_9to1_1653_26_alg».proof.Proof.KB.LaunchC
import proofs.«210774_g2740189135076_cont_9to1_1653_26_alg».proof.Proof.Gen.Kernel

noncomputable section

namespace Cert.KB.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The last valuation at the two buffers of the claim -/

section Vals

variable (d : Dev nD)

/-- No operation of @main writes the input: its buffer holds at the end what it held at the launch. -/
theorem V9_arg : V9 m d a' = m (aLoc d) :=
  ((opR1 (F := F)).result_of_not_mem (V8 m d) (b := a') (show a' ∉ ({o'} : Finset (DevRef τ sig)) by decide)).trans <|
  ((opSel (F := F)).result_of_not_mem (V7 m d) (b := a') (show a' ∉ ({Proc.devRef .tc (main_v6 : Ref sig .tc)} : Finset (DevRef τ sig)) by decide)).trans <|
  ((opBc (F := F)).result_of_not_mem (V6 m d) (b := a') (show a' ∉ ({Proc.devRef .tc (main_v5 : Ref sig .tc)} : Finset (DevRef τ sig)) by decide)).trans <|
  ((opCst (F := F)).result_of_not_mem (V5 m d) (b := a') (show a' ∉ ({Proc.devRef .tc (main_cst : Ref sig .tc)} : Finset (DevRef τ sig)) by decide)).trans <|
  ((opCmp (F := F)).result_of_not_mem (V4 m d) (b := a') (show a' ∉ ({Proc.devRef .tc (main_v4 : Ref sig .tc)} : Finset (DevRef τ sig)) by decide)).trans <|
  ((opAdd (F := F)).result_of_not_mem (V3 m d) (b := a') (show a' ∉ ({Proc.devRef .tc (main_v3 : Ref sig .tc)} : Finset (DevRef τ sig)) by decide)).trans <|
  (Function.update_of_ne (show a' ≠ x' by decide) _ _).trans <|
  (Function.update_of_ne (show a' ≠ s' by decide) _ _).trans <|
  (Function.update_of_ne (show a' ≠ t' by decide) _ _).trans <|
  ((opR0 (F := F)).result_of_not_mem (V0 m d) (b := a') (show a' ∉ ({x'} : Finset (DevRef τ sig)) by decide))

/-- The result buffer holds at the end the specified result of the input's launch contents: the segment array is
    the input reshaped, the two kernels left their specified parts, and the host operations after them are the
    specification's own. -/
theorem V9_out : V9 m d o' = Cert.Spec.kernelOut (F := F) shapeCasts_S8x8x4096x128_S64x4096x128 shapeCasts_S64x128_S8x8x128
    reduces_S2816x128_S128 bcast_S_S64x128 (m (aLoc d)) := by
  have hx : Xof m d = shapeCast S64x4096x128 (m (aLoc d)) shapeCasts_S8x8x4096x128_S64x4096x128 :=
    StableHlo.reshape_result main_arg0 main_v0 rfl shapeCasts_S8x8x4096x128_S64x4096x128 ⟨by decide, rfl⟩ ⟨by decide, rfl⟩ (V0 m d)
  have hs : V3 m d s' = scBuf d (Xof m d) :=
    (Function.update_of_ne (show s' ≠ x' by decide) _ _).trans (Function.update_self _ _ _)
  have ht : V3 m d t' = tcBuf d (Xof m d) :=
    (Function.update_of_ne (show t' ≠ x' by decide) _ _).trans
      ((Function.update_of_ne (show t' ≠ s' by decide) _ _).trans (Function.update_self _ _ _))
  have h4 : V4 m d (Proc.devRef .tc (main_v3 : Ref sig .tc)) = _ :=
    StableHlo.binary_result main_v1 main_v2 main_v3 _ ⟨by decide, rfl⟩ ⟨by decide, rfl⟩ ⟨by decide, rfl⟩ (V3 m d)
  have h5 : V5 m d (Proc.devRef .tc (main_v4 : Ref sig .tc)) = _ :=
    StableHlo.binary_result main_v3 main_v3 main_v4 _ ⟨by decide, rfl⟩ ⟨by decide, rfl⟩ ⟨by decide, rfl⟩ (V4 m d)
  have h5' : V5 m d (Proc.devRef .tc (main_v3 : Ref sig .tc)) = V4 m d (Proc.devRef .tc (main_v3 : Ref sig .tc)) :=
    StableHlo.binary_result_ne main_v3 main_v3 main_v4 _ ⟨by decide, rfl⟩ ⟨by decide, rfl⟩ ⟨by decide, rfl⟩ (V4 m d) (by decide)
  have h6 : V6 m d (Proc.devRef .tc (main_cst : Ref sig .tc)) = _ :=
    StableHlo.nullary_result main_cst _ ⟨by decide, rfl⟩ (V5 m d)
  have h6' : V6 m d (Proc.devRef .tc (main_v4 : Ref sig .tc)) = V5 m d (Proc.devRef .tc (main_v4 : Ref sig .tc)) :=
    StableHlo.nullary_result_ne main_cst _ ⟨by decide, rfl⟩ (V5 m d) (by decide)
  have h6'' : V6 m d (Proc.devRef .tc (main_v3 : Ref sig .tc)) = V5 m d (Proc.devRef .tc (main_v3 : Ref sig .tc)) :=
    StableHlo.nullary_result_ne main_cst _ ⟨by decide, rfl⟩ (V5 m d) (by decide)
  have h7 : V7 m d (Proc.devRef .tc (main_v5 : Ref sig .tc)) = _ :=
    StableHlo.unary_result main_cst main_v5 _ ⟨by decide, rfl⟩ ⟨by decide, rfl⟩ (V6 m d)
  have h7' : V7 m d (Proc.devRef .tc (main_v4 : Ref sig .tc)) = V6 m d (Proc.devRef .tc (main_v4 : Ref sig .tc)) :=
    StableHlo.unary_result_ne main_cst main_v5 _ ⟨by decide, rfl⟩ ⟨by decide, rfl⟩ (V6 m d) (by decide)
  have h7'' : V7 m d (Proc.devRef .tc (main_v3 : Ref sig .tc)) = V6 m d (Proc.devRef .tc (main_v3 : Ref sig .tc)) :=
    StableHlo.unary_result_ne main_cst main_v5 _ ⟨by decide, rfl⟩ ⟨by decide, rfl⟩ (V6 m d) (by decide)
  have h8 : V8 m d (Proc.devRef .tc (main_v6 : Ref sig .tc)) = _ :=
    StableHlo.ternary_result main_v4 main_v5 main_v3 main_v6 _ ⟨by decide, rfl⟩ ⟨by decide, rfl⟩ ⟨by decide, rfl⟩ ⟨by decide, rfl⟩ (V7 m d)
  have h9 : V9 m d o' = _ :=
    StableHlo.reshape_result main_v6 main_v7 rfl shapeCasts_S64x128_S8x8x128 ⟨by decide, rfl⟩ ⟨by decide, rfl⟩ (V8 m d)
  rw [h9, h8, h7, h7', h7'', h6, h6', h6'', h5, h5', h4, hs, ht, hx]
  rfl

end Vals

/-! ## The run of all the threads -/

/-- What the final memory is asked on device `d`: the result buffer at the specified result of the input's launch
    contents, the input's buffer at its launch contents. -/
def fq (d : Dev nD) (s' : Phys nD τ sig (Elt F)) : Prop :=
  s'.mem.mem (oLoc d) = Cert.Spec.kernelOut (F := F) shapeCasts_S8x8x4096x128_S64x4096x128 shapeCasts_S64x128_S8x8x128
      reduces_S2816x128_S128 bcast_S_S64x128 (m (aLoc d))
    ∧ s'.mem.mem (aLoc d) = m (aLoc d)

/-- What @main leaves pins both buffers in the final memory. -/
theorem hfin (d : Dev nD) (s' : Phys nD τ sig (Elt F)) : iprop(FIN m d ∗ SI s') ⊢ (⌜fq m d s'⌝ : sProp 𝕄) := by
  unfold FIN
  iintro ⟨⟨Ha, Ho⟩, HSI⟩
  icombine HSI Ha gives %ha
  icombine HSI Ho gives %ho
  ipureintro
  exact ⟨(funext fun i => ho i (Finset.mem_univ i)).trans (V9_out m d),
    (funext fun i => ha i (Finset.mem_univ i)).trans (V9_arg m d)⟩

/-- The run's post: on every device the result is the specified one and the input is unchanged. -/
def QC : PUnit × MemSt nD τ sig (Elt F) → Prop := fun r => ∀ c : Dev nD,
  r.2.mem (oLoc c) = Cert.Spec.kernelOut (F := F) shapeCasts_S8x8x4096x128_S64x4096x128 shapeCasts_S64x128_S8x8x128
      reduces_S2816x128_S128 bcast_S_S64x128 (m (aLoc c))
    ∧ r.2.mem (aLoc c) = m (aLoc c)

/-- From the vector subcores' body at a symbolic tile and the TensorCore kernel's region: every weakly fair execution
    of the thirty-five threads terminates with the result at its specified value and the input unchanged. -/
theorem run_main [∀ e, Nonempty (Elt F e)] (hT : TileSpec (F := F)) (hReg : RegionSpec (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Xof m)) facts v₀
    (fun q hq => match q with | 0 => nomatch hq)
    (fun q _ => match q with | 0 => tileObl (Xof m) hT)
    (fun q _ => match q with | 0 => SparseCore.Cfg.VecSplit.of_plain (vecSplit (Xof m)))
    m ρ main (G (F := F)) (FIN m) (u₀ (F := F)) (sep_elim_left.trans (hu₀ (Xof m))) (hmain m ρ hReg) (fq m) (hfin m) (QC m)
    (fun _ h => h)

end Cert.KB.Launch

end
-- ==== Proof.Assemble.lean ====
/-
  The certificate's claim from the four facts about the two kernels' bodies.

  The kernel program as printed runs and leaves its input unchanged (its run, written once for any reading of the
  floats, read bit-exactly, with the result's value dropped); with the idealized kernel's and the idealized
  reference's frames, the idealization that rewrote nothing, and the equality of the two idealized results, that is
  every conjunct of the claim.
-/
import proofs.«210774_g2740189135076_cont_9to1_1653_26_alg».proof.Proof.Claims
import proofs.«210774_g2740189135076_cont_9to1_1653_26_alg».proof.Proof.KB.LaunchD

noncomputable section

namespace Cert.Proof.Assemble

open Idealize.ShloMosaic Idealize.ShloMosaic.TcCoe Idealize.SL.Sem

/-- The kernel program as printed runs and leaves its input unchanged: its run with the result's value dropped. -/
theorem frame_Kernel (hT : Cert.KB.Launch.TileSpec (F := Bits)) (hReg : Cert.KB.Launch.RegionSpec (F := Bits)) :
    Cert.frame_Kernel (hKernel := Cert.Kernel.Gen.facts) (hPre_finite_inputs := Cert.Pre_finite_inputs.Gen.facts) :=
  fun m ρ _ => (θ_run Cert.Kernel.defs _ _).mono (fun _ h c => (h c).2) (Cert.KB.Launch.run_main (F := Bits) m ρ hT hReg)

/-- Every conjunct of the claim, from the vector subcores' body at a symbolic tile and the TensorCore kernel's region,
    each at the ideal reading and at the bit-exact reading of the floats. -/
theorem claim_of (hTI : Cert.KI.Launch.TileSpec (F := Ideal)) (hRI : Cert.KI.Launch.RegionSpec (F := Ideal))
    (hTB : Cert.KB.Launch.TileSpec (F := Bits)) (hRB : Cert.KB.Launch.RegionSpec (F := Bits)) : Cert.Claim :=
  ⟨Cert.Kernel.Gen.facts, Cert.KernelIdeal.Gen.facts, Cert.ReferenceIdeal.Gen.facts, Cert.Pre_finite_inputs.Gen.facts,
    frame_Kernel hTB hRB, Cert.Proof.Claims.frame_KernelIdeal hTI hRI, Cert.Proof.Claims.frame_ReferenceIdeal, trivial,
    Cert.Proof.Claims.algebraic hTI hRI⟩

end Cert.Proof.Assemble

end
-- ==== Proof.KI.TileRows.lean ====
/-
  The body of one vector-subcore tile of the SparseCore kernel, at a symbolic tile.

  A tile owns two consecutive segments of the input (64 segments of 4096 rows of 128 columns).  For each of
  them it adds rows 0 … 1279, in row order, into eight accumulators of sixteen lanes (one per group of
  sixteen columns), multiplies each accumulator by 1/128 and stores it into a two-row scratch; the scratch is
  then copied into the tile's two rows of the result.  The rows arrive in chunks of 320 through two slots of
  a staging scratch, each slot filled by a copy of its own on a semaphore of its own.
-/
import proofs.«210774_g2740189135076_cont_9to1_1653_26_alg».proof.KernelIdeal
import proofs.«210774_g2740189135076_cont_9to1_1653_26_alg».proof.Proof.Gen.KernelIdeal
import proofs.«210774_g2740189135076_cont_9to1_1653_26_alg».proof.Proof.Gen.KernelIdeal.Skeleton
import proofs.«210774_g2740189135076_cont_9to1_1653_26_alg».proof.Proof.Gen.KernelIdeal.Loops
import proofs.«210774_g2740189135076_cont_9to1_1653_26_alg».proof.Proof.Spec
import Idealize.ShloMosaic.Lib.SparseCore.Launch
import Idealize.ShloMosaic.Lib.Tactic

noncomputable section

namespace Cert.KI.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

/-- The tile's thread. -/
abbrev thrOf (d : Dev nD) (L : grid0.Coords) : Thread nD τ := V d ((L 0).castLE hcore0) ((L 1).castLE hsub0)

/-- The tile's number: subcore times two plus core. -/
abbrev wid (L : grid0.Coords) : Nat := (L 1).val * 2 + (L 0).val

/-- The memref the final copy writes: the tile's two rows of the result. -/
abbrev outRows (L : grid0.Coords) : Memref sig .scVector .hbm S2x128 .f32 :=
  (Memref.whole main_v1_scv).slice (Rect.unit (s := S64x128) (k0_off41 L) S2x128.size (k0_off41_inb L)) (fun _ => rfl)

/-- The two result rows of the tile. -/
abbrev tileRows (L : grid0.Coords) : Finset S64x128.Idx := (outRows L).view.set

abbrev xLoc (d : Dev nD) : Loc nD τ sig := (SparseCore.T d).loc main_v0
abbrev sLoc (d : Dev nD) : Loc nD τ sig := (SparseCore.T d).loc main_v1

-- the kernel's memrefs, spelt as the body table passes them
local notation "xW" => (Memref.whole Cert.KernelIdeal.main_v0_scv : Memref Cert.KernelIdeal.sig Kind.scVector Space.hbm Cert.KernelIdeal.S64x4096x128 EltTy.f32)
local notation "oW" => (Memref.whole Cert.KernelIdeal.main_v1_scv : Memref Cert.KernelIdeal.sig Kind.scVector Space.hbm Cert.KernelIdeal.S64x128 EltTy.f32)
local notation "bW" => (Memref.whole Cert.KernelIdeal.cc0_scratch0 : Memref Cert.KernelIdeal.sig Kind.scVector Space.vmem Cert.KernelIdeal.S640x128 EltTy.f32)
local notation "vW" => (Memref.whole Cert.KernelIdeal.cc0_scratch1 : Memref Cert.KernelIdeal.sig Kind.scVector Space.vmem Cert.KernelIdeal.S2x128 EltTy.f32)

section Open

variable (d : Dev nD) (L : grid0.Coords)

abbrev cV (L : grid0.Coords) : Fin τ.nSC := (L 0).castLE hcore0
abbrev jV (L : grid0.Coords) : Fin τ.nSub := (L 1).castLE hsub0

abbrev c2cell : GSem nD τ sig := (thrOf d L, .dma cc0_scratch2.sem)
abbrev c3cell : GSem nD τ sig := (thrOf d L, .dma cc0_scratch3.sem)
abbrev c5cell : GSem nD τ sig := (thrOf d L, .dma cc0_scoped0.sem)

/-- The tile's semaphores at zero: the three the body uses, and the rest. -/
theorem ownSems0_V :
    (ownSems0 (thrOf d L) : sProp 𝕄)
      = iprop(semVal (c2cell d L) 0 ∗ semVal (c3cell d L) 0 ∗ semVal (c5cell d L) 0
          ∗ bigSep ((((ownCells (thrOf d L)).erase (c2cell d L)).erase (c3cell d L)).erase (c5cell d L))
              fun g => semVal g 0) := by
  unfold SparseCore.Cfg.ownSems0
  rw [SparseCore.bigSep_erase' ((mem_ownCells (g := c2cell d L)).mpr ⟨rfl, by
      show (SemLoc.dma cc0_scratch2.sem : SemLoc sig).isScoped .scVector = true; decide⟩),
    SparseCore.bigSep_erase' (Finset.mem_erase.mpr ⟨by simp [c2cell, c3cell]; decide, (mem_ownCells (g := c3cell d L)).mpr ⟨rfl, by
      show (SemLoc.dma cc0_scratch3.sem : SemLoc sig).isScoped .scVector = true; decide⟩⟩),
    SparseCore.bigSep_erase' (Finset.mem_erase.mpr ⟨by simp [c3cell, c5cell]; decide, Finset.mem_erase.mpr ⟨by simp [c2cell, c5cell]; decide,
      (mem_ownCells (g := c5cell d L)).mpr ⟨rfl, by show (SemLoc.dma cc0_scoped0.sem : SemLoc sig).isScoped .scVector = true; decide⟩⟩⟩)]

/-- The tile's own buffers: the two scratch buffers, at some contents, and the rest. -/
theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The input array as the tile's memref addresses it is the TensorCore's array. -/
theorem pts_x (q : PosShare TreeShare) (f : Buf (Elt F) (xLoc d)) :
    ((xW).view.loc (thrOf d L) ↦{q} f : sProp 𝕄) = xLoc d ↦{q} f := by
  simp only [Memref.view_whole, View.set_whole]

/-- The tile's result rows as the final copy's target addresses them. -/
theorem pts_o (f : Buf (Elt F) (sLoc d)) :
    ((outRows L).view.loc (thrOf d L) ↦[(outRows L).view.set]{fullShare} f : sProp 𝕄) = sLoc d ↦[tileRows L]{fullShare} f := rfl

theorem pts_b (f : Buf (Elt F) ((thrOf d L).loc cc0_scratch0)) :
    ((bW).view.loc (thrOf d L) ↦{fullShare} f : sProp 𝕄) = (thrOf d L).loc cc0_scratch0 ↦{fullShare} f := rfl
theorem pts_v (f : Buf (Elt F) ((thrOf d L).loc cc0_scratch1)) :
    ((vW).view.loc (thrOf d L) ↦{fullShare} f : sProp 𝕄) = (thrOf d L).loc cc0_scratch1 ↦{fullShare} f := rfl

end Open

section Slots

variable (d : Dev nD) (L : grid0.Coords)

/-- The two slots of the staging scratch: rows 0 … 319 and rows 320 … 639. -/
abbrev slot0 : Memref sig .scVector .vmem S320x128 .f32 :=
  (bW).slice (Rect.unit (s := S640x128) ![0, 0] S320x128.size inb_S640x128_S320x128_0_0) (fun _ => rfl)
abbrev slot1 : Memref sig .scVector .vmem S320x128 .f32 :=
  (bW).slice (Rect.unit (s := S640x128) ![320, 0] S320x128.size inb_S640x128_S320x128_320_0) (fun _ => rfl)

theorem slot0_set : (slot0).view.set = (Rect.unit (s := S640x128) ![0, 0] S320x128.size inb_S640x128_S320x128_0_0).set :=
  View.set_slice_whole _ _
theorem slot1_set : (slot1).view.set = (Rect.unit (s := S640x128) ![320, 0] S320x128.size inb_S640x128_S320x128_320_0).set :=
  View.set_slice_whole _ _

theorem slot_disj : Disjoint (slot0).view.set (slot1).view.set := by
  rw [slot0_set, slot1_set]
  exact Rect.unit_disjoint 0 (Or.inl (by decide))

theorem slot1_sub : (slot1).view.set ⊆ Finset.univ \ (slot0).view.set :=
  fun i hi => Finset.mem_sdiff.mpr ⟨Finset.mem_univ _, fun h0 => Finset.disjoint_left.mp slot_disj h0 hi⟩

/-- The staging scratch held whole is its two slots and what is left. -/
theorem pts_b_split (f : Buf (Elt F) ((thrOf d L).loc cc0_scratch0)) :
    ((bW).view.loc (thrOf d L) ↦{fullShare} f : sProp 𝕄)
      ⊢ iprop(((slot0).view.loc (thrOf d L) ↦[(slot0).view.set]{fullShare} f) ∗ ((slot1).view.loc (thrOf d L) ↦[(slot1).view.set]{fullShare} f)
          ∗ ((bW).view.loc (thrOf d L) ↦[(Finset.univ \ (slot0).view.set) \ (slot1).view.set]{fullShare} f)) := by
  iintro H
  ihave H' := (pointsTo_split_subset (ℓ := (bW).view.loc (thrOf d L)) (I := (slot0).view.set) (S := Finset.univ) (Finset.subset_univ _)).1 $$ H
  icases H' with ⟨H0, Hr⟩
  ihave Hr' := (pointsTo_split_subset (ℓ := (bW).view.loc (thrOf d L)) (I := (slot1).view.set) (S := Finset.univ \ (slot0).view.set) slot1_sub).1 $$ Hr
  icases Hr' with ⟨H1, Hr⟩
  isplitl [H0]; · iexact H0
  isplitl [H1]; · iexact H1
  iexact Hr

/-- and back, at whatever the pieces hold. -/
theorem pts_b_join (f0 f1 f2 : Buf (Elt F) ((thrOf d L).loc cc0_scratch0)) :
    iprop(((slot0).view.loc (thrOf d L) ↦[(slot0).view.set]{fullShare} f0) ∗ ((slot1).view.loc (thrOf d L) ↦[(slot1).view.set]{fullShare} f1)
          ∗ ((bW).view.loc (thrOf d L) ↦[(Finset.univ \ (slot0).view.set) \ (slot1).view.set]{fullShare} f2))
      ⊢ (∃ f, (thrOf d L).loc cc0_scratch0 ↦{fullShare} f : sProp 𝕄) := by
  iintro ⟨H0, H1, Hr⟩
  ihave Hr' := (pointsTo_join_subset (ℓ := (bW).view.loc (thrOf d L)) (I := (slot1).view.set) (S := Finset.univ \ (slot0).view.set) slot1_sub) $$ [H1 Hr]
  · isplitl [H1]; · iexact H1
    iexact Hr
  ihave Hw := (pointsTo_join_subset (ℓ := (bW).view.loc (thrOf d L)) (I := (slot0).view.set) (S := Finset.univ) (Finset.subset_univ _)) $$ [H0 Hr']
  · isplitl [H0]; · iexact H0
    iexact Hr'
  iexists _; iexact Hw

/-- The input array's read share as one token per slot's semaphore and a remainder. -/
theorem pts_x_toks (q : PosShare TreeShare) (f : Buf (Elt F) (xLoc d)) :
    ((xW).view.loc (thrOf d L) ↦{q} f : sProp 𝕄)
      ⊣⊢ iprop(((xW).view.loc (thrOf d L) ↦{Transfers.shareDrop q 2} f) ∗ ((xW).view.loc (thrOf d L) ↦{Transfers.shareTokN q 0} f)
          ∗ ((xW).view.loc (thrOf d L) ↦{Transfers.shareTokN q 1} f)) := by
  refine (Transfers.pointsTo_toks_range q 2).trans ?_
  rw [show Finset.range 2 = {0, 1} by decide, SparseCore.bigSep_insert' (by decide), bigSep_singleton]

end Slots

section Rows

variable [FloatOps F]
variable (d : Dev nD) (L : grid0.Coords)

/-- One trip of a row loop: it only reads its slot. -/
theorem rows_s0_a (c0 c1 : BitVec 32) (p : Fin k0_t1_loop.trips)
    (a9 a10 a11 a12 a13 a14 a15 a16 : FVec F S16 .f32) (k : Fin k0_t2_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot0).view.loc (thrOf d L)), (slot0).view.loc (thrOf d L) ↦[(slot0).view.set]{fullShare} g)) :
    R ⊢ wp frame (wpE (defs₀ (F := F)) 𝒱₀ (thrOf d L) none) Set.univ
          (k0_t2_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t2_body
  simp only [k0_part1_eq_skeleton, k0_part2_eq_skeleton, k0_part3_eq_skeleton]
  unfold k0_part1_skel k0_part2_skel k0_part3_skel
  subst hR
  iintro ⟨%g, Hb⟩
  have hk80 : k.val < 80 := lt_of_lt_of_le k.isLt k0_t2_abs.2.1
  sl_exec
  sl_step
  iexists _; iexact Hb

/-- One trip of a row loop: it only reads its slot. -/
theorem rows_s0_b (c0 c1 : BitVec 32) (p : Fin k0_t1_loop.trips)
    (a9 a10 a11 a12 a13 a14 a15 a16 : FVec F S16 .f32) (k : Fin k0_t3_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot1).view.loc (thrOf d L)), (slot1).view.loc (thrOf d L) ↦[(slot1).view.set]{fullShare} g)) :
    R ⊢ wp frame (wpE (defs₀ (F := F)) 𝒱₀ (thrOf d L) none) Set.univ
          (k0_t3_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t3_body
  simp only [k0_part4_eq_skeleton, k0_part5_eq_skeleton, k0_part6_eq_skeleton]
  unfold k0_part4_skel k0_part5_skel k0_part6_skel
  subst hR
  iintro ⟨%g, Hb⟩
  have hk80 : k.val < 80 := lt_of_lt_of_le k.isLt k0_t3_abs.2.1
  sl_exec
  sl_step
  iexists _; iexact Hb

/-- One trip of a row loop: it only reads its slot. -/
theorem rows_s1_a (c0 c1 : BitVec 32) (p : Fin k0_t4_loop.trips)
    (a9 a10 a11 a12 a13 a14 a15 a16 : FVec F S16 .f32) (k : Fin k0_t5_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot0).view.loc (thrOf d L)), (slot0).view.loc (thrOf d L) ↦[(slot0).view.set]{fullShare} g)) :
    R ⊢ wp frame (wpE (defs₀ (F := F)) 𝒱₀ (thrOf d L) none) Set.univ
          (k0_t5_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t5_body
  simp only [k0_part8_eq_skeleton, k0_part9_eq_skeleton, k0_part10_eq_skeleton]
  unfold k0_part8_skel k0_part9_skel k0_part10_skel
  subst hR
  iintro ⟨%g, Hb⟩
  have hk80 : k.val < 80 := lt_of_lt_of_le k.isLt k0_t5_abs.2.1
  sl_exec
  sl_step
  iexists _; iexact Hb

/-- One trip of a row loop: it only reads its slot. -/
theorem rows_s1_b (c0 c1 : BitVec 32) (p : Fin k0_t4_loop.trips)
    (a9 a10 a11 a12 a13 a14 a15 a16 : FVec F S16 .f32) (k : Fin k0_t6_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot1).view.loc (thrOf d L)), (slot1).view.loc (thrOf d L) ↦[(slot1).view.set]{fullShare} g)) :
    R ⊢ wp frame (wpE (defs₀ (F := F)) 𝒱₀ (thrOf d L) none) Set.univ
          (k0_t6_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t6_body
  simp only [k0_part11_eq_skeleton, k0_part12_eq_skeleton, k0_part13_eq_skeleton]
  unfold k0_part11_skel k0_part12_skel k0_part13_skel
  subst hR
  iintro ⟨%g, Hb⟩
  have hk80 : k.val < 80 := lt_of_lt_of_le k.isLt k0_t6_abs.2.1
  sl_exec
  sl_step
  iexists _; iexact Hb

end Rows

end Cert.KI.Tile

end
-- ==== Proof.KI.Tile.lean ====
/-
  The body of one vector-subcore tile of the SparseCore kernel, at a symbolic tile: the pair loops and the whole body.

  Each segment's 1280 rows arrive in four chunks of 320 through the two slots of the staging scratch.  Before trip `p`
  of a segment's pair loop both slots have a copy in flight (chunks 2p and 2p+1); a trip waits for slot 0, adds its rows,
  starts the copy of chunk 2p+2 into it if there is one, and does the same for slot 1.  After the last trip both slots
  are at rest.
-/
import proofs.«210774_g2740189135076_cont_9to1_1653_26_alg».proof.Proof.KI.TileRows

noncomputable section

namespace Cert.KI.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.KernelIdeal.main_v0_scv : Memref Cert.KernelIdeal.sig Kind.scVector Space.hbm Cert.KernelIdeal.S64x4096x128 EltTy.f32)
local notation "oW" => (Memref.whole Cert.KernelIdeal.main_v1_scv : Memref Cert.KernelIdeal.sig Kind.scVector Space.hbm Cert.KernelIdeal.S64x128 EltTy.f32)
local notation "bW" => (Memref.whole Cert.KernelIdeal.cc0_scratch0 : Memref Cert.KernelIdeal.sig Kind.scVector Space.vmem Cert.KernelIdeal.S640x128 EltTy.f32)
local notation "vW" => (Memref.whole Cert.KernelIdeal.cc0_scratch1 : Memref Cert.KernelIdeal.sig Kind.scVector Space.vmem Cert.KernelIdeal.S2x128 EltTy.f32)

/-- The tile's two result rows are the rows whose number halves to the tile's number. -/
theorem tileRows_eq (L : grid0.Coords) :
    tileRows L = Finset.univ.filter fun j : S64x128.Idx => (j 0).val / 2 = wid L := by
  have h : tileRows L = (Rect.unit (s := S64x128) (k0_off41 L) S2x128.size (k0_off41_inb L)).set := View.set_slice_whole _ _
  rw [h]
  ext j
  rw [Rect.mem_set_unit, Finset.mem_filter, k0_off41_eq]
  have h1 := (j 1).isLt
  constructor
  · intro hh
    refine ⟨Finset.mem_univ _, ?_⟩
    have h0 := hh 0
    simp only [Matrix.cons_val_zero] at h0
    show (j 0).val / 2 = (L 1).val * 2 + (L 0).val
    have : S2x128.size 0 = 2 := rfl
    omega
  · rintro ⟨-, hh⟩ a
    have hw : (j 0).val / 2 = (L 1).val * 2 + (L 0).val := hh
    match a with
    | 0 =>
      simp only [Matrix.cons_val_zero]
      have : S2x128.size 0 = 2 := rfl
      omega
    | 1 =>
      simp only [Matrix.cons_val_one, Matrix.cons_val_zero]
      have : S2x128.size 1 = 128 := rfl
      have : S64x128.size 1 = 128 := rfl
      omega

section Pair

variable [FloatOps F]
variable (d : Dev nD) (L : grid0.Coords) (q : PosShare TreeShare) (X : Buf (Elt F) (xLoc d))
  (O : CellTallies nD τ sig (HIx 1)) (W : Waits sig (HIx 1))

/-- The 320 rows of the input at offsets `off`, as the copies address them. -/
abbrev chunkAt (off : Fin 3 → Nat) (inb : ∀ a, off a + S1x320x128.size a ≤ S64x4096x128.size a) : Memref sig .scVector .hbm S320x128 .f32 :=
  ((xW).slice (Rect.unit (s := S64x4096x128) off S1x320x128.size inb) (fun _ => rfl)).squeeze S320x128 squeezes_S1x320x128_S320x128

/-- A copy into slot 0 in flight: the slot and the chunk's elements are the transfer's until its wait; the rest of
    the slot's read token of the input stays here. -/
def fly0 : sProp 𝕄 :=
  iprop(∃ (off : Fin 3 → Nat) (inb : ∀ a, off a + S1x320x128.size a ≤ S64x4096x128.size a) (f : Buf (Elt F) ((slot0).view.loc (thrOf d L))),
    Transfers.Flight countersEmb (thrOf d L) (SemLoc.dma cc0_scratch2.sem) (default : HIx 1) 1310720
        iprop(((slot0).view.loc (thrOf d L) ↦[(slot0).view.set]{fullShare}
            (slot0).view.writes (Elt F) f [⟨Rect.whole S320x128, ReadAs.same.apply ((chunkAt off inb).view.read (Elt F) X)⟩])
          ∗ ((xW).view.loc (thrOf d L) ↦[(chunkAt off inb).view.set]{Transfers.shareTokN q 0} X))
      ∗ ((xW).view.loc (thrOf d L) ↦[Finset.univ \ (chunkAt off inb).view.set]{Transfers.shareTokN q 0} X))

/-- Slot 0 at rest: held at some contents, its semaphore at zero, its read token whole. -/
def idle0 : sProp 𝕄 :=
  iprop((∃ f : Buf (Elt F) ((slot0).view.loc (thrOf d L)), (slot0).view.loc (thrOf d L) ↦[(slot0).view.set]{fullShare} f)
    ∗ semVal ((thrOf d L, SemLoc.dma cc0_scratch2.sem) : GSem nD τ sig) 0 ∗ ((xW).view.loc (thrOf d L) ↦{Transfers.shareTokN q 0} X))

/-- A copy into slot 1 in flight: the slot and the chunk's elements are the transfer's until its wait; the rest of
    the slot's read token of the input stays here. -/
def fly1 : sProp 𝕄 :=
  iprop(∃ (off : Fin 3 → Nat) (inb : ∀ a, off a + S1x320x128.size a ≤ S64x4096x128.size a) (f : Buf (Elt F) ((slot1).view.loc (thrOf d L))),
    Transfers.Flight countersEmb (thrOf d L) (SemLoc.dma cc0_scratch3.sem) (default : HIx 1) 1310720
        iprop(((slot1).view.loc (thrOf d L) ↦[(slot1).view.set]{fullShare}
            (slot1).view.writes (Elt F) f [⟨Rect.whole S320x128, ReadAs.same.apply ((chunkAt off inb).view.read (Elt F) X)⟩])
          ∗ ((xW).view.loc (thrOf d L) ↦[(chunkAt off inb).view.set]{Transfers.shareTokN q 1} X))
      ∗ ((xW).view.loc (thrOf d L) ↦[Finset.univ \ (chunkAt off inb).view.set]{Transfers.shareTokN q 1} X))

/-- Slot 1 at rest: held at some contents, its semaphore at zero, its read token whole. -/
def idle1 : sProp 𝕄 :=
  iprop((∃ f : Buf (Elt F) ((slot1).view.loc (thrOf d L)), (slot1).view.loc (thrOf d L) ↦[(slot1).view.set]{fullShare} f)
    ∗ semVal ((thrOf d L, SemLoc.dma cc0_scratch3.sem) : GSem nD τ sig) 0 ∗ ((xW).view.loc (thrOf d L) ↦{Transfers.shareTokN q 1} X))

/-- Before trip `p` of a pair loop: both slots' copies in flight while trips remain, both slots at rest after the last. -/
def invPair (p : Nat) (_ : FVec F S16 .f32 × FVec F S16 .f32 × FVec F S16 .f32 × FVec F S16 .f32 × FVec F S16 .f32 × FVec F S16 .f32 × FVec F S16 .f32 × FVec F S16 .f32) : sProp 𝕄 :=
  iprop(Transfers.MayWaits (thrOf d L) (none : HIx 1) O
    ∗ (if p < 2 then (iprop(fly0 d L q X ∗ fly1 d L q X) : sProp 𝕄) else (iprop(idle0 d L q X ∗ idle1 d L q X) : sProp 𝕄))
    ∗ ∃ W', ⌜∀ p ∈ W', p ∈ W ∨ p.2 = none⌝ ∗ owes (thrOf d L) O W')

theorem cond1_iff : ∀ k : Fin k0_t1_loop.trips, k0_cond1 k = 1#1 ↔ k.val = 0 := by decide +kernel
theorem cond2_iff : ∀ k : Fin k0_t1_loop.trips, k0_cond2 k = 1#1 ↔ k.val = 0 := by decide +kernel
theorem cond3_iff : ∀ k : Fin k0_t4_loop.trips, k0_cond3 k = 1#1 ↔ k.val = 0 := by decide +kernel
theorem cond4_iff : ∀ k : Fin k0_t4_loop.trips, k0_cond4 k = 1#1 ↔ k.val = 0 := by decide +kernel

/-- The invariant while trips remain, spelt out. -/
theorem invPair_lt {p : Nat} {acc : FVec F S16 .f32 × FVec F S16 .f32 × FVec F S16 .f32 × FVec F S16 .f32 × FVec F S16 .f32 × FVec F S16 .f32 × FVec F S16 .f32 × FVec F S16 .f32} (h : p < 2) :
    invPair (U := U) d L q X O W p acc
      = iprop(Transfers.MayWaits (thrOf d L) (none : HIx 1) O
        ∗ ((∃ (off : Fin 3 → Nat) (inb : ∀ a, off a + S1x320x128.size a ≤ S64x4096x128.size a) (f : Buf (Elt F) ((slot0).view.loc (thrOf d L))),
        Transfers.Flight countersEmb (thrOf d L) (SemLoc.dma cc0_scratch2.sem) (default : HIx 1) 1310720
            iprop(((slot0).view.loc (thrOf d L) ↦[(slot0).view.set]{fullShare}
                (slot0).view.writes (Elt F) f [⟨Rect.whole S320x128, ReadAs.same.apply ((chunkAt off inb).view.read (Elt F) X)⟩])
              ∗ ((xW).view.loc (thrOf d L) ↦[(chunkAt off inb).view.set]{Transfers.shareTokN q 0} X))
          ∗ ((xW).view.loc (thrOf d L) ↦[Finset.univ \ (chunkAt off inb).view.set]{Transfers.shareTokN q 0} X))
          ∗ (∃ (off : Fin 3 → Nat) (inb : ∀ a, off a + S1x320x128.size a ≤ S64x4096x128.size a) (f : Buf (Elt F) ((slot1).view.loc (thrOf d L))),
        Transfers.Flight countersEmb (thrOf d L) (SemLoc.dma cc0_scratch3.sem) (default : HIx 1) 1310720
            iprop(((slot1).view.loc (thrOf d L) ↦[(slot1).view.set]{fullShare}
                (slot1).view.writes (Elt F) f [⟨Rect.whole S320x128, ReadAs.same.apply ((chunkAt off inb).view.read (Elt F) X)⟩])
              ∗ ((xW).view.loc (thrOf d L) ↦[(chunkAt off inb).view.set]{Transfers.shareTokN q 1} X))
          ∗ ((xW).view.loc (thrOf d L) ↦[Finset.univ \ (chunkAt off inb).view.set]{Transfers.shareTokN q 1} X)))
        ∗ ∃ W', ⌜∀ p ∈ W', p ∈ W ∨ p.2 = none⌝ ∗ owes (thrOf d L) O W') := by
  unfold invPair fly0 fly1; rw [if_pos h]

/-- The invariant after the last trip, spelt out. -/
theorem invPair_ge {p : Nat} {acc : FVec F S16 .f32 × FVec F S16 .f32 × FVec F S16 .f32 × FVec F S16 .f32 × FVec F S16 .f32 × FVec F S16 .f32 × FVec F S16 .f32 × FVec F S16 .f32} (h : ¬ p < 2) :
    invPair (U := U) d L q X O W p acc
      = iprop(Transfers.MayWaits (thrOf d L) (none : HIx 1) O
        ∗ (((∃ f : Buf (Elt F) ((slot0).view.loc (thrOf d L)), (slot0).view.loc (thrOf d L) ↦[(slot0).view.set]{fullShare} f)
        ∗ semVal ((thrOf d L, SemLoc.dma cc0_scratch2.sem) : GSem nD τ sig) 0 ∗ ((xW).view.loc (thrOf d L) ↦{Transfers.shareTokN q 0} X))
          ∗ ((∃ f : Buf (Elt F) ((slot1).view.loc (thrOf d L)), (slot1).view.loc (thrOf d L) ↦[(slot1).view.set]{fullShare} f)
        ∗ semVal ((thrOf d L, SemLoc.dma cc0_scratch3.sem) : GSem nD τ sig) 0 ∗ ((xW).view.loc (thrOf d L) ↦{Transfers.shareTokN q 1} X)))
        ∗ ∃ W', ⌜∀ p ∈ W', p ∈ W ∨ p.2 = none⌝ ∗ owes (thrOf d L) O W') := by
  unfold invPair idle0 idle1; rw [if_neg h]

set_option maxHeartbeats 1600000 in
theorem pair0_step (k : Fin k0_t1_loop.trips) (acc : FVec F S16 .f32 × FVec F S16 .f32 × FVec F S16 .f32 × FVec F S16 .f32 × FVec F S16 .f32 × FVec F S16 .f32 × FVec F S16 .f32 × FVec F S16 .f32) :
    invPair (U := U) d L q X O W k.val acc
      ⊢ wp frame (wpE (defs₀ (F := F)) 𝒱₀ (thrOf d L) none) Set.univ
          (k0_t1_body L xW (Memref.isWhole_whole _) oW (Memref.isWhole_whole _) bW (Memref.isWhole_whole _) vW (Memref.isWhole_whole _)
            cc0_scratch2 cc0_scratch3 cc0_scoped0 k acc)
          (invPair (U := U) d L q X O W (k.val + 1)) := by
  have hk2 : k.val < 2 := lt_of_lt_of_le k.isLt k0_t1_abs.2.1
  obtain ⟨a9, a10, a11, a12, a13, a14, a15, a16⟩ := acc
  unfold k0_t1_body
  simp only [k0_part7_eq_skeleton]
  unfold k0_part7_skel
  simp only [Prog.bind_assoc]
  unfold invPair
  rw [if_pos hk2]
  rcases (by omega : k.val = 0 ∨ k.val = 1) with h0 | h1
  · have hc1 : k0_cond1 k = 1#1 := (cond1_iff k).2 h0
    have hc2 : k0_cond2 k = 1#1 := (cond2_iff k).2 h0
    rw [if_pos (by omega : k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s0_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s0_b d L _ _ k a9 a10 a11 a12 a13 a14 a15 a16 t acc _ rfl
    · iexists _; iexact HF1_dst
    iintro %acc2 ⟨%g1, Hb1⟩
    sl_exec
    sl_step
    isplitr; · iexact Hmw
    isplitl [HF0 Hx0 HF1 Hx1]
    · isplitl [HF0 Hx0]
      · iexists _, _, _; isplitl [HF0]; · iexact HF0
        iexact Hx0
      · iexists _, _, _; isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond1 k = 1#1 := fun h => by have := (cond1_iff k).1 h; omega
    have hc2 : ¬ k0_cond2 k = 1#1 := fun h => by have := (cond2_iff k).1 h; omega
    rw [if_neg (by omega : ¬ k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s0_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s0_b d L _ _ k a9 a10 a11 a12 a13 a14 a15 a16 t acc _ rfl
    · iexists _; iexact HF1_dst
    iintro %acc2 ⟨%g1, Hb1⟩
    sl_exec
    sl_step
    isplitr; · iexact Hmw
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

set_option maxHeartbeats 1600000 in
theorem pair1_step (v87 v88 v89 : FVec F S16 .f32) (cst_62 : F .f32) (k : Fin k0_t4_loop.trips) (acc : FVec F S16 .f32 × FVec F S16 .f32 × FVec F S16 .f32 × FVec F S16 .f32 × FVec F S16 .f32 × FVec F S16 .f32 × FVec F S16 .f32 × FVec F S16 .f32) :
    invPair (U := U) d L q X O W k.val acc
      ⊢ wp frame (wpE (defs₀ (F := F)) 𝒱₀ (thrOf d L) none) Set.univ
          (k0_t4_body L xW (Memref.isWhole_whole _) oW (Memref.isWhole_whole _) bW (Memref.isWhole_whole _) vW (Memref.isWhole_whole _)
            cc0_scratch2 cc0_scratch3 cc0_scoped0 v87 v88 v89 cst_62 k acc)
          (invPair (U := U) d L q X O W (k.val + 1)) := by
  have hk2 : k.val < 2 := lt_of_lt_of_le k.isLt k0_t4_abs.2.1
  obtain ⟨a9, a10, a11, a12, a13, a14, a15, a16⟩ := acc
  unfold k0_t4_body
  simp only [k0_part14_eq_skeleton]
  unfold k0_part14_skel
  simp only [Prog.bind_assoc]
  unfold invPair
  rw [if_pos hk2]
  rcases (by omega : k.val = 0 ∨ k.val = 1) with h0 | h1
  · have hc1 : k0_cond3 k = 1#1 := (cond3_iff k).2 h0
    have hc2 : k0_cond4 k = 1#1 := (cond4_iff k).2 h0
    rw [if_pos (by omega : k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s1_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s1_b d L _ _ k a9 a10 a11 a12 a13 a14 a15 a16 t acc _ rfl
    · iexists _; iexact HF1_dst
    iintro %acc2 ⟨%g1, Hb1⟩
    sl_exec
    sl_step
    isplitr; · iexact Hmw
    isplitl [HF0 Hx0 HF1 Hx1]
    · isplitl [HF0 Hx0]
      · iexists _, _, _; isplitl [HF0]; · iexact HF0
        iexact Hx0
      · iexists _, _, _; isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond3 k = 1#1 := fun h => by have := (cond3_iff k).1 h; omega
    have hc2 : ¬ k0_cond4 k = 1#1 := fun h => by have := (cond4_iff k).1 h; omega
    rw [if_neg (by omega : ¬ k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s1_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s1_b d L _ _ k a9 a10 a11 a12 a13 a14 a15 a16 t acc _ rfl
    · iexists _; iexact HF1_dst
    iintro %acc2 ⟨%g1, Hb1⟩
    sl_exec
    sl_step
    isplitr; · iexact Hmw
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

end Pair

section Body

variable [FloatOps F]

set_option maxHeartbeats 4000000 in
/-- The tile's body: the input is only read, the tile's two result rows are written, and everything of the tile's own is
    handed back as it was found. -/
theorem tile_frame (hF : (K (F := F)).Facts)
    (d : Dev nD) (L : grid0.Coords) (q : PosShare TreeShare)
    (X : Buf (Elt F) (xLoc d)) (O : CellTallies nD τ sig (HIx 1)) (W : Waits sig (HIx 1)) (hO : ∀ g, O g none = 0) :
    iprop(levAts (K (F := F)).L (K (F := F)).lev ∗ (xLoc d ↦{q} X) ∗ (∃ f : Buf (Elt F) (sLoc d), sLoc d ↦[tileRows L]{fullShare} f)
        ∗ scopedBufs (thrOf d L) ∗ scopedSems0 (thrOf d L) ∗ owes (thrOf d L) O W)
      ⊢ (wp frame (wpE (defs₀ (F := F)) 𝒱₀ (thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scratch2 cc0_scratch3 cc0_scoped0)
          fun _ => iprop((xLoc d ↦{q} X) ∗ (∃ f : Buf (Elt F) (sLoc d), sLoc d ↦[tileRows L]{fullShare} f)
            ∗ scopedBufs (thrOf d L) ∗ scopedSems0 (thrOf d L) ∗ ∃ W', ⌜∀ p ∈ W', p ∈ W ∨ p.2 = none⌝ ∗ owes (thrOf d L) O W') : sProp 𝕄) := by
  simp only [cc0__sc_body_eq_skeleton]
  unfold cc0__sc_body_skel
  simp only [k0_part15_eq_skeleton, k0_part16_eq_skeleton, k0_part17_eq_skeleton, k0_part18_eq_skeleton]
  unfold k0_part15_skel k0_part16_skel k0_part17_skel k0_part18_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Hx, ⟨%fo, Ho⟩, ⟨⟨%fb, Hb⟩, ⟨%fv, Hv⟩, Hbufs⟩, ⟨Hs2, Hs3, Hs5, Hsems⟩, HO⟩
  ihave Hmw := ((K (F := F)).mayWaits_none (thr := thrOf d L) hO) $$ Hlv
  ihave Hx' := (Entails.of_eq (pts_x (F := F) d L q _).symm) $$ Hx
  ihave Hx'' := (pts_x_toks (F := F) d L q _).1 $$ Hx'
  icases Hx'' with ⟨Hxr, Hx0, Hx1⟩
  ihave Ho' := (Entails.of_eq (pts_o (F := F) d L _).symm) $$ Ho
  ihave Hb' := (Entails.of_eq (pts_b (F := F) d L _).symm) $$ Hb
  ihave Hb'' := (pts_b_split (F := F) d L _) $$ Hb'
  icases Hb'' with ⟨Hb0, Hb1, Hbr⟩
  ihave Hv' := (Entails.of_eq (pts_v (F := F) d L _).symm) $$ Hv
  sl_exec
  sl_for (invPair (U := U) d L q X O W) $$ [Hs2 Hx0 Hs3 Hx1 HO]
  case region => intro k acc; exact pair0_step d L q X O W k acc
  · iapply (Entails.of_eq (invPair_lt (U := U) d L q X O W (by decide : (0 : Nat) < 2)).symm)
    isplitr; · iexact Hmw
    isplitl [Hs2 Hx0 Hs3 Hx1]
    · isplitl [Hs2 Hx0]
      · iexists _, _, _; isplitl [Hs2]; · iexact Hs2
        iexact Hx0
      · iexists _, _, _; isplitl [Hs3]; · iexact Hs3
        iexact Hx1
    iexists W; isplitr
    · ipureintro; exact fun p hp => .inl hp
    · iexact HO
  iintro %acc1 HI
  have ht1 : ¬ Scf.trips k0_t1_loop.lb k0_t1_loop.ub k0_t1_loop.st < 2 := by decide
  ihave HI' := (Entails.of_eq (invPair_ge (U := U) d L q X O W ht1)) $$ HI
  icases HI' with ⟨-, ⟨⟨⟨%g0, Hb0⟩, Hs2, Hx0⟩, ⟨⟨%g1, Hb1⟩, Hs3, Hx1⟩⟩, %W1, %hW1, HO⟩
  sl_exec
  try sl_rw [Prog.bind_assoc]
  sl_for (invPair (U := U) d L q X O W) $$ [Hs2 Hx0 Hs3 Hx1 HO]
  case region => intro k acc; exact pair1_step d L q X O W _ _ _ _ k acc
  · iapply (Entails.of_eq (invPair_lt (U := U) d L q X O W (by decide : (0 : Nat) < 2)).symm)
    isplitr; · iexact Hmw
    isplitl [Hs2 Hx0 Hs3 Hx1]
    · isplitl [Hs2 Hx0]
      · iexists _, _, _; isplitl [Hs2]; · iexact Hs2
        iexact Hx0
      · iexists _, _, _; isplitl [Hs3]; · iexact Hs3
        iexact Hx1
    iexists W1; isplitr
    · ipureintro; exact hW1
    · iexact HO
  iintro %acc2 HI
  have ht4 : ¬ Scf.trips k0_t4_loop.lb k0_t4_loop.ub k0_t4_loop.st < 2 := by decide
  ihave HI' := (Entails.of_eq (invPair_ge (U := U) d L q X O W ht4)) $$ HI
  icases HI' with ⟨-, ⟨⟨⟨%g2, Hb0⟩, Hs2, Hx0⟩, ⟨⟨%g3, Hb1⟩, Hs3, Hx1⟩⟩, %W2, %hW2, HO⟩
  sl_exec
  sl_step
  isplitl [Hxr Hx0 Hx1]
  · iapply (Entails.of_eq (pts_x (F := F) d L q _))
    iapply (pts_x_toks (F := F) d L q _).2
    isplitl [Hxr]; · iexact Hxr
    isplitl [Hx0]; · iexact Hx0
    iexact Hx1
  isplitl [Ho']
  · iexists _; iapply (Entails.of_eq (pts_o (F := F) d L _)); iexact Ho'
  isplitl [Hb0 Hb1 Hbr Hv' Hbufs]
  · isplitl [Hb0 Hb1 Hbr]
    · iapply (pts_b_join (F := F) d L _ _ _)
      isplitl [Hb0]; · iexact Hb0
      isplitl [Hb1]; · iexact Hb1
      iexact Hbr
    isplitl [Hv']; · iexists _; iexact Hv'
    iexact Hbufs
  isplitl [Hs2 Hs3 Hs5 Hsems]
  · isplitl [Hs2]; · iexact Hs2
    isplitl [Hs3]; · iexact Hs3
    isplitl [Hs5]; · iexact Hs5
    iexact Hsems
  iexists (insert (SemLoc.dma cc0_scoped0.sem, (default : HIx 1)) W2); isplitr
  · ipureintro; intro p hp
    rcases Finset.mem_insert.mp hp with hp | hp
    · exact .inr (by rw [hp]; rfl)
    · exact hW2 p hp
  · iexact HO

end Body

end Cert.KI.Tile

end
-- ==== Proof.KI.TileVal.lean ====
/-
  The values a vector subcore computes, apart from the memory that carries them.

  The rows a tile writes: the last copy's target is rows 4 i + 2 c and 4 i + 2 c + 1 of the 64 × 128 result for
  vector subcore i of SparseCore c, which are the rows whose number halves to the worker number w = 2 i + c.

  The accumulators: accumulator g (of eight), lane j (of sixteen) follows column 16 g + j of the segment; one trip of
  a row loop adds four rows to it in row order, which is four steps of the specification's own accumulation, so after
  n rows it holds the specified running total for every reading of the floats.

  The stored rows: each accumulator times 2⁻⁷, re-laid as 1 × 16, is stored at row r, columns 16 g … 16 g + 15 of a
  two-row scratch, r = 0 for segment 2 w and r = 1 for segment 2 w + 1; those sixteen pieces are the blocks of one
  function, the specified partial means of the two segments, which is also what the tile's two result rows must hold.
-/
import proofs.«210774_g2740189135076_cont_9to1_1653_26_alg».proof.Proof.Spec
import proofs.«210774_g2740189135076_cont_9to1_1653_26_alg».proof.Proof.Gen.KernelIdeal.Skeleton
import proofs.«210774_g2740189135076_cont_9to1_1653_26_alg».proof.Proof.KI.LaunchA
import Idealize.ShloMosaic.Lib.ValueIdx
import Idealize.ShloMosaic.Lib.Pipeline.Value

noncomputable section

namespace Cert.KI.TileVal

open Cert.KernelIdeal Cert.KernelIdeal.Gen

open Idealize.ShloMosaic Idealize.ShloMosaic.ValueIdx

variable {F : FTy → Type}

/-! ## The tile's two result rows -/

/-- The target of the tile's last copy: two rows of the result, as the body slices them. -/
abbrev outRows (L : grid0.Coords) : Memref sig .scVector .hbm S2x128 .f32 :=
  (Memref.whole main_v1_scv).slice (Rect.unit (s := S64x128) (k0_off41 L) S2x128.size (k0_off41_inb L)) (fun _ => rfl)

/-- Those rows are the ones whose number halves to the tile's worker number. -/
theorem outRows_set (L : grid0.Coords) : (outRows L).view.set = Cert.KI.Launch.rowsOf (Cert.KI.Launch.wid L) := by
  rw [show (outRows L).view.set = (Rect.unit (s := S64x128) (k0_off41 L) S2x128.size (k0_off41_inb L)).set from
    View.set_slice_whole _ _]
  have h0 : k0_off41 L 0 = 4 * (L 1).val + 2 * (L 0).val := by rw [k0_off41_eq]; rfl
  have h1 : k0_off41 L 1 = 0 := by rw [k0_off41_eq]; rfl
  ext j
  rw [Rect.mem_set_unit]
  unfold Cert.KI.Launch.rowsOf Cert.KI.Launch.wid
  constructor
  · intro h
    have h2 : k0_off41 L 0 ≤ (j 0).val ∧ (j 0).val < k0_off41 L 0 + 2 := h 0
    rw [h0] at h2
    exact Finset.mem_filter.mpr ⟨Finset.mem_univ _, by omega⟩
  · intro hm a
    have h : (j 0).val / 2 = (L 1).val * 2 + (L 0).val := (Finset.mem_filter.mp hm).2
    match a with
    | ⟨0, _⟩ =>
      show k0_off41 L 0 ≤ (j 0).val ∧ (j 0).val < k0_off41 L 0 + 2
      rw [h0]; omega
    | ⟨1, _⟩ =>
      show k0_off41 L 1 ≤ (j 1).val ∧ (j 1).val < k0_off41 L 1 + 128
      rw [h1]
      have : (j 1).val < 128 := (j 1).isLt
      omega

/-! ## The eight accumulators -/

variable [FloatOps F]

/-- Column `16 g + j` of a row: lane `j` of the row's `g`-th group of sixteen columns. -/
def col (g : Fin 8) (j : Fin 16) : Fin 128 := ⟨16 * g.val + j.val, by omega⟩

/-- Accumulator `g` after the first `n` rows of segment `s`: lane `j` holds the accumulated total of column
    `16 g + j` over rows `0 … n - 1`, added one after the other from zero. -/
def accVec (X : S64x4096x128.Idx → F .f32) (s : Fin 64) (g : Fin 8) (n : Nat) : FVec F S16 .f32 :=
  fun j => Cert.Spec.accN (F := F) (Cert.Spec.rowAt (F := F) X s (col g ⟨(j 0).val, (j 0).isLt⟩)) n

/-- Before any row every accumulator is the zero vector the loops start from. -/
theorem accVec_zero (X : S64x4096x128.Idx → F .f32) (s : Fin 64) (g : Fin 8) :
    accVec X s g 0 = broadcast S16 (Scalar.ofBits (F := F) .f32 0x00000000#32) := rfl

/-- A 1 × 16 vector re-laid as 16 lanes reads lane `j` at (0, j). -/
theorem lane_apply {α : Type} (v : S1x16.Idx → α) (j : Fin 16) :
    shapeCast S16 v shapeCasts_S1x16_S16 (ix1 j) = v (ix2 0 j) :=
  shapeCast_apply v shapeCasts_S1x16_S16 _ _ (by
    rw [Shape.rowMajor_val_one, Shape.rowMajor_val_two]
    show 0 * 16 + j.val = j.val
    omega)

/-- One more row: adding to accumulator `g` the sixteen entries of row `n` at its columns gives the accumulator
    after `n + 1` rows. -/
theorem accVec_succ (X : S64x4096x128.Idx → F .f32) (s : Fin 64) (g : Fin 8) (n : Nat) (hn : n < 4096)
    (v : Vec F S1x16 .f32) (hv : ∀ j : Fin 16, v (ix2 0 j) = X (ix3 s ⟨n, hn⟩ (col g j))) :
    addf (accVec X s g n) (shapeCast S16 v shapeCasts_S1x16_S16) = accVec X s g (n + 1) := by
  funext j
  obtain ⟨j, rfl⟩ : ∃ j' : Fin 16, j = ix1 j' := ⟨j 0, eq_ix1 j⟩
  show FloatOps.addf (accVec X s g n (ix1 j)) (shapeCast S16 v shapeCasts_S1x16_S16 (ix1 j)) = _
  rw [lane_apply, hv]
  show _ = FloatOps.addf (Cert.Spec.accN (F := F) (Cert.Spec.rowAt (F := F) X s (col g j)) n)
    (Cert.Spec.rowAt (F := F) X s (col g j) n)
  unfold Cert.Spec.rowAt
  rw [dif_pos hn]
  rfl

/-- One trip of a row loop: the four rows `n … n + 3` added, in row order, to accumulator `g` — the four additions
    of the loop's body — give the accumulator after `n + 4` rows. -/
theorem accVec_step4 (X : S64x4096x128.Idx → F .f32) (s : Fin 64) (g : Fin 8) (n : Nat) (hn : n + 4 ≤ 4096)
    (v0 v1 v2 v3 : Vec F S1x16 .f32)
    (h0 : ∀ j : Fin 16, v0 (ix2 0 j) = X (ix3 s ⟨n, by omega⟩ (col g j)))
    (h1 : ∀ j : Fin 16, v1 (ix2 0 j) = X (ix3 s ⟨n + 1, by omega⟩ (col g j)))
    (h2 : ∀ j : Fin 16, v2 (ix2 0 j) = X (ix3 s ⟨n + 2, by omega⟩ (col g j)))
    (h3 : ∀ j : Fin 16, v3 (ix2 0 j) = X (ix3 s ⟨n + 3, by omega⟩ (col g j))) :
    addf (addf (addf (addf (accVec X s g n) (shapeCast S16 v0 shapeCasts_S1x16_S16)) (shapeCast S16 v1 shapeCasts_S1x16_S16))
        (shapeCast S16 v2 shapeCasts_S1x16_S16)) (shapeCast S16 v3 shapeCasts_S1x16_S16)
      = accVec X s g (n + 4) := by
  rw [accVec_succ X s g n (by omega) v0 h0, accVec_succ X s g (n + 1) (by omega) v1 h1,
    accVec_succ X s g (n + 2) (by omega) v2 h2, accVec_succ X s g (n + 3) (by omega) v3 h3]

/-! ## One trip of a row loop

A trip loads rows 4k … 4k + 3 of its slot, eight 1 × 16 vectors per row, and adds them to the eight accumulators:
accumulator by accumulator, four additions in row order. -/

/-- Four rows added to an accumulator, in row order. -/
def step4 (a : FVec F S16 .f32) (v0 v1 v2 v3 : Vec F S1x16 .f32) : FVec F S16 .f32 :=
  addf (addf (addf (addf a (shapeCast S16 v0 shapeCasts_S1x16_S16)) (shapeCast S16 v1 shapeCasts_S1x16_S16))
    (shapeCast S16 v2 shapeCasts_S1x16_S16)) (shapeCast S16 v3 shapeCasts_S1x16_S16)

/-- Four rows `n … n + 3` of segment `s` added to accumulator `g` after `n` rows: the accumulator after `n + 4`. -/
theorem step4_accVec (X : S64x4096x128.Idx → F .f32) (s : Fin 64) (g : Fin 8) (n : Nat) (hn : n + 4 ≤ 4096)
    (v0 v1 v2 v3 : Vec F S1x16 .f32)
    (h0 : ∀ j : Fin 16, v0 (ix2 0 j) = X (ix3 s ⟨n, by omega⟩ (col g j)))
    (h1 : ∀ j : Fin 16, v1 (ix2 0 j) = X (ix3 s ⟨n + 1, by omega⟩ (col g j)))
    (h2 : ∀ j : Fin 16, v2 (ix2 0 j) = X (ix3 s ⟨n + 2, by omega⟩ (col g j)))
    (h3 : ∀ j : Fin 16, v3 (ix2 0 j) = X (ix3 s ⟨n + 3, by omega⟩ (col g j))) :
    step4 (accVec X s g n) v0 v1 v2 v3 = accVec X s g (n + 4) :=
  accVec_step4 X s g n hn v0 v1 v2 v3 h0 h1 h2 h3

/-! ## The rows a tile stores -/

/-- The segment whose partial means go to row `r` of the tile's two rows: `2 w + r` for worker `w`. -/
def segOf (L : grid0.Coords) (r : Fin 2) : Fin 64 :=
  ⟨2 * Cert.KI.Launch.wid L + r.val, by
    have h0 : (L 0).val < 2 := (L 0).isLt
    have h1 : (L 1).val < 16 := (L 1).isLt
    have := r.isLt
    unfold Cert.KI.Launch.wid
    omega⟩

/-- What the tile's two-row scratch holds at the end: row `r`, column `c` is the specified partial mean of column
    `c` of segment `2 w + r`. -/
def tileVals (X : S64x4096x128.Idx → F .f32) (L : grid0.Coords) : S2x128.Idx → F .f32 :=
  fun y => Cert.Spec.scVal (F := F) X (ix2 (segOf L ⟨(y 0).val, (y 0).isLt⟩) ⟨(y 1).val, (y 1).isLt⟩)

/-- The piece stored for an accumulator: the accumulator times 2⁻⁷, re-laid as 1 × 16. -/
def scaled (a : FVec F S16 .f32) : FVec F S1x16 .f32 :=
  shapeCast S1x16 (mulf a (broadcast S16 (Scalar.ofBits (F := F) .f32 0x3C000000#32))) shapeCasts_S16_S1x16

/-- The piece of accumulator `g` after all 1280 rows of segment `s`, at lane `j`: the specified partial mean of
    column `16 g + j` of the segment. -/
theorem scaled_apply (X : S64x4096x128.Idx → F .f32) (s : Fin 64) (g : Fin 8) (j : Fin 16) :
    scaled (accVec X s g 1280) (ix2 0 j) = Cert.Spec.scVal (F := F) X (ix2 s (col g j)) := by
  unfold scaled
  refine (shapeCast_apply _ shapeCasts_S16_S1x16 (ix2 (0 : Fin 1) j) (ix1 j) (by
    rw [Shape.rowMajor_val_one, Shape.rowMajor_val_two]
    show j.val = 0 * 16 + j.val
    omega)).trans ?_
  rfl

/-- Each stored piece is the block of `tileVals` under its rectangle: row `r`, columns `16 g … 16 g + 15`. -/
theorem piece_tileVals (X : S64x4096x128.Idx → F .f32) (L : grid0.Coords) (r : Fin 2) (g : Fin 8) (off : Fin 2 → Nat)
    (hoff0 : off 0 = r.val) (hoff1 : off 1 = 16 * g.val) (inb : ∀ a, off a + S1x16.size a ≤ S2x128.size a) (x : S1x16.Idx) :
    scaled (accVec X (segOf L r) g 1280) x
      = tileVals X L ((Rect.unit (s := S2x128) off S1x16.size inb).emb x) := by
  obtain ⟨x0, j, rfl⟩ : ∃ (x0 : Fin 1) (j : Fin 16), x = ix2 x0 j := ⟨x 0, x 1, eq_ix2 x⟩
  obtain rfl : x0 = 0 := Subsingleton.elim _ _
  rw [scaled_apply]
  unfold tileVals
  have e0 : ((Rect.unit (s := S2x128) off S1x16.size inb).emb (ix2 0 j) 0).val = r.val := by
    rw [Rect.emb_apply, Rect.off_unit, Rect.stride_unit, hoff0]
    show r.val + 1 * 0 = r.val
    omega
  have e1 : ((Rect.unit (s := S2x128) off S1x16.size inb).emb (ix2 0 j) 1).val = 16 * g.val + j.val := by
    rw [Rect.emb_apply, Rect.off_unit, Rect.stride_unit, hoff1]
    show 16 * g.val + 1 * j.val = 16 * g.val + j.val
    omega
  refine congrArg (Cert.Spec.scVal (F := F) X) (funext fun a => ?_)
  match a with
  | ⟨0, _⟩ => exact congrArg (segOf L) (Fin.ext e0.symm)
  | ⟨1, _⟩ => exact Fin.ext e1.symm

/-- The tile's two result rows at their specified values are `tileVals`: the result's entry under local index `y` of
    the last copy's target. -/
theorem out_tileVals (X : S64x4096x128.Idx → F .f32) (L : grid0.Coords) (y : S2x128.Idx) :
    Cert.Spec.scVal (F := F) X ((Rect.unit (s := S64x128) (k0_off41 L) S2x128.size (k0_off41_inb L)).emb y) = tileVals X L y := by
  unfold tileVals
  have h0 : k0_off41 L 0 = 4 * (L 1).val + 2 * (L 0).val := by rw [k0_off41_eq]; rfl
  have h1 : k0_off41 L 1 = 0 := by rw [k0_off41_eq]; rfl
  refine congrArg (Cert.Spec.scVal (F := F) X) (funext fun a => Fin.ext ?_)
  match a with
  | ⟨0, _⟩ =>
    show ((Rect.unit (s := S64x128) (k0_off41 L) S2x128.size (k0_off41_inb L)).emb y 0).val
      = 2 * Cert.KI.Launch.wid L + (y 0).val
    rw [Rect.emb_apply, Rect.off_unit, Rect.stride_unit, h0]
    unfold Cert.KI.Launch.wid
    omega
  | ⟨1, _⟩ =>
    show ((Rect.unit (s := S64x128) (k0_off41 L) S2x128.size (k0_off41_inb L)).emb y 1).val = (y 1).val
    rw [Rect.emb_apply, Rect.off_unit, Rect.stride_unit, h1]
    omega

end Cert.KI.TileVal

end
-- ==== Proof.KI.TileVal2.lean ====
/-
  What the tile's memory holds, read through the views the body uses.

  A slot after its chunk has landed: the staging scratch's rows 320 k … 320 k + 319 (slot k) hold rows
  base … base + 319 of the chunk's segment, so a 1 × 16 load at scratch row 320 k + u, columns 16 g … 16 g + 15 reads
  row base + u of the segment at those columns.  With that, a trip of a row loop over a landed slot advances the eight
  accumulators by its four rows.

  The two-row scratch after the sixteen stores, and the tile's two result rows after the last copy: both are the
  specified partial means of the tile's two segments.
-/
import proofs.«210774_g2740189135076_cont_9to1_1653_26_alg».proof.Proof.KI.TileVal
import Idealize.ShloMosaic.Lib.Writes
import Idealize.ShloMosaic.Lib.WholeRead

noncomputable section

namespace Cert.KI.TileVal

open Cert.KernelIdeal Cert.KernelIdeal.Gen

open Idealize.ShloMosaic Idealize.ShloMosaic.ValueIdx

variable {F : FTy → Type} [FloatOps F]

/-! ## The memrefs, as the body spells them -/

/-- The two slots of the staging scratch: rows 0 … 319 and rows 320 … 639. -/
abbrev slot0 : Memref sig .scVector .vmem S320x128 .f32 :=
  (Memref.whole cc0_scratch0).slice (Rect.unit (s := S640x128) ![0, 0] S320x128.size inb_S640x128_S320x128_0_0) (fun _ => rfl)
abbrev slot1 : Memref sig .scVector .vmem S320x128 .f32 :=
  (Memref.whole cc0_scratch0).slice (Rect.unit (s := S640x128) ![320, 0] S320x128.size inb_S640x128_S320x128_320_0) (fun _ => rfl)

/-- The 320 rows of the input at offsets `off`, as the copies address them. -/
abbrev chunkAt (off : Fin 3 → Nat) (inb : ∀ a, off a + S1x320x128.size a ≤ S64x4096x128.size a) : Memref sig .scVector .hbm S320x128 .f32 :=
  ((Memref.whole main_v0_scv).slice (Rect.unit (s := S64x4096x128) off S1x320x128.size inb) (fun _ => rfl)).squeeze S320x128 squeezes_S1x320x128_S320x128

/-! ## A landed slot -/

/-- Slot `k` of the staging scratch holds rows `base … base + 319` of segment `seg`. -/
def SlotIs (k : Fin 2) (g : S640x128.Idx → F .f32) (X : S64x4096x128.Idx → F .f32) (seg : Fin 64) (base : Nat)
    (hb : base + 320 ≤ 4096) : Prop :=
  ∀ (u : Fin 320) (c : Fin 128), g (ix2 ⟨320 * k.val + u.val, by have := k.isLt; have := u.isLt; omega⟩ c)
    = X (ix3 seg ⟨base + u.val, by have := u.isLt; omega⟩ c)

/-- A chunk's offsets stay inside the input: a segment, 320 rows, all 128 columns. -/
theorem chunk_bounds (off : Fin 3 → Nat) (inb : ∀ a, off a + S1x320x128.size a ≤ S64x4096x128.size a) :
    off 0 < 64 ∧ off 1 + 320 ≤ 4096 ∧ off 2 = 0 :=
  ⟨by have : off 0 + 1 ≤ 64 := inb 0; omega, inb 1, by have : off 2 + 128 ≤ 128 := inb 2; omega⟩

/-- What a copied chunk reads of the input: entry (u, c) is the input at (off 0, off 1 + u, c). -/
theorem chunk_read (off : Fin 3 → Nat) (inb : ∀ a, off a + S1x320x128.size a ≤ S64x4096x128.size a)
    (X : S64x4096x128.Idx → F .f32) (u : Fin 320) (c : Fin 128) :
    (chunkAt off inb).view.read (Elt F) X (ix2 u c)
      = X (ix3 ⟨off 0, (chunk_bounds off inb).1⟩ ⟨off 1 + u.val, by have := (chunk_bounds off inb).2.1; have := u.isLt; omega⟩ c) := by
  have hc : S1x320x128.ShapeCasts S320x128 := by decide
  refine (congrFun (Memref.read_squeeze_slice (Val := Elt F) (Memref.whole main_v0_scv)
    (Rect.unit (s := S64x4096x128) off S1x320x128.size inb) (fun _ => rfl) squeezes_S1x320x128_S320x128 hc X) (ix2 u c)).trans ?_
  refine (shapeCast_apply _ hc (ix2 u c) (ix3 (0 : Fin 1) u c) (by
    rw [Shape.rowMajor_val_three, Shape.rowMajor_val_two]
    show (0 * 320 + u.val) * 128 + c.val = u.val * 128 + c.val
    omega)).trans ?_
  rw [View.readAt_apply]
  show X _ = X _
  refine congrArg X (funext fun a => Fin.ext ?_)
  have h2 := (chunk_bounds off inb).2.2
  match a with
  | ⟨0, _⟩ => show off 0 + 1 * 0 = off 0; omega
  | ⟨1, _⟩ => show off 1 + 1 * u.val = off 1 + u.val; omega
  | ⟨2, _⟩ => show off 2 + 1 * c.val = c.val; omega

/-- Slot 0 after the chunk at (seg, base, 0) has landed in it holds rows base … base + 319 of segment seg. -/
theorem landed_slot0 (off : Fin 3 → Nat) (inb : ∀ a, off a + S1x320x128.size a ≤ S64x4096x128.size a)
    (f : (slot0).view.ty.Contents (Elt F)) (X : S64x4096x128.Idx → F .f32) (seg : Fin 64) (base : Nat) (hb : base + 320 ≤ 4096)
    (h0 : off 0 = seg.val) (h1 : off 1 = base) :
    SlotIs 0 ((slot0).view.writes (Elt F) f [⟨Rect.whole S320x128, ReadAs.same.apply ((chunkAt off inb).view.read (Elt F) X)⟩])
      X seg base hb := by
  intro u c
  have e := View.read_writes_cons_emb (slot0).view f (Rect.whole S320x128)
    (ReadAs.same.apply ((chunkAt off inb).view.read (Elt F) X)) [] (ix2 u c)
  rw [Rect.emb_whole_apply, View.read_apply] at e
  refine Eq.trans (congrArg _ (funext fun a => Fin.ext ?_)) (e.trans ((chunk_read off inb X u c).trans (congrArg X ?_)))
  · match a with
    | ⟨0, _⟩ => show 320 * 0 + u.val = 0 + 1 * u.val; omega
    | ⟨1, _⟩ => show c.val = 0 + 1 * c.val; omega
  · funext a
    match a with
    | ⟨0, _⟩ => exact Fin.ext h0
    | ⟨1, _⟩ => exact Fin.ext (by show off 1 + u.val = base + u.val; omega)
    | ⟨2, _⟩ => rfl

/-- Slot 1 after the chunk at (seg, base, 0) has landed in it holds rows base … base + 319 of segment seg. -/
theorem landed_slot1 (off : Fin 3 → Nat) (inb : ∀ a, off a + S1x320x128.size a ≤ S64x4096x128.size a)
    (f : (slot1).view.ty.Contents (Elt F)) (X : S64x4096x128.Idx → F .f32) (seg : Fin 64) (base : Nat) (hb : base + 320 ≤ 4096)
    (h0 : off 0 = seg.val) (h1 : off 1 = base) :
    SlotIs 1 ((slot1).view.writes (Elt F) f [⟨Rect.whole S320x128, ReadAs.same.apply ((chunkAt off inb).view.read (Elt F) X)⟩])
      X seg base hb := by
  intro u c
  have e := View.read_writes_cons_emb (slot1).view f (Rect.whole S320x128)
    (ReadAs.same.apply ((chunkAt off inb).view.read (Elt F) X)) [] (ix2 u c)
  rw [Rect.emb_whole_apply, View.read_apply] at e
  refine Eq.trans (congrArg _ (funext fun a => Fin.ext ?_)) (e.trans ((chunk_read off inb X u c).trans (congrArg X ?_)))
  · match a with
    | ⟨0, _⟩ => show 320 * 1 + u.val = 320 + 1 * u.val; omega
    | ⟨1, _⟩ => show c.val = 0 + 1 * c.val; omega
  · funext a
    match a with
    | ⟨0, _⟩ => exact Fin.ext h0
    | ⟨1, _⟩ => exact Fin.ext (by show off 1 + u.val = base + u.val; omega)
    | ⟨2, _⟩ => rfl

/-- A 1 × 16 load from a landed slot at scratch row 320 k + u, columns 16 g … 16 g + 15, reads row base + u of the
    segment at those columns. -/
theorem load_of_SlotIs {k : Fin 2} {g : S640x128.Idx → F .f32} {X : S64x4096x128.Idx → F .f32} {seg : Fin 64} {base : Nat}
    {hb : base + 320 ≤ 4096} (hS : SlotIs k g X seg base hb)
    (o : Fin 2 → Nat) (inbo : ∀ a, o a + S1x16.size a ≤ S640x128.size a) (u : Nat) (hu : u < 320) (grp : Fin 8)
    (ho0 : o 0 = 320 * k.val + u) (ho1 : o 1 = 16 * grp.val) (j : Fin 16) :
    View.readAt (Elt F) (Memref.whole cc0_scratch0).view (Rect.unit (s := S640x128) o S1x16.size inbo).toLoadRect g (ix2 0 j)
      = X (ix3 seg ⟨base + u, by omega⟩ (col grp j)) := by
  rw [View.readAt_apply]
  refine Eq.trans ?_ (hS ⟨u, hu⟩ (col grp j))
  show g _ = g _
  refine congrArg g (funext fun a => Fin.ext ?_)
  match a with
  | ⟨0, _⟩ => show o 0 + 1 * 0 = 320 * k.val + u; omega
  | ⟨1, _⟩ => show o 1 + 1 * j.val = 16 * grp.val + j.val; omega

/-- The same for the load of row `4 t + r` of slot `k` whose offsets are known in closed form `![c0, c1]`. -/
theorem load_row {k : Fin 2} {g : S640x128.Idx → F .f32} {X : S64x4096x128.Idx → F .f32} {seg : Fin 64} {base : Nat}
    {hb : base + 320 ≤ 4096} (hS : SlotIs k g X seg base hb)
    (o : Fin 2 → Nat) (inbo : ∀ a, o a + S1x16.size a ≤ S640x128.size a) (c0 c1 : Nat) (heq : o = ![c0, c1])
    (t : Nat) (r : Fin 4) (grp : Fin 8) (ht : 4 * t + r.val < 320)
    (h0 : c0 = 320 * k.val + (4 * t + r.val)) (h1 : c1 = 16 * grp.val) (j : Fin 16) :
    View.readAt (Elt F) (Memref.whole cc0_scratch0).view (Rect.unit (s := S640x128) o S1x16.size inbo).toLoadRect g (ix2 0 j)
      = X (ix3 seg ⟨base + 4 * t + r.val, by omega⟩ (col grp j)) := by
  refine (load_of_SlotIs hS o inbo (4 * t + r.val) ht grp (by rw [heq]; exact h0) (by rw [heq]; exact h1) j).trans
    (congrArg X (funext fun a => ?_))
  match a with
  | ⟨0, _⟩ => rfl
  | ⟨1, _⟩ => exact Fin.ext (by show base + (4 * t + r.val) = base + 4 * t + r.val; omega)
  | ⟨2, _⟩ => rfl

/-! ## The stored rows, read back -/

section Pieces

variable {sig' : RefSig} {κ : Kind} {sp : Space} {s : Shape} {e : EltTy} {Val : EltTy → Type}

/-- Stores whose payloads are all blocks of one function read back as that function at every element some store
    covers, whatever their order. -/
theorem read_writes_of_pieces (v : View sig' κ sp s e) (f : v.ty.Contents Val) (G : s.Idx → Val e) :
    ∀ (P : List (View.Piece Val s e)), (∀ p ∈ P, ∀ x : p.1.shape.Idx, p.2 x = G (p.1.emb x)) →
      ∀ y : s.Idx, (∃ p ∈ P, y ∈ p.1.set) → v.read Val (v.writes Val f P) y = G y
  | [], _, _, hy => by obtain ⟨p, hp, _⟩ := hy; exact absurd hp List.not_mem_nil
  | p :: P, hP, y, hy => by
    by_cases hm : y ∈ p.1.set
    · obtain ⟨x, rfl⟩ := p.1.exists_idx_of_mem hm
      rw [show p.1.idx x = p.1.emb x from rfl]
      exact (View.read_writes_cons_emb v f p.1 p.2 P x).trans (hP p List.mem_cons_self x)
    · rw [View.writes_cons, View.read_slice_write_of_not_mem p.1 _ _ _ (by rwa [Rect.map_emb_univ])]
      refine read_writes_of_pieces v f G P (fun q hq => hP q (List.mem_cons_of_mem _ hq)) y ?_
      obtain ⟨q, hq, hyq⟩ := hy
      rcases List.mem_cons.mp hq with rfl | hq'
      · exact absurd hyq hm
      · exact ⟨q, hq', hyq⟩

end Pieces

/-- Every entry of the two-row scratch lies under the store of its row and its group of sixteen columns. -/
theorem cover_rows (y : S2x128.Idx) :
    ∃ (r : Fin 2) (g : Fin 8), ∀ (off : Fin 2 → Nat) (inb : ∀ a, off a + S1x16.size a ≤ S2x128.size a),
      off 0 = r.val → off 1 = 16 * g.val → y ∈ (Rect.unit (s := S2x128) off S1x16.size inb).set := by
  have hy0 : (y 0).val < 2 := (y 0).isLt
  have hy1 : (y 1).val < 128 := (y 1).isLt
  refine ⟨⟨(y 0).val, hy0⟩, ⟨(y 1).val / 16, by omega⟩, fun off inb h0 h1 => ?_⟩
  have h0' : off 0 = (y 0).val := h0
  have h1' : off 1 = 16 * ((y 1).val / 16) := h1
  rw [Rect.mem_set_unit]
  intro a
  match a with
  | ⟨0, _⟩ => show off 0 ≤ (y 0).val ∧ (y 0).val < off 0 + 1; omega
  | ⟨1, _⟩ => show off 1 ≤ (y 1).val ∧ (y 1).val < off 1 + 16; omega

set_option maxHeartbeats 1600000 in
/-- The two-row scratch after the sixteen stores, newest first as the body makes them (segment 1's groups 7 … 0, then
    segment 0's groups 7 … 0), each store the scaled accumulator of its segment and group after all 1280 rows: it
    reads back as the specified partial means of the tile's two segments. -/
theorem scratch_read (X : S64x4096x128.Idx → F .f32) (L : grid0.Coords) (fv : (Memref.whole cc0_scratch1).view.ty.Contents (Elt F))
    (p00 p01 p02 p03 p04 p05 p06 p07 p10 p11 p12 p13 p14 p15 p16 p17 : FVec F S1x16 .f32)
    (h00 : p00 = scaled (accVec X (segOf L 0) 0 1280)) (h01 : p01 = scaled (accVec X (segOf L 0) 1 1280))
    (h02 : p02 = scaled (accVec X (segOf L 0) 2 1280)) (h03 : p03 = scaled (accVec X (segOf L 0) 3 1280))
    (h04 : p04 = scaled (accVec X (segOf L 0) 4 1280)) (h05 : p05 = scaled (accVec X (segOf L 0) 5 1280))
    (h06 : p06 = scaled (accVec X (segOf L 0) 6 1280)) (h07 : p07 = scaled (accVec X (segOf L 0) 7 1280))
    (h10 : p10 = scaled (accVec X (segOf L 1) 0 1280)) (h11 : p11 = scaled (accVec X (segOf L 1) 1 1280))
    (h12 : p12 = scaled (accVec X (segOf L 1) 2 1280)) (h13 : p13 = scaled (accVec X (segOf L 1) 3 1280))
    (h14 : p14 = scaled (accVec X (segOf L 1) 4 1280)) (h15 : p15 = scaled (accVec X (segOf L 1) 5 1280))
    (h16 : p16 = scaled (accVec X (segOf L 1) 6 1280)) (h17 : p17 = scaled (accVec X (segOf L 1) 7 1280)) :
    (Memref.whole cc0_scratch1).view.read (Elt F) ((Memref.whole cc0_scratch1).view.writes (Elt F) fv
      [⟨Rect.unit (s := S2x128) ![1, 112] S1x16.size inb_S2x128_S1x16_1_112, p17⟩,
       ⟨Rect.unit (s := S2x128) ![1, 96] S1x16.size inb_S2x128_S1x16_1_96, p16⟩,
       ⟨Rect.unit (s := S2x128) ![1, 80] S1x16.size inb_S2x128_S1x16_1_80, p15⟩,
       ⟨Rect.unit (s := S2x128) ![1, 64] S1x16.size inb_S2x128_S1x16_1_64, p14⟩,
       ⟨Rect.unit (s := S2x128) ![1, 48] S1x16.size inb_S2x128_S1x16_1_48, p13⟩,
       ⟨Rect.unit (s := S2x128) ![1, 32] S1x16.size inb_S2x128_S1x16_1_32, p12⟩,
       ⟨Rect.unit (s := S2x128) ![1, 16] S1x16.size inb_S2x128_S1x16_1_16, p11⟩,
       ⟨Rect.unit (s := S2x128) ![1, 0] S1x16.size inb_S2x128_S1x16_1_0, p10⟩,
       ⟨Rect.unit (s := S2x128) ![0, 112] S1x16.size inb_S2x128_S1x16_0_112, p07⟩,
       ⟨Rect.unit (s := S2x128) ![0, 96] S1x16.size inb_S2x128_S1x16_0_96, p06⟩,
       ⟨Rect.unit (s := S2x128) ![0, 80] S1x16.size inb_S2x128_S1x16_0_80, p05⟩,
       ⟨Rect.unit (s := S2x128) ![0, 64] S1x16.size inb_S2x128_S1x16_0_64, p04⟩,
       ⟨Rect.unit (s := S2x128) ![0, 48] S1x16.size inb_S2x128_S1x16_0_48, p03⟩,
       ⟨Rect.unit (s := S2x128) ![0, 32] S1x16.size inb_S2x128_S1x16_0_32, p02⟩,
       ⟨Rect.unit (s := S2x128) ![0, 16] S1x16.size inb_S2x128_S1x16_0_16, p01⟩,
       ⟨Rect.unit (s := S2x128) ![0, 0] S1x16.size inb_S2x128_S1x16_0_0, p00⟩])
      = tileVals X L := by
  subst h00 h01 h02 h03 h04 h05 h06 h07 h10 h11 h12 h13 h14 h15 h16 h17
  funext y
  generalize hP : ([⟨Rect.unit (s := S2x128) ![1, 112] S1x16.size inb_S2x128_S1x16_1_112, scaled (accVec X (segOf L 1) 7 1280)⟩,
       ⟨Rect.unit (s := S2x128) ![1, 96] S1x16.size inb_S2x128_S1x16_1_96, scaled (accVec X (segOf L 1) 6 1280)⟩,
       ⟨Rect.unit (s := S2x128) ![1, 80] S1x16.size inb_S2x128_S1x16_1_80, scaled (accVec X (segOf L 1) 5 1280)⟩,
       ⟨Rect.unit (s := S2x128) ![1, 64] S1x16.size inb_S2x128_S1x16_1_64, scaled (accVec X (segOf L 1) 4 1280)⟩,
       ⟨Rect.unit (s := S2x128) ![1, 48] S1x16.size inb_S2x128_S1x16_1_48, scaled (accVec X (segOf L 1) 3 1280)⟩,
       ⟨Rect.unit (s := S2x128) ![1, 32] S1x16.size inb_S2x128_S1x16_1_32, scaled (accVec X (segOf L 1) 2 1280)⟩,
       ⟨Rect.unit (s := S2x128) ![1, 16] S1x16.size inb_S2x128_S1x16_1_16, scaled (accVec X (segOf L 1) 1 1280)⟩,
       ⟨Rect.unit (s := S2x128) ![1, 0] S1x16.size inb_S2x128_S1x16_1_0, scaled (accVec X (segOf L 1) 0 1280)⟩,
       ⟨Rect.unit (s := S2x128) ![0, 112] S1x16.size inb_S2x128_S1x16_0_112, scaled (accVec X (segOf L 0) 7 1280)⟩,
       ⟨Rect.unit (s := S2x128) ![0, 96] S1x16.size inb_S2x128_S1x16_0_96, scaled (accVec X (segOf L 0) 6 1280)⟩,
       ⟨Rect.unit (s := S2x128) ![0, 80] S1x16.size inb_S2x128_S1x16_0_80, scaled (accVec X (segOf L 0) 5 1280)⟩,
       ⟨Rect.unit (s := S2x128) ![0, 64] S1x16.size inb_S2x128_S1x16_0_64, scaled (accVec X (segOf L 0) 4 1280)⟩,
       ⟨Rect.unit (s := S2x128) ![0, 48] S1x16.size inb_S2x128_S1x16_0_48, scaled (accVec X (segOf L 0) 3 1280)⟩,
       ⟨Rect.unit (s := S2x128) ![0, 32] S1x16.size inb_S2x128_S1x16_0_32, scaled (accVec X (segOf L 0) 2 1280)⟩,
       ⟨Rect.unit (s := S2x128) ![0, 16] S1x16.size inb_S2x128_S1x16_0_16, scaled (accVec X (segOf L 0) 1 1280)⟩,
       ⟨Rect.unit (s := S2x128) ![0, 0] S1x16.size inb_S2x128_S1x16_0_0, scaled (accVec X (segOf L 0) 0 1280)⟩]
      : List (View.Piece (Elt F) S2x128 .f32)) = P
  refine read_writes_of_pieces _ fv (tileVals X L) P ?_ y ?_
  · intro p hp x
    rw [← hP] at hp
    simp only [List.mem_cons, List.not_mem_nil, or_false] at hp
    rcases hp with rfl | rfl | rfl | rfl | rfl | rfl | rfl | rfl | rfl | rfl | rfl | rfl | rfl | rfl | rfl | rfl
    · exact piece_tileVals X L 1 7 ![1, 112] rfl rfl inb_S2x128_S1x16_1_112 x
    · exact piece_tileVals X L 1 6 ![1, 96] rfl rfl inb_S2x128_S1x16_1_96 x
    · exact piece_tileVals X L 1 5 ![1, 80] rfl rfl inb_S2x128_S1x16_1_80 x
    · exact piece_tileVals X L 1 4 ![1, 64] rfl rfl inb_S2x128_S1x16_1_64 x
    · exact piece_tileVals X L 1 3 ![1, 48] rfl rfl inb_S2x128_S1x16_1_48 x
    · exact piece_tileVals X L 1 2 ![1, 32] rfl rfl inb_S2x128_S1x16_1_32 x
    · exact piece_tileVals X L 1 1 ![1, 16] rfl rfl inb_S2x128_S1x16_1_16 x
    · exact piece_tileVals X L 1 0 ![1, 0] rfl rfl inb_S2x128_S1x16_1_0 x
    · exact piece_tileVals X L 0 7 ![0, 112] rfl rfl inb_S2x128_S1x16_0_112 x
    · exact piece_tileVals X L 0 6 ![0, 96] rfl rfl inb_S2x128_S1x16_0_96 x
    · exact piece_tileVals X L 0 5 ![0, 80] rfl rfl inb_S2x128_S1x16_0_80 x
    · exact piece_tileVals X L 0 4 ![0, 64] rfl rfl inb_S2x128_S1x16_0_64 x
    · exact piece_tileVals X L 0 3 ![0, 48] rfl rfl inb_S2x128_S1x16_0_48 x
    · exact piece_tileVals X L 0 2 ![0, 32] rfl rfl inb_S2x128_S1x16_0_32 x
    · exact piece_tileVals X L 0 1 ![0, 16] rfl rfl inb_S2x128_S1x16_0_16 x
    · exact piece_tileVals X L 0 0 ![0, 0] rfl rfl inb_S2x128_S1x16_0_0 x
  · obtain ⟨r, g, hmem⟩ := cover_rows y
    have hi : (1 - r.val) * 8 + (7 - g.val) < P.length := by
      rw [← hP]
      have := r.isLt
      have := g.isLt
      show _ < 16
      omega
    refine ⟨P[(1 - r.val) * 8 + (7 - g.val)]'hi, List.getElem_mem _, ?_⟩
    subst hP
    fin_cases r <;> fin_cases g <;> exact hmem _ (by decide) rfl rfl

/-- The tile's two result rows after the last copy has written the scratch's contents into them hold the specified
    values: on those rows the result's buffer is the SparseCore part of the specification. -/
theorem out_written (X : S64x4096x128.Idx → F .f32) (L : grid0.Coords) (fo : (outRows L).view.ty.Contents (Elt F))
    (i : S64x128.Idx) (hi : i ∈ (outRows L).view.set) :
    (outRows L).view.writes (Elt F) fo [⟨Rect.whole S2x128, ReadAs.same.apply (tileVals X L)⟩] i = Cert.Spec.scVal (F := F) X i := by
  obtain ⟨y, -, rfl⟩ := Finset.mem_map.mp hi
  have e := View.read_writes_cons_emb (outRows L).view fo (Rect.whole S2x128) (ReadAs.same.apply (tileVals X L)) [] y
  rw [Rect.emb_whole_apply, View.read_apply] at e
  exact e.trans (out_tileVals X L y).symm

end Cert.KI.TileVal

end
-- ==== Proof.KI.TileVRows.lean ====
/-
  The tile's row loops with the accumulators' values: one trip of a row loop over a slot that holds 320 rows of a
  segment advances each of the eight accumulators by the trip's four rows.
-/
import proofs.«210774_g2740189135076_cont_9to1_1653_26_alg».proof.Proof.KI.TileRows
import proofs.«210774_g2740189135076_cont_9to1_1653_26_alg».proof.Proof.KI.TileTrips
import proofs.«210774_g2740189135076_cont_9to1_1653_26_alg».proof.Proof.KI.TileVal2

noncomputable section

namespace Cert.KI.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.KernelIdeal.main_v0_scv : Memref Cert.KernelIdeal.sig Kind.scVector Space.hbm Cert.KernelIdeal.S64x4096x128 EltTy.f32)
local notation "oW" => (Memref.whole Cert.KernelIdeal.main_v1_scv : Memref Cert.KernelIdeal.sig Kind.scVector Space.hbm Cert.KernelIdeal.S64x128 EltTy.f32)
local notation "bW" => (Memref.whole Cert.KernelIdeal.cc0_scratch0 : Memref Cert.KernelIdeal.sig Kind.scVector Space.vmem Cert.KernelIdeal.S640x128 EltTy.f32)
local notation "vW" => (Memref.whole Cert.KernelIdeal.cc0_scratch1 : Memref Cert.KernelIdeal.sig Kind.scVector Space.vmem Cert.KernelIdeal.S2x128 EltTy.f32)

section Vals

variable [FloatOps F]

open Idealize.ShloMosaic.ValueIdx

/-- The eight accumulators of segment `s` after `n` rows. -/
def accTup (X : S64x4096x128.Idx → F .f32) (s : Fin 64) (n : Nat) : FVec F S16 .f32 × FVec F S16 .f32 × FVec F S16 .f32 × FVec F S16 .f32 × FVec F S16 .f32 × FVec F S16 .f32 × FVec F S16 .f32 × FVec F S16 .f32 :=
  (TileVal.accVec X s 0 n, TileVal.accVec X s 1 n, TileVal.accVec X s 2 n, TileVal.accVec X s 3 n,
    TileVal.accVec X s 4 n, TileVal.accVec X s 5 n, TileVal.accVec X s 6 n, TileVal.accVec X s 7 n)

theorem tup8_ext {α : Type} {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6) (h7 : a7 = b7) :
    (a0, a1, a2, a3, a4, a5, a6, a7) = (b0, b1, b2, b3, b4, b5, b6, b7) := by
  subst h0 h1 h2 h3 h4 h5 h6 h7; rfl

/-- A 1 × 16 load of row `4 t + r` of a landed slot, columns of group `grp`, reads row `base + 4 t + r` of the segment. -/
theorem ld {k : Fin 2} {g : S640x128.Idx → F .f32} {X : S64x4096x128.Idx → F .f32} {seg : Fin 64} {base : Nat}
    {hb : base + 320 ≤ 4096} (hS : TileVal.SlotIs k g X seg base hb)
    (o : Fin 2 → Nat) (inbo : ∀ a, o a + S1x16.size a ≤ S640x128.size a) (t r : Nat) (ht : t < 80) (hr : r < 4) (grp : Fin 8)
    (ho0 : o 0 = 320 * k.val + (4 * t + r)) (ho1 : o 1 = 16 * grp.val) (j : Fin 16) :
    View.readAt (Elt F) (Memref.whole cc0_scratch0).view (Rect.unit (s := S640x128) o S1x16.size inbo).toLoadRect g (ix2 0 j)
      = X (ix3 seg ⟨base + 4 * t + r, by omega⟩ (TileVal.col grp j)) :=
  (TileVal.load_of_SlotIs hS o inbo (4 * t + r) (by omega) grp ho0 ho1 j).trans
    (congrArg (fun i => X (ix3 seg i (TileVal.col grp j))) (Fin.ext (by show base + (4 * t + r) = base + 4 * t + r; omega)))

theorem off4_0 (k : Fin k0_t2_loop.trips) (r : Fin 4) : k0_off4 k (BitVec.ofNat 32 r.val) 0 = 320 * (0 : Fin 2).val + (4 * k.val + r.val) := by
  rw [k0_off4_eq]; show 4 * k.val + r.val = 320 * 0 + (4 * k.val + r.val); omega
theorem off4_1 (k : Fin k0_t2_loop.trips) (r : Fin 4) : k0_off4 k (BitVec.ofNat 32 r.val) 1 = 16 * (0 : Fin 8).val := by
  rw [k0_off4_eq]; rfl
theorem off5_0 (k : Fin k0_t2_loop.trips) (r : Fin 4) : k0_off5 k (BitVec.ofNat 32 r.val) 0 = 320 * (0 : Fin 2).val + (4 * k.val + r.val) := by
  rw [k0_off5_eq]; show 4 * k.val + r.val = 320 * 0 + (4 * k.val + r.val); omega
theorem off5_1 (k : Fin k0_t2_loop.trips) (r : Fin 4) : k0_off5 k (BitVec.ofNat 32 r.val) 1 = 16 * (1 : Fin 8).val := by
  rw [k0_off5_eq]; rfl
theorem off6_0 (k : Fin k0_t2_loop.trips) (r : Fin 4) : k0_off6 k (BitVec.ofNat 32 r.val) 0 = 320 * (0 : Fin 2).val + (4 * k.val + r.val) := by
  rw [k0_off6_eq]; show 4 * k.val + r.val = 320 * 0 + (4 * k.val + r.val); omega
theorem off6_1 (k : Fin k0_t2_loop.trips) (r : Fin 4) : k0_off6 k (BitVec.ofNat 32 r.val) 1 = 16 * (2 : Fin 8).val := by
  rw [k0_off6_eq]; rfl
theorem off7_0 (k : Fin k0_t2_loop.trips) (r : Fin 4) : k0_off7 k (BitVec.ofNat 32 r.val) 0 = 320 * (0 : Fin 2).val + (4 * k.val + r.val) := by
  rw [k0_off7_eq]; show 4 * k.val + r.val = 320 * 0 + (4 * k.val + r.val); omega
theorem off7_1 (k : Fin k0_t2_loop.trips) (r : Fin 4) : k0_off7 k (BitVec.ofNat 32 r.val) 1 = 16 * (3 : Fin 8).val := by
  rw [k0_off7_eq]; rfl
theorem off8_0 (k : Fin k0_t2_loop.trips) (r : Fin 4) : k0_off8 k (BitVec.ofNat 32 r.val) 0 = 320 * (0 : Fin 2).val + (4 * k.val + r.val) := by
  rw [k0_off8_eq]; show 4 * k.val + r.val = 320 * 0 + (4 * k.val + r.val); omega
theorem off8_1 (k : Fin k0_t2_loop.trips) (r : Fin 4) : k0_off8 k (BitVec.ofNat 32 r.val) 1 = 16 * (4 : Fin 8).val := by
  rw [k0_off8_eq]; rfl
theorem off9_0 (k : Fin k0_t2_loop.trips) (r : Fin 4) : k0_off9 k (BitVec.ofNat 32 r.val) 0 = 320 * (0 : Fin 2).val + (4 * k.val + r.val) := by
  rw [k0_off9_eq]; show 4 * k.val + r.val = 320 * 0 + (4 * k.val + r.val); omega
theorem off9_1 (k : Fin k0_t2_loop.trips) (r : Fin 4) : k0_off9 k (BitVec.ofNat 32 r.val) 1 = 16 * (5 : Fin 8).val := by
  rw [k0_off9_eq]; rfl
theorem off10_0 (k : Fin k0_t2_loop.trips) (r : Fin 4) : k0_off10 k (BitVec.ofNat 32 r.val) 0 = 320 * (0 : Fin 2).val + (4 * k.val + r.val) := by
  rw [k0_off10_eq]; show 4 * k.val + r.val = 320 * 0 + (4 * k.val + r.val); omega
theorem off10_1 (k : Fin k0_t2_loop.trips) (r : Fin 4) : k0_off10 k (BitVec.ofNat 32 r.val) 1 = 16 * (6 : Fin 8).val := by
  rw [k0_off10_eq]; rfl
theorem off11_0 (k : Fin k0_t2_loop.trips) (r : Fin 4) : k0_off11 k (BitVec.ofNat 32 r.val) 0 = 320 * (0 : Fin 2).val + (4 * k.val + r.val) := by
  rw [k0_off11_eq]; show 4 * k.val + r.val = 320 * 0 + (4 * k.val + r.val); omega
theorem off11_1 (k : Fin k0_t2_loop.trips) (r : Fin 4) : k0_off11 k (BitVec.ofNat 32 r.val) 1 = 16 * (7 : Fin 8).val := by
  rw [k0_off11_eq]; rfl
theorem off13_0 (k : Fin k0_t3_loop.trips) (r : Fin 4) : k0_off13 k (BitVec.ofNat 32 r.val) 0 = 320 * (1 : Fin 2).val + (4 * k.val + r.val) := by
  rw [k0_off13_eq]; show 4 * k.val + r.val + 320 = 320 * 1 + (4 * k.val + r.val); omega
theorem off13_1 (k : Fin k0_t3_loop.trips) (r : Fin 4) : k0_off13 k (BitVec.ofNat 32 r.val) 1 = 16 * (0 : Fin 8).val := by
  rw [k0_off13_eq]; rfl
theorem off14_0 (k : Fin k0_t3_loop.trips) (r : Fin 4) : k0_off14 k (BitVec.ofNat 32 r.val) 0 = 320 * (1 : Fin 2).val + (4 * k.val + r.val) := by
  rw [k0_off14_eq]; show 4 * k.val + r.val + 320 = 320 * 1 + (4 * k.val + r.val); omega
theorem off14_1 (k : Fin k0_t3_loop.trips) (r : Fin 4) : k0_off14 k (BitVec.ofNat 32 r.val) 1 = 16 * (1 : Fin 8).val := by
  rw [k0_off14_eq]; rfl
theorem off15_0 (k : Fin k0_t3_loop.trips) (r : Fin 4) : k0_off15 k (BitVec.ofNat 32 r.val) 0 = 320 * (1 : Fin 2).val + (4 * k.val + r.val) := by
  rw [k0_off15_eq]; show 4 * k.val + r.val + 320 = 320 * 1 + (4 * k.val + r.val); omega
theorem off15_1 (k : Fin k0_t3_loop.trips) (r : Fin 4) : k0_off15 k (BitVec.ofNat 32 r.val) 1 = 16 * (2 : Fin 8).val := by
  rw [k0_off15_eq]; rfl
theorem off16_0 (k : Fin k0_t3_loop.trips) (r : Fin 4) : k0_off16 k (BitVec.ofNat 32 r.val) 0 = 320 * (1 : Fin 2).val + (4 * k.val + r.val) := by
  rw [k0_off16_eq]; show 4 * k.val + r.val + 320 = 320 * 1 + (4 * k.val + r.val); omega
theorem off16_1 (k : Fin k0_t3_loop.trips) (r : Fin 4) : k0_off16 k (BitVec.ofNat 32 r.val) 1 = 16 * (3 : Fin 8).val := by
  rw [k0_off16_eq]; rfl
theorem off17_0 (k : Fin k0_t3_loop.trips) (r : Fin 4) : k0_off17 k (BitVec.ofNat 32 r.val) 0 = 320 * (1 : Fin 2).val + (4 * k.val + r.val) := by
  rw [k0_off17_eq]; show 4 * k.val + r.val + 320 = 320 * 1 + (4 * k.val + r.val); omega
theorem off17_1 (k : Fin k0_t3_loop.trips) (r : Fin 4) : k0_off17 k (BitVec.ofNat 32 r.val) 1 = 16 * (4 : Fin 8).val := by
  rw [k0_off17_eq]; rfl
theorem off18_0 (k : Fin k0_t3_loop.trips) (r : Fin 4) : k0_off18 k (BitVec.ofNat 32 r.val) 0 = 320 * (1 : Fin 2).val + (4 * k.val + r.val) := by
  rw [k0_off18_eq]; show 4 * k.val + r.val + 320 = 320 * 1 + (4 * k.val + r.val); omega
theorem off18_1 (k : Fin k0_t3_loop.trips) (r : Fin 4) : k0_off18 k (BitVec.ofNat 32 r.val) 1 = 16 * (5 : Fin 8).val := by
  rw [k0_off18_eq]; rfl
theorem off19_0 (k : Fin k0_t3_loop.trips) (r : Fin 4) : k0_off19 k (BitVec.ofNat 32 r.val) 0 = 320 * (1 : Fin 2).val + (4 * k.val + r.val) := by
  rw [k0_off19_eq]; show 4 * k.val + r.val + 320 = 320 * 1 + (4 * k.val + r.val); omega
theorem off19_1 (k : Fin k0_t3_loop.trips) (r : Fin 4) : k0_off19 k (BitVec.ofNat 32 r.val) 1 = 16 * (6 : Fin 8).val := by
  rw [k0_off19_eq]; rfl
theorem off20_0 (k : Fin k0_t3_loop.trips) (r : Fin 4) : k0_off20 k (BitVec.ofNat 32 r.val) 0 = 320 * (1 : Fin 2).val + (4 * k.val + r.val) := by
  rw [k0_off20_eq]; show 4 * k.val + r.val + 320 = 320 * 1 + (4 * k.val + r.val); omega
theorem off20_1 (k : Fin k0_t3_loop.trips) (r : Fin 4) : k0_off20 k (BitVec.ofNat 32 r.val) 1 = 16 * (7 : Fin 8).val := by
  rw [k0_off20_eq]; rfl
theorem off23_0 (k : Fin k0_t5_loop.trips) (r : Fin 4) : k0_off23 k (BitVec.ofNat 32 r.val) 0 = 320 * (0 : Fin 2).val + (4 * k.val + r.val) := by
  rw [k0_off23_eq]; show 4 * k.val + r.val = 320 * 0 + (4 * k.val + r.val); omega
theorem off23_1 (k : Fin k0_t5_loop.trips) (r : Fin 4) : k0_off23 k (BitVec.ofNat 32 r.val) 1 = 16 * (0 : Fin 8).val := by
  rw [k0_off23_eq]; rfl
theorem off24_0 (k : Fin k0_t5_loop.trips) (r : Fin 4) : k0_off24 k (BitVec.ofNat 32 r.val) 0 = 320 * (0 : Fin 2).val + (4 * k.val + r.val) := by
  rw [k0_off24_eq]; show 4 * k.val + r.val = 320 * 0 + (4 * k.val + r.val); omega
theorem off24_1 (k : Fin k0_t5_loop.trips) (r : Fin 4) : k0_off24 k (BitVec.ofNat 32 r.val) 1 = 16 * (1 : Fin 8).val := by
  rw [k0_off24_eq]; rfl
theorem off25_0 (k : Fin k0_t5_loop.trips) (r : Fin 4) : k0_off25 k (BitVec.ofNat 32 r.val) 0 = 320 * (0 : Fin 2).val + (4 * k.val + r.val) := by
  rw [k0_off25_eq]; show 4 * k.val + r.val = 320 * 0 + (4 * k.val + r.val); omega
theorem off25_1 (k : Fin k0_t5_loop.trips) (r : Fin 4) : k0_off25 k (BitVec.ofNat 32 r.val) 1 = 16 * (2 : Fin 8).val := by
  rw [k0_off25_eq]; rfl
theorem off26_0 (k : Fin k0_t5_loop.trips) (r : Fin 4) : k0_off26 k (BitVec.ofNat 32 r.val) 0 = 320 * (0 : Fin 2).val + (4 * k.val + r.val) := by
  rw [k0_off26_eq]; show 4 * k.val + r.val = 320 * 0 + (4 * k.val + r.val); omega
theorem off26_1 (k : Fin k0_t5_loop.trips) (r : Fin 4) : k0_off26 k (BitVec.ofNat 32 r.val) 1 = 16 * (3 : Fin 8).val := by
  rw [k0_off26_eq]; rfl
theorem off27_0 (k : Fin k0_t5_loop.trips) (r : Fin 4) : k0_off27 k (BitVec.ofNat 32 r.val) 0 = 320 * (0 : Fin 2).val + (4 * k.val + r.val) := by
  rw [k0_off27_eq]; show 4 * k.val + r.val = 320 * 0 + (4 * k.val + r.val); omega
theorem off27_1 (k : Fin k0_t5_loop.trips) (r : Fin 4) : k0_off27 k (BitVec.ofNat 32 r.val) 1 = 16 * (4 : Fin 8).val := by
  rw [k0_off27_eq]; rfl
theorem off28_0 (k : Fin k0_t5_loop.trips) (r : Fin 4) : k0_off28 k (BitVec.ofNat 32 r.val) 0 = 320 * (0 : Fin 2).val + (4 * k.val + r.val) := by
  rw [k0_off28_eq]; show 4 * k.val + r.val = 320 * 0 + (4 * k.val + r.val); omega
theorem off28_1 (k : Fin k0_t5_loop.trips) (r : Fin 4) : k0_off28 k (BitVec.ofNat 32 r.val) 1 = 16 * (5 : Fin 8).val := by
  rw [k0_off28_eq]; rfl
theorem off29_0 (k : Fin k0_t5_loop.trips) (r : Fin 4) : k0_off29 k (BitVec.ofNat 32 r.val) 0 = 320 * (0 : Fin 2).val + (4 * k.val + r.val) := by
  rw [k0_off29_eq]; show 4 * k.val + r.val = 320 * 0 + (4 * k.val + r.val); omega
theorem off29_1 (k : Fin k0_t5_loop.trips) (r : Fin 4) : k0_off29 k (BitVec.ofNat 32 r.val) 1 = 16 * (6 : Fin 8).val := by
  rw [k0_off29_eq]; rfl
theorem off30_0 (k : Fin k0_t5_loop.trips) (r : Fin 4) : k0_off30 k (BitVec.ofNat 32 r.val) 0 = 320 * (0 : Fin 2).val + (4 * k.val + r.val) := by
  rw [k0_off30_eq]; show 4 * k.val + r.val = 320 * 0 + (4 * k.val + r.val); omega
theorem off30_1 (k : Fin k0_t5_loop.trips) (r : Fin 4) : k0_off30 k (BitVec.ofNat 32 r.val) 1 = 16 * (7 : Fin 8).val := by
  rw [k0_off30_eq]; rfl
theorem off32_0 (k : Fin k0_t6_loop.trips) (r : Fin 4) : k0_off32 k (BitVec.ofNat 32 r.val) 0 = 320 * (1 : Fin 2).val + (4 * k.val + r.val) := by
  rw [k0_off32_eq]; show 4 * k.val + r.val + 320 = 320 * 1 + (4 * k.val + r.val); omega
theorem off32_1 (k : Fin k0_t6_loop.trips) (r : Fin 4) : k0_off32 k (BitVec.ofNat 32 r.val) 1 = 16 * (0 : Fin 8).val := by
  rw [k0_off32_eq]; rfl
theorem off33_0 (k : Fin k0_t6_loop.trips) (r : Fin 4) : k0_off33 k (BitVec.ofNat 32 r.val) 0 = 320 * (1 : Fin 2).val + (4 * k.val + r.val) := by
  rw [k0_off33_eq]; show 4 * k.val + r.val + 320 = 320 * 1 + (4 * k.val + r.val); omega
theorem off33_1 (k : Fin k0_t6_loop.trips) (r : Fin 4) : k0_off33 k (BitVec.ofNat 32 r.val) 1 = 16 * (1 : Fin 8).val := by
  rw [k0_off33_eq]; rfl
theorem off34_0 (k : Fin k0_t6_loop.trips) (r : Fin 4) : k0_off34 k (BitVec.ofNat 32 r.val) 0 = 320 * (1 : Fin 2).val + (4 * k.val + r.val) := by
  rw [k0_off34_eq]; show 4 * k.val + r.val + 320 = 320 * 1 + (4 * k.val + r.val); omega
theorem off34_1 (k : Fin k0_t6_loop.trips) (r : Fin 4) : k0_off34 k (BitVec.ofNat 32 r.val) 1 = 16 * (2 : Fin 8).val := by
  rw [k0_off34_eq]; rfl
theorem off35_0 (k : Fin k0_t6_loop.trips) (r : Fin 4) : k0_off35 k (BitVec.ofNat 32 r.val) 0 = 320 * (1 : Fin 2).val + (4 * k.val + r.val) := by
  rw [k0_off35_eq]; show 4 * k.val + r.val + 320 = 320 * 1 + (4 * k.val + r.val); omega
theorem off35_1 (k : Fin k0_t6_loop.trips) (r : Fin 4) : k0_off35 k (BitVec.ofNat 32 r.val) 1 = 16 * (3 : Fin 8).val := by
  rw [k0_off35_eq]; rfl
theorem off36_0 (k : Fin k0_t6_loop.trips) (r : Fin 4) : k0_off36 k (BitVec.ofNat 32 r.val) 0 = 320 * (1 : Fin 2).val + (4 * k.val + r.val) := by
  rw [k0_off36_eq]; show 4 * k.val + r.val + 320 = 320 * 1 + (4 * k.val + r.val); omega
theorem off36_1 (k : Fin k0_t6_loop.trips) (r : Fin 4) : k0_off36 k (BitVec.ofNat 32 r.val) 1 = 16 * (4 : Fin 8).val := by
  rw [k0_off36_eq]; rfl
theorem off37_0 (k : Fin k0_t6_loop.trips) (r : Fin 4) : k0_off37 k (BitVec.ofNat 32 r.val) 0 = 320 * (1 : Fin 2).val + (4 * k.val + r.val) := by
  rw [k0_off37_eq]; show 4 * k.val + r.val + 320 = 320 * 1 + (4 * k.val + r.val); omega
theorem off37_1 (k : Fin k0_t6_loop.trips) (r : Fin 4) : k0_off37 k (BitVec.ofNat 32 r.val) 1 = 16 * (5 : Fin 8).val := by
  rw [k0_off37_eq]; rfl
theorem off38_0 (k : Fin k0_t6_loop.trips) (r : Fin 4) : k0_off38 k (BitVec.ofNat 32 r.val) 0 = 320 * (1 : Fin 2).val + (4 * k.val + r.val) := by
  rw [k0_off38_eq]; show 4 * k.val + r.val + 320 = 320 * 1 + (4 * k.val + r.val); omega
theorem off38_1 (k : Fin k0_t6_loop.trips) (r : Fin 4) : k0_off38 k (BitVec.ofNat 32 r.val) 1 = 16 * (6 : Fin 8).val := by
  rw [k0_off38_eq]; rfl
theorem off39_0 (k : Fin k0_t6_loop.trips) (r : Fin 4) : k0_off39 k (BitVec.ofNat 32 r.val) 0 = 320 * (1 : Fin 2).val + (4 * k.val + r.val) := by
  rw [k0_off39_eq]; show 4 * k.val + r.val + 320 = 320 * 1 + (4 * k.val + r.val); omega
theorem off39_1 (k : Fin k0_t6_loop.trips) (r : Fin 4) : k0_off39 k (BitVec.ofNat 32 r.val) 1 = 16 * (7 : Fin 8).val := by
  rw [k0_off39_eq]; rfl

end Vals

section RowsV

variable [FloatOps F]
variable (d : Dev nD) (L : grid0.Coords)

/-- Before trip `t` of a row loop over slot 0, which holds rows `base … base + 319` of segment `s`: the
    accumulators have taken the segment's first `base + 4 t` rows. -/
def invRows0 (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) : sProp 𝕄 :=
  iprop(⌜acc = accTup X s (base + 4 * t)⌝ ∗ ∃ g : S640x128.Idx → F .f32, ⌜TileVal.SlotIs 0 g X s base hb⌝
    ∗ (slot0).view.loc (thrOf d L) ↦[(slot0).view.set]{fullShare} g)

theorem invRows0_def (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) :
    invRows0 (U := U) d L X s base hb t acc
      = iprop(⌜acc = accTup X s (base + 4 * t)⌝ ∗ ∃ g : S640x128.Idx → F .f32, ⌜TileVal.SlotIs 0 g X s base hb⌝
        ∗ (slot0).view.loc (thrOf d L) ↦[(slot0).view.set]{fullShare} g) := rfl

/-- Before trip `t` of a row loop over slot 1, which holds rows `base … base + 319` of segment `s`: the
    accumulators have taken the segment's first `base + 4 t` rows. -/
def invRows1 (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) : sProp 𝕄 :=
  iprop(⌜acc = accTup X s (base + 4 * t)⌝ ∗ ∃ g : S640x128.Idx → F .f32, ⌜TileVal.SlotIs 1 g X s base hb⌝
    ∗ (slot1).view.loc (thrOf d L) ↦[(slot1).view.set]{fullShare} g)

theorem invRows1_def (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) :
    invRows1 (U := U) d L X s base hb t acc
      = iprop(⌜acc = accTup X s (base + 4 * t)⌝ ∗ ∃ g : S640x128.Idx → F .f32, ⌜TileVal.SlotIs 1 g X s base hb⌝
        ∗ (slot1).view.loc (thrOf d L) ↦[(slot1).view.set]{fullShare} g) := rfl

set_option maxHeartbeats 1600000 in
/-- One trip of a row loop, with the accumulators' values. -/
theorem rowsV_s0_a (X : S64x4096x128.Idx → F .f32) (s : Fin 64) (base : Nat) (hb : base + 320 ≤ 4096)
    (c0 c1 : BitVec 32) (p : Fin k0_t1_loop.trips)
    (a9 a10 a11 a12 a13 a14 a15 a16 : FVec F S16 .f32) (k : Fin k0_t2_loop.trips) (acc : FVec F S16 .f32 × FVec F S16 .f32 × FVec F S16 .f32 × FVec F S16 .f32 × FVec F S16 .f32 × FVec F S16 .f32 × FVec F S16 .f32 × FVec F S16 .f32) :
    invRows0 (U := U) d L X s base hb k.val acc
      ⊢ wp frame (wpE (defs₀ (F := F)) 𝒱₀ (thrOf d L) none) Set.univ
          (k0_t2_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows0 (U := U) d L X s base hb (k.val + 1)) := by
  obtain ⟨b18, b19, b20, b21, b22, b23, b24, b25⟩ := acc
  unfold k0_t2_body
  simp only [k0_part1_eq_skeleton, k0_part2_eq_skeleton, k0_part3_eq_skeleton]
  unfold k0_part1_skel k0_part2_skel k0_part3_skel
  unfold invRows0
  iintro ⟨%hacc, %g, %hg, Hb⟩
  have hk80 : k.val < 80 := lt_of_lt_of_le k.isLt k0_t2_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t2 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off4 k (BitVec.ofNat 32 0)) S1x16.size (k0_off4_inb k ⟨0, by decide⟩)).toLoadRect g)
      (View.readAt (Elt F) (Memref.whole cc0_scratch0).view (Rect.unit (s := S640x128) (k0_off5 k (BitVec.ofNat 32 0)) S1x16.size (k0_off5_inb k ⟨0, by decide⟩)).toLoadRect g)
      (View.readAt (Elt F) (Memref.whole cc0_scratch0).view (Rect.unit (s := S640x128) (k0_off6 k (BitVec.ofNat 32 0)) S1x16.size (k0_off6_inb k ⟨0, by decide⟩)).toLoadRect g)
      (View.readAt (Elt F) (Memref.whole cc0_scratch0).view (Rect.unit (s := S640x128) (k0_off7 k (BitVec.ofNat 32 0)) S1x16.size (k0_off7_inb k ⟨0, by decide⟩)).toLoadRect g)
      (View.readAt (Elt F) (Memref.whole cc0_scratch0).view (Rect.unit (s := S640x128) (k0_off8 k (BitVec.ofNat 32 0)) S1x16.size (k0_off8_inb k ⟨0, by decide⟩)).toLoadRect g)
      (View.readAt (Elt F) (Memref.whole cc0_scratch0).view (Rect.unit (s := S640x128) (k0_off9 k (BitVec.ofNat 32 0)) S1x16.size (k0_off9_inb k ⟨0, by decide⟩)).toLoadRect g)
      (View.readAt (Elt F) (Memref.whole cc0_scratch0).view (Rect.unit (s := S640x128) (k0_off10 k (BitVec.ofNat 32 0)) S1x16.size (k0_off10_inb k ⟨0, by decide⟩)).toLoadRect g)
      (View.readAt (Elt F) (Memref.whole cc0_scratch0).view (Rect.unit (s := S640x128) (k0_off11 k (BitVec.ofNat 32 0)) S1x16.size (k0_off11_inb k ⟨0, by decide⟩)).toLoadRect g)
      (View.readAt (Elt F) (Memref.whole cc0_scratch0).view (Rect.unit (s := S640x128) (k0_off4 k (BitVec.ofNat 32 1)) S1x16.size (k0_off4_inb k ⟨1, by decide⟩)).toLoadRect g)
      (View.readAt (Elt F) (Memref.whole cc0_scratch0).view (Rect.unit (s := S640x128) (k0_off5 k (BitVec.ofNat 32 1)) S1x16.size (k0_off5_inb k ⟨1, by decide⟩)).toLoadRect g)
      (View.readAt (Elt F) (Memref.whole cc0_scratch0).view (Rect.unit (s := S640x128) (k0_off6 k (BitVec.ofNat 32 1)) S1x16.size (k0_off6_inb k ⟨1, by decide⟩)).toLoadRect g)
      (View.readAt (Elt F) (Memref.whole cc0_scratch0).view (Rect.unit (s := S640x128) (k0_off7 k (BitVec.ofNat 32 1)) S1x16.size (k0_off7_inb k ⟨1, by decide⟩)).toLoadRect g)
      (View.readAt (Elt F) (Memref.whole cc0_scratch0).view (Rect.unit (s := S640x128) (k0_off8 k (BitVec.ofNat 32 1)) S1x16.size (k0_off8_inb k ⟨1, by decide⟩)).toLoadRect g)
      (View.readAt (Elt F) (Memref.whole cc0_scratch0).view (Rect.unit (s := S640x128) (k0_off9 k (BitVec.ofNat 32 1)) S1x16.size (k0_off9_inb k ⟨1, by decide⟩)).toLoadRect g)
      (View.readAt (Elt F) (Memref.whole cc0_scratch0).view (Rect.unit (s := S640x128) (k0_off10 k (BitVec.ofNat 32 1)) S1x16.size (k0_off10_inb k ⟨1, by decide⟩)).toLoadRect g)
      (View.readAt (Elt F) (Memref.whole cc0_scratch0).view (Rect.unit (s := S640x128) (k0_off11 k (BitVec.ofNat 32 1)) S1x16.size (k0_off11_inb k ⟨1, by decide⟩)).toLoadRect g)
      (View.readAt (Elt F) (Memref.whole cc0_scratch0).view (Rect.unit (s := S640x128) (k0_off4 k (BitVec.ofNat 32 2)) S1x16.size (k0_off4_inb k ⟨2, by decide⟩)).toLoadRect g)
      (View.readAt (Elt F) (Memref.whole cc0_scratch0).view (Rect.unit (s := S640x128) (k0_off5 k (BitVec.ofNat 32 2)) S1x16.size (k0_off5_inb k ⟨2, by decide⟩)).toLoadRect g)
      (View.readAt (Elt F) (Memref.whole cc0_scratch0).view (Rect.unit (s := S640x128) (k0_off6 k (BitVec.ofNat 32 2)) S1x16.size (k0_off6_inb k ⟨2, by decide⟩)).toLoadRect g)
      (View.readAt (Elt F) (Memref.whole cc0_scratch0).view (Rect.unit (s := S640x128) (k0_off7 k (BitVec.ofNat 32 2)) S1x16.size (k0_off7_inb k ⟨2, by decide⟩)).toLoadRect g)
      (View.readAt (Elt F) (Memref.whole cc0_scratch0).view (Rect.unit (s := S640x128) (k0_off8 k (BitVec.ofNat 32 2)) S1x16.size (k0_off8_inb k ⟨2, by decide⟩)).toLoadRect g)
      (View.readAt (Elt F) (Memref.whole cc0_scratch0).view (Rect.unit (s := S640x128) (k0_off9 k (BitVec.ofNat 32 2)) S1x16.size (k0_off9_inb k ⟨2, by decide⟩)).toLoadRect g)
      (View.readAt (Elt F) (Memref.whole cc0_scratch0).view (Rect.unit (s := S640x128) (k0_off10 k (BitVec.ofNat 32 2)) S1x16.size (k0_off10_inb k ⟨2, by decide⟩)).toLoadRect g)
      (View.readAt (Elt F) (Memref.whole cc0_scratch0).view (Rect.unit (s := S640x128) (k0_off11 k (BitVec.ofNat 32 2)) S1x16.size (k0_off11_inb k ⟨2, by decide⟩)).toLoadRect g)
      (View.readAt (Elt F) (Memref.whole cc0_scratch0).view (Rect.unit (s := S640x128) (k0_off4 k (BitVec.ofNat 32 3)) S1x16.size (k0_off4_inb k ⟨3, by decide⟩)).toLoadRect g)
      (View.readAt (Elt F) (Memref.whole cc0_scratch0).view (Rect.unit (s := S640x128) (k0_off5 k (BitVec.ofNat 32 3)) S1x16.size (k0_off5_inb k ⟨3, by decide⟩)).toLoadRect g)
      (View.readAt (Elt F) (Memref.whole cc0_scratch0).view (Rect.unit (s := S640x128) (k0_off6 k (BitVec.ofNat 32 3)) S1x16.size (k0_off6_inb k ⟨3, by decide⟩)).toLoadRect g)
      (View.readAt (Elt F) (Memref.whole cc0_scratch0).view (Rect.unit (s := S640x128) (k0_off7 k (BitVec.ofNat 32 3)) S1x16.size (k0_off7_inb k ⟨3, by decide⟩)).toLoadRect g)
      (View.readAt (Elt F) (Memref.whole cc0_scratch0).view (Rect.unit (s := S640x128) (k0_off8 k (BitVec.ofNat 32 3)) S1x16.size (k0_off8_inb k ⟨3, by decide⟩)).toLoadRect g)
      (View.readAt (Elt F) (Memref.whole cc0_scratch0).view (Rect.unit (s := S640x128) (k0_off9 k (BitVec.ofNat 32 3)) S1x16.size (k0_off9_inb k ⟨3, by decide⟩)).toLoadRect g)
      (View.readAt (Elt F) (Memref.whole cc0_scratch0).view (Rect.unit (s := S640x128) (k0_off10 k (BitVec.ofNat 32 3)) S1x16.size (k0_off10_inb k ⟨3, by decide⟩)).toLoadRect g)
      (View.readAt (Elt F) (Memref.whole cc0_scratch0).view (Rect.unit (s := S640x128) (k0_off11 k (BitVec.ofNat 32 3)) S1x16.size (k0_off11_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off4_inb k ⟨0, by decide⟩) k.val 0 hk80 (by decide) 0 (off4_0 k ⟨0, by decide⟩) (off4_1 k ⟨0, by decide⟩) j) (fun j => ld hg _ (k0_off4_inb k ⟨1, by decide⟩) k.val 1 hk80 (by decide) 0 (off4_0 k ⟨1, by decide⟩) (off4_1 k ⟨1, by decide⟩) j) (fun j => ld hg _ (k0_off4_inb k ⟨2, by decide⟩) k.val 2 hk80 (by decide) 0 (off4_0 k ⟨2, by decide⟩) (off4_1 k ⟨2, by decide⟩) j) (fun j => ld hg _ (k0_off4_inb k ⟨3, by decide⟩) k.val 3 hk80 (by decide) 0 (off4_0 k ⟨3, by decide⟩) (off4_1 k ⟨3, by decide⟩) j))
      (TileVal.step4_accVec X s 1 (base + 4 * k.val) (by omega) _ _ _ _ (fun j => ld hg _ (k0_off5_inb k ⟨0, by decide⟩) k.val 0 hk80 (by decide) 1 (off5_0 k ⟨0, by decide⟩) (off5_1 k ⟨0, by decide⟩) j) (fun j => ld hg _ (k0_off5_inb k ⟨1, by decide⟩) k.val 1 hk80 (by decide) 1 (off5_0 k ⟨1, by decide⟩) (off5_1 k ⟨1, by decide⟩) j) (fun j => ld hg _ (k0_off5_inb k ⟨2, by decide⟩) k.val 2 hk80 (by decide) 1 (off5_0 k ⟨2, by decide⟩) (off5_1 k ⟨2, by decide⟩) j) (fun j => ld hg _ (k0_off5_inb k ⟨3, by decide⟩) k.val 3 hk80 (by decide) 1 (off5_0 k ⟨3, by decide⟩) (off5_1 k ⟨3, by decide⟩) j))
      (TileVal.step4_accVec X s 2 (base + 4 * k.val) (by omega) _ _ _ _ (fun j => ld hg _ (k0_off6_inb k ⟨0, by decide⟩) k.val 0 hk80 (by decide) 2 (off6_0 k ⟨0, by decide⟩) (off6_1 k ⟨0, by decide⟩) j) (fun j => ld hg _ (k0_off6_inb k ⟨1, by decide⟩) k.val 1 hk80 (by decide) 2 (off6_0 k ⟨1, by decide⟩) (off6_1 k ⟨1, by decide⟩) j) (fun j => ld hg _ (k0_off6_inb k ⟨2, by decide⟩) k.val 2 hk80 (by decide) 2 (off6_0 k ⟨2, by decide⟩) (off6_1 k ⟨2, by decide⟩) j) (fun j => ld hg _ (k0_off6_inb k ⟨3, by decide⟩) k.val 3 hk80 (by decide) 2 (off6_0 k ⟨3, by decide⟩) (off6_1 k ⟨3, by decide⟩) j))
      (TileVal.step4_accVec X s 3 (base + 4 * k.val) (by omega) _ _ _ _ (fun j => ld hg _ (k0_off7_inb k ⟨0, by decide⟩) k.val 0 hk80 (by decide) 3 (off7_0 k ⟨0, by decide⟩) (off7_1 k ⟨0, by decide⟩) j) (fun j => ld hg _ (k0_off7_inb k ⟨1, by decide⟩) k.val 1 hk80 (by decide) 3 (off7_0 k ⟨1, by decide⟩) (off7_1 k ⟨1, by decide⟩) j) (fun j => ld hg _ (k0_off7_inb k ⟨2, by decide⟩) k.val 2 hk80 (by decide) 3 (off7_0 k ⟨2, by decide⟩) (off7_1 k ⟨2, by decide⟩) j) (fun j => ld hg _ (k0_off7_inb k ⟨3, by decide⟩) k.val 3 hk80 (by decide) 3 (off7_0 k ⟨3, by decide⟩) (off7_1 k ⟨3, by decide⟩) j))
      (TileVal.step4_accVec X s 4 (base + 4 * k.val) (by omega) _ _ _ _ (fun j => ld hg _ (k0_off8_inb k ⟨0, by decide⟩) k.val 0 hk80 (by decide) 4 (off8_0 k ⟨0, by decide⟩) (off8_1 k ⟨0, by decide⟩) j) (fun j => ld hg _ (k0_off8_inb k ⟨1, by decide⟩) k.val 1 hk80 (by decide) 4 (off8_0 k ⟨1, by decide⟩) (off8_1 k ⟨1, by decide⟩) j) (fun j => ld hg _ (k0_off8_inb k ⟨2, by decide⟩) k.val 2 hk80 (by decide) 4 (off8_0 k ⟨2, by decide⟩) (off8_1 k ⟨2, by decide⟩) j) (fun j => ld hg _ (k0_off8_inb k ⟨3, by decide⟩) k.val 3 hk80 (by decide) 4 (off8_0 k ⟨3, by decide⟩) (off8_1 k ⟨3, by decide⟩) j))
      (TileVal.step4_accVec X s 5 (base + 4 * k.val) (by omega) _ _ _ _ (fun j => ld hg _ (k0_off9_inb k ⟨0, by decide⟩) k.val 0 hk80 (by decide) 5 (off9_0 k ⟨0, by decide⟩) (off9_1 k ⟨0, by decide⟩) j) (fun j => ld hg _ (k0_off9_inb k ⟨1, by decide⟩) k.val 1 hk80 (by decide) 5 (off9_0 k ⟨1, by decide⟩) (off9_1 k ⟨1, by decide⟩) j) (fun j => ld hg _ (k0_off9_inb k ⟨2, by decide⟩) k.val 2 hk80 (by decide) 5 (off9_0 k ⟨2, by decide⟩) (off9_1 k ⟨2, by decide⟩) j) (fun j => ld hg _ (k0_off9_inb k ⟨3, by decide⟩) k.val 3 hk80 (by decide) 5 (off9_0 k ⟨3, by decide⟩) (off9_1 k ⟨3, by decide⟩) j))
      (TileVal.step4_accVec X s 6 (base + 4 * k.val) (by omega) _ _ _ _ (fun j => ld hg _ (k0_off10_inb k ⟨0, by decide⟩) k.val 0 hk80 (by decide) 6 (off10_0 k ⟨0, by decide⟩) (off10_1 k ⟨0, by decide⟩) j) (fun j => ld hg _ (k0_off10_inb k ⟨1, by decide⟩) k.val 1 hk80 (by decide) 6 (off10_0 k ⟨1, by decide⟩) (off10_1 k ⟨1, by decide⟩) j) (fun j => ld hg _ (k0_off10_inb k ⟨2, by decide⟩) k.val 2 hk80 (by decide) 6 (off10_0 k ⟨2, by decide⟩) (off10_1 k ⟨2, by decide⟩) j) (fun j => ld hg _ (k0_off10_inb k ⟨3, by decide⟩) k.val 3 hk80 (by decide) 6 (off10_0 k ⟨3, by decide⟩) (off10_1 k ⟨3, by decide⟩) j))
      (TileVal.step4_accVec X s 7 (base + 4 * k.val) (by omega) _ _ _ _ (fun j => ld hg _ (k0_off11_inb k ⟨0, by decide⟩) k.val 0 hk80 (by decide) 7 (off11_0 k ⟨0, by decide⟩) (off11_1 k ⟨0, by decide⟩) j) (fun j => ld hg _ (k0_off11_inb k ⟨1, by decide⟩) k.val 1 hk80 (by decide) 7 (off11_0 k ⟨1, by decide⟩) (off11_1 k ⟨1, by decide⟩) j) (fun j => ld hg _ (k0_off11_inb k ⟨2, by decide⟩) k.val 2 hk80 (by decide) 7 (off11_0 k ⟨2, by decide⟩) (off11_1 k ⟨2, by decide⟩) j) (fun j => ld hg _ (k0_off11_inb k ⟨3, by decide⟩) k.val 3 hk80 (by decide) 7 (off11_0 k ⟨3, by decide⟩) (off11_1 k ⟨3, by decide⟩) j))
  · iexists g; isplitr; · ipureintro; exact hg
    iexact Hb

set_option maxHeartbeats 1600000 in
/-- One trip of a row loop, with the accumulators' values. -/
theorem rowsV_s0_b (X : S64x4096x128.Idx → F .f32) (s : Fin 64) (base : Nat) (hb : base + 320 ≤ 4096)
    (c0 c1 : BitVec 32) (p : Fin k0_t1_loop.trips)
    (a9 a10 a11 a12 a13 a14 a15 a16 : FVec F S16 .f32) (k : Fin k0_t3_loop.trips) (acc : FVec F S16 .f32 × FVec F S16 .f32 × FVec F S16 .f32 × FVec F S16 .f32 × FVec F S16 .f32 × FVec F S16 .f32 × FVec F S16 .f32 × FVec F S16 .f32) :
    invRows1 (U := U) d L X s base hb k.val acc
      ⊢ wp frame (wpE (defs₀ (F := F)) 𝒱₀ (thrOf d L) none) Set.univ
          (k0_t3_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows1 (U := U) d L X s base hb (k.val + 1)) := by
  obtain ⟨b18, b19, b20, b21, b22, b23, b24, b25⟩ := acc
  unfold k0_t3_body
  simp only [k0_part4_eq_skeleton, k0_part5_eq_skeleton, k0_part6_eq_skeleton]
  unfold k0_part4_skel k0_part5_skel k0_part6_skel
  unfold invRows1
  iintro ⟨%hacc, %g, %hg, Hb⟩
  have hk80 : k.val < 80 := lt_of_lt_of_le k.isLt k0_t3_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t3 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off13 k (BitVec.ofNat 32 0)) S1x16.size (k0_off13_inb k ⟨0, by decide⟩)).toLoadRect g)
      (View.readAt (Elt F) (Memref.whole cc0_scratch0).view (Rect.unit (s := S640x128) (k0_off14 k (BitVec.ofNat 32 0)) S1x16.size (k0_off14_inb k ⟨0, by decide⟩)).toLoadRect g)
      (View.readAt (Elt F) (Memref.whole cc0_scratch0).view (Rect.unit (s := S640x128) (k0_off15 k (BitVec.ofNat 32 0)) S1x16.size (k0_off15_inb k ⟨0, by decide⟩)).toLoadRect g)
      (View.readAt (Elt F) (Memref.whole cc0_scratch0).view (Rect.unit (s := S640x128) (k0_off16 k (BitVec.ofNat 32 0)) S1x16.size (k0_off16_inb k ⟨0, by decide⟩)).toLoadRect g)
      (View.readAt (Elt F) (Memref.whole cc0_scratch0).view (Rect.unit (s := S640x128) (k0_off17 k (BitVec.ofNat 32 0)) S1x16.size (k0_off17_inb k ⟨0, by decide⟩)).toLoadRect g)
      (View.readAt (Elt F) (Memref.whole cc0_scratch0).view (Rect.unit (s := S640x128) (k0_off18 k (BitVec.ofNat 32 0)) S1x16.size (k0_off18_inb k ⟨0, by decide⟩)).toLoadRect g)
      (View.readAt (Elt F) (Memref.whole cc0_scratch0).view (Rect.unit (s := S640x128) (k0_off19 k (BitVec.ofNat 32 0)) S1x16.size (k0_off19_inb k ⟨0, by decide⟩)).toLoadRect g)
      (View.readAt (Elt F) (Memref.whole cc0_scratch0).view (Rect.unit (s := S640x128) (k0_off20 k (BitVec.ofNat 32 0)) S1x16.size (k0_off20_inb k ⟨0, by decide⟩)).toLoadRect g)
      (View.readAt (Elt F) (Memref.whole cc0_scratch0).view (Rect.unit (s := S640x128) (k0_off13 k (BitVec.ofNat 32 1)) S1x16.size (k0_off13_inb k ⟨1, by decide⟩)).toLoadRect g)
      (View.readAt (Elt F) (Memref.whole cc0_scratch0).view (Rect.unit (s := S640x128) (k0_off14 k (BitVec.ofNat 32 1)) S1x16.size (k0_off14_inb k ⟨1, by decide⟩)).toLoadRect g)
      (View.readAt (Elt F) (Memref.whole cc0_scratch0).view (Rect.unit (s := S640x128) (k0_off15 k (BitVec.ofNat 32 1)) S1x16.size (k0_off15_inb k ⟨1, by decide⟩)).toLoadRect g)
      (View.readAt (Elt F) (Memref.whole cc0_scratch0).view (Rect.unit (s := S640x128) (k0_off16 k (BitVec.ofNat 32 1)) S1x16.size (k0_off16_inb k ⟨1, by decide⟩)).toLoadRect g)
      (View.readAt (Elt F) (Memref.whole cc0_scratch0).view (Rect.unit (s := S640x128) (k0_off17 k (BitVec.ofNat 32 1)) S1x16.size (k0_off17_inb k ⟨1, by decide⟩)).toLoadRect g)
      (View.readAt (Elt F) (Memref.whole cc0_scratch0).view (Rect.unit (s := S640x128) (k0_off18 k (BitVec.ofNat 32 1)) S1x16.size (k0_off18_inb k ⟨1, by decide⟩)).toLoadRect g)
      (View.readAt (Elt F) (Memref.whole cc0_scratch0).view (Rect.unit (s := S640x128) (k0_off19 k (BitVec.ofNat 32 1)) S1x16.size (k0_off19_inb k ⟨1, by decide⟩)).toLoadRect g)
      (View.readAt (Elt F) (Memref.whole cc0_scratch0).view (Rect.unit (s := S640x128) (k0_off20 k (BitVec.ofNat 32 1)) S1x16.size (k0_off20_inb k ⟨1, by decide⟩)).toLoadRect g)
      (View.readAt (Elt F) (Memref.whole cc0_scratch0).view (Rect.unit (s := S640x128) (k0_off13 k (BitVec.ofNat 32 2)) S1x16.size (k0_off13_inb k ⟨2, by decide⟩)).toLoadRect g)
      (View.readAt (Elt F) (Memref.whole cc0_scratch0).view (Rect.unit (s := S640x128) (k0_off14 k (BitVec.ofNat 32 2)) S1x16.size (k0_off14_inb k ⟨2, by decide⟩)).toLoadRect g)
      (View.readAt (Elt F) (Memref.whole cc0_scratch0).view (Rect.unit (s := S640x128) (k0_off15 k (BitVec.ofNat 32 2)) S1x16.size (k0_off15_inb k ⟨2, by decide⟩)).toLoadRect g)
      (View.readAt (Elt F) (Memref.whole cc0_scratch0).view (Rect.unit (s := S640x128) (k0_off16 k (BitVec.ofNat 32 2)) S1x16.size (k0_off16_inb k ⟨2, by decide⟩)).toLoadRect g)
      (View.readAt (Elt F) (Memref.whole cc0_scratch0).view (Rect.unit (s := S640x128) (k0_off17 k (BitVec.ofNat 32 2)) S1x16.size (k0_off17_inb k ⟨2, by decide⟩)).toLoadRect g)
      (View.readAt (Elt F) (Memref.whole cc0_scratch0).view (Rect.unit (s := S640x128) (k0_off18 k (BitVec.ofNat 32 2)) S1x16.size (k0_off18_inb k ⟨2, by decide⟩)).toLoadRect g)
      (View.readAt (Elt F) (Memref.whole cc0_scratch0).view (Rect.unit (s := S640x128) (k0_off19 k (BitVec.ofNat 32 2)) S1x16.size (k0_off19_inb k ⟨2, by decide⟩)).toLoadRect g)
      (View.readAt (Elt F) (Memref.whole cc0_scratch0).view (Rect.unit (s := S640x128) (k0_off20 k (BitVec.ofNat 32 2)) S1x16.size (k0_off20_inb k ⟨2, by decide⟩)).toLoadRect g)
      (View.readAt (Elt F) (Memref.whole cc0_scratch0).view (Rect.unit (s := S640x128) (k0_off13 k (BitVec.ofNat 32 3)) S1x16.size (k0_off13_inb k ⟨3, by decide⟩)).toLoadRect g)
      (View.readAt (Elt F) (Memref.whole cc0_scratch0).view (Rect.unit (s := S640x128) (k0_off14 k (BitVec.ofNat 32 3)) S1x16.size (k0_off14_inb k ⟨3, by decide⟩)).toLoadRect g)
      (View.readAt (Elt F) (Memref.whole cc0_scratch0).view (Rect.unit (s := S640x128) (k0_off15 k (BitVec.ofNat 32 3)) S1x16.size (k0_off15_inb k ⟨3, by decide⟩)).toLoadRect g)
      (View.readAt (Elt F) (Memref.whole cc0_scratch0).view (Rect.unit (s := S640x128) (k0_off16 k (BitVec.ofNat 32 3)) S1x16.size (k0_off16_inb k ⟨3, by decide⟩)).toLoadRect g)
      (View.readAt (Elt F) (Memref.whole cc0_scratch0).view (Rect.unit (s := S640x128) (k0_off17 k (BitVec.ofNat 32 3)) S1x16.size (k0_off17_inb k ⟨3, by decide⟩)).toLoadRect g)
      (View.readAt (Elt F) (Memref.whole cc0_scratch0).view (Rect.unit (s := S640x128) (k0_off18 k (BitVec.ofNat 32 3)) S1x16.size (k0_off18_inb k ⟨3, by decide⟩)).toLoadRect g)
      (View.readAt (Elt F) (Memref.whole cc0_scratch0).view (Rect.unit (s := S640x128) (k0_off19 k (BitVec.ofNat 32 3)) S1x16.size (k0_off19_inb k ⟨3, by decide⟩)).toLoadRect g)
      (View.readAt (Elt F) (Memref.whole cc0_scratch0).view (Rect.unit (s := S640x128) (k0_off20 k (BitVec.ofNat 32 3)) S1x16.size (k0_off20_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off13_inb k ⟨0, by decide⟩) k.val 0 hk80 (by decide) 0 (off13_0 k ⟨0, by decide⟩) (off13_1 k ⟨0, by decide⟩) j) (fun j => ld hg _ (k0_off13_inb k ⟨1, by decide⟩) k.val 1 hk80 (by decide) 0 (off13_0 k ⟨1, by decide⟩) (off13_1 k ⟨1, by decide⟩) j) (fun j => ld hg _ (k0_off13_inb k ⟨2, by decide⟩) k.val 2 hk80 (by decide) 0 (off13_0 k ⟨2, by decide⟩) (off13_1 k ⟨2, by decide⟩) j) (fun j => ld hg _ (k0_off13_inb k ⟨3, by decide⟩) k.val 3 hk80 (by decide) 0 (off13_0 k ⟨3, by decide⟩) (off13_1 k ⟨3, by decide⟩) j))
      (TileVal.step4_accVec X s 1 (base + 4 * k.val) (by omega) _ _ _ _ (fun j => ld hg _ (k0_off14_inb k ⟨0, by decide⟩) k.val 0 hk80 (by decide) 1 (off14_0 k ⟨0, by decide⟩) (off14_1 k ⟨0, by decide⟩) j) (fun j => ld hg _ (k0_off14_inb k ⟨1, by decide⟩) k.val 1 hk80 (by decide) 1 (off14_0 k ⟨1, by decide⟩) (off14_1 k ⟨1, by decide⟩) j) (fun j => ld hg _ (k0_off14_inb k ⟨2, by decide⟩) k.val 2 hk80 (by decide) 1 (off14_0 k ⟨2, by decide⟩) (off14_1 k ⟨2, by decide⟩) j) (fun j => ld hg _ (k0_off14_inb k ⟨3, by decide⟩) k.val 3 hk80 (by decide) 1 (off14_0 k ⟨3, by decide⟩) (off14_1 k ⟨3, by decide⟩) j))
      (TileVal.step4_accVec X s 2 (base + 4 * k.val) (by omega) _ _ _ _ (fun j => ld hg _ (k0_off15_inb k ⟨0, by decide⟩) k.val 0 hk80 (by decide) 2 (off15_0 k ⟨0, by decide⟩) (off15_1 k ⟨0, by decide⟩) j) (fun j => ld hg _ (k0_off15_inb k ⟨1, by decide⟩) k.val 1 hk80 (by decide) 2 (off15_0 k ⟨1, by decide⟩) (off15_1 k ⟨1, by decide⟩) j) (fun j => ld hg _ (k0_off15_inb k ⟨2, by decide⟩) k.val 2 hk80 (by decide) 2 (off15_0 k ⟨2, by decide⟩) (off15_1 k ⟨2, by decide⟩) j) (fun j => ld hg _ (k0_off15_inb k ⟨3, by decide⟩) k.val 3 hk80 (by decide) 2 (off15_0 k ⟨3, by decide⟩) (off15_1 k ⟨3, by decide⟩) j))
      (TileVal.step4_accVec X s 3 (base + 4 * k.val) (by omega) _ _ _ _ (fun j => ld hg _ (k0_off16_inb k ⟨0, by decide⟩) k.val 0 hk80 (by decide) 3 (off16_0 k ⟨0, by decide⟩) (off16_1 k ⟨0, by decide⟩) j) (fun j => ld hg _ (k0_off16_inb k ⟨1, by decide⟩) k.val 1 hk80 (by decide) 3 (off16_0 k ⟨1, by decide⟩) (off16_1 k ⟨1, by decide⟩) j) (fun j => ld hg _ (k0_off16_inb k ⟨2, by decide⟩) k.val 2 hk80 (by decide) 3 (off16_0 k ⟨2, by decide⟩) (off16_1 k ⟨2, by decide⟩) j) (fun j => ld hg _ (k0_off16_inb k ⟨3, by decide⟩) k.val 3 hk80 (by decide) 3 (off16_0 k ⟨3, by decide⟩) (off16_1 k ⟨3, by decide⟩) j))
      (TileVal.step4_accVec X s 4 (base + 4 * k.val) (by omega) _ _ _ _ (fun j => ld hg _ (k0_off17_inb k ⟨0, by decide⟩) k.val 0 hk80 (by decide) 4 (off17_0 k ⟨0, by decide⟩) (off17_1 k ⟨0, by decide⟩) j) (fun j => ld hg _ (k0_off17_inb k ⟨1, by decide⟩) k.val 1 hk80 (by decide) 4 (off17_0 k ⟨1, by decide⟩) (off17_1 k ⟨1, by decide⟩) j) (fun j => ld hg _ (k0_off17_inb k ⟨2, by decide⟩) k.val 2 hk80 (by decide) 4 (off17_0 k ⟨2, by decide⟩) (off17_1 k ⟨2, by decide⟩) j) (fun j => ld hg _ (k0_off17_inb k ⟨3, by decide⟩) k.val 3 hk80 (by decide) 4 (off17_0 k ⟨3, by decide⟩) (off17_1 k ⟨3, by decide⟩) j))
      (TileVal.step4_accVec X s 5 (base + 4 * k.val) (by omega) _ _ _ _ (fun j => ld hg _ (k0_off18_inb k ⟨0, by decide⟩) k.val 0 hk80 (by decide) 5 (off18_0 k ⟨0, by decide⟩) (off18_1 k ⟨0, by decide⟩) j) (fun j => ld hg _ (k0_off18_inb k ⟨1, by decide⟩) k.val 1 hk80 (by decide) 5 (off18_0 k ⟨1, by decide⟩) (off18_1 k ⟨1, by decide⟩) j) (fun j => ld hg _ (k0_off18_inb k ⟨2, by decide⟩) k.val 2 hk80 (by decide) 5 (off18_0 k ⟨2, by decide⟩) (off18_1 k ⟨2, by decide⟩) j) (fun j => ld hg _ (k0_off18_inb k ⟨3, by decide⟩) k.val 3 hk80 (by decide) 5 (off18_0 k ⟨3, by decide⟩) (off18_1 k ⟨3, by decide⟩) j))
      (TileVal.step4_accVec X s 6 (base + 4 * k.val) (by omega) _ _ _ _ (fun j => ld hg _ (k0_off19_inb k ⟨0, by decide⟩) k.val 0 hk80 (by decide) 6 (off19_0 k ⟨0, by decide⟩) (off19_1 k ⟨0, by decide⟩) j) (fun j => ld hg _ (k0_off19_inb k ⟨1, by decide⟩) k.val 1 hk80 (by decide) 6 (off19_0 k ⟨1, by decide⟩) (off19_1 k ⟨1, by decide⟩) j) (fun j => ld hg _ (k0_off19_inb k ⟨2, by decide⟩) k.val 2 hk80 (by decide) 6 (off19_0 k ⟨2, by decide⟩) (off19_1 k ⟨2, by decide⟩) j) (fun j => ld hg _ (k0_off19_inb k ⟨3, by decide⟩) k.val 3 hk80 (by decide) 6 (off19_0 k ⟨3, by decide⟩) (off19_1 k ⟨3, by decide⟩) j))
      (TileVal.step4_accVec X s 7 (base + 4 * k.val) (by omega) _ _ _ _ (fun j => ld hg _ (k0_off20_inb k ⟨0, by decide⟩) k.val 0 hk80 (by decide) 7 (off20_0 k ⟨0, by decide⟩) (off20_1 k ⟨0, by decide⟩) j) (fun j => ld hg _ (k0_off20_inb k ⟨1, by decide⟩) k.val 1 hk80 (by decide) 7 (off20_0 k ⟨1, by decide⟩) (off20_1 k ⟨1, by decide⟩) j) (fun j => ld hg _ (k0_off20_inb k ⟨2, by decide⟩) k.val 2 hk80 (by decide) 7 (off20_0 k ⟨2, by decide⟩) (off20_1 k ⟨2, by decide⟩) j) (fun j => ld hg _ (k0_off20_inb k ⟨3, by decide⟩) k.val 3 hk80 (by decide) 7 (off20_0 k ⟨3, by decide⟩) (off20_1 k ⟨3, by decide⟩) j))
  · iexists g; isplitr; · ipureintro; exact hg
    iexact Hb

set_option maxHeartbeats 1600000 in
/-- One trip of a row loop, with the accumulators' values. -/
theorem rowsV_s1_a (X : S64x4096x128.Idx → F .f32) (s : Fin 64) (base : Nat) (hb : base + 320 ≤ 4096)
    (c0 c1 : BitVec 32) (p : Fin k0_t4_loop.trips)
    (a9 a10 a11 a12 a13 a14 a15 a16 : FVec F S16 .f32) (k : Fin k0_t5_loop.trips) (acc : FVec F S16 .f32 × FVec F S16 .f32 × FVec F S16 .f32 × FVec F S16 .f32 × FVec F S16 .f32 × FVec F S16 .f32 × FVec F S16 .f32 × FVec F S16 .f32) :
    invRows0 (U := U) d L X s base hb k.val acc
      ⊢ wp frame (wpE (defs₀ (F := F)) 𝒱₀ (thrOf d L) none) Set.univ
          (k0_t5_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows0 (U := U) d L X s base hb (k.val + 1)) := by
  obtain ⟨b18, b19, b20, b21, b22, b23, b24, b25⟩ := acc
  unfold k0_t5_body
  simp only [k0_part8_eq_skeleton, k0_part9_eq_skeleton, k0_part10_eq_skeleton]
  unfold k0_part8_skel k0_part9_skel k0_part10_skel
  unfold invRows0
  iintro ⟨%hacc, %g, %hg, Hb⟩
  have hk80 : k.val < 80 := lt_of_lt_of_le k.isLt k0_t5_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t5 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off23 k (BitVec.ofNat 32 0)) S1x16.size (k0_off23_inb k ⟨0, by decide⟩)).toLoadRect g)
      (View.readAt (Elt F) (Memref.whole cc0_scratch0).view (Rect.unit (s := S640x128) (k0_off24 k (BitVec.ofNat 32 0)) S1x16.size (k0_off24_inb k ⟨0, by decide⟩)).toLoadRect g)
      (View.readAt (Elt F) (Memref.whole cc0_scratch0).view (Rect.unit (s := S640x128) (k0_off25 k (BitVec.ofNat 32 0)) S1x16.size (k0_off25_inb k ⟨0, by decide⟩)).toLoadRect g)
      (View.readAt (Elt F) (Memref.whole cc0_scratch0).view (Rect.unit (s := S640x128) (k0_off26 k (BitVec.ofNat 32 0)) S1x16.size (k0_off26_inb k ⟨0, by decide⟩)).toLoadRect g)
      (View.readAt (Elt F) (Memref.whole cc0_scratch0).view (Rect.unit (s := S640x128) (k0_off27 k (BitVec.ofNat 32 0)) S1x16.size (k0_off27_inb k ⟨0, by decide⟩)).toLoadRect g)
      (View.readAt (Elt F) (Memref.whole cc0_scratch0).view (Rect.unit (s := S640x128) (k0_off28 k (BitVec.ofNat 32 0)) S1x16.size (k0_off28_inb k ⟨0, by decide⟩)).toLoadRect g)
      (View.readAt (Elt F) (Memref.whole cc0_scratch0).view (Rect.unit (s := S640x128) (k0_off29 k (BitVec.ofNat 32 0)) S1x16.size (k0_off29_inb k ⟨0, by decide⟩)).toLoadRect g)
      (View.readAt (Elt F) (Memref.whole cc0_scratch0).view (Rect.unit (s := S640x128) (k0_off30 k (BitVec.ofNat 32 0)) S1x16.size (k0_off30_inb k ⟨0, by decide⟩)).toLoadRect g)
      (View.readAt (Elt F) (Memref.whole cc0_scratch0).view (Rect.unit (s := S640x128) (k0_off23 k (BitVec.ofNat 32 1)) S1x16.size (k0_off23_inb k ⟨1, by decide⟩)).toLoadRect g)
      (View.readAt (Elt F) (Memref.whole cc0_scratch0).view (Rect.unit (s := S640x128) (k0_off24 k (BitVec.ofNat 32 1)) S1x16.size (k0_off24_inb k ⟨1, by decide⟩)).toLoadRect g)
      (View.readAt (Elt F) (Memref.whole cc0_scratch0).view (Rect.unit (s := S640x128) (k0_off25 k (BitVec.ofNat 32 1)) S1x16.size (k0_off25_inb k ⟨1, by decide⟩)).toLoadRect g)
      (View.readAt (Elt F) (Memref.whole cc0_scratch0).view (Rect.unit (s := S640x128) (k0_off26 k (BitVec.ofNat 32 1)) S1x16.size (k0_off26_inb k ⟨1, by decide⟩)).toLoadRect g)
      (View.readAt (Elt F) (Memref.whole cc0_scratch0).view (Rect.unit (s := S640x128) (k0_off27 k (BitVec.ofNat 32 1)) S1x16.size (k0_off27_inb k ⟨1, by decide⟩)).toLoadRect g)
      (View.readAt (Elt F) (Memref.whole cc0_scratch0).view (Rect.unit (s := S640x128) (k0_off28 k (BitVec.ofNat 32 1)) S1x16.size (k0_off28_inb k ⟨1, by decide⟩)).toLoadRect g)
      (View.readAt (Elt F) (Memref.whole cc0_scratch0).view (Rect.unit (s := S640x128) (k0_off29 k (BitVec.ofNat 32 1)) S1x16.size (k0_off29_inb k ⟨1, by decide⟩)).toLoadRect g)
      (View.readAt (Elt F) (Memref.whole cc0_scratch0).view (Rect.unit (s := S640x128) (k0_off30 k (BitVec.ofNat 32 1)) S1x16.size (k0_off30_inb k ⟨1, by decide⟩)).toLoadRect g)
      (View.readAt (Elt F) (Memref.whole cc0_scratch0).view (Rect.unit (s := S640x128) (k0_off23 k (BitVec.ofNat 32 2)) S1x16.size (k0_off23_inb k ⟨2, by decide⟩)).toLoadRect g)
      (View.readAt (Elt F) (Memref.whole cc0_scratch0).view (Rect.unit (s := S640x128) (k0_off24 k (BitVec.ofNat 32 2)) S1x16.size (k0_off24_inb k ⟨2, by decide⟩)).toLoadRect g)
      (View.readAt (Elt F) (Memref.whole cc0_scratch0).view (Rect.unit (s := S640x128) (k0_off25 k (BitVec.ofNat 32 2)) S1x16.size (k0_off25_inb k ⟨2, by decide⟩)).toLoadRect g)
      (View.readAt (Elt F) (Memref.whole cc0_scratch0).view (Rect.unit (s := S640x128) (k0_off26 k (BitVec.ofNat 32 2)) S1x16.size (k0_off26_inb k ⟨2, by decide⟩)).toLoadRect g)
      (View.readAt (Elt F) (Memref.whole cc0_scratch0).view (Rect.unit (s := S640x128) (k0_off27 k (BitVec.ofNat 32 2)) S1x16.size (k0_off27_inb k ⟨2, by decide⟩)).toLoadRect g)
      (View.readAt (Elt F) (Memref.whole cc0_scratch0).view (Rect.unit (s := S640x128) (k0_off28 k (BitVec.ofNat 32 2)) S1x16.size (k0_off28_inb k ⟨2, by decide⟩)).toLoadRect g)
      (View.readAt (Elt F) (Memref.whole cc0_scratch0).view (Rect.unit (s := S640x128) (k0_off29 k (BitVec.ofNat 32 2)) S1x16.size (k0_off29_inb k ⟨2, by decide⟩)).toLoadRect g)
      (View.readAt (Elt F) (Memref.whole cc0_scratch0).view (Rect.unit (s := S640x128) (k0_off30 k (BitVec.ofNat 32 2)) S1x16.size (k0_off30_inb k ⟨2, by decide⟩)).toLoadRect g)
      (View.readAt (Elt F) (Memref.whole cc0_scratch0).view (Rect.unit (s := S640x128) (k0_off23 k (BitVec.ofNat 32 3)) S1x16.size (k0_off23_inb k ⟨3, by decide⟩)).toLoadRect g)
      (View.readAt (Elt F) (Memref.whole cc0_scratch0).view (Rect.unit (s := S640x128) (k0_off24 k (BitVec.ofNat 32 3)) S1x16.size (k0_off24_inb k ⟨3, by decide⟩)).toLoadRect g)
      (View.readAt (Elt F) (Memref.whole cc0_scratch0).view (Rect.unit (s := S640x128) (k0_off25 k (BitVec.ofNat 32 3)) S1x16.size (k0_off25_inb k ⟨3, by decide⟩)).toLoadRect g)
      (View.readAt (Elt F) (Memref.whole cc0_scratch0).view (Rect.unit (s := S640x128) (k0_off26 k (BitVec.ofNat 32 3)) S1x16.size (k0_off26_inb k ⟨3, by decide⟩)).toLoadRect g)
      (View.readAt (Elt F) (Memref.whole cc0_scratch0).view (Rect.unit (s := S640x128) (k0_off27 k (BitVec.ofNat 32 3)) S1x16.size (k0_off27_inb k ⟨3, by decide⟩)).toLoadRect g)
      (View.readAt (Elt F) (Memref.whole cc0_scratch0).view (Rect.unit (s := S640x128) (k0_off28 k (BitVec.ofNat 32 3)) S1x16.size (k0_off28_inb k ⟨3, by decide⟩)).toLoadRect g)
      (View.readAt (Elt F) (Memref.whole cc0_scratch0).view (Rect.unit (s := S640x128) (k0_off29 k (BitVec.ofNat 32 3)) S1x16.size (k0_off29_inb k ⟨3, by decide⟩)).toLoadRect g)
      (View.readAt (Elt F) (Memref.whole cc0_scratch0).view (Rect.unit (s := S640x128) (k0_off30 k (BitVec.ofNat 32 3)) S1x16.size (k0_off30_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off23_inb k ⟨0, by decide⟩) k.val 0 hk80 (by decide) 0 (off23_0 k ⟨0, by decide⟩) (off23_1 k ⟨0, by decide⟩) j) (fun j => ld hg _ (k0_off23_inb k ⟨1, by decide⟩) k.val 1 hk80 (by decide) 0 (off23_0 k ⟨1, by decide⟩) (off23_1 k ⟨1, by decide⟩) j) (fun j => ld hg _ (k0_off23_inb k ⟨2, by decide⟩) k.val 2 hk80 (by decide) 0 (off23_0 k ⟨2, by decide⟩) (off23_1 k ⟨2, by decide⟩) j) (fun j => ld hg _ (k0_off23_inb k ⟨3, by decide⟩) k.val 3 hk80 (by decide) 0 (off23_0 k ⟨3, by decide⟩) (off23_1 k ⟨3, by decide⟩) j))
      (TileVal.step4_accVec X s 1 (base + 4 * k.val) (by omega) _ _ _ _ (fun j => ld hg _ (k0_off24_inb k ⟨0, by decide⟩) k.val 0 hk80 (by decide) 1 (off24_0 k ⟨0, by decide⟩) (off24_1 k ⟨0, by decide⟩) j) (fun j => ld hg _ (k0_off24_inb k ⟨1, by decide⟩) k.val 1 hk80 (by decide) 1 (off24_0 k ⟨1, by decide⟩) (off24_1 k ⟨1, by decide⟩) j) (fun j => ld hg _ (k0_off24_inb k ⟨2, by decide⟩) k.val 2 hk80 (by decide) 1 (off24_0 k ⟨2, by decide⟩) (off24_1 k ⟨2, by decide⟩) j) (fun j => ld hg _ (k0_off24_inb k ⟨3, by decide⟩) k.val 3 hk80 (by decide) 1 (off24_0 k ⟨3, by decide⟩) (off24_1 k ⟨3, by decide⟩) j))
      (TileVal.step4_accVec X s 2 (base + 4 * k.val) (by omega) _ _ _ _ (fun j => ld hg _ (k0_off25_inb k ⟨0, by decide⟩) k.val 0 hk80 (by decide) 2 (off25_0 k ⟨0, by decide⟩) (off25_1 k ⟨0, by decide⟩) j) (fun j => ld hg _ (k0_off25_inb k ⟨1, by decide⟩) k.val 1 hk80 (by decide) 2 (off25_0 k ⟨1, by decide⟩) (off25_1 k ⟨1, by decide⟩) j) (fun j => ld hg _ (k0_off25_inb k ⟨2, by decide⟩) k.val 2 hk80 (by decide) 2 (off25_0 k ⟨2, by decide⟩) (off25_1 k ⟨2, by decide⟩) j) (fun j => ld hg _ (k0_off25_inb k ⟨3, by decide⟩) k.val 3 hk80 (by decide) 2 (off25_0 k ⟨3, by decide⟩) (off25_1 k ⟨3, by decide⟩) j))
      (TileVal.step4_accVec X s 3 (base + 4 * k.val) (by omega) _ _ _ _ (fun j => ld hg _ (k0_off26_inb k ⟨0, by decide⟩) k.val 0 hk80 (by decide) 3 (off26_0 k ⟨0, by decide⟩) (off26_1 k ⟨0, by decide⟩) j) (fun j => ld hg _ (k0_off26_inb k ⟨1, by decide⟩) k.val 1 hk80 (by decide) 3 (off26_0 k ⟨1, by decide⟩) (off26_1 k ⟨1, by decide⟩) j) (fun j => ld hg _ (k0_off26_inb k ⟨2, by decide⟩) k.val 2 hk80 (by decide) 3 (off26_0 k ⟨2, by decide⟩) (off26_1 k ⟨2, by decide⟩) j) (fun j => ld hg _ (k0_off26_inb k ⟨3, by decide⟩) k.val 3 hk80 (by decide) 3 (off26_0 k ⟨3, by decide⟩) (off26_1 k ⟨3, by decide⟩) j))
      (TileVal.step4_accVec X s 4 (base + 4 * k.val) (by omega) _ _ _ _ (fun j => ld hg _ (k0_off27_inb k ⟨0, by decide⟩) k.val 0 hk80 (by decide) 4 (off27_0 k ⟨0, by decide⟩) (off27_1 k ⟨0, by decide⟩) j) (fun j => ld hg _ (k0_off27_inb k ⟨1, by decide⟩) k.val 1 hk80 (by decide) 4 (off27_0 k ⟨1, by decide⟩) (off27_1 k ⟨1, by decide⟩) j) (fun j => ld hg _ (k0_off27_inb k ⟨2, by decide⟩) k.val 2 hk80 (by decide) 4 (off27_0 k ⟨2, by decide⟩) (off27_1 k ⟨2, by decide⟩) j) (fun j => ld hg _ (k0_off27_inb k ⟨3, by decide⟩) k.val 3 hk80 (by decide) 4 (off27_0 k ⟨3, by decide⟩) (off27_1 k ⟨3, by decide⟩) j))
      (TileVal.step4_accVec X s 5 (base + 4 * k.val) (by omega) _ _ _ _ (fun j => ld hg _ (k0_off28_inb k ⟨0, by decide⟩) k.val 0 hk80 (by decide) 5 (off28_0 k ⟨0, by decide⟩) (off28_1 k ⟨0, by decide⟩) j) (fun j => ld hg _ (k0_off28_inb k ⟨1, by decide⟩) k.val 1 hk80 (by decide) 5 (off28_0 k ⟨1, by decide⟩) (off28_1 k ⟨1, by decide⟩) j) (fun j => ld hg _ (k0_off28_inb k ⟨2, by decide⟩) k.val 2 hk80 (by decide) 5 (off28_0 k ⟨2, by decide⟩) (off28_1 k ⟨2, by decide⟩) j) (fun j => ld hg _ (k0_off28_inb k ⟨3, by decide⟩) k.val 3 hk80 (by decide) 5 (off28_0 k ⟨3, by decide⟩) (off28_1 k ⟨3, by decide⟩) j))
      (TileVal.step4_accVec X s 6 (base + 4 * k.val) (by omega) _ _ _ _ (fun j => ld hg _ (k0_off29_inb k ⟨0, by decide⟩) k.val 0 hk80 (by decide) 6 (off29_0 k ⟨0, by decide⟩) (off29_1 k ⟨0, by decide⟩) j) (fun j => ld hg _ (k0_off29_inb k ⟨1, by decide⟩) k.val 1 hk80 (by decide) 6 (off29_0 k ⟨1, by decide⟩) (off29_1 k ⟨1, by decide⟩) j) (fun j => ld hg _ (k0_off29_inb k ⟨2, by decide⟩) k.val 2 hk80 (by decide) 6 (off29_0 k ⟨2, by decide⟩) (off29_1 k ⟨2, by decide⟩) j) (fun j => ld hg _ (k0_off29_inb k ⟨3, by decide⟩) k.val 3 hk80 (by decide) 6 (off29_0 k ⟨3, by decide⟩) (off29_1 k ⟨3, by decide⟩) j))
      (TileVal.step4_accVec X s 7 (base + 4 * k.val) (by omega) _ _ _ _ (fun j => ld hg _ (k0_off30_inb k ⟨0, by decide⟩) k.val 0 hk80 (by decide) 7 (off30_0 k ⟨0, by decide⟩) (off30_1 k ⟨0, by decide⟩) j) (fun j => ld hg _ (k0_off30_inb k ⟨1, by decide⟩) k.val 1 hk80 (by decide) 7 (off30_0 k ⟨1, by decide⟩) (off30_1 k ⟨1, by decide⟩) j) (fun j => ld hg _ (k0_off30_inb k ⟨2, by decide⟩) k.val 2 hk80 (by decide) 7 (off30_0 k ⟨2, by decide⟩) (off30_1 k ⟨2, by decide⟩) j) (fun j => ld hg _ (k0_off30_inb k ⟨3, by decide⟩) k.val 3 hk80 (by decide) 7 (off30_0 k ⟨3, by decide⟩) (off30_1 k ⟨3, by decide⟩) j))
  · iexists g; isplitr; · ipureintro; exact hg
    iexact Hb

set_option maxHeartbeats 1600000 in
/-- One trip of a row loop, with the accumulators' values. -/
theorem rowsV_s1_b (X : S64x4096x128.Idx → F .f32) (s : Fin 64) (base : Nat) (hb : base + 320 ≤ 4096)
    (c0 c1 : BitVec 32) (p : Fin k0_t4_loop.trips)
    (a9 a10 a11 a12 a13 a14 a15 a16 : FVec F S16 .f32) (k : Fin k0_t6_loop.trips) (acc : FVec F S16 .f32 × FVec F S16 .f32 × FVec F S16 .f32 × FVec F S16 .f32 × FVec F S16 .f32 × FVec F S16 .f32 × FVec F S16 .f32 × FVec F S16 .f32) :
    invRows1 (U := U) d L X s base hb k.val acc
      ⊢ wp frame (wpE (defs₀ (F := F)) 𝒱₀ (thrOf d L) none) Set.univ
          (k0_t6_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows1 (U := U) d L X s base hb (k.val + 1)) := by
  obtain ⟨b18, b19, b20, b21, b22, b23, b24, b25⟩ := acc
  unfold k0_t6_body
  simp only [k0_part11_eq_skeleton, k0_part12_eq_skeleton, k0_part13_eq_skeleton]
  unfold k0_part11_skel k0_part12_skel k0_part13_skel
  unfold invRows1
  iintro ⟨%hacc, %g, %hg, Hb⟩
  have hk80 : k.val < 80 := lt_of_lt_of_le k.isLt k0_t6_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t6 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off32 k (BitVec.ofNat 32 0)) S1x16.size (k0_off32_inb k ⟨0, by decide⟩)).toLoadRect g)
      (View.readAt (Elt F) (Memref.whole cc0_scratch0).view (Rect.unit (s := S640x128) (k0_off33 k (BitVec.ofNat 32 0)) S1x16.size (k0_off33_inb k ⟨0, by decide⟩)).toLoadRect g)
      (View.readAt (Elt F) (Memref.whole cc0_scratch0).view (Rect.unit (s := S640x128) (k0_off34 k (BitVec.ofNat 32 0)) S1x16.size (k0_off34_inb k ⟨0, by decide⟩)).toLoadRect g)
      (View.readAt (Elt F) (Memref.whole cc0_scratch0).view (Rect.unit (s := S640x128) (k0_off35 k (BitVec.ofNat 32 0)) S1x16.size (k0_off35_inb k ⟨0, by decide⟩)).toLoadRect g)
      (View.readAt (Elt F) (Memref.whole cc0_scratch0).view (Rect.unit (s := S640x128) (k0_off36 k (BitVec.ofNat 32 0)) S1x16.size (k0_off36_inb k ⟨0, by decide⟩)).toLoadRect g)
      (View.readAt (Elt F) (Memref.whole cc0_scratch0).view (Rect.unit (s := S640x128) (k0_off37 k (BitVec.ofNat 32 0)) S1x16.size (k0_off37_inb k ⟨0, by decide⟩)).toLoadRect g)
      (View.readAt (Elt F) (Memref.whole cc0_scratch0).view (Rect.unit (s := S640x128) (k0_off38 k (BitVec.ofNat 32 0)) S1x16.size (k0_off38_inb k ⟨0, by decide⟩)).toLoadRect g)
      (View.readAt (Elt F) (Memref.whole cc0_scratch0).view (Rect.unit (s := S640x128) (k0_off39 k (BitVec.ofNat 32 0)) S1x16.size (k0_off39_inb k ⟨0, by decide⟩)).toLoadRect g)
      (View.readAt (Elt F) (Memref.whole cc0_scratch0).view (Rect.unit (s := S640x128) (k0_off32 k (BitVec.ofNat 32 1)) S1x16.size (k0_off32_inb k ⟨1, by decide⟩)).toLoadRect g)
      (View.readAt (Elt F) (Memref.whole cc0_scratch0).view (Rect.unit (s := S640x128) (k0_off33 k (BitVec.ofNat 32 1)) S1x16.size (k0_off33_inb k ⟨1, by decide⟩)).toLoadRect g)
      (View.readAt (Elt F) (Memref.whole cc0_scratch0).view (Rect.unit (s := S640x128) (k0_off34 k (BitVec.ofNat 32 1)) S1x16.size (k0_off34_inb k ⟨1, by decide⟩)).toLoadRect g)
      (View.readAt (Elt F) (Memref.whole cc0_scratch0).view (Rect.unit (s := S640x128) (k0_off35 k (BitVec.ofNat 32 1)) S1x16.size (k0_off35_inb k ⟨1, by decide⟩)).toLoadRect g)
      (View.readAt (Elt F) (Memref.whole cc0_scratch0).view (Rect.unit (s := S640x128) (k0_off36 k (BitVec.ofNat 32 1)) S1x16.size (k0_off36_inb k ⟨1, by decide⟩)).toLoadRect g)
      (View.readAt (Elt F) (Memref.whole cc0_scratch0).view (Rect.unit (s := S640x128) (k0_off37 k (BitVec.ofNat 32 1)) S1x16.size (k0_off37_inb k ⟨1, by decide⟩)).toLoadRect g)
      (View.readAt (Elt F) (Memref.whole cc0_scratch0).view (Rect.unit (s := S640x128) (k0_off38 k (BitVec.ofNat 32 1)) S1x16.size (k0_off38_inb k ⟨1, by decide⟩)).toLoadRect g)
      (View.readAt (Elt F) (Memref.whole cc0_scratch0).view (Rect.unit (s := S640x128) (k0_off39 k (BitVec.ofNat 32 1)) S1x16.size (k0_off39_inb k ⟨1, by decide⟩)).toLoadRect g)
      (View.readAt (Elt F) (Memref.whole cc0_scratch0).view (Rect.unit (s := S640x128) (k0_off32 k (BitVec.ofNat 32 2)) S1x16.size (k0_off32_inb k ⟨2, by decide⟩)).toLoadRect g)
      (View.readAt (Elt F) (Memref.whole cc0_scratch0).view (Rect.unit (s := S640x128) (k0_off33 k (BitVec.ofNat 32 2)) S1x16.size (k0_off33_inb k ⟨2, by decide⟩)).toLoadRect g)
      (View.readAt (Elt F) (Memref.whole cc0_scratch0).view (Rect.unit (s := S640x128) (k0_off34 k (BitVec.ofNat 32 2)) S1x16.size (k0_off34_inb k ⟨2, by decide⟩)).toLoadRect g)
      (View.readAt (Elt F) (Memref.whole cc0_scratch0).view (Rect.unit (s := S640x128) (k0_off35 k (BitVec.ofNat 32 2)) S1x16.size (k0_off35_inb k ⟨2, by decide⟩)).toLoadRect g)
      (View.readAt (Elt F) (Memref.whole cc0_scratch0).view (Rect.unit (s := S640x128) (k0_off36 k (BitVec.ofNat 32 2)) S1x16.size (k0_off36_inb k ⟨2, by decide⟩)).toLoadRect g)
      (View.readAt (Elt F) (Memref.whole cc0_scratch0).view (Rect.unit (s := S640x128) (k0_off37 k (BitVec.ofNat 32 2)) S1x16.size (k0_off37_inb k ⟨2, by decide⟩)).toLoadRect g)
      (View.readAt (Elt F) (Memref.whole cc0_scratch0).view (Rect.unit (s := S640x128) (k0_off38 k (BitVec.ofNat 32 2)) S1x16.size (k0_off38_inb k ⟨2, by decide⟩)).toLoadRect g)
      (View.readAt (Elt F) (Memref.whole cc0_scratch0).view (Rect.unit (s := S640x128) (k0_off39 k (BitVec.ofNat 32 2)) S1x16.size (k0_off39_inb k ⟨2, by decide⟩)).toLoadRect g)
      (View.readAt (Elt F) (Memref.whole cc0_scratch0).view (Rect.unit (s := S640x128) (k0_off32 k (BitVec.ofNat 32 3)) S1x16.size (k0_off32_inb k ⟨3, by decide⟩)).toLoadRect g)
      (View.readAt (Elt F) (Memref.whole cc0_scratch0).view (Rect.unit (s := S640x128) (k0_off33 k (BitVec.ofNat 32 3)) S1x16.size (k0_off33_inb k ⟨3, by decide⟩)).toLoadRect g)
      (View.readAt (Elt F) (Memref.whole cc0_scratch0).view (Rect.unit (s := S640x128) (k0_off34 k (BitVec.ofNat 32 3)) S1x16.size (k0_off34_inb k ⟨3, by decide⟩)).toLoadRect g)
      (View.readAt (Elt F) (Memref.whole cc0_scratch0).view (Rect.unit (s := S640x128) (k0_off35 k (BitVec.ofNat 32 3)) S1x16.size (k0_off35_inb k ⟨3, by decide⟩)).toLoadRect g)
      (View.readAt (Elt F) (Memref.whole cc0_scratch0).view (Rect.unit (s := S640x128) (k0_off36 k (BitVec.ofNat 32 3)) S1x16.size (k0_off36_inb k ⟨3, by decide⟩)).toLoadRect g)
      (View.readAt (Elt F) (Memref.whole cc0_scratch0).view (Rect.unit (s := S640x128) (k0_off37 k (BitVec.ofNat 32 3)) S1x16.size (k0_off37_inb k ⟨3, by decide⟩)).toLoadRect g)
      (View.readAt (Elt F) (Memref.whole cc0_scratch0).view (Rect.unit (s := S640x128) (k0_off38 k (BitVec.ofNat 32 3)) S1x16.size (k0_off38_inb k ⟨3, by decide⟩)).toLoadRect g)
      (View.readAt (Elt F) (Memref.whole cc0_scratch0).view (Rect.unit (s := S640x128) (k0_off39 k (BitVec.ofNat 32 3)) S1x16.size (k0_off39_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off32_inb k ⟨0, by decide⟩) k.val 0 hk80 (by decide) 0 (off32_0 k ⟨0, by decide⟩) (off32_1 k ⟨0, by decide⟩) j) (fun j => ld hg _ (k0_off32_inb k ⟨1, by decide⟩) k.val 1 hk80 (by decide) 0 (off32_0 k ⟨1, by decide⟩) (off32_1 k ⟨1, by decide⟩) j) (fun j => ld hg _ (k0_off32_inb k ⟨2, by decide⟩) k.val 2 hk80 (by decide) 0 (off32_0 k ⟨2, by decide⟩) (off32_1 k ⟨2, by decide⟩) j) (fun j => ld hg _ (k0_off32_inb k ⟨3, by decide⟩) k.val 3 hk80 (by decide) 0 (off32_0 k ⟨3, by decide⟩) (off32_1 k ⟨3, by decide⟩) j))
      (TileVal.step4_accVec X s 1 (base + 4 * k.val) (by omega) _ _ _ _ (fun j => ld hg _ (k0_off33_inb k ⟨0, by decide⟩) k.val 0 hk80 (by decide) 1 (off33_0 k ⟨0, by decide⟩) (off33_1 k ⟨0, by decide⟩) j) (fun j => ld hg _ (k0_off33_inb k ⟨1, by decide⟩) k.val 1 hk80 (by decide) 1 (off33_0 k ⟨1, by decide⟩) (off33_1 k ⟨1, by decide⟩) j) (fun j => ld hg _ (k0_off33_inb k ⟨2, by decide⟩) k.val 2 hk80 (by decide) 1 (off33_0 k ⟨2, by decide⟩) (off33_1 k ⟨2, by decide⟩) j) (fun j => ld hg _ (k0_off33_inb k ⟨3, by decide⟩) k.val 3 hk80 (by decide) 1 (off33_0 k ⟨3, by decide⟩) (off33_1 k ⟨3, by decide⟩) j))
      (TileVal.step4_accVec X s 2 (base + 4 * k.val) (by omega) _ _ _ _ (fun j => ld hg _ (k0_off34_inb k ⟨0, by decide⟩) k.val 0 hk80 (by decide) 2 (off34_0 k ⟨0, by decide⟩) (off34_1 k ⟨0, by decide⟩) j) (fun j => ld hg _ (k0_off34_inb k ⟨1, by decide⟩) k.val 1 hk80 (by decide) 2 (off34_0 k ⟨1, by decide⟩) (off34_1 k ⟨1, by decide⟩) j) (fun j => ld hg _ (k0_off34_inb k ⟨2, by decide⟩) k.val 2 hk80 (by decide) 2 (off34_0 k ⟨2, by decide⟩) (off34_1 k ⟨2, by decide⟩) j) (fun j => ld hg _ (k0_off34_inb k ⟨3, by decide⟩) k.val 3 hk80 (by decide) 2 (off34_0 k ⟨3, by decide⟩) (off34_1 k ⟨3, by decide⟩) j))
      (TileVal.step4_accVec X s 3 (base + 4 * k.val) (by omega) _ _ _ _ (fun j => ld hg _ (k0_off35_inb k ⟨0, by decide⟩) k.val 0 hk80 (by decide) 3 (off35_0 k ⟨0, by decide⟩) (off35_1 k ⟨0, by decide⟩) j) (fun j => ld hg _ (k0_off35_inb k ⟨1, by decide⟩) k.val 1 hk80 (by decide) 3 (off35_0 k ⟨1, by decide⟩) (off35_1 k ⟨1, by decide⟩) j) (fun j => ld hg _ (k0_off35_inb k ⟨2, by decide⟩) k.val 2 hk80 (by decide) 3 (off35_0 k ⟨2, by decide⟩) (off35_1 k ⟨2, by decide⟩) j) (fun j => ld hg _ (k0_off35_inb k ⟨3, by decide⟩) k.val 3 hk80 (by decide) 3 (off35_0 k ⟨3, by decide⟩) (off35_1 k ⟨3, by decide⟩) j))
      (TileVal.step4_accVec X s 4 (base + 4 * k.val) (by omega) _ _ _ _ (fun j => ld hg _ (k0_off36_inb k ⟨0, by decide⟩) k.val 0 hk80 (by decide) 4 (off36_0 k ⟨0, by decide⟩) (off36_1 k ⟨0, by decide⟩) j) (fun j => ld hg _ (k0_off36_inb k ⟨1, by decide⟩) k.val 1 hk80 (by decide) 4 (off36_0 k ⟨1, by decide⟩) (off36_1 k ⟨1, by decide⟩) j) (fun j => ld hg _ (k0_off36_inb k ⟨2, by decide⟩) k.val 2 hk80 (by decide) 4 (off36_0 k ⟨2, by decide⟩) (off36_1 k ⟨2, by decide⟩) j) (fun j => ld hg _ (k0_off36_inb k ⟨3, by decide⟩) k.val 3 hk80 (by decide) 4 (off36_0 k ⟨3, by decide⟩) (off36_1 k ⟨3, by decide⟩) j))
      (TileVal.step4_accVec X s 5 (base + 4 * k.val) (by omega) _ _ _ _ (fun j => ld hg _ (k0_off37_inb k ⟨0, by decide⟩) k.val 0 hk80 (by decide) 5 (off37_0 k ⟨0, by decide⟩) (off37_1 k ⟨0, by decide⟩) j) (fun j => ld hg _ (k0_off37_inb k ⟨1, by decide⟩) k.val 1 hk80 (by decide) 5 (off37_0 k ⟨1, by decide⟩) (off37_1 k ⟨1, by decide⟩) j) (fun j => ld hg _ (k0_off37_inb k ⟨2, by decide⟩) k.val 2 hk80 (by decide) 5 (off37_0 k ⟨2, by decide⟩) (off37_1 k ⟨2, by decide⟩) j) (fun j => ld hg _ (k0_off37_inb k ⟨3, by decide⟩) k.val 3 hk80 (by decide) 5 (off37_0 k ⟨3, by decide⟩) (off37_1 k ⟨3, by decide⟩) j))
      (TileVal.step4_accVec X s 6 (base + 4 * k.val) (by omega) _ _ _ _ (fun j => ld hg _ (k0_off38_inb k ⟨0, by decide⟩) k.val 0 hk80 (by decide) 6 (off38_0 k ⟨0, by decide⟩) (off38_1 k ⟨0, by decide⟩) j) (fun j => ld hg _ (k0_off38_inb k ⟨1, by decide⟩) k.val 1 hk80 (by decide) 6 (off38_0 k ⟨1, by decide⟩) (off38_1 k ⟨1, by decide⟩) j) (fun j => ld hg _ (k0_off38_inb k ⟨2, by decide⟩) k.val 2 hk80 (by decide) 6 (off38_0 k ⟨2, by decide⟩) (off38_1 k ⟨2, by decide⟩) j) (fun j => ld hg _ (k0_off38_inb k ⟨3, by decide⟩) k.val 3 hk80 (by decide) 6 (off38_0 k ⟨3, by decide⟩) (off38_1 k ⟨3, by decide⟩) j))
      (TileVal.step4_accVec X s 7 (base + 4 * k.val) (by omega) _ _ _ _ (fun j => ld hg _ (k0_off39_inb k ⟨0, by decide⟩) k.val 0 hk80 (by decide) 7 (off39_0 k ⟨0, by decide⟩) (off39_1 k ⟨0, by decide⟩) j) (fun j => ld hg _ (k0_off39_inb k ⟨1, by decide⟩) k.val 1 hk80 (by decide) 7 (off39_0 k ⟨1, by decide⟩) (off39_1 k ⟨1, by decide⟩) j) (fun j => ld hg _ (k0_off39_inb k ⟨2, by decide⟩) k.val 2 hk80 (by decide) 7 (off39_0 k ⟨2, by decide⟩) (off39_1 k ⟨2, by decide⟩) j) (fun j => ld hg _ (k0_off39_inb k ⟨3, by decide⟩) k.val 3 hk80 (by decide) 7 (off39_0 k ⟨3, by decide⟩) (off39_1 k ⟨3, by decide⟩) j))
  · iexists g; isplitr; · ipureintro; exact hg
    iexact Hb

end RowsV

end Cert.KI.Tile

end
-- ==== Proof.KI.TileV.lean ====
/-
  The tile's body with its value: each segment's pair loop carries the eight accumulators at the segment's first
  640 p rows, the sixteen stored pieces are the specified partial means, and the last copy leaves them in the tile's
  two rows of the result.
-/
import proofs.«210774_g2740189135076_cont_9to1_1653_26_alg».proof.Proof.KI.TileVRows
import proofs.«210774_g2740189135076_cont_9to1_1653_26_alg».proof.Proof.KI.TileTrips2
import proofs.«210774_g2740189135076_cont_9to1_1653_26_alg».proof.Proof.KI.Tile

noncomputable section

namespace Cert.KI.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.KernelIdeal.main_v0_scv : Memref Cert.KernelIdeal.sig Kind.scVector Space.hbm Cert.KernelIdeal.S64x4096x128 EltTy.f32)
local notation "oW" => (Memref.whole Cert.KernelIdeal.main_v1_scv : Memref Cert.KernelIdeal.sig Kind.scVector Space.hbm Cert.KernelIdeal.S64x128 EltTy.f32)
local notation "bW" => (Memref.whole Cert.KernelIdeal.cc0_scratch0 : Memref Cert.KernelIdeal.sig Kind.scVector Space.vmem Cert.KernelIdeal.S640x128 EltTy.f32)
local notation "vW" => (Memref.whole Cert.KernelIdeal.cc0_scratch1 : Memref Cert.KernelIdeal.sig Kind.scVector Space.vmem Cert.KernelIdeal.S2x128 EltTy.f32)

section PairV

variable [FloatOps F]
variable (d : Dev nD) (L : grid0.Coords) (q : PosShare TreeShare) (X : S64x4096x128.Idx → F .f32)
  (O : CellTallies nD τ sig (HIx 1)) (W : Waits sig (HIx 1))

/-- A copy of rows `base … base + 319` of segment `s` into slot 0 in flight. -/
def flyV0 (s : Fin 64) (base : Nat) : sProp 𝕄 :=
  iprop(∃ (off : Fin 3 → Nat) (inb : ∀ a, off a + S1x320x128.size a ≤ S64x4096x128.size a) (f : Buf (Elt F) ((slot0).view.loc (thrOf d L))),
    ⌜off 0 = s.val ∧ off 1 = base⌝ ∗
    Transfers.Flight countersEmb (thrOf d L) (SemLoc.dma cc0_scratch2.sem) (default : HIx 1) 1310720
        iprop(((slot0).view.loc (thrOf d L) ↦[(slot0).view.set]{fullShare}
            (slot0).view.writes (Elt F) f [⟨Rect.whole S320x128, ReadAs.same.apply ((chunkAt off inb).view.read (Elt F) X)⟩])
          ∗ ((xW).view.loc (thrOf d L) ↦[(chunkAt off inb).view.set]{Transfers.shareTokN q 0} X))
      ∗ ((xW).view.loc (thrOf d L) ↦[Finset.univ \ (chunkAt off inb).view.set]{Transfers.shareTokN q 0} X))

/-- A copy of rows `base … base + 319` of segment `s` into slot 1 in flight. -/
def flyV1 (s : Fin 64) (base : Nat) : sProp 𝕄 :=
  iprop(∃ (off : Fin 3 → Nat) (inb : ∀ a, off a + S1x320x128.size a ≤ S64x4096x128.size a) (f : Buf (Elt F) ((slot1).view.loc (thrOf d L))),
    ⌜off 0 = s.val ∧ off 1 = base⌝ ∗
    Transfers.Flight countersEmb (thrOf d L) (SemLoc.dma cc0_scratch3.sem) (default : HIx 1) 1310720
        iprop(((slot1).view.loc (thrOf d L) ↦[(slot1).view.set]{fullShare}
            (slot1).view.writes (Elt F) f [⟨Rect.whole S320x128, ReadAs.same.apply ((chunkAt off inb).view.read (Elt F) X)⟩])
          ∗ ((xW).view.loc (thrOf d L) ↦[(chunkAt off inb).view.set]{Transfers.shareTokN q 1} X))
      ∗ ((xW).view.loc (thrOf d L) ↦[Finset.univ \ (chunkAt off inb).view.set]{Transfers.shareTokN q 1} X))

/-- Before trip `p` of segment `s`'s pair loop: the accumulators have taken the segment's first `640 p` rows; while
    trips remain the copies of the next two chunks are in flight, after the last both slots are at rest. -/
def invPairV (s : Fin 64) (p : Nat) (acc : FVec F S16 .f32 × FVec F S16 .f32 × FVec F S16 .f32 × FVec F S16 .f32 × FVec F S16 .f32 × FVec F S16 .f32 × FVec F S16 .f32 × FVec F S16 .f32) : sProp 𝕄 :=
  iprop(Transfers.MayWaits (thrOf d L) (none : HIx 1) O
    ∗ ⌜acc = accTup X s (640 * p)⌝
    ∗ (if p < 2 then (iprop(flyV0 d L q X s (640 * p) ∗ flyV1 d L q X s (640 * p + 320)) : sProp 𝕄) else (iprop(idle0 d L q X ∗ idle1 d L q X) : sProp 𝕄))
    ∗ ∃ W', ⌜∀ p ∈ W', p ∈ W ∨ p.2 = none⌝ ∗ owes (thrOf d L) O W')

theorem invPairV_lt (s : Fin 64) {p : Nat} {acc : FVec F S16 .f32 × FVec F S16 .f32 × FVec F S16 .f32 × FVec F S16 .f32 × FVec F S16 .f32 × FVec F S16 .f32 × FVec F S16 .f32 × FVec F S16 .f32} (h : p < 2) :
    invPairV (U := U) d L q X O W s p acc
      = iprop(Transfers.MayWaits (thrOf d L) (none : HIx 1) O
        ∗ ⌜acc = accTup X s (640 * p)⌝
        ∗ ((∃ (off : Fin 3 → Nat) (inb : ∀ a, off a + S1x320x128.size a ≤ S64x4096x128.size a) (f : Buf (Elt F) ((slot0).view.loc (thrOf d L))),
        ⌜off 0 = s.val ∧ off 1 = 640 * p⌝ ∗
        Transfers.Flight countersEmb (thrOf d L) (SemLoc.dma cc0_scratch2.sem) (default : HIx 1) 1310720
            iprop(((slot0).view.loc (thrOf d L) ↦[(slot0).view.set]{fullShare}
                (slot0).view.writes (Elt F) f [⟨Rect.whole S320x128, ReadAs.same.apply ((chunkAt off inb).view.read (Elt F) X)⟩])
              ∗ ((xW).view.loc (thrOf d L) ↦[(chunkAt off inb).view.set]{Transfers.shareTokN q 0} X))
          ∗ ((xW).view.loc (thrOf d L) ↦[Finset.univ \ (chunkAt off inb).view.set]{Transfers.shareTokN q 0} X))
          ∗ (∃ (off : Fin 3 → Nat) (inb : ∀ a, off a + S1x320x128.size a ≤ S64x4096x128.size a) (f : Buf (Elt F) ((slot1).view.loc (thrOf d L))),
        ⌜off 0 = s.val ∧ off 1 = 640 * p + 320⌝ ∗
        Transfers.Flight countersEmb (thrOf d L) (SemLoc.dma cc0_scratch3.sem) (default : HIx 1) 1310720
            iprop(((slot1).view.loc (thrOf d L) ↦[(slot1).view.set]{fullShare}
                (slot1).view.writes (Elt F) f [⟨Rect.whole S320x128, ReadAs.same.apply ((chunkAt off inb).view.read (Elt F) X)⟩])
              ∗ ((xW).view.loc (thrOf d L) ↦[(chunkAt off inb).view.set]{Transfers.shareTokN q 1} X))
          ∗ ((xW).view.loc (thrOf d L) ↦[Finset.univ \ (chunkAt off inb).view.set]{Transfers.shareTokN q 1} X)))
        ∗ ∃ W', ⌜∀ p ∈ W', p ∈ W ∨ p.2 = none⌝ ∗ owes (thrOf d L) O W') := by
  unfold invPairV flyV0 flyV1; rw [if_pos h]

theorem invPairV_ge (s : Fin 64) {p : Nat} {acc : FVec F S16 .f32 × FVec F S16 .f32 × FVec F S16 .f32 × FVec F S16 .f32 × FVec F S16 .f32 × FVec F S16 .f32 × FVec F S16 .f32 × FVec F S16 .f32} (h : ¬ p < 2) :
    invPairV (U := U) d L q X O W s p acc
      = iprop(Transfers.MayWaits (thrOf d L) (none : HIx 1) O
        ∗ ⌜acc = accTup X s (640 * p)⌝
        ∗ (((∃ f : Buf (Elt F) ((slot0).view.loc (thrOf d L)), (slot0).view.loc (thrOf d L) ↦[(slot0).view.set]{fullShare} f)
        ∗ semVal ((thrOf d L, SemLoc.dma cc0_scratch2.sem) : GSem nD τ sig) 0 ∗ ((xW).view.loc (thrOf d L) ↦{Transfers.shareTokN q 0} X))
          ∗ ((∃ f : Buf (Elt F) ((slot1).view.loc (thrOf d L)), (slot1).view.loc (thrOf d L) ↦[(slot1).view.set]{fullShare} f)
        ∗ semVal ((thrOf d L, SemLoc.dma cc0_scratch3.sem) : GSem nD τ sig) 0 ∗ ((xW).view.loc (thrOf d L) ↦{Transfers.shareTokN q 1} X)))
        ∗ ∃ W', ⌜∀ p ∈ W', p ∈ W ∨ p.2 = none⌝ ∗ owes (thrOf d L) O W') := by
  unfold invPairV idle0 idle1; rw [if_neg h]

theorem trips_t2 : Scf.trips k0_t2_loop.lb k0_t2_loop.ub k0_t2_loop.st = 80 := by decide
theorem trips_t3 : Scf.trips k0_t3_loop.lb k0_t3_loop.ub k0_t3_loop.st = 80 := by decide
theorem trips_t5 : Scf.trips k0_t5_loop.lb k0_t5_loop.ub k0_t5_loop.st = 80 := by decide
theorem trips_t6 : Scf.trips k0_t6_loop.lb k0_t6_loop.ub k0_t6_loop.st = 80 := by decide

set_option maxHeartbeats 3200000 in
theorem pairV0_step (s : Fin 64) (hs : s.val = 4 * (L 1).val + 2 * (L 0).val) (k : Fin k0_t1_loop.trips) (acc : FVec F S16 .f32 × FVec F S16 .f32 × FVec F S16 .f32 × FVec F S16 .f32 × FVec F S16 .f32 × FVec F S16 .f32 × FVec F S16 .f32 × FVec F S16 .f32) :
    invPairV (U := U) d L q X O W s k.val acc
      ⊢ wp frame (wpE (defs₀ (F := F)) 𝒱₀ (thrOf d L) none) Set.univ
          (k0_t1_body L xW (Memref.isWhole_whole _) oW (Memref.isWhole_whole _) bW (Memref.isWhole_whole _) vW (Memref.isWhole_whole _)
            cc0_scratch2 cc0_scratch3 cc0_scoped0 k acc)
          (invPairV (U := U) d L q X O W s (k.val + 1)) := by
  have hk2 : k.val < 2 := lt_of_lt_of_le k.isLt k0_t1_abs.2.1
  obtain ⟨a9, a10, a11, a12, a13, a14, a15, a16⟩ := acc
  unfold k0_t1_body
  simp only [k0_part7_eq_skeleton]
  unfold k0_part7_skel
  simp only [Prog.bind_assoc]
  unfold invPairV
  rw [if_pos hk2]
  rcases (by omega : k.val = 0 ∨ k.val = 1) with h0 | h1
  · have hc1 : k0_cond1 k = 1#1 := (cond1_iff k).2 h0
    have hc2 : k0_cond2 k = 1#1 := (cond2_iff k).2 h0
    rw [if_pos (by omega : k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s0_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t2] at hacc1
    subst hacc1
    sl_exec
    sl_rw [Prog.bind_assoc]
    sl_for (invRows1 (U := U) d L X s (640 * k.val + 320) (by omega)) $$ [HF1_dst]
    case region => intro t acc; exact rowsV_s0_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t3] at hacc2
    subst hacc2
    sl_exec
    sl_step
    isplitr; · iexact Hmw
    isplitr
    · ipureintro
      rw [show 640 * (k.val + 1) = 640 * k.val + 320 + 4 * 80 from by omega]
    isplitl [HF0 Hx0 HF1 Hx1]
    · isplitl [HF0 Hx0]
      · iexists (k0_off12 L k), (k0_off12_inb L k hc1), _; isplitr
        · ipureintro; exact ⟨by rw [k0_off12_eq]; exact hs.symm, by rw [k0_off12_eq]; show 640 * k.val + 640 = 640 * (k.val + 1); omega⟩
        isplitl [HF0]; · iexact HF0
        iexact Hx0
      · iexists (k0_off21 L k), (k0_off21_inb L k hc2), _; isplitr
        · ipureintro; exact ⟨by rw [k0_off21_eq]; exact hs.symm, by rw [k0_off21_eq]; show 640 * k.val + 960 = 640 * (k.val + 1) + 320; omega⟩
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond1 k = 1#1 := fun h => by have := (cond1_iff k).1 h; omega
    have hc2 : ¬ k0_cond2 k = 1#1 := fun h => by have := (cond2_iff k).1 h; omega
    rw [if_neg (by omega : ¬ k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s0_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t2] at hacc1
    subst hacc1
    sl_exec
    sl_rw [Prog.bind_assoc]
    sl_for (invRows1 (U := U) d L X s (640 * k.val + 320) (by omega)) $$ [HF1_dst]
    case region => intro t acc; exact rowsV_s0_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t3] at hacc2
    subst hacc2
    sl_exec
    sl_step
    isplitr; · iexact Hmw
    isplitr
    · ipureintro
      rw [show 640 * (k.val + 1) = 640 * k.val + 320 + 4 * 80 from by omega]
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

set_option maxHeartbeats 3200000 in
theorem pairV1_step (s : Fin 64) (hs : s.val = 4 * (L 1).val + 2 * (L 0).val + 1) (v87 v88 v89 : FVec F S16 .f32) (cst_62 : F .f32) (k : Fin k0_t4_loop.trips) (acc : FVec F S16 .f32 × FVec F S16 .f32 × FVec F S16 .f32 × FVec F S16 .f32 × FVec F S16 .f32 × FVec F S16 .f32 × FVec F S16 .f32 × FVec F S16 .f32) :
    invPairV (U := U) d L q X O W s k.val acc
      ⊢ wp frame (wpE (defs₀ (F := F)) 𝒱₀ (thrOf d L) none) Set.univ
          (k0_t4_body L xW (Memref.isWhole_whole _) oW (Memref.isWhole_whole _) bW (Memref.isWhole_whole _) vW (Memref.isWhole_whole _)
            cc0_scratch2 cc0_scratch3 cc0_scoped0 v87 v88 v89 cst_62 k acc)
          (invPairV (U := U) d L q X O W s (k.val + 1)) := by
  have hk2 : k.val < 2 := lt_of_lt_of_le k.isLt k0_t4_abs.2.1
  obtain ⟨a9, a10, a11, a12, a13, a14, a15, a16⟩ := acc
  unfold k0_t4_body
  simp only [k0_part14_eq_skeleton]
  unfold k0_part14_skel
  simp only [Prog.bind_assoc]
  unfold invPairV
  rw [if_pos hk2]
  rcases (by omega : k.val = 0 ∨ k.val = 1) with h0 | h1
  · have hc1 : k0_cond3 k = 1#1 := (cond3_iff k).2 h0
    have hc2 : k0_cond4 k = 1#1 := (cond4_iff k).2 h0
    rw [if_pos (by omega : k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s1_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t5] at hacc1
    subst hacc1
    sl_exec
    sl_rw [Prog.bind_assoc]
    sl_for (invRows1 (U := U) d L X s (640 * k.val + 320) (by omega)) $$ [HF1_dst]
    case region => intro t acc; exact rowsV_s1_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t6] at hacc2
    subst hacc2
    sl_exec
    sl_step
    isplitr; · iexact Hmw
    isplitr
    · ipureintro
      rw [show 640 * (k.val + 1) = 640 * k.val + 320 + 4 * 80 from by omega]
    isplitl [HF0 Hx0 HF1 Hx1]
    · isplitl [HF0 Hx0]
      · iexists (k0_off31 L k), (k0_off31_inb L k hc1), _; isplitr
        · ipureintro; exact ⟨by rw [k0_off31_eq]; exact hs.symm, by rw [k0_off31_eq]; show 640 * k.val + 640 = 640 * (k.val + 1); omega⟩
        isplitl [HF0]; · iexact HF0
        iexact Hx0
      · iexists (k0_off40 L k), (k0_off40_inb L k hc2), _; isplitr
        · ipureintro; exact ⟨by rw [k0_off40_eq]; exact hs.symm, by rw [k0_off40_eq]; show 640 * k.val + 960 = 640 * (k.val + 1) + 320; omega⟩
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond3 k = 1#1 := fun h => by have := (cond3_iff k).1 h; omega
    have hc2 : ¬ k0_cond4 k = 1#1 := fun h => by have := (cond4_iff k).1 h; omega
    rw [if_neg (by omega : ¬ k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s1_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t5] at hacc1
    subst hacc1
    sl_exec
    sl_rw [Prog.bind_assoc]
    sl_for (invRows1 (U := U) d L X s (640 * k.val + 320) (by omega)) $$ [HF1_dst]
    case region => intro t acc; exact rowsV_s1_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t6] at hacc2
    subst hacc2
    sl_exec
    sl_step
    isplitr; · iexact Hmw
    isplitr
    · ipureintro
      rw [show 640 * (k.val + 1) = 640 * k.val + 320 + 4 * 80 from by omega]
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

end PairV

section BodyV

variable [FloatOps F]

theorem seg0_val (L : grid0.Coords) : (TileVal.segOf L 0).val = 4 * (L 1).val + 2 * (L 0).val := by
  show 2 * Cert.KI.Launch.wid L + 0 = _
  unfold Cert.KI.Launch.wid; omega
theorem seg1_val (L : grid0.Coords) : (TileVal.segOf L 1).val = 4 * (L 1).val + 2 * (L 0).val + 1 := by
  show 2 * Cert.KI.Launch.wid L + 1 = _
  unfold Cert.KI.Launch.wid; omega

/-- The tile's result rows, written whole by the last copy with the scratch's sixteen pieces, hold the specified values. -/
theorem out_congr (d : Dev nD) (L : grid0.Coords) (X : S64x4096x128.Idx → F .f32) (fo : Buf (Elt F) (sLoc d))
    (P : S2x128.Idx → Elt F .f32) (hP : P = (ReadAs.same.apply (TileVal.tileVals X L) : S2x128.Idx → Elt F .f32)) :
    ((outRows L).view.loc (thrOf d L) ↦[(outRows L).view.set]{fullShare} (outRows L).view.writes (Elt F) fo [⟨Rect.whole S2x128, P⟩] : sProp 𝕄)
      ⊢ (sLoc d ↦[tileRows L]{fullShare} (Cert.Spec.scVal X : Buf (Elt F) (sLoc d)) : sProp 𝕄) := by
  subst hP
  exact Entails.of_eq (pointsTo_congr fun i hi => TileVal.out_written X L fo i hi)

set_option maxHeartbeats 8000000 in
/-- The tile's body: the input is only read, the tile's two result rows end at the specified partial means of its two
    segments, and everything of the tile's own is handed back as it was found. -/
theorem tile_body (hF : (K (F := F)).Facts)
    (d : Dev nD) (L : grid0.Coords) (q : PosShare TreeShare)
    (X : Buf (Elt F) (xLoc d)) (O : CellTallies nD τ sig (HIx 1)) (W : Waits sig (HIx 1)) (hO : ∀ g, O g none = 0) :
    iprop(levAts (K (F := F)).L (K (F := F)).lev ∗ (xLoc d ↦{q} X) ∗ (∃ f : Buf (Elt F) (sLoc d), sLoc d ↦[tileRows L]{fullShare} f)
        ∗ scopedBufs (thrOf d L) ∗ scopedSems0 (thrOf d L) ∗ owes (thrOf d L) O W)
      ⊢ (wp frame (wpE (defs₀ (F := F)) 𝒱₀ (thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scratch2 cc0_scratch3 cc0_scoped0)
          fun _ => iprop((xLoc d ↦{q} X) ∗ (sLoc d ↦[tileRows L]{fullShare} (Cert.Spec.scVal X : Buf (Elt F) (sLoc d)))
            ∗ scopedBufs (thrOf d L) ∗ scopedSems0 (thrOf d L) ∗ ∃ W', ⌜∀ p ∈ W', p ∈ W ∨ p.2 = none⌝ ∗ owes (thrOf d L) O W') : sProp 𝕄) := by
  simp only [cc0__sc_body_eq_skeleton]
  unfold cc0__sc_body_skel
  simp only [k0_part15_eq_skeleton, k0_part16_eq_skeleton, k0_part17_eq_skeleton, k0_part18_eq_skeleton]
  unfold k0_part15_skel k0_part16_skel k0_part17_skel k0_part18_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Hx, ⟨%fo, Ho⟩, ⟨⟨%fb, Hb⟩, ⟨%fv, Hv⟩, Hbufs⟩, ⟨Hs2, Hs3, Hs5, Hsems⟩, HO⟩
  ihave Hmw := ((K (F := F)).mayWaits_none (thr := thrOf d L) hO) $$ Hlv
  ihave Hx' := (Entails.of_eq (pts_x (F := F) d L q _).symm) $$ Hx
  ihave Hx'' := (pts_x_toks (F := F) d L q _).1 $$ Hx'
  icases Hx'' with ⟨Hxr, Hx0, Hx1⟩
  ihave Ho' := (Entails.of_eq (pts_o (F := F) d L _).symm) $$ Ho
  ihave Hb' := (Entails.of_eq (pts_b (F := F) d L _).symm) $$ Hb
  ihave Hb'' := (pts_b_split (F := F) d L _) $$ Hb'
  icases Hb'' with ⟨Hb0, Hb1, Hbr⟩
  ihave Hv' := (Entails.of_eq (pts_v (F := F) d L _).symm) $$ Hv
  sl_exec
  sl_for (invPairV (U := U) d L q X O W (TileVal.segOf L 0)) $$ [Hs2 Hx0 Hs3 Hx1 HO]
  case region => intro k acc; exact pairV0_step d L q X O W _ (seg0_val L) k acc
  · iapply (Entails.of_eq (invPairV_lt (U := U) d L q X O W (TileVal.segOf L 0) (by decide : (0 : Nat) < 2)).symm)
    isplitr; · iexact Hmw
    isplitr; · ipureintro; rfl
    isplitl [Hs2 Hx0 Hs3 Hx1]
    · isplitl [Hs2 Hx0]
      · iexists (k0_off1 L 0#32), (k0_off1_inb L 0), _; isplitr
        · ipureintro
          have e : k0_off1 L 0#32 = ![4 * (L 1).val + 2 * (L 0).val + 0, 0, 0] := k0_off1_eq L ⟨0, by decide⟩
          exact ⟨by rw [e]; exact (seg0_val L).symm, by rw [e]; rfl⟩
        isplitl [Hs2]; · iexact Hs2
        iexact Hx0
      · iexists (k0_off2 L 0#32), (k0_off2_inb L 0), _; isplitr
        · ipureintro
          have e : k0_off2 L 0#32 = ![4 * (L 1).val + 2 * (L 0).val + 0, 320, 0] := k0_off2_eq L ⟨0, by decide⟩
          exact ⟨by rw [e]; exact (seg0_val L).symm, by rw [e]; rfl⟩
        isplitl [Hs3]; · iexact Hs3
        iexact Hx1
    iexists W; isplitr
    · ipureintro; exact fun p hp => .inl hp
    · iexact HO
  iintro %acc1 HI
  have ht1 : ¬ Scf.trips k0_t1_loop.lb k0_t1_loop.ub k0_t1_loop.st < 2 := by decide
  have ht1' : 640 * Scf.trips k0_t1_loop.lb k0_t1_loop.ub k0_t1_loop.st = 1280 := by decide
  ihave HI' := (Entails.of_eq (invPairV_ge (U := U) d L q X O W (TileVal.segOf L 0) ht1)) $$ HI
  icases HI' with ⟨-, %hacc1, ⟨⟨⟨%g0, Hb0⟩, Hs2, Hx0⟩, ⟨⟨%g1, Hb1⟩, Hs3, Hx1⟩⟩, %W1, %hW1, HO⟩
  rw [ht1'] at hacc1
  subst hacc1
  sl_exec
  try sl_rw [Prog.bind_assoc]
  sl_for (invPairV (U := U) d L q X O W (TileVal.segOf L 1)) $$ [Hs2 Hx0 Hs3 Hx1 HO]
  case region => intro k acc; exact pairV1_step d L q X O W _ (seg1_val L) _ _ _ _ k acc
  · iapply (Entails.of_eq (invPairV_lt (U := U) d L q X O W (TileVal.segOf L 1) (by decide : (0 : Nat) < 2)).symm)
    isplitr; · iexact Hmw
    isplitr; · ipureintro; rfl
    isplitl [Hs2 Hx0 Hs3 Hx1]
    · isplitl [Hs2 Hx0]
      · iexists (k0_off1 L 1#32), (k0_off1_inb L 1), _; isplitr
        · ipureintro
          have e : k0_off1 L 1#32 = ![4 * (L 1).val + 2 * (L 0).val + 1, 0, 0] := k0_off1_eq L ⟨1, by decide⟩
          exact ⟨by rw [e]; exact (seg1_val L).symm, by rw [e]; rfl⟩
        isplitl [Hs2]; · iexact Hs2
        iexact Hx0
      · iexists (k0_off2 L 1#32), (k0_off2_inb L 1), _; isplitr
        · ipureintro
          have e : k0_off2 L 1#32 = ![4 * (L 1).val + 2 * (L 0).val + 1, 320, 0] := k0_off2_eq L ⟨1, by decide⟩
          exact ⟨by rw [e]; exact (seg1_val L).symm, by rw [e]; rfl⟩
        isplitl [Hs3]; · iexact Hs3
        iexact Hx1
    iexists W1; isplitr
    · ipureintro; exact hW1
    · iexact HO
  iintro %acc2 HI
  have ht4 : ¬ Scf.trips k0_t4_loop.lb k0_t4_loop.ub k0_t4_loop.st < 2 := by decide
  have ht4' : 640 * Scf.trips k0_t4_loop.lb k0_t4_loop.ub k0_t4_loop.st = 1280 := by decide
  ihave HI' := (Entails.of_eq (invPairV_ge (U := U) d L q X O W (TileVal.segOf L 1) ht4)) $$ HI
  icases HI' with ⟨-, %hacc2, ⟨⟨⟨%g2, Hb0⟩, Hs2, Hx0⟩, ⟨⟨%g3, Hb1⟩, Hs3, Hx1⟩⟩, %W2, %hW2, HO⟩
  rw [ht4'] at hacc2
  subst hacc2
  sl_exec
  sl_step
  isplitl [Hxr Hx0 Hx1]
  · iapply (Entails.of_eq (pts_x (F := F) d L q _))
    iapply (pts_x_toks (F := F) d L q _).2
    isplitl [Hxr]; · iexact Hxr
    isplitl [Hx0]; · iexact Hx0
    iexact Hx1
  isplitl [Ho']
  · iapply (out_congr (F := F) (U := U) d L X fo _ ?hP) $$ [Ho']
    all_goals first
      | iexact Ho'
      | skip
    exact congrArg _ (TileVal.scratch_read X L fv _ _ _ _ _ _ _ _ _ _ _ _ _ _ _ _
      (TileVal.stored_0_0 _) (TileVal.stored_0_1 _) (TileVal.stored_0_2 _) (TileVal.stored_0_3 _)
      (TileVal.stored_0_4 _) (TileVal.stored_0_5 _) (TileVal.stored_0_6 _) (TileVal.stored_0_7 _)
      (TileVal.stored_1_0 _) (TileVal.stored_1_1 _) (TileVal.stored_1_2 _) (TileVal.stored_1_3 _)
      (TileVal.stored_1_4 _) (TileVal.stored_1_5 _) (TileVal.stored_1_6 _) (TileVal.stored_1_7 _))
  isplitl [Hb0 Hb1 Hbr Hv' Hbufs]
  · isplitl [Hb0 Hb1 Hbr]
    · iapply (pts_b_join (F := F) d L _ _ _)
      isplitl [Hb0]; · iexact Hb0
      isplitl [Hb1]; · iexact Hb1
      iexact Hbr
    isplitl [Hv']; · iexists _; iexact Hv'
    iexact Hbufs
  isplitl [Hs2 Hs3 Hs5 Hsems]
  · isplitl [Hs2]; · iexact Hs2
    isplitl [Hs3]; · iexact Hs3
    isplitl [Hs5]; · iexact Hs5
    iexact Hsems
  iexists (insert (SemLoc.dma cc0_scoped0.sem, (default : HIx 1)) W2); isplitr
  · ipureintro; intro p hp
    rcases Finset.mem_insert.mp hp with hp | hp
    · exact .inr (by rw [hp]; rfl)
    · exact hW2 p hp
  · iexact HO

end BodyV

end Cert.KI.Tile

end
-- ==== Proof.KI.Glue.lean ====
/-
  The two facts about the kernels' bodies, in the launch's own words.

  The vector subcores: the body's theorem at a symbolic tile is stated over the set of the tile's two result rows as the
  last copy's target spells it; that set is the rows whose number halves to the tile's number, which is how the launch
  deals the rows, and the specified values are the SparseCore part of the specification.

  The TensorCore kernel's region: the record of the region is stated over the kernel's own spelling of the two arrays'
  locations, which are the TensorCore's buffers of the segment array and of the TensorCore result.
-/
import proofs.«210774_g2740189135076_cont_9to1_1653_26_alg».proof.Proof.KI.LaunchC
import proofs.«210774_g2740189135076_cont_9to1_1653_26_alg».proof.Proof.KI.Tile
import proofs.«210774_g2740189135076_cont_9to1_1653_26_alg».proof.Proof.KI.TileV

noncomputable section

namespace Cert.KI.Glue

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KI.Launch

variable {F : FTy → Type} [FloatOps F]

local notation "𝕄" => MT nD τ sig (HIx 1) (Elt F) ℕ UU ℕ

/-! ## The vector subcores' body -/

/-- The body's theorem at a symbolic tile, in the body's own spelling: from a read share of the segment array and the
    tile's two result rows (the set of the last copy's target), the body runs and leaves the rows at the SparseCore
    part of the specification. -/
def TileBody : Prop :=
  ∀ (d : Dev nD) (L : grid0.Coords) (q : PosShare TreeShare) (X : Buf (Elt F) (Cert.KI.Tile.xLoc d))
    (O : CellTallies nD τ sig (HIx 1)) (W : Waits sig (HIx 1)), (∀ g, O g none = 0) →
    iprop(levAts (Cert.KI.Tile.K (F := F)).L (Cert.KI.Tile.K (F := F)).lev ∗ (Cert.KI.Tile.xLoc d ↦{q} X)
        ∗ (∃ f : Buf (Elt F) (Cert.KI.Tile.sLoc d), Cert.KI.Tile.sLoc d ↦[Cert.KI.Tile.tileRows L]{fullShare} f)
        ∗ scopedBufs (Cert.KI.Tile.thrOf d L) ∗ scopedSems0 (Cert.KI.Tile.thrOf d L) ∗ owes (Cert.KI.Tile.thrOf d L) O W)
      ⊢ (wp frame (wpE (defs₀ (F := F)) Cert.KI.Tile.𝒱₀ (Cert.KI.Tile.thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scratch2 cc0_scratch3 cc0_scoped0)
          fun _ => iprop((Cert.KI.Tile.xLoc d ↦{q} X)
            ∗ (Cert.KI.Tile.sLoc d ↦[Cert.KI.Tile.tileRows L]{fullShare} Cert.Spec.scVal (F := F) X)
            ∗ scopedBufs (Cert.KI.Tile.thrOf d L) ∗ scopedSems0 (Cert.KI.Tile.thrOf d L)
            ∗ ∃ W', ⌜∀ p ∈ W', p ∈ W ∨ p.2 = none⌝ ∗ owes (Cert.KI.Tile.thrOf d L) O W') : sProp 𝕄)

/-- The body's theorem is what the launch asks of the vector subcores: the last copy's target is the tile's two rows
    as the launch deals them. -/
theorem tileSpec_of (hb : TileBody (F := F)) : TileSpec (F := F) := by
  intro d L q X O W hO
  have h := hb d L q X O W hO
  rw [Cert.KI.Tile.tileRows_eq] at h
  exact h

/-- What the launch asks of the vector subcores, from the body's theorem. -/
theorem tileSpec : TileSpec (F := F) :=
  tileSpec_of fun d L q X O W hO => Cert.KI.Tile.tile_body (F := F) (U := UU) facts d L q X O W hO

/-! ## The TensorCore kernel's region -/

/-- The region's record in the kernel's own spelling of the two arrays: entered from the segment array at `Xin`, the
    TensorCore result's buffer at `V2` and the TensorCore owing nothing, it leaves the result at the TensorCore part
    of the specification and the recorded waits grown only by waits at no call. -/
def RegionRecord : Prop :=
  ∀ (Xin : (c : Dev nD) → S64x4096x128.Idx → F .f32) (V2 : (c : Dev nD) → S64x128.Idx → F .f32)
    (W₀ : Dev nD → Waits sig (HIx 1)),
    ∃ (rdats : (p : Fin 1) → (c : Dev nD) → Pipeline.RDat τ (Elt F) (HIx 1) ℕ UU ℕ (cfgsP (F := F) p) c)
      (R : Pipeline.RDat.RegionSeg (pcfgs (F := F)) aP rdats (none : HIx 1) defs₀ 𝒱₀ (K (F := F)).L (K (F := F)).lev 0),
      (∀ c, R.pre c = (iprop(((Memref.whole main_v0).view.loc (T c) ↦{fullShare} Xin c)
          ∗ ((Memref.whole main_v2).view.loc (T c) ↦{fullShare} V2 c) ∗ owes (T c) 0 (W₀ c)) : sProp 𝕄))
      ∧ (∀ c, R.post c ⊢ (iprop(((Memref.whole main_v0).view.loc (T c) ↦{fullShare} Xin c)
          ∗ ((Memref.whole main_v2).view.loc (T c) ↦{fullShare} Cert.Spec.tcVal (F := F) reduces_S2816x128_S128 (Xin c))
          ∗ ∃ W', ⌜∀ p ∈ W', p ∈ W₀ c ∨ p.2 = none⌝ ∗ owes (T c) 0 W') : sProp 𝕄))

/-- The record is what @main's proof asks of the region: the kernel's two arrays are the TensorCore's buffers of the
    segment array and of the TensorCore result. -/
theorem regionSpec_of (ha : RegionRecord (F := F)) : RegionSpec (F := F) := by
  intro X Y W₀
  obtain ⟨rdats, R, hpre, hpost⟩ := ha X Y W₀
  refine ⟨rdats, R, fun c => ?_, fun c => (hpost c).trans ?_⟩
  · rw [hpre c]
  · exact Entails.of_eq rfl

end Cert.KI.Glue

end
-- ==== Proof.KI.Tc.lean ====
/-
  The TensorCore kernel's region of the program: its body run once, from the input held whole and a four-slot ring of
  copies, to the staging buffer holding, in row `s`, the total of rows 1280 … 4095 of segment `s` times 1/128.

  The body starts the copies of segments 0 … 3 into the four slots, one semaphore per slot; each of 16 trips then, slot
  by slot, waits for the slot's copy, loads the slot whole, reduces it along its rows, multiplies by 1/128, stores the
  row, and (but in the last trip) starts the copy of the segment four further on into the same slot.  The loop's
  invariant holds, per slot, the copy in flight with what it will deliver, and of the staging buffer that the rows
  below `4k` are done.
-/
import proofs.«210774_g2740189135076_cont_9to1_1653_26_alg».proof.KernelIdeal
import proofs.«210774_g2740189135076_cont_9to1_1653_26_alg».proof.Proof.Gen.KernelIdeal
import proofs.«210774_g2740189135076_cont_9to1_1653_26_alg».proof.Proof.Gen.KernelIdeal.Skeleton
import proofs.«210774_g2740189135076_cont_9to1_1653_26_alg».proof.Proof.Gen.KernelIdeal.Loops
import proofs.«210774_g2740189135076_cont_9to1_1653_26_alg».proof.Proof.Gen.KernelIdeal.Launch
import proofs.«210774_g2740189135076_cont_9to1_1653_26_alg».proof.Proof.Gen.KernelIdeal.Points
import proofs.«210774_g2740189135076_cont_9to1_1653_26_alg».proof.Proof.Spec
import Idealize.ShloMosaic.Lib.SparseCore.Launch
import Idealize.ShloMosaic.Lib.Pipeline.Regions
import Idealize.ShloMosaic.Lib.Pipeline.Kit
import Idealize.ShloMosaic.Lib.Tactic
import Idealize.ShloMosaic.Lib.ValueLayout
import Idealize.ShloMosaic.Lib.WritesUnit
import Idealize.ShloMosaic.Lib.Ring

noncomputable section

namespace Cert.KI.Tc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

/-! ## The kernel's buffers as its body names them -/

/-- The DMA semaphore of slot `j` of the ring. -/
abbrev slotSem (j : Fin 4) : DmaSem sig := ⟨4 + j.val, by have := j.isLt; show 4 + j.val < 8; omega⟩

/-- Slot `j` of the scratch, as a 2816 × 128 array. -/
abbrev slot0 : Memref sig .tc .vmem S2816x128 .f32 := ((Memref.whole cc1_scratch0).slice (Rect.unit (s := S4x2816x128) ![0, 0, 0] S1x2816x128.size inb_S4x2816x128_S1x2816x128_0_0_0) (fun _ => rfl)).squeeze S2816x128 squeezes_S1x2816x128_S2816x128
abbrev slot1 : Memref sig .tc .vmem S2816x128 .f32 := ((Memref.whole cc1_scratch0).slice (Rect.unit (s := S4x2816x128) ![1, 0, 0] S1x2816x128.size inb_S4x2816x128_S1x2816x128_1_0_0) (fun _ => rfl)).squeeze S2816x128 squeezes_S1x2816x128_S2816x128
abbrev slot2 : Memref sig .tc .vmem S2816x128 .f32 := ((Memref.whole cc1_scratch0).slice (Rect.unit (s := S4x2816x128) ![2, 0, 0] S1x2816x128.size inb_S4x2816x128_S1x2816x128_2_0_0) (fun _ => rfl)).squeeze S2816x128 squeezes_S1x2816x128_S2816x128
abbrev slot3 : Memref sig .tc .vmem S2816x128 .f32 := ((Memref.whole cc1_scratch0).slice (Rect.unit (s := S4x2816x128) ![3, 0, 0] S1x2816x128.size inb_S4x2816x128_S1x2816x128_3_0_0) (fun _ => rfl)).squeeze S2816x128 squeezes_S1x2816x128_S2816x128

/-- A segment number from a natural number (only numbers below 64 are ever asked). -/
def segOf (n : Nat) : Fin 64 := ⟨n % 64, Nat.mod_lt _ (by decide)⟩

theorem segOf_val {n : Nat} (h : n < 64) : (segOf n).val = n := Nat.mod_eq_of_lt h

/-- Rows 1280 … 4095 of a segment lie inside the input. -/
theorem srcInb (s : Fin 64) : ∀ a, (![s.val, 1280, 0] : Fin 3 → Nat) a + S1x2816x128.size a ≤ S64x4096x128.size a := by
  intro a; have := s.isLt
  fin_cases a <;> simp <;> omega

/-- Rows 1280 … 4095 of segment `s` of the input, as a 2816 × 128 array: what one copy reads. -/
abbrev srcSeg (s : Fin 64) : Memref sig .tc .hbm S2816x128 .f32 :=
  ((Memref.whole main_v0).slice (Rect.unit (s := S64x4096x128) ![s.val, 1280, 0] S1x2816x128.size (srcInb s)) (fun _ => rfl)).squeeze S2816x128 squeezes_S1x2816x128_S2816x128

/-- The read share of the input that the copies completing on slot `j`'s semaphore borrow. -/
abbrev tok (j : Fin 4) : PosShare TreeShare := Transfers.shareTok fullShare 8 (slotSem j)

/-- One slot of the ring before the trip that consumes segment `n`: while `n` is a segment, the copy of its rows
    1280 … 4095 into the slot is in flight on the slot's semaphore, to deliver the slot at those rows and the borrowed
    part of the input; past the last segment the slot, the input's share and the semaphore at zero are all back. -/
def slotInv (c : Dev nD) (X : S64x4096x128.Idx → F .f32) (sm : DmaSem sig) (slot : Memref sig .tc .vmem S2816x128 .f32)
    (q : PosShare TreeShare) (n : Nat) : sProp 𝕄 :=
  if n < 64 then
    iprop(∃ G, ⌜slot.view.read (Elt F) G = Cert.Spec.tailRows X (segOf n)⌝
      ∗ Transfers.Flight countersEmb (c : Thread nD τ) (SemLoc.dma sm) (default : HIx 1) 45056
          iprop((slot.view.loc (c : Thread nD τ) ↦[slot.view.set]{fullShare} G)
            ∗ ((Memref.whole main_v0).view.loc (c : Thread nD τ) ↦[(srcSeg (segOf n)).view.set]{q} X))
      ∗ ((Memref.whole main_v0).view.loc (c : Thread nD τ) ↦[Finset.univ \ (srcSeg (segOf n)).view.set]{q} X))
  else
    iprop((∃ G, slot.view.loc (c : Thread nD τ) ↦[slot.view.set]{fullShare} G)
      ∗ ((Memref.whole main_v0).view.loc (c : Thread nD τ) ↦{q} X)
      ∗ semVal ((c : Thread nD τ), SemLoc.dma sm) 0)

open Idealize.ShloMosaic.ValueIdx

/-! ## Values -/

/-- One stored row: the reduction of the loaded slot along its rows, times 1/128, read at a column. -/
theorem pay_apply (v : Vec F S1x2816x128 .f32) (x : S1x128.Idx) :
    k1_pay2 v x = FloatOps.mulf (multiReduction .add [0] S128 (shapeCast S2816x128 v shapeCasts_S1x2816x128_S2816x128) 0x00000000#32
        reduces_S2816x128_S128 (.inl rfl) rfl (ix1 (x 1))) (FloatOps.ofBits .f32 0x3C000000#32) := by
  unfold k1_pay2
  refine congrArg (fun t => FloatOps.mulf t (FloatOps.ofBits .f32 0x3C000000#32)) ?_
  exact (congrArg (shapeCast S1x128 _ shapeCasts_S128_S1x128) (eq_ix2 x)).trans (shapeCast_a_1a_apply _ shapeCasts_S128_S1x128 (x 0) (x 1))

/-- Rows 1280 … 4095 of segment `s`, read through the memref one copy reads from. -/
theorem srcSeg_read (X : S64x4096x128.Idx → F .f32) (s : Fin 64) :
    (srcSeg s).view.read (Elt F) X = Cert.Spec.tailRows X s := by
  funext y
  refine (congrArg (shapeCast S2816x128 ((Memref.whole main_v0).view.readAt (Elt F) (Rect.unit (s := S64x4096x128) ![s.val, 1280, 0] S1x2816x128.size (srcInb s)).toLoadRect X) shapeCasts_S1x2816x128_S2816x128) (eq_ix2 y)).trans
    ((shapeCast_1ab_ab_apply _ shapeCasts_S1x2816x128_S2816x128 (y 0) (y 1)).trans ?_)
  unfold Cert.Spec.tailRows
  show X _ = X _
  refine congrArg X (funext fun a => Fin.ext ?_)
  fin_cases a <;> simp <;> omega

/-- The memref one copy reads from, at offsets as the body computes them. -/
abbrev srcAt (off : Fin 3 → ℕ) (h : ∀ a, off a + S1x2816x128.size a ≤ S64x4096x128.size a) : Memref sig .tc .hbm S2816x128 .f32 :=
  ((Memref.whole main_v0).slice (Rect.unit (s := S64x4096x128) off S1x2816x128.size h) (fun _ => rfl)).squeeze S2816x128 squeezes_S1x2816x128_S2816x128

theorem srcAt_eq (off : Fin 3 → ℕ) (h : ∀ a, off a + S1x2816x128.size a ≤ S64x4096x128.size a) (s : Fin 64)
    (e : off = ![s.val, 1280, 0]) : srcAt off h = srcSeg s := by
  subst e; rfl

/-- A stored row is the specification's value there: the slot holds the segment's last 2816 rows. -/
theorem row_val (X : S64x4096x128.Idx → F .f32) (v : Vec F S1x2816x128 .f32) (s : Fin 64)
    (hv : shapeCast S2816x128 v shapeCasts_S1x2816x128_S2816x128 = Cert.Spec.tailRows X s)
    (i : S64x128.Idx) (x : S1x128.Idx) (h0 : (i 0).val = s.val) (h1 : (x 1).val = (i 1).val) :
    k1_pay2 v x = Cert.Spec.tcVal reduces_S2816x128_S128 X i := by
  rw [pay_apply, hv]
  unfold Cert.Spec.tcVal
  have e0 : i 0 = s := Fin.ext h0
  have e1 : (ix1 (x 1) : S128.Idx) = ix1 (i 1) := congrArg ix1 (Fin.ext h1)
  rw [e0, e1]
  rfl

/-- One stored row read back: row `r` reads the piece, every other row what was there before. -/
theorem read_row_cons (v : View sig .tc .vmem S64x128 .f32) (f : v.ty.Contents (Elt F)) {off : Fin 2 → ℕ}
    (inb : ∀ a : Fin 2, off a + S1x128.size a ≤ S64x128.size a)
    (w : (Rect.unit (s := S64x128) off S1x128.size inb).shape.Idx → Elt F .f32) (L : List (View.Piece (Elt F) S64x128 .f32))
    (y : S64x128.Idx) (r : ℕ) (hoff : off = ![r, 0]) (T : F .f32)
    (hin : (y 0).val = r → ∀ x : S1x128.Idx, (x 1).val = (y 1).val → w x = T)
    (hout : (y 0).val ≠ r → v.read (Elt F) (v.writes (Elt F) f L) y = T) :
    v.read (Elt F) (v.writes (Elt F) f ((⟨Rect.unit (s := S64x128) off S1x128.size inb, w⟩ : View.Piece (Elt F) S64x128 .f32) :: L)) y = T := by
  rw [View.read_writes_cons_rows v f inb w L y hoff (W := 1) rfl rfl]
  split
  · next h => exact hin (by omega) _ (by rw [Rect.unitLocal_val]; rfl)
  · next h => exact hout (by omega)

theorem conds : ∀ k : Fin k1_t1_loop.trips, (k1_cond1 k = 1#1 ↔ k.val < 15) ∧ (k1_cond2 k = 1#1 ↔ k.val < 15)
    ∧ (k1_cond3 k = 1#1 ↔ k.val < 15) ∧ (k1_cond4 k = 1#1 ↔ k.val < 15) := by decide +kernel

theorem slotInv_pos (c : Dev nD) (X : S64x4096x128.Idx → F .f32) (sm : DmaSem sig) (slot : Memref sig .tc .vmem S2816x128 .f32)
    (q : PosShare TreeShare) {n : Nat} (hn : n < 64) :
    (slotInv c X sm slot q n : sProp 𝕄) = iprop(∃ G, ⌜slot.view.read (Elt F) G = Cert.Spec.tailRows X (segOf n)⌝
      ∗ Transfers.Flight countersEmb (c : Thread nD τ) (SemLoc.dma sm) (default : HIx 1) 45056
          iprop((slot.view.loc (c : Thread nD τ) ↦[slot.view.set]{fullShare} G)
            ∗ ((Memref.whole main_v0).view.loc (c : Thread nD τ) ↦[(srcSeg (segOf n)).view.set]{q} X))
      ∗ ((Memref.whole main_v0).view.loc (c : Thread nD τ) ↦[Finset.univ \ (srcSeg (segOf n)).view.set]{q} X)) := by
  unfold slotInv; rw [if_pos hn]

theorem slotInv_neg (c : Dev nD) (X : S64x4096x128.Idx → F .f32) (sm : DmaSem sig) (slot : Memref sig .tc .vmem S2816x128 .f32)
    (q : PosShare TreeShare) {n : Nat} (hn : ¬ n < 64) :
    (slotInv c X sm slot q n : sProp 𝕄) = iprop((∃ G, slot.view.loc (c : Thread nD τ) ↦[slot.view.set]{fullShare} G)
      ∗ ((Memref.whole main_v0).view.loc (c : Thread nD τ) ↦{q} X)
      ∗ semVal ((c : Thread nD τ), SemLoc.dma sm) 0) := by
  unfold slotInv; rw [if_neg hn]

/-- A copy just started on a slot's semaphore, from the segment's rows at the offsets the body computed, is that slot's
    state before the trip that consumes the segment. -/
theorem slotInv_of_flight (c : Dev nD) (X : S64x4096x128.Idx → F .f32) (sm : DmaSem sig) (slot : Memref sig .tc .vmem S2816x128 .f32)
    (q : PosShare TreeShare) (n : Nat) (hn : n < 64) (off : Fin 3 → ℕ) (h : ∀ a, off a + S1x2816x128.size a ≤ S64x4096x128.size a)
    (e : off = ![n, 1280, 0]) (G0 : slot.view.ty.Contents (Elt F)) (P : S2816x128.Idx → Elt F .f32)
    (hP : P = ReadAs.same.apply ((srcAt off h).view.read (Elt F) X)) :
    iprop(Transfers.Flight countersEmb (c : Thread nD τ) (SemLoc.dma sm) (default : HIx 1) 45056
          iprop((slot.view.loc (c : Thread nD τ) ↦[slot.view.set]{fullShare} slot.view.writes (Elt F) G0 [⟨Rect.whole S2816x128, P⟩])
            ∗ ((Memref.whole main_v0).view.loc (c : Thread nD τ) ↦[(srcAt off h).view.set]{q} X))
        ∗ ((Memref.whole main_v0).view.loc (c : Thread nD τ) ↦[Finset.univ \ (srcAt off h).view.set]{q} X))
      ⊢ (slotInv c X sm slot q n : sProp 𝕄) := by
  have e' : off = ![(segOf n).val, 1280, 0] := by rw [e, segOf_val hn]
  subst e'
  rw [slotInv_pos c X sm slot q hn]
  iintro ⟨Hf, Hr⟩
  iexists (slot.view.writes (Elt F) G0 [⟨Rect.whole S2816x128, P⟩])
  isplitr
  · ipureintro
    rw [View.read_writes_whole, hP, ReadAs.apply_same]
    exact srcSeg_read X (segOf n)
  isplitl [Hf]; · iexact Hf
  iexact Hr

/-! ## The loop's invariant -/

/-- The staging buffer before trip `k`: rows below `4k` hold their results. -/
def stageInv (c : Dev nD) (X : S64x4096x128.Idx → F .f32) (k : Nat) : sProp 𝕄 :=
  iprop(∃ f, ((win1_0.stage 0).view.loc (c : Thread nD τ) ↦{fullShare} f)
    ∗ ⌜∀ i : S64x128.Idx, (i 0).val < 4 * k → (win1_0.stage 0).view.read (Elt F) f i = Cert.Spec.tcVal reduces_S2816x128_S128 X i⌝)

/-- The thread owes nothing, and the waits it has recorded beyond `W₀` are at the kernels' own index. -/
def owesInv (c : Dev nD) (W₀ : Waits sig (HIx 1)) : sProp 𝕄 :=
  iprop(∃ W', owes (c : Thread nD τ) (0 : CellTallies nD τ sig (HIx 1)) W' ∗ ⌜∀ p ∈ W', p ∈ W₀ ∨ p.2 = none⌝)

/-- Before trip `k`: the staged rows, the four slots each with the copy of segment `4k + j` in flight (or, past the last
    segment, handed back), and what the thread owes. -/
def inv (c : Dev nD) (X : S64x4096x128.Idx → F .f32) (W₀ : Waits sig (HIx 1)) (k : Nat) (_ : PUnit) : sProp 𝕄 :=
  iprop(stageInv c X k
    ∗ slotInv c X (slotSem 0) slot0 (tok 0) (4 * k + 0)
    ∗ slotInv c X (slotSem 1) slot1 (tok 1) (4 * k + 1)
    ∗ slotInv c X (slotSem 2) slot2 (tok 2) (4 * k + 2)
    ∗ slotInv c X (slotSem 3) slot3 (tok 3) (4 * k + 3)
    ∗ owesInv c W₀)

/-- The four rows a trip stores, read back: every row below `4(k+1)` holds its result. -/
theorem stage_rows (X : S64x4096x128.Idx → F .f32) (k : Fin k1_t1_loop.trips) (hk16 : k.val < 16)
    (f : (win1_0.stage 0).view.ty.Contents (Elt F))
    (hf : ∀ i : S64x128.Idx, (i 0).val < 4 * k.val → (win1_0.stage 0).view.read (Elt F) f i = Cert.Spec.tcVal reduces_S2816x128_S128 X i)
    (v0 v1 v2 v3 : Vec F S1x2816x128 .f32)
    (h0 : shapeCast S2816x128 v0 shapeCasts_S1x2816x128_S2816x128 = Cert.Spec.tailRows X (segOf (4 * k.val + 0)))
    (h1 : shapeCast S2816x128 v1 shapeCasts_S1x2816x128_S2816x128 = Cert.Spec.tailRows X (segOf (4 * k.val + 1)))
    (h2 : shapeCast S2816x128 v2 shapeCasts_S1x2816x128_S2816x128 = Cert.Spec.tailRows X (segOf (4 * k.val + 2)))
    (h3 : shapeCast S2816x128 v3 shapeCasts_S1x2816x128_S2816x128 = Cert.Spec.tailRows X (segOf (4 * k.val + 3)))
    (i : S64x128.Idx) (hi : (i 0).val < 4 * (k.val + 1)) :
    (win1_0.stage 0).view.read (Elt F) ((win1_0.stage 0).view.writes (Elt F) f
      [⟨Rect.unit (s := S64x128) (k1_off2 k 3#32) S1x128.size (k1_off2_inb k 3), k1_pay1 v3⟩,
       ⟨Rect.unit (s := S64x128) (k1_off2 k 2#32) S1x128.size (k1_off2_inb k 2), k1_pay4 v2⟩,
       ⟨Rect.unit (s := S64x128) (k1_off2 k 1#32) S1x128.size (k1_off2_inb k 1), k1_pay3 v1⟩,
       ⟨Rect.unit (s := S64x128) (k1_off2 k 0#32) S1x128.size (k1_off2_inb k 0), k1_pay2 v0⟩]) i
      = Cert.Spec.tcVal reduces_S2816x128_S128 X i := by
  have b0 : 4 * k.val + 0 < 64 := by omega
  have b1 : 4 * k.val + 1 < 64 := by omega
  have b2 : 4 * k.val + 2 < 64 := by omega
  have b3 : 4 * k.val + 3 < 64 := by omega
  refine read_row_cons _ f _ _ _ i (4 * k.val + 3) (k1_off2_eq k ⟨3, by decide⟩) _ (fun h x hx => ?_) (fun n3 => ?_)
  · exact row_val X v3 _ h3 i x (by rw [segOf_val b3]; exact h) hx
  refine read_row_cons _ f _ _ _ i (4 * k.val + 2) (k1_off2_eq k ⟨2, by decide⟩) _ (fun h x hx => ?_) (fun n2 => ?_)
  · exact row_val X v2 _ h2 i x (by rw [segOf_val b2]; exact h) hx
  refine read_row_cons _ f _ _ _ i (4 * k.val + 1) (k1_off2_eq k ⟨1, by decide⟩) _ (fun h x hx => ?_) (fun n1 => ?_)
  · exact row_val X v1 _ h1 i x (by rw [segOf_val b1]; exact h) hx
  refine read_row_cons _ f _ _ _ i (4 * k.val + 0) (k1_off2_eq k ⟨0, by decide⟩) _ (fun h x hx => ?_) (fun n0 => ?_)
  · exact row_val X v0 _ h0 i x (by rw [segOf_val b0]; exact h) hx
  exact hf i (by omega)

/-- One trip that starts the next four copies. -/
theorem tripA (c : Dev nD) (X : S64x4096x128.Idx → F .f32) (W₀ : Waits sig (HIx 1)) (k : Fin k1_t1_loop.trips) (hk : k.val < 15) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  have h1 : k1_cond1 k = 1#1 := (conds k).1.2 hk
  have h2 : k1_cond2 k = 1#1 := (conds k).2.1.2 hk
  have h3 : k1_cond3 k = 1#1 := (conds k).2.2.1.2 hk
  have h4 : k1_cond4 k = 1#1 := (conds k).2.2.2.2 hk
  have n0 : 4 * (k.val + 1) + 0 < 64 := by omega
  have n1 : 4 * (k.val + 1) + 1 < 64 := by omega
  have n2 : 4 * (k.val + 1) + 2 < 64 := by omega
  have n3 : 4 * (k.val + 1) + 3 < 64 := by omega
  have hk16 : k.val < 16 := lt_of_lt_of_le k.isLt k1_t1_abs.2.1
  have b0 : 4 * k.val + 0 < 64 := by omega
  have b1 : 4 * k.val + 1 < 64 := by omega
  have b2 : 4 * k.val + 2 < 64 := by omega
  have b3 : 4 * k.val + 3 < 64 := by omega
  unfold inv
  rw [slotInv_pos c X (slotSem 0) slot0 (tok 0) b0, slotInv_pos c X (slotSem 1) slot1 (tok 1) b1,
    slotInv_pos c X (slotSem 2) slot2 (tok 2) b2, slotInv_pos c X (slotSem 3) slot3 (tok 3) b3]
  unfold stageInv owesInv
  unfold k1_t1_body
  rw [k1_part1_eq_skeleton, k1_part2_eq_skeleton]; unfold k1_part1_skel k1_part2_skel
  iintro ⟨⟨%f, Hst, %hf⟩, ⟨%G0, %hG0, Hf0, Hr0⟩, ⟨%G1, %hG1, Hf1, Hr1⟩, ⟨%G2, %hG2, Hf2, Hr2⟩, ⟨%G3, %hG3, Hf3, Hr3⟩, ⟨%W', HO, %hW'⟩⟩
  sl_exec
  sl_step
  isplitl [Hst]
  · iexists _
    isplitl [Hst]; · iexact Hst
    ipureintro
    intro i hi
    exact stage_rows X k hk16 f hf
      (View.readAt (Elt F) (Memref.whole cc1_scratch0).view (Rect.unit (s := S4x2816x128) ![0, 0, 0] S1x2816x128.size inb_S4x2816x128_S1x2816x128_0_0_0).toLoadRect G0)
      (View.readAt (Elt F) (Memref.whole cc1_scratch0).view (Rect.unit (s := S4x2816x128) ![1, 0, 0] S1x2816x128.size inb_S4x2816x128_S1x2816x128_1_0_0).toLoadRect G1)
      (View.readAt (Elt F) (Memref.whole cc1_scratch0).view (Rect.unit (s := S4x2816x128) ![2, 0, 0] S1x2816x128.size inb_S4x2816x128_S1x2816x128_2_0_0).toLoadRect G2)
      (View.readAt (Elt F) (Memref.whole cc1_scratch0).view (Rect.unit (s := S4x2816x128) ![3, 0, 0] S1x2816x128.size inb_S4x2816x128_S1x2816x128_3_0_0).toLoadRect G3)
      hG0 hG1 hG2 hG3 i hi
  isplitl [Hf0 Hr0]
  · iapply (slotInv_of_flight c X (slotSem 0) slot0 (tok 0) (4 * (k.val + 1) + 0) n0 (k1_off3 k) (k1_off3_inb k h1)
      (by rw [show 4 * (k.val + 1) + 0 = 4 * k.val + 4 by omega]; exact k1_off3_eq k) G0 _ rfl)
    isplitl [Hf0]; · iexact Hf0
    iexact Hr0
  isplitl [Hf1 Hr1]
  · iapply (slotInv_of_flight c X (slotSem 1) slot1 (tok 1) (4 * (k.val + 1) + 1) n1 (k1_off4 k) (k1_off4_inb k h2)
      (by rw [show 4 * (k.val + 1) + 1 = 4 * k.val + 5 by omega]; exact k1_off4_eq k) G1 _ rfl)
    isplitl [Hf1]; · iexact Hf1
    iexact Hr1
  isplitl [Hf2 Hr2]
  · iapply (slotInv_of_flight c X (slotSem 2) slot2 (tok 2) (4 * (k.val + 1) + 2) n2 (k1_off5 k) (k1_off5_inb k h3)
      (by rw [show 4 * (k.val + 1) + 2 = 4 * k.val + 6 by omega]; exact k1_off5_eq k) G2 _ rfl)
    isplitl [Hf2]; · iexact Hf2
    iexact Hr2
  isplitl [Hf3 Hr3]
  · iapply (slotInv_of_flight c X (slotSem 3) slot3 (tok 3) (4 * (k.val + 1) + 3) n3 (k1_off6 k) (k1_off6_inb k h4)
      (by rw [show 4 * (k.val + 1) + 3 = 4 * k.val + 7 by omega]; exact k1_off6_eq k) G3 _ rfl)
    isplitl [Hf3]; · iexact Hf3
    iexact Hr3
  iexists _
  isplitl [HO]; · iexact HO
  ipureintro
  intro p hp
  simp only [Finset.mem_insert] at hp
  rcases hp with rfl | rfl | rfl | rfl | hp
  · exact .inr rfl
  · exact .inr rfl
  · exact .inr rfl
  · exact .inr rfl
  · exact hW' p hp

/-- The last trip: no further copy; slots, shares of the input and semaphores are handed back. -/
theorem tripB (c : Dev nD) (X : S64x4096x128.Idx → F .f32) (W₀ : Waits sig (HIx 1)) (k : Fin k1_t1_loop.trips) (hk : ¬ k.val < 15) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  have h1 : ¬ k1_cond1 k = 1#1 := fun h => hk ((conds k).1.1 h)
  have h2 : ¬ k1_cond2 k = 1#1 := fun h => hk ((conds k).2.1.1 h)
  have h3 : ¬ k1_cond3 k = 1#1 := fun h => hk ((conds k).2.2.1.1 h)
  have h4 : ¬ k1_cond4 k = 1#1 := fun h => hk ((conds k).2.2.2.1 h)
  have n0 : ¬ 4 * (k.val + 1) + 0 < 64 := by omega
  have n1 : ¬ 4 * (k.val + 1) + 1 < 64 := by omega
  have n2 : ¬ 4 * (k.val + 1) + 2 < 64 := by omega
  have n3 : ¬ 4 * (k.val + 1) + 3 < 64 := by omega
  have hk16 : k.val < 16 := lt_of_lt_of_le k.isLt k1_t1_abs.2.1
  have b0 : 4 * k.val + 0 < 64 := by omega
  have b1 : 4 * k.val + 1 < 64 := by omega
  have b2 : 4 * k.val + 2 < 64 := by omega
  have b3 : 4 * k.val + 3 < 64 := by omega
  unfold inv
  rw [slotInv_pos c X (slotSem 0) slot0 (tok 0) b0, slotInv_pos c X (slotSem 1) slot1 (tok 1) b1,
    slotInv_pos c X (slotSem 2) slot2 (tok 2) b2, slotInv_pos c X (slotSem 3) slot3 (tok 3) b3]
  unfold stageInv owesInv
  unfold k1_t1_body
  rw [k1_part1_eq_skeleton, k1_part2_eq_skeleton]; unfold k1_part1_skel k1_part2_skel
  iintro ⟨⟨%f, Hst, %hf⟩, ⟨%G0, %hG0, Hf0, Hr0⟩, ⟨%G1, %hG1, Hf1, Hr1⟩, ⟨%G2, %hG2, Hf2, Hr2⟩, ⟨%G3, %hG3, Hf3, Hr3⟩, ⟨%W', HO, %hW'⟩⟩
  sl_exec
  sl_step
  isplitl [Hst]
  · iexists _
    isplitl [Hst]; · iexact Hst
    ipureintro
    intro i hi
    exact stage_rows X k hk16 f hf
      (View.readAt (Elt F) (Memref.whole cc1_scratch0).view (Rect.unit (s := S4x2816x128) ![0, 0, 0] S1x2816x128.size inb_S4x2816x128_S1x2816x128_0_0_0).toLoadRect G0)
      (View.readAt (Elt F) (Memref.whole cc1_scratch0).view (Rect.unit (s := S4x2816x128) ![1, 0, 0] S1x2816x128.size inb_S4x2816x128_S1x2816x128_1_0_0).toLoadRect G1)
      (View.readAt (Elt F) (Memref.whole cc1_scratch0).view (Rect.unit (s := S4x2816x128) ![2, 0, 0] S1x2816x128.size inb_S4x2816x128_S1x2816x128_2_0_0).toLoadRect G2)
      (View.readAt (Elt F) (Memref.whole cc1_scratch0).view (Rect.unit (s := S4x2816x128) ![3, 0, 0] S1x2816x128.size inb_S4x2816x128_S1x2816x128_3_0_0).toLoadRect G3)
      hG0 hG1 hG2 hG3 i hi
  rw [slotInv_neg c X (slotSem 0) slot0 (tok 0) n0, slotInv_neg c X (slotSem 1) slot1 (tok 1) n1,
    slotInv_neg c X (slotSem 2) slot2 (tok 2) n2, slotInv_neg c X (slotSem 3) slot3 (tok 3) n3]
  isplitl [Hf0_dst Hr0 Hf0]
  · isplitl [Hf0_dst]; · iexists _; iexact Hf0_dst
    isplitl [Hr0]; · iexact Hr0
    iexact Hf0
  isplitl [Hf1_dst Hr1 Hf1]
  · isplitl [Hf1_dst]; · iexists _; iexact Hf1_dst
    isplitl [Hr1]; · iexact Hr1
    iexact Hf1
  isplitl [Hf2_dst Hr2 Hf2]
  · isplitl [Hf2_dst]; · iexists _; iexact Hf2_dst
    isplitl [Hr2]; · iexact Hr2
    iexact Hf2
  isplitl [Hf3_dst Hr3 Hf3]
  · isplitl [Hf3_dst]; · iexists _; iexact Hf3_dst
    isplitl [Hr3]; · iexact Hr3
    iexact Hf3
  iexists _
  isplitl [HO]; · iexact HO
  ipureintro
  intro p hp
  simp only [Finset.mem_insert] at hp
  rcases hp with rfl | rfl | rfl | rfl | hp
  · exact .inr rfl
  · exact .inr rfl
  · exact .inr rfl
  · exact .inr rfl
  · exact hW' p hp

/-- One trip of the loop, at any trip. -/
theorem trip (c : Dev nD) (X : S64x4096x128.Idx → F .f32) (W₀ : Waits sig (HIx 1)) (k : Fin k1_t1_loop.trips) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  by_cases hk : k.val < 15
  · exact tripA c X W₀ k hk
  · exact tripB c X W₀ k hk

/-! ## The scratch as its four slots, the input as its read shares -/

set_option quotPrecheck false in
local notation "SL(" c ")" => (Memref.whole cc1_scratch0).view.loc (c : Thread nD τ)
set_option quotPrecheck false in
local notation "ML(" c ")" => (Memref.whole main_v0).view.loc (c : Thread nD τ)

abbrev slotOff (b : Fin 4) : Fin 3 → ℕ := ![b.val, 0, 0]

theorem slotInb (b : Fin 4) : ∀ a, slotOff b a + S1x2816x128.size a ≤ S4x2816x128.size a := by
  intro a; have := b.isLt
  fin_cases a <;> simp <;> omega

/-- The elements of slot `b`. -/
abbrev slotSet (c : Dev nD) (b : Fin 4) : Finset (Idx (SL(c))) :=
  (Rect.unit (s := S4x2816x128) (slotOff b) S1x2816x128.size (slotInb b)).set

theorem slot_disj (c : Dev nD) : ∀ b b', b ≠ b' → Disjoint (slotSet c b) (slotSet c b') :=
  Ring.lead_disjoint (s := S4x2816x128) (0 : Fin 3) 1 slotOff S1x2816x128.size slotInb (fun b => (Nat.one_mul _).symm) rfl

theorem slot_cover (c : Dev nD) : Finset.univ.biUnion (slotSet c) = Finset.univ :=
  Ring.lead_cover (s := S4x2816x128) (0 : Fin 3) 1 slotOff S1x2816x128.size slotInb (fun b => (Nat.one_mul _).symm)
    (by intro b a ha; fin_cases a <;> simp_all) rfl (by intro a ha; fin_cases a <;> simp_all) rfl

theorem slot0_set (c : Dev nD) : (slot0.view.set : Finset (Idx (SL(c)))) = slotSet c 0 :=
  (View.set_reshape (v := ((Memref.whole cc1_scratch0).slice (Rect.unit (s := S4x2816x128) ![0, 0, 0] S1x2816x128.size inb_S4x2816x128_S1x2816x128_0_0_0) (fun _ => rfl)).view) squeezes_S1x2816x128_S2816x128.numel_eq).trans (View.set_slice_whole cc1_scratch0 _)
theorem slot1_set (c : Dev nD) : (slot1.view.set : Finset (Idx (SL(c)))) = slotSet c 1 :=
  (View.set_reshape (v := ((Memref.whole cc1_scratch0).slice (Rect.unit (s := S4x2816x128) ![1, 0, 0] S1x2816x128.size inb_S4x2816x128_S1x2816x128_1_0_0) (fun _ => rfl)).view) squeezes_S1x2816x128_S2816x128.numel_eq).trans (View.set_slice_whole cc1_scratch0 _)
theorem slot2_set (c : Dev nD) : (slot2.view.set : Finset (Idx (SL(c)))) = slotSet c 2 :=
  (View.set_reshape (v := ((Memref.whole cc1_scratch0).slice (Rect.unit (s := S4x2816x128) ![2, 0, 0] S1x2816x128.size inb_S4x2816x128_S1x2816x128_2_0_0) (fun _ => rfl)).view) squeezes_S1x2816x128_S2816x128.numel_eq).trans (View.set_slice_whole cc1_scratch0 _)
theorem slot3_set (c : Dev nD) : (slot3.view.set : Finset (Idx (SL(c)))) = slotSet c 3 :=
  (View.set_reshape (v := ((Memref.whole cc1_scratch0).slice (Rect.unit (s := S4x2816x128) ![3, 0, 0] S1x2816x128.size inb_S4x2816x128_S1x2816x128_3_0_0) (fun _ => rfl)).view) squeezes_S1x2816x128_S2816x128.numel_eq).trans (View.set_slice_whole cc1_scratch0 _)

/-- The scratch held whole is its four slots, each held on its own elements. -/
theorem scratch_split (c : Dev nD) (g : Buf (Elt F) (SL(c))) :
    (SL(c) ↦{fullShare} g : sProp 𝕄)
      ⊢ iprop((slot0.view.loc (c : Thread nD τ) ↦[slot0.view.set]{fullShare} g) ∗ (slot1.view.loc (c : Thread nD τ) ↦[slot1.view.set]{fullShare} g)
          ∗ (slot2.view.loc (c : Thread nD τ) ↦[slot2.view.set]{fullShare} g) ∗ (slot3.view.loc (c : Thread nD τ) ↦[slot3.view.set]{fullShare} g)) := by
  rw [slot0_set c, slot1_set c, slot2_set c, slot3_set c,
    Ring.pointsTo_blocks (slotSet c) (slot_disj c) (slot_cover c) g,
    bigSep_univ_eq_bigSepL [(0 : Fin 4), 1, 2, 3] (by decide) (by decide)]
  exact .rfl

/-- The four slots, each at some contents, are the scratch whole at some contents. -/
theorem scratch_join (c : Dev nD) :
    iprop((∃ g, slot0.view.loc (c : Thread nD τ) ↦[slot0.view.set]{fullShare} g) ∗ (∃ g, slot1.view.loc (c : Thread nD τ) ↦[slot1.view.set]{fullShare} g)
        ∗ (∃ g, slot2.view.loc (c : Thread nD τ) ↦[slot2.view.set]{fullShare} g) ∗ (∃ g, slot3.view.loc (c : Thread nD τ) ↦[slot3.view.set]{fullShare} g))
      ⊢ (iprop(∃ g, SL(c) ↦{fullShare} g) : sProp 𝕄) := by
  rw [slot0_set c, slot1_set c, slot2_set c, slot3_set c]
  iintro ⟨⟨%g0, H0⟩, ⟨%g1, H1⟩, ⟨%g2, H2⟩, ⟨%g3, H3⟩⟩
  have hj := Ring.pointsTo_blocks_join_exists (Ix := HIx 1) (Val := Elt F) (Name := ℕ) (U := U) (Lvl := ℕ) (q := fullShare) (slotSet c) (slot_disj c) (slot_cover c) g0
  rw [bigSep_univ_eq_bigSepL [(0 : Fin 4), 1, 2, 3] (by decide) (by decide)] at hj
  have hj' : (iprop((∃ f, SL(c) ↦[slotSet c 0]{fullShare} f) ∗ (∃ f, SL(c) ↦[slotSet c 1]{fullShare} f)
      ∗ (∃ f, SL(c) ↦[slotSet c 2]{fullShare} f) ∗ (∃ f, SL(c) ↦[slotSet c 3]{fullShare} f)) : sProp 𝕄)
      ⊢ iprop(∃ g, SL(c) ↦{fullShare} g) := hj
  iapply hj'
  isplitl [H0]; · iexists g0; iexact H0
  isplitl [H1]; · iexists g1; iexact H1
  isplitl [H2]; · iexists g2; iexact H2
  iexists g3; iexact H3

/-- The shares of the input no copy borrows. -/
def mainRest (c : Dev nD) (X : S64x4096x128.Idx → F .f32) : sProp 𝕄 :=
  iprop((ML(c) ↦{Transfers.shareDrop fullShare 8} X)
    ∗ (ML(c) ↦{Transfers.shareTok fullShare 8 0} X) ∗ (ML(c) ↦{Transfers.shareTok fullShare 8 1} X)
    ∗ (ML(c) ↦{Transfers.shareTok fullShare 8 2} X) ∗ (ML(c) ↦{Transfers.shareTok fullShare 8 3} X))

/-- The input held whole is a read share per slot semaphore and a remainder. -/
theorem main_toks (c : Dev nD) (X : S64x4096x128.Idx → F .f32) :
    (ML(c) ↦{fullShare} X : sProp 𝕄) ⊣⊢ iprop(mainRest c X
      ∗ (ML(c) ↦{tok 0} X) ∗ (ML(c) ↦{tok 1} X) ∗ (ML(c) ↦{tok 2} X) ∗ (ML(c) ↦{tok 3} X)) := by
  have h0 : (ML(c) ↦[Finset.univ]{fullShare} X : sProp 𝕄) ⊣⊢ _ := Transfers.pointsTo_toks fullShare 8
  rw [bigSep_univ_eq_bigSepL [(0 : Fin 8), 1, 2, 3, 4, 5, 6, 7] (by decide) (by decide)] at h0
  have h : (ML(c) ↦{fullShare} X : sProp 𝕄) ⊣⊢ iprop((ML(c) ↦{Transfers.shareDrop fullShare 8} X)
      ∗ (ML(c) ↦{Transfers.shareTok fullShare 8 0} X) ∗ (ML(c) ↦{Transfers.shareTok fullShare 8 1} X)
      ∗ (ML(c) ↦{Transfers.shareTok fullShare 8 2} X) ∗ (ML(c) ↦{Transfers.shareTok fullShare 8 3} X)
      ∗ (ML(c) ↦{Transfers.shareTok fullShare 8 4} X) ∗ (ML(c) ↦{Transfers.shareTok fullShare 8 5} X)
      ∗ (ML(c) ↦{Transfers.shareTok fullShare 8 6} X) ∗ (ML(c) ↦{Transfers.shareTok fullShare 8 7} X)) := h0
  refine ⟨h.1.trans ?_, BIBase.Entails.trans ?_ h.2⟩
  · unfold mainRest
    iintro ⟨Hd, H0, H1, H2, H3, K0, K1, K2, K3⟩
    isplitl [Hd H0 H1 H2 H3]
    · isplitl [Hd]; · iexact Hd
      isplitl [H0]; · iexact H0
      isplitl [H1]; · iexact H1
      isplitl [H2]; · iexact H2
      iexact H3
    isplitl [K0]; · iexact K0
    isplitl [K1]; · iexact K1
    isplitl [K2]; · iexact K2
    iexact K3
  · unfold mainRest
    iintro ⟨⟨Hd, H0, H1, H2, H3⟩, K0, K1, K2, K3⟩
    isplitl [Hd]; · iexact Hd
    isplitl [H0]; · iexact H0
    isplitl [H1]; · iexact H1
    isplitl [H2]; · iexact H2
    isplitl [H3]; · iexact H3
    isplitl [K0]; · iexact K0
    isplitl [K1]; · iexact K1
    isplitl [K2]; · iexact K2
    iexact K3

/-! ## The body -/

/-- What the body ends with: the input whole, the staging buffer at the specification's values, the scratch at some
    contents, the four semaphores at zero, nothing owed. -/
def bodyPost (c : Dev nD) (X : S64x4096x128.Idx → F .f32) (W₀ : Waits sig (HIx 1)) : sProp 𝕄 :=
  iprop((ML(c) ↦{fullShare} X)
    ∗ (∃ f, ((win1_0.stage 0).view.loc (c : Thread nD τ) ↦{fullShare} f)
        ∗ ⌜(win1_0.stage 0).view.read (Elt F) f = Cert.Spec.tcVal reduces_S2816x128_S128 X⌝)
    ∗ (∃ g, SL(c) ↦{fullShare} g)
    ∗ semVal ((c : Thread nD τ), SemLoc.dma (slotSem 0)) 0 ∗ semVal ((c : Thread nD τ), SemLoc.dma (slotSem 1)) 0
    ∗ semVal ((c : Thread nD τ), SemLoc.dma (slotSem 2)) 0 ∗ semVal ((c : Thread nD τ), SemLoc.dma (slotSem 3)) 0
    ∗ owesInv c W₀)

/-- After the last trip: every row staged, every slot, share and semaphore handed back. -/
theorem inv_done (c : Dev nD) (X : S64x4096x128.Idx → F .f32) (W₀ : Waits sig (HIx 1)) (n : Nat) (hn : 16 ≤ n) (u : PUnit) :
    (inv c X W₀ n u : sProp 𝕄) ⊢ iprop((∃ f, ((win1_0.stage 0).view.loc (c : Thread nD τ) ↦{fullShare} f)
          ∗ ⌜(win1_0.stage 0).view.read (Elt F) f = Cert.Spec.tcVal reduces_S2816x128_S128 X⌝)
      ∗ ((∃ G, slot0.view.loc (c : Thread nD τ) ↦[slot0.view.set]{fullShare} G) ∗ (ML(c) ↦{tok 0} X) ∗ semVal ((c : Thread nD τ), SemLoc.dma (slotSem 0)) 0)
      ∗ ((∃ G, slot1.view.loc (c : Thread nD τ) ↦[slot1.view.set]{fullShare} G) ∗ (ML(c) ↦{tok 1} X) ∗ semVal ((c : Thread nD τ), SemLoc.dma (slotSem 1)) 0)
      ∗ ((∃ G, slot2.view.loc (c : Thread nD τ) ↦[slot2.view.set]{fullShare} G) ∗ (ML(c) ↦{tok 2} X) ∗ semVal ((c : Thread nD τ), SemLoc.dma (slotSem 2)) 0)
      ∗ ((∃ G, slot3.view.loc (c : Thread nD τ) ↦[slot3.view.set]{fullShare} G) ∗ (ML(c) ↦{tok 3} X) ∗ semVal ((c : Thread nD τ), SemLoc.dma (slotSem 3)) 0)
      ∗ owesInv c W₀) := by
  unfold inv
  rw [slotInv_neg c X (slotSem 0) slot0 (tok 0) (n := 4 * n + 0) (by omega), slotInv_neg c X (slotSem 1) slot1 (tok 1) (n := 4 * n + 1) (by omega),
    slotInv_neg c X (slotSem 2) slot2 (tok 2) (n := 4 * n + 2) (by omega), slotInv_neg c X (slotSem 3) slot3 (tok 3) (n := 4 * n + 3) (by omega)]
  unfold stageInv
  iintro ⟨⟨%f, Hst, %hf⟩, H0, H1, H2, H3, HO⟩
  isplitl [Hst]
  · iexists f
    isplitl [Hst]; · iexact Hst
    ipureintro
    funext i
    have hi : (i 0).val < 64 := (i 0).isLt
    exact hf i (by omega)
  isplitl [H0]; · iexact H0
  isplitl [H1]; · iexact H1
  isplitl [H2]; · iexact H2
  isplitl [H3]; · iexact H3
  iexact HO

set_option maxHeartbeats 1000000 in
/-- The kernel's body, run once: from the input and the three buffers whole, the four semaphores at zero and nothing
    owed, to `bodyPost`. -/
theorem body (c : Dev nD) (X : S64x4096x128.Idx → F .f32) (W₀ W : Waits sig (HIx 1)) (hW : ∀ p ∈ W, p ∈ W₀ ∨ p.2 = none)
    (f0 : Buf (Elt F) ((win1_0.stage 0).view.loc (c : Thread nD τ))) (g0 : Buf (Elt F) (SL(c))) (Q : PUnit → sProp 𝕄) :
    iprop((ML(c) ↦{fullShare} X)
        ∗ ((win1_0.stage 0).view.loc (c : Thread nD τ) ↦{fullShare} f0)
        ∗ (SL(c) ↦{fullShare} g0)
        ∗ semVal ((c : Thread nD τ), SemLoc.dma (slotSem 0)) 0 ∗ semVal ((c : Thread nD τ), SemLoc.dma (slotSem 1)) 0
        ∗ semVal ((c : Thread nD τ), SemLoc.dma (slotSem 2)) 0 ∗ semVal ((c : Thread nD τ), SemLoc.dma (slotSem 3)) 0
        ∗ owes (c : Thread nD τ) (0 : CellTallies nD τ sig (HIx 1)) W
        ∗ (bodyPost c X W₀ -∗ Q ⟨⟩) : sProp 𝕄)
      ⊢ wp frame (wpE (defs₀ (F := F)) Variants.none (c : Thread nD τ) none) Set.univ
          (cc1__tc_body (F := F) (Memref.whole main_v0) (Memref.isWhole_whole _) (win1_0.stage 0) (hstage1_0 0) (Memref.whole cc1_scratch0) (Memref.isWhole_whole _) cc1_scratch1)
          Q := by
  rw [cc1__tc_body_eq_skeleton]; unfold cc1__tc_body_skel
  rw [k1_part3_eq_skeleton]; unfold k1_part3_skel
  iintro ⟨Hx, Hst, Hsc, Hs0, Hs1, Hs2, Hs3, HO, Hk⟩
  ihave Hx' := (main_toks c X).1 $$ Hx
  icases Hx' with ⟨Hxd, Hx0, Hx1, Hx2, Hx3⟩
  ihave Hsc' := (scratch_split c g0) $$ Hsc
  icases Hsc' with ⟨Hc0, Hc1, Hc2, Hc3⟩
  sl_exec
  sl_for (inv c X W₀) $$ [Hst Hs0 Hx0 Hs1 Hx1 Hs2 Hx2 Hs3 Hx3 HO]
  case region =>
    intro k acc
    cases acc
    unfold body.sl.prog.body_1
    exact trip c X W₀ k
  · unfold inv stageInv owesInv
    isplitl [Hst]
    · iexists _
      isplitl [Hst]; · iexact Hst
      ipureintro; intro i hi; omega
    isplitl [Hs0 Hx0]
    · iapply (slotInv_of_flight c X (slotSem 0) slot0 (tok 0) (4 * 0 + 0) (by decide) ![0, 1280, 0] inb_S64x4096x128_S1x2816x128_0_1280_0 rfl g0 _ rfl)
      isplitl [Hs0]; · iexact Hs0
      iexact Hx0
    isplitl [Hs1 Hx1]
    · iapply (slotInv_of_flight c X (slotSem 1) slot1 (tok 1) (4 * 0 + 1) (by decide) ![1, 1280, 0] inb_S64x4096x128_S1x2816x128_1_1280_0 rfl g0 _ rfl)
      isplitl [Hs1]; · iexact Hs1
      iexact Hx1
    isplitl [Hs2 Hx2]
    · iapply (slotInv_of_flight c X (slotSem 2) slot2 (tok 2) (4 * 0 + 2) (by decide) ![2, 1280, 0] inb_S64x4096x128_S1x2816x128_2_1280_0 rfl g0 _ rfl)
      isplitl [Hs2]; · iexact Hs2
      iexact Hx2
    isplitl [Hs3 Hx3]
    · iapply (slotInv_of_flight c X (slotSem 3) slot3 (tok 3) (4 * 0 + 3) (by decide) ![3, 1280, 0] inb_S64x4096x128_S1x2816x128_3_1280_0 rfl g0 _ rfl)
      isplitl [Hs3]; · iexact Hs3
      iexact Hx3
    iexists W
    isplitl [HO]; · iexact HO
    ipureintro; exact hW
  iintro %u
  iintro HI
  ihave HI' := (inv_done c X W₀ _ (by decide) u) $$ HI
  icases HI' with ⟨Hst, ⟨Hc0, Hx0, Hs0⟩, ⟨Hc1, Hx1, Hs1⟩, ⟨Hc2, Hx2, Hs2⟩, ⟨Hc3, Hx3, Hs3⟩, HO⟩
  sl_exec
  sl_step
  iapply Hk
  unfold bodyPost
  isplitl [Hxd Hx0 Hx1 Hx2 Hx3]
  · iapply (main_toks c X).2
    isplitl [Hxd]; · iexact Hxd
    isplitl [Hx0]; · iexact Hx0
    isplitl [Hx1]; · iexact Hx1
    isplitl [Hx2]; · iexact Hx2
    iexact Hx3
  isplitl [Hst]; · iexact Hst
  isplitl [Hc0 Hc1 Hc2 Hc3]
  · iapply (scratch_join c)
    isplitl [Hc0]; · iexact Hc0
    isplitl [Hc1]; · iexact Hc1
    isplitl [Hc2]; · iexact Hc2
    iexact Hc3
  isplitl [Hs0]; · iexact Hs0
  isplitl [Hs1]; · iexact Hs1
  isplitl [Hs2]; · iexact Hs2
  isplitl [Hs3]; · iexact Hs3
  iexact HO

/-! ## The region's proof data and record -/

/-- The pipeline's tables: it prefetches none. -/
abbrev adm : (p : Fin 1) → (pcfgs (F := F) p).Adm := fun p => (cfgs p).toPCfg_adm

/-- The kernel's own semaphores: one per slot. -/
abbrev osem : Fin 4 → SemLoc sig := fun j => SemLoc.dma (slotSem j)

theorem ownSems0_eq (c : Dev nD) :
    (Pipeline.ownSems0 osem c : sProp 𝕄) = iprop(semVal ((c : Thread nD τ), SemLoc.dma (slotSem 0)) 0 ∗ semVal ((c : Thread nD τ), SemLoc.dma (slotSem 1)) 0
      ∗ semVal ((c : Thread nD τ), SemLoc.dma (slotSem 2)) 0 ∗ semVal ((c : Thread nD τ), SemLoc.dma (slotSem 3)) 0) := by
  unfold Pipeline.ownSems0
  rw [bigSep_univ_eq_bigSepL [(0 : Fin 4), 1, 2, 3] (by decide) (by decide)]
  rfl

/-- The staging buffer owned at `Y` is its points-to at contents that read `Y`. -/
theorem owns_stage (c : Dev nD) (Y : S64x128.Idx → F .f32) :
    (owns (c : Thread nD τ) (win1_0.stage 0) fullShare Y : sProp 𝕄)
      = iprop(∃ f, ⌜(win1_0.stage 0).view.read (Elt F) f = Y⌝ ∗ ((win1_0.stage 0).view.loc (c : Thread nD τ) ↦{fullShare} f)) := by
  unfold owns
  rw [(hstage1_0 0).set_eq_univ]

section Region

variable (Xin : (c : Dev nD) → S64x4096x128.Idx → F .f32) (V2 : (c : Dev nD) → S64x128.Idx → F .f32) (W₀ : Dev nD → Waits sig (HIx 1))

/-- What the body runs from and ends with besides the staging buffer: the input whole, the scratch at some contents, the
    slots' semaphores at zero. -/
def phi (c : Dev nD) : sProp 𝕄 :=
  iprop((ML(c) ↦{fullShare} Xin c) ∗ (∃ g, SL(c) ↦{fullShare} g)
    ∗ semVal ((c : Thread nD τ), SemLoc.dma (slotSem 0)) 0 ∗ semVal ((c : Thread nD τ), SemLoc.dma (slotSem 1)) 0
    ∗ semVal ((c : Thread nD τ), SemLoc.dma (slotSem 2)) 0 ∗ semVal ((c : Thread nD τ), SemLoc.dma (slotSem 3)) 0)

/-- The proof data: the result array at entry holds `V2`; the body leaves the specification's values in the staging
    buffer whatever it found there; the invariant is the same before and after the one point; nothing is owed, and the
    recorded waits stay within `W₀` and the kernels' own index. -/
def rdat (c : Dev nD) : Pipeline.RDat τ (Elt F) (HIx 1) ℕ U ℕ cfg1 c where
  A := fun (w : Fin 1) => match w with
    | 0 => V2 c
    | ⟨_ + 1, h⟩ => absurd h (Nat.not_lt.2 (Nat.le_add_left _ _))
  after := fun (w : Fin 1) => match w with
    | 0 => fun _ _ X' => X' = Cert.Spec.tcVal reduces_S2816x128_S128 (Xin c)
    | ⟨_ + 1, h⟩ => absurd h (Nat.not_lt.2 (Nat.le_add_left _ _))
  Φ _ := phi Xin c
  q _ := fullShare
  owed _ := 0
  recorded _ := {p | p ∈ W₀ c ∨ p.2 = none}

def rdats (p : Fin 1) (c : Dev nD) : Pipeline.RDat τ (Elt F) (HIx 1) ℕ U ℕ (Pipeline.pin (pcfgs (F := F)) adm p) c :=
  rdat Xin V2 W₀ c

set_option maxHeartbeats 1000000 in
/-- The body obligation at the one point: the body's run, with the staging buffer handed over at any contents and handed
    back at the specification's values. -/
theorem hbody (c : Dev nD) :
    (rdats (U := U) Xin V2 W₀ 0 c).BodyObligation (defs₀ (F := F)) Variants.none (none : HIx 1) Set.univ := by
  intro t Y hY
  obtain rfl := Gen.fin_N1 t
  rw [Gen.bigSep_W1, Gen.bigSep_W1]
  rw [show (rdats (U := U) Xin V2 W₀ 0 c).Φ Gen.t1_0.castSucc = phi Xin c from rfl, show (rdats (U := U) Xin V2 W₀ 0 c).Φ Gen.t1_0.succ = phi Xin c from rfl]
  unfold Pipeline.RDat.owesAt Pipeline.owesWithin
  rw [show (rdats (U := U) Xin V2 W₀ 0 c).owed Gen.t1_0.castSucc = 0 from rfl, show (rdats (U := U) Xin V2 W₀ 0 c).owed Gen.t1_0.succ = 0 from rfl]
  unfold phi
  iintro ⟨⟨Hx, ⟨%g, Hsc⟩, Hs0, Hs1, Hs2, Hs3⟩, ⟨%W, %hW, HO⟩, Hown⟩
  ihave Hown' := (Entails.of_eq (owns_stage c (Y 0))) $$ Hown
  icases Hown' with ⟨%f0, -, Hst⟩
  sl_whnfR [defs₀]
  iapply (body c (Xin c) (W₀ c) W (fun p hp => by
      rcases hW hp with h | ⟨w, s, rfl⟩
      · exact h
      · exact .inr rfl) f0 g _)
  isplitl [Hx]; · iexact Hx
  isplitl [Hst]; · iexact Hst
  isplitl [Hsc]; · iexact Hsc
  isplitl [Hs0]; · iexact Hs0
  isplitl [Hs1]; · iexact Hs1
  isplitl [Hs2]; · iexact Hs2
  isplitl [Hs3]; · iexact Hs3
  isplitl [HO]; · iexact HO
  unfold bodyPost owesInv
  iintro ⟨Hx, ⟨%f, Hst, %hf⟩, Hsc, Hs0, Hs1, Hs2, Hs3, ⟨%W', HO, %hW'⟩⟩
  isplitl [Hx Hsc Hs0 Hs1 Hs2 Hs3]
  · isplitl [Hx]; · iexact Hx
    isplitl [Hsc]; · iexact Hsc
    isplitl [Hs0]; · iexact Hs0
    isplitl [Hs1]; · iexact Hs1
    isplitl [Hs2]; · iexact Hs2
    iexact Hs3
  isplitl [HO]
  · iexists W'
    isplitr
    · ipureintro; exact fun p hp => .inl (hW' p hp)
    iexact HO
  iexists (Cert.Spec.tcVal reduces_S2816x128_S128 (Xin c))
  isplitr
  · ipureintro; rfl
  iapply (Entails.of_eq (owns_stage c _).symm)
  iexists f
  isplitr
  · ipureintro; exact hf
  iexact Hst

end Region

/-! ## The record -/

/-- The one write-back of the whole window leaves the staged contents in the array. -/
theorem flush_whole (G₀ T : S64x128.Idx → F .f32) :
    View.write (Elt F) (win1_0.blk Gen.t1_0).view G₀ (win1_0.cut (grid1.coords Gen.t1_0) T) Finset.univ = T := by
  refine (View.write_whole_slice_unit (Val := Elt F) main_v2 _ _ _ G₀ _).trans ?_
  funext i
  unfold updateSlice
  rw [dif_pos (by
    intro a
    have hi := (i a).isLt
    refine ⟨?_, ?_⟩
    · show 0 * _ ≤ _
      rw [Nat.zero_mul]; exact Nat.zero_le _
    · show _ < 0 * _ + _
      rw [Nat.zero_mul, Nat.zero_add]; exact hi)]
  refine congrArg T (funext fun a => Fin.ext ?_)
  show (i a).val - 0 * _ = (i a).val
  rw [Nat.zero_mul]; rfl

section Record

variable (Xin : (c : Dev nD) → S64x4096x128.Idx → F .f32) (V2 : (c : Dev nD) → S64x128.Idx → F .f32) (W₀ : Dev nD → Waits sig (HIx 1))
  (L : GSem nD τ sig → Finset (HIx 1)) (lv : GSem nD τ sig → HIx 1 → ℕ)

set_option quotPrecheck false in
local notation "VL(" c ")" => (Memref.whole main_v2).view.loc (c : Thread nD τ)

/-- The thread state the region is entered from: the input and the result array whole, nothing owed. -/
def pre (c : Dev nD) : sProp 𝕄 :=
  iprop((ML(c) ↦{fullShare} Xin c) ∗ (VL(c) ↦{fullShare} V2 c) ∗ owes (c : Thread nD τ) (0 : CellTallies nD τ sig (HIx 1)) (W₀ c))

/-- The thread state it leaves: the input unchanged, the result array at the specification's values, nothing owed. -/
def post (c : Dev nD) : sProp 𝕄 :=
  iprop((ML(c) ↦{fullShare} Xin c) ∗ (VL(c) ↦{fullShare} Cert.Spec.tcVal reduces_S2816x128_S128 (Xin c))
    ∗ ∃ W', ⌜∀ p ∈ W', p ∈ W₀ c ∨ p.2 = none⌝ ∗ owes (c : Thread nD τ) (0 : CellTallies nD τ sig (HIx 1)) W')

theorem bigSep_W0 {M : Type} [URA M] (Φ : Fin 0 → sProp M) : bigSep Finset.univ Φ = (BI.emp : sProp M) :=
  bigSep_univ_eq_bigSepL [] (by decide) (by decide) Φ

theorem prefHeld_eq (c : Dev nD) (q) (pf) :
    (Pipeline.prefHeld (Ix := HIx 1) (Name := ℕ) (U := U) (Lvl := ℕ) (Val := Elt F) (pcfgs (F := F) 0).pre c q pf : sProp 𝕄) = BI.emp :=
  bigSep_W0 _

theorem arrays_eq (c : Dev nD) (Fa) :
    ((rdats (U := U) Xin V2 W₀ 0 c).arrays Fa : sProp 𝕄) = (VL(c) ↦{fullShare} Fa 0) := by
  unfold Pipeline.RDat.arrays
  rw [Gen.bigSep_W1]
  rw [(Gen.arr_whole1 0).set_eq_univ]
  rfl

theorem arr_pts (c : Dev nD) (f) :
    (((Pipeline.pin (pcfgs (F := F)) adm 0).win 0).arr.view.loc (c : Thread nD τ) ↦[((Pipeline.pin (pcfgs (F := F)) adm 0).win 0).arr.view.set]{(rdats (U := U) Xin V2 W₀ 0 c).share 0} f : sProp 𝕄)
      = (VL(c) ↦{fullShare} f) := by
  have hs : ((Pipeline.pin (pcfgs (F := F)) adm 0).win 0).arr.view.set = Finset.univ := (Gen.arr_whole1 0).set_eq_univ
  rw [hs]
  rfl

theorem hentry (c : Dev nD) :
    iprop(pre Xin V2 W₀ c ∗ Pipeline.ownSems0 osem c ∗ levAts L lv)
      ⊢ |={Set.univ}=> (iprop((rdats (U := U) Xin V2 W₀ 0 c).arrays (rdats (U := U) Xin V2 W₀ 0 c).A ∗ Pipeline.prefHeld (pcfgs (F := F) 0).pre c (fun _ => fullShare) (adm (F := F) 0).1
        ∗ (rdats (U := U) Xin V2 W₀ 0 c).owesAt (none : HIx 1) 0 ∗ iprop((ML(c) ↦{fullShare} Xin c) ∗ Pipeline.ownSems0 osem c) ∗ iprop(emp)) : sProp 𝕄) := by
  rw [arrays_eq, prefHeld_eq]
  unfold pre Pipeline.RDat.owesAt Pipeline.owesWithin
  iintro ⟨⟨Hx, Hv, HO⟩, Hs, -⟩
  imodintro
  isplitl [Hv]; · iexact Hv
  isplitr; · iempintro
  isplitl [HO]
  · iexists (W₀ c)
    isplitr
    · ipureintro; exact fun p hp => .inl (.inl hp)
    iexact HO
  isplitl [Hx Hs]
  · isplitl [Hx]; · iexact Hx
    iexact Hs
  iempintro

theorem scr_pts (c : Dev nD) (f) :
    (SL(c) ↦{fullShare} f : sProp 𝕄) = (((c : Thread nD τ).loc cc1_scratch0) ↦{fullShare} f) := rfl

theorem hin (c : Dev nD) :
    iprop(iprop((ML(c) ↦{fullShare} Xin c) ∗ Pipeline.ownSems0 osem c)
        ∗ Pipeline.prefHeld (pcfgs (F := F) 0).pre c (fun _ => fullShare) (adm (F := F) 0).1
        ∗ Pipeline.scopedRest (Pipeline.pin (pcfgs (F := F)) adm 0).spec c)
      ⊢ ((rdats (U := U) Xin V2 W₀ 0 c).Φ 0 : sProp 𝕄) := by
  rw [show (rdats (U := U) Xin V2 W₀ 0 c).Φ 0 = phi Xin c from rfl, ownSems0_eq, Gen.scopedRest1_eq]
  unfold phi
  iintro ⟨⟨Hx, Hs0, Hs1, Hs2, Hs3⟩, -, ⟨%g, Hsc⟩⟩
  isplitl [Hx]; · iexact Hx
  isplitl [Hsc]; · iexists g; iexact Hsc
  isplitl [Hs0]; · iexact Hs0
  isplitl [Hs1]; · iexact Hs1
  isplitl [Hs2]; · iexact Hs2
  iexact Hs3

theorem hout (c : Dev nD) :
    ((rdats (U := U) Xin V2 W₀ 0 c).Φ (Fin.last (Pipeline.pin (pcfgs (F := F)) adm 0).N) : sProp 𝕄)
      ⊢ iprop(iprop(ML(c) ↦{fullShare} Xin c) ∗ Pipeline.ownSems0 osem c ∗ Pipeline.scopedRest (Pipeline.pin (pcfgs (F := F)) adm 0).spec c) := by
  rw [show (rdats (U := U) Xin V2 W₀ 0 c).Φ (Fin.last _) = phi Xin c from rfl, ownSems0_eq, Gen.scopedRest1_eq]
  unfold phi
  iintro ⟨Hx, ⟨%g, Hsc⟩, Hs0, Hs1, Hs2, Hs3⟩
  isplitl [Hx]; · iexact Hx
  isplitl [Hs0 Hs1 Hs2 Hs3]
  · isplitl [Hs0]; · iexact Hs0
    isplitl [Hs1]; · iexact Hs1
    isplitl [Hs2]; · iexact Hs2
    iexact Hs3
  iexists g; iexact Hsc

theorem hexit (c : Dev nD) :
    iprop((rdats (U := U) Xin V2 W₀ 0 c).arraysAt (Pipeline.pin (pcfgs (F := F)) adm 0).N
        ∗ (rdats (U := U) Xin V2 W₀ 0 c).owesAt (none : HIx 1) (Fin.last (Pipeline.pin (pcfgs (F := F)) adm 0).N)
        ∗ iprop(ML(c) ↦{fullShare} Xin c) ∗ iprop(emp))
      ⊢ |={Set.univ}=> (post Xin W₀ c : sProp 𝕄) := by
  unfold Pipeline.RDat.arraysAt
  rw [Gen.bigSep_W1]
  unfold Pipeline.RDat.owesAt Pipeline.owesWithin post
  iintro ⟨⟨%Fa, %hFa, Ha⟩, ⟨%W', %hW', HO⟩, Hx, -⟩
  have hFa' : (rdats (U := U) Xin V2 W₀ 0 c).ArrAt 0 (Gen.t1_0.val + 1) Fa := hFa
  have hfl : ((Pipeline.pin (pcfgs (F := F)) adm 0).win 0).flush Gen.t1_0 = true := Gen.flush1_0 Gen.t1_0
  rw [Pipeline.RDat.ArrAt_succ, if_pos hfl] at hFa'
  obtain ⟨G₀, X', -, ⟨Yf, -, hX'⟩, rfl⟩ := hFa'
  have hX'' : X' = Cert.Spec.tcVal reduces_S2816x128_S128 (Xin c) := hX'
  subst hX''
  have hE := flush_whole (F := F) G₀ (Cert.Spec.tcVal reduces_S2816x128_S128 (Xin c))
  imodintro
  isplitl [Hx]; · iexact Hx
  isplitl [Ha]
  · iapply (Entails.of_eq (arr_pts Xin V2 W₀ c (Cert.Spec.tcVal reduces_S2816x128_S128 (Xin c))))
    iapply (Entails.of_eq (congrArg (fun f => (((Pipeline.pin (pcfgs (F := F)) adm 0).win 0).arr.view.loc (c : Thread nD τ) ↦[((Pipeline.pin (pcfgs (F := F)) adm 0).win 0).arr.view.set]{(rdats (U := U) Xin V2 W₀ 0 c).share 0} f : sProp 𝕄)) hE))
    iexact Ha
  iexists W'
  isplitr
  · ipureintro
    intro p hp
    rcases hW' hp with h | ⟨w, s, rfl⟩
    · exact h
    · exact .inr rfl
  iexact HO

/-- The slots' semaphores are scoped, distinct, and none is the staging buffer's. -/
theorem ownSemFacts : Pipeline.OwnSemFacts spec1 osem := by decide

/-- The region's record: the launch's layout facts, the kernel's four semaphores, the body obligation, wait evidence from
    nothing owed, and the four entailments between the thread states `pre` / `post` and the pipeline's. -/
def R : Pipeline.RDat.RegionSeg (pcfgs (F := F)) adm (rdats (U := U) Xin V2 W₀) (none : HIx 1) (defs₀ (F := F)) Variants.none L lv 0 where
  win := Gen.winFacts1.to₀
  block_pos := Gen.block_pos1
  stage_whole := Gen.stage_whole1
  K := Fin 4
  osem := osem
  ho := ownSemFacts
  hbody c := hbody Xin V2 W₀ c
  hwaits := Pipeline.RDat.hwaits_of_owed_zero _ _ _ _ L lv 0 fun _ _ => rfl
  pre := pre Xin V2 W₀
  post := post Xin W₀
  X c := iprop((ML(c) ↦{fullShare} Xin c) ∗ Pipeline.ownSems0 osem c)
  Y c := iprop(ML(c) ↦{fullShare} Xin c)
  Z _ := iprop(emp)
  hentry c := hentry Xin V2 W₀ L lv c
  hin c := hin Xin V2 W₀ c
  hout c := hout Xin V2 W₀ c
  hexit c := hexit Xin V2 W₀ c

theorem R_pre (c : Dev nD) : (R Xin V2 W₀ L lv).pre c = (pre (U := U) Xin V2 W₀ c : sProp 𝕄) := rfl
theorem R_post (c : Dev nD) : (R Xin V2 W₀ L lv).post c = (post (U := U) Xin W₀ c : sProp 𝕄) := rfl

/-- The record's entry state, over the TensorCore's thread and arrays as the program's main function names them. -/
theorem R_pre_of (c : Dev nD) :
    (iprop(((SparseCore.T c).loc main_v0 ↦{fullShare} Xin c) ∗ ((SparseCore.T c).loc main_v2 ↦{fullShare} V2 c)
        ∗ owes (SparseCore.T c) (0 : CellTallies nD τ sig (HIx 1)) (W₀ c)) : sProp 𝕄) ⊢ (R Xin V2 W₀ L lv).pre c := .rfl

/-- The record's exit state, likewise. -/
theorem R_post_to (c : Dev nD) :
    ((R Xin V2 W₀ L lv).post c : sProp 𝕄) ⊢ iprop(((SparseCore.T c).loc main_v0 ↦{fullShare} Xin c)
        ∗ ((SparseCore.T c).loc main_v2 ↦{fullShare} Cert.Spec.tcVal reduces_S2816x128_S128 (Xin c))
        ∗ ∃ W', ⌜∀ p ∈ W', p ∈ W₀ c ∨ p.2 = none⌝ ∗ owes (SparseCore.T c) (0 : CellTallies nD τ sig (HIx 1)) W') := .rfl

end Record

end Cert.KI.Tc

end
-- ==== Proof.KI.GlueR.lean ====
/-
  The TensorCore kernel's region, in the form @main's proof takes it: for any contents of the segment array and of
  the result's buffer at entry, the region's record, entered from the two arrays and left with the result at the
  specified values.
-/
import proofs.«210774_g2740189135076_cont_9to1_1653_26_alg».proof.Proof.KI.LaunchC
import proofs.«210774_g2740189135076_cont_9to1_1653_26_alg».proof.Proof.KI.Tc

noncomputable section

namespace Cert.KI.Glue

open Cert.KernelIdeal Cert.KernelIdeal.Gen
open Idealize.ShloMosaic
open Idealize.ShloMosaic.SparseCore.Cfg (HIx)
open Cert.KI.Launch

variable {F : FTy → Type} [FloatOps F]

theorem regionSpec : Cert.KI.Launch.RegionSpec (F := F) := fun X Y W₀ =>
  ⟨Cert.KI.Tc.rdats (U := UU) X Y W₀, Cert.KI.Tc.R X Y W₀ (K (F := F)).L (K (F := F)).lev,
    Cert.KI.Tc.R_pre_of X Y W₀ (K (F := F)).L (K (F := F)).lev, Cert.KI.Tc.R_post_to X Y W₀ (K (F := F)).L (K (F := F)).lev⟩

end Cert.KI.Glue

end
-- ==== Proof.KB.TileRows.lean ====
/-
  The body of one vector-subcore tile of the SparseCore kernel, at a symbolic tile.

  A tile owns two consecutive segments of the input (64 segments of 4096 rows of 128 columns).  For each of
  them it adds rows 0 … 1279, in row order, into eight accumulators of sixteen lanes (one per group of
  sixteen columns), multiplies each accumulator by 1/128 and stores it into a two-row scratch; the scratch is
  then copied into the tile's two rows of the result.  The rows arrive in chunks of 320 through two slots of
  a staging scratch, each slot filled by a copy of its own on a semaphore of its own.
-/
import proofs.«210774_g2740189135076_cont_9to1_1653_26_alg».proof.Kernel
import proofs.«210774_g2740189135076_cont_9to1_1653_26_alg».proof.Proof.Gen.Kernel
import proofs.«210774_g2740189135076_cont_9to1_1653_26_alg».proof.Proof.Gen.Kernel.Skeleton
import proofs.«210774_g2740189135076_cont_9to1_1653_26_alg».proof.Proof.Gen.Kernel.Loops
import proofs.«210774_g2740189135076_cont_9to1_1653_26_alg».proof.Proof.Spec
import Idealize.ShloMosaic.Lib.SparseCore.Launch
import Idealize.ShloMosaic.Lib.Tactic

noncomputable section

namespace Cert.KB.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

/-- The tile's thread. -/
abbrev thrOf (d : Dev nD) (L : grid0.Coords) : Thread nD τ := V d ((L 0).castLE hcore0) ((L 1).castLE hsub0)

/-- The tile's number: subcore times two plus core. -/
abbrev wid (L : grid0.Coords) : Nat := (L 1).val * 2 + (L 0).val

/-- The memref the final copy writes: the tile's two rows of the result. -/
abbrev outRows (L : grid0.Coords) : Memref sig .scVector .hbm S2x128 .f32 :=
  (Memref.whole main_v1_scv).slice (Rect.unit (s := S64x128) (k0_off41 L) S2x128.size (k0_off41_inb L)) (fun _ => rfl)

/-- The two result rows of the tile. -/
abbrev tileRows (L : grid0.Coords) : Finset S64x128.Idx := (outRows L).view.set

abbrev xLoc (d : Dev nD) : Loc nD τ sig := (SparseCore.T d).loc main_v0
abbrev sLoc (d : Dev nD) : Loc nD τ sig := (SparseCore.T d).loc main_v1

-- the kernel's memrefs, spelt as the body table passes them
local notation "xW" => (Memref.whole Cert.Kernel.main_v0_scv : Memref Cert.Kernel.sig Kind.scVector Space.hbm Cert.Kernel.S64x4096x128 EltTy.f32)
local notation "oW" => (Memref.whole Cert.Kernel.main_v1_scv : Memref Cert.Kernel.sig Kind.scVector Space.hbm Cert.Kernel.S64x128 EltTy.f32)
local notation "bW" => (Memref.whole Cert.Kernel.cc0_scratch0 : Memref Cert.Kernel.sig Kind.scVector Space.vmem Cert.Kernel.S640x128 EltTy.f32)
local notation "vW" => (Memref.whole Cert.Kernel.cc0_scratch1 : Memref Cert.Kernel.sig Kind.scVector Space.vmem Cert.Kernel.S2x128 EltTy.f32)

section Open

variable (d : Dev nD) (L : grid0.Coords)

abbrev cV (L : grid0.Coords) : Fin τ.nSC := (L 0).castLE hcore0
abbrev jV (L : grid0.Coords) : Fin τ.nSub := (L 1).castLE hsub0

abbrev c2cell : GSem nD τ sig := (thrOf d L, .dma cc0_scratch2.sem)
abbrev c3cell : GSem nD τ sig := (thrOf d L, .dma cc0_scratch3.sem)
abbrev c5cell : GSem nD τ sig := (thrOf d L, .dma cc0_scoped0.sem)

/-- The tile's semaphores at zero: the three the body uses, and the rest. -/
theorem ownSems0_V :
    (ownSems0 (thrOf d L) : sProp 𝕄)
      = iprop(semVal (c2cell d L) 0 ∗ semVal (c3cell d L) 0 ∗ semVal (c5cell d L) 0
          ∗ bigSep ((((ownCells (thrOf d L)).erase (c2cell d L)).erase (c3cell d L)).erase (c5cell d L))
              fun g => semVal g 0) := by
  unfold SparseCore.Cfg.ownSems0
  rw [SparseCore.bigSep_erase' ((mem_ownCells (g := c2cell d L)).mpr ⟨rfl, by
      show (SemLoc.dma cc0_scratch2.sem : SemLoc sig).isScoped .scVector = true; decide⟩),
    SparseCore.bigSep_erase' (Finset.mem_erase.mpr ⟨by simp [c2cell, c3cell]; decide, (mem_ownCells (g := c3cell d L)).mpr ⟨rfl, by
      show (SemLoc.dma cc0_scratch3.sem : SemLoc sig).isScoped .scVector = true; decide⟩⟩),
    SparseCore.bigSep_erase' (Finset.mem_erase.mpr ⟨by simp [c3cell, c5cell]; decide, Finset.mem_erase.mpr ⟨by simp [c2cell, c5cell]; decide,
      (mem_ownCells (g := c5cell d L)).mpr ⟨rfl, by show (SemLoc.dma cc0_scoped0.sem : SemLoc sig).isScoped .scVector = true; decide⟩⟩⟩)]

/-- The tile's own buffers: the two scratch buffers, at some contents, and the rest. -/
theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The input array as the tile's memref addresses it is the TensorCore's array. -/
theorem pts_x (q : PosShare TreeShare) (f : Buf (Elt F) (xLoc d)) :
    ((xW).view.loc (thrOf d L) ↦{q} f : sProp 𝕄) = xLoc d ↦{q} f := by
  simp only [Memref.view_whole, View.set_whole]

/-- The tile's result rows as the final copy's target addresses them. -/
theorem pts_o (f : Buf (Elt F) (sLoc d)) :
    ((outRows L).view.loc (thrOf d L) ↦[(outRows L).view.set]{fullShare} f : sProp 𝕄) = sLoc d ↦[tileRows L]{fullShare} f := rfl

theorem pts_b (f : Buf (Elt F) ((thrOf d L).loc cc0_scratch0)) :
    ((bW).view.loc (thrOf d L) ↦{fullShare} f : sProp 𝕄) = (thrOf d L).loc cc0_scratch0 ↦{fullShare} f := rfl
theorem pts_v (f : Buf (Elt F) ((thrOf d L).loc cc0_scratch1)) :
    ((vW).view.loc (thrOf d L) ↦{fullShare} f : sProp 𝕄) = (thrOf d L).loc cc0_scratch1 ↦{fullShare} f := rfl

end Open

section Slots

variable (d : Dev nD) (L : grid0.Coords)

/-- The two slots of the staging scratch: rows 0 … 319 and rows 320 … 639. -/
abbrev slot0 : Memref sig .scVector .vmem S320x128 .f32 :=
  (bW).slice (Rect.unit (s := S640x128) ![0, 0] S320x128.size inb_S640x128_S320x128_0_0) (fun _ => rfl)
abbrev slot1 : Memref sig .scVector .vmem S320x128 .f32 :=
  (bW).slice (Rect.unit (s := S640x128) ![320, 0] S320x128.size inb_S640x128_S320x128_320_0) (fun _ => rfl)

theorem slot0_set : (slot0).view.set = (Rect.unit (s := S640x128) ![0, 0] S320x128.size inb_S640x128_S320x128_0_0).set :=
  View.set_slice_whole _ _
theorem slot1_set : (slot1).view.set = (Rect.unit (s := S640x128) ![320, 0] S320x128.size inb_S640x128_S320x128_320_0).set :=
  View.set_slice_whole _ _

theorem slot_disj : Disjoint (slot0).view.set (slot1).view.set := by
  rw [slot0_set, slot1_set]
  exact Rect.unit_disjoint 0 (Or.inl (by decide))

theorem slot1_sub : (slot1).view.set ⊆ Finset.univ \ (slot0).view.set :=
  fun i hi => Finset.mem_sdiff.mpr ⟨Finset.mem_univ _, fun h0 => Finset.disjoint_left.mp slot_disj h0 hi⟩

/-- The staging scratch held whole is its two slots and what is left. -/
theorem pts_b_split (f : Buf (Elt F) ((thrOf d L).loc cc0_scratch0)) :
    ((bW).view.loc (thrOf d L) ↦{fullShare} f : sProp 𝕄)
      ⊢ iprop(((slot0).view.loc (thrOf d L) ↦[(slot0).view.set]{fullShare} f) ∗ ((slot1).view.loc (thrOf d L) ↦[(slot1).view.set]{fullShare} f)
          ∗ ((bW).view.loc (thrOf d L) ↦[(Finset.univ \ (slot0).view.set) \ (slot1).view.set]{fullShare} f)) := by
  iintro H
  ihave H' := (pointsTo_split_subset (ℓ := (bW).view.loc (thrOf d L)) (I := (slot0).view.set) (S := Finset.univ) (Finset.subset_univ _)).1 $$ H
  icases H' with ⟨H0, Hr⟩
  ihave Hr' := (pointsTo_split_subset (ℓ := (bW).view.loc (thrOf d L)) (I := (slot1).view.set) (S := Finset.univ \ (slot0).view.set) slot1_sub).1 $$ Hr
  icases Hr' with ⟨H1, Hr⟩
  isplitl [H0]; · iexact H0
  isplitl [H1]; · iexact H1
  iexact Hr

/-- and back, at whatever the pieces hold. -/
theorem pts_b_join (f0 f1 f2 : Buf (Elt F) ((thrOf d L).loc cc0_scratch0)) :
    iprop(((slot0).view.loc (thrOf d L) ↦[(slot0).view.set]{fullShare} f0) ∗ ((slot1).view.loc (thrOf d L) ↦[(slot1).view.set]{fullShare} f1)
          ∗ ((bW).view.loc (thrOf d L) ↦[(Finset.univ \ (slot0).view.set) \ (slot1).view.set]{fullShare} f2))
      ⊢ (∃ f, (thrOf d L).loc cc0_scratch0 ↦{fullShare} f : sProp 𝕄) := by
  iintro ⟨H0, H1, Hr⟩
  ihave Hr' := (pointsTo_join_subset (ℓ := (bW).view.loc (thrOf d L)) (I := (slot1).view.set) (S := Finset.univ \ (slot0).view.set) slot1_sub) $$ [H1 Hr]
  · isplitl [H1]; · iexact H1
    iexact Hr
  ihave Hw := (pointsTo_join_subset (ℓ := (bW).view.loc (thrOf d L)) (I := (slot0).view.set) (S := Finset.univ) (Finset.subset_univ _)) $$ [H0 Hr']
  · isplitl [H0]; · iexact H0
    iexact Hr'
  iexists _; iexact Hw

/-- The input array's read share as one token per slot's semaphore and a remainder. -/
theorem pts_x_toks (q : PosShare TreeShare) (f : Buf (Elt F) (xLoc d)) :
    ((xW).view.loc (thrOf d L) ↦{q} f : sProp 𝕄)
      ⊣⊢ iprop(((xW).view.loc (thrOf d L) ↦{Transfers.shareDrop q 2} f) ∗ ((xW).view.loc (thrOf d L) ↦{Transfers.shareTokN q 0} f)
          ∗ ((xW).view.loc (thrOf d L) ↦{Transfers.shareTokN q 1} f)) := by
  refine (Transfers.pointsTo_toks_range q 2).trans ?_
  rw [show Finset.range 2 = {0, 1} by decide, SparseCore.bigSep_insert' (by decide), bigSep_singleton]

end Slots

section Rows

variable [FloatOps F]
variable (d : Dev nD) (L : grid0.Coords)

/-- One trip of a row loop: it only reads its slot. -/
theorem rows_s0_a (c0 c1 : BitVec 32) (p : Fin k0_t1_loop.trips)
    (a9 a10 a11 a12 a13 a14 a15 a16 : FVec F S16 .f32) (k : Fin k0_t2_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot0).view.loc (thrOf d L)), (slot0).view.loc (thrOf d L) ↦[(slot0).view.set]{fullShare} g)) :
    R ⊢ wp frame (wpE (defs₀ (F := F)) 𝒱₀ (thrOf d L) none) Set.univ
          (k0_t2_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t2_body
  simp only [k0_part1_eq_skeleton, k0_part2_eq_skeleton, k0_part3_eq_skeleton]
  unfold k0_part1_skel k0_part2_skel k0_part3_skel
  subst hR
  iintro ⟨%g, Hb⟩
  have hk80 : k.val < 80 := lt_of_lt_of_le k.isLt k0_t2_abs.2.1
  sl_exec
  sl_step
  iexists _; iexact Hb

/-- One trip of a row loop: it only reads its slot. -/
theorem rows_s0_b (c0 c1 : BitVec 32) (p : Fin k0_t1_loop.trips)
    (a9 a10 a11 a12 a13 a14 a15 a16 : FVec F S16 .f32) (k : Fin k0_t3_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot1).view.loc (thrOf d L)), (slot1).view.loc (thrOf d L) ↦[(slot1).view.set]{fullShare} g)) :
    R ⊢ wp frame (wpE (defs₀ (F := F)) 𝒱₀ (thrOf d L) none) Set.univ
          (k0_t3_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t3_body
  simp only [k0_part4_eq_skeleton, k0_part5_eq_skeleton, k0_part6_eq_skeleton]
  unfold k0_part4_skel k0_part5_skel k0_part6_skel
  subst hR
  iintro ⟨%g, Hb⟩
  have hk80 : k.val < 80 := lt_of_lt_of_le k.isLt k0_t3_abs.2.1
  sl_exec
  sl_step
  iexists _; iexact Hb

/-- One trip of a row loop: it only reads its slot. -/
theorem rows_s1_a (c0 c1 : BitVec 32) (p : Fin k0_t4_loop.trips)
    (a9 a10 a11 a12 a13 a14 a15 a16 : FVec F S16 .f32) (k : Fin k0_t5_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot0).view.loc (thrOf d L)), (slot0).view.loc (thrOf d L) ↦[(slot0).view.set]{fullShare} g)) :
    R ⊢ wp frame (wpE (defs₀ (F := F)) 𝒱₀ (thrOf d L) none) Set.univ
          (k0_t5_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t5_body
  simp only [k0_part8_eq_skeleton, k0_part9_eq_skeleton, k0_part10_eq_skeleton]
  unfold k0_part8_skel k0_part9_skel k0_part10_skel
  subst hR
  iintro ⟨%g, Hb⟩
  have hk80 : k.val < 80 := lt_of_lt_of_le k.isLt k0_t5_abs.2.1
  sl_exec
  sl_step
  iexists _; iexact Hb

/-- One trip of a row loop: it only reads its slot. -/
theorem rows_s1_b (c0 c1 : BitVec 32) (p : Fin k0_t4_loop.trips)
    (a9 a10 a11 a12 a13 a14 a15 a16 : FVec F S16 .f32) (k : Fin k0_t6_loop.trips) (acc : FVec F S16 .f32 × FVec F S16 .f32 × FVec F S16 .f32 × FVec F S16 .f32 × FVec F S16 .f32 × FVec F S16 .f32 × FVec F S16 .f32 × FVec F S16 .f32)
    (R : sProp 𝕄) (hR : R = iprop(∃ g : Buf (Elt F) ((slot1).view.loc (thrOf d L)), (slot1).view.loc (thrOf d L) ↦[(slot1).view.set]{fullShare} g)) :
    R ⊢ wp frame (wpE (defs₀ (F := F)) 𝒱₀ (thrOf d L) none) Set.univ
          (k0_t6_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (fun _ => R) := by
  obtain ⟨b18, b19, b20, b21, b22, b23, b24, b25⟩ := acc
  unfold k0_t6_body
  simp only [k0_part11_eq_skeleton, k0_part12_eq_skeleton, k0_part13_eq_skeleton]
  unfold k0_part11_skel k0_part12_skel k0_part13_skel
  subst hR
  iintro ⟨%g, Hb⟩
  have hk80 : k.val < 80 := lt_of_lt_of_le k.isLt k0_t6_abs.2.1
  sl_exec
  sl_step
  iexists _; iexact Hb

end Rows

end Cert.KB.Tile

end
-- ==== Proof.KB.Tile.lean ====
/-
  The body of one vector-subcore tile of the SparseCore kernel, at a symbolic tile: the pair loops and the whole body.

  Each segment's 1280 rows arrive in four chunks of 320 through the two slots of the staging scratch.  Before trip `p`
  of a segment's pair loop both slots have a copy in flight (chunks 2p and 2p+1); a trip waits for slot 0, adds its rows,
  starts the copy of chunk 2p+2 into it if there is one, and does the same for slot 1.  After the last trip both slots
  are at rest.
-/
import proofs.«210774_g2740189135076_cont_9to1_1653_26_alg».proof.Proof.KB.TileRows

noncomputable section

namespace Cert.KB.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.Kernel.main_v0_scv : Memref Cert.Kernel.sig Kind.scVector Space.hbm Cert.Kernel.S64x4096x128 EltTy.f32)
local notation "oW" => (Memref.whole Cert.Kernel.main_v1_scv : Memref Cert.Kernel.sig Kind.scVector Space.hbm Cert.Kernel.S64x128 EltTy.f32)
local notation "bW" => (Memref.whole Cert.Kernel.cc0_scratch0 : Memref Cert.Kernel.sig Kind.scVector Space.vmem Cert.Kernel.S640x128 EltTy.f32)
local notation "vW" => (Memref.whole Cert.Kernel.cc0_scratch1 : Memref Cert.Kernel.sig Kind.scVector Space.vmem Cert.Kernel.S2x128 EltTy.f32)

/-- The tile's two result rows are the rows whose number halves to the tile's number. -/
theorem tileRows_eq (L : grid0.Coords) :
    tileRows L = Finset.univ.filter fun j : S64x128.Idx => (j 0).val / 2 = wid L := by
  have h : tileRows L = (Rect.unit (s := S64x128) (k0_off41 L) S2x128.size (k0_off41_inb L)).set := View.set_slice_whole _ _
  rw [h]
  ext j
  rw [Rect.mem_set_unit, Finset.mem_filter, k0_off41_eq]
  have h1 := (j 1).isLt
  constructor
  · intro hh
    refine ⟨Finset.mem_univ _, ?_⟩
    have h0 := hh 0
    simp only [Matrix.cons_val_zero] at h0
    show (j 0).val / 2 = (L 1).val * 2 + (L 0).val
    have : S2x128.size 0 = 2 := rfl
    omega
  · rintro ⟨-, hh⟩ a
    have hw : (j 0).val / 2 = (L 1).val * 2 + (L 0).val := hh
    match a with
    | 0 =>
      simp only [Matrix.cons_val_zero]
      have : S2x128.size 0 = 2 := rfl
      omega
    | 1 =>
      simp only [Matrix.cons_val_one, Matrix.cons_val_zero]
      have : S2x128.size 1 = 128 := rfl
      have : S64x128.size 1 = 128 := rfl
      omega

section Pair

variable [FloatOps F]
variable (d : Dev nD) (L : grid0.Coords) (q : PosShare TreeShare) (X : Buf (Elt F) (xLoc d))
  (O : CellTallies nD τ sig (HIx 1)) (W : Waits sig (HIx 1))

/-- The 320 rows of the input at offsets `off`, as the copies address them. -/
abbrev chunkAt (off : Fin 3 → Nat) (inb : ∀ a, off a + S1x320x128.size a ≤ S64x4096x128.size a) : Memref sig .scVector .hbm S320x128 .f32 :=
  ((xW).slice (Rect.unit (s := S64x4096x128) off S1x320x128.size inb) (fun _ => rfl)).squeeze S320x128 squeezes_S1x320x128_S320x128

/-- A copy into slot 0 in flight: the slot and the chunk's elements are the transfer's until its wait; the rest of
    the slot's read token of the input stays here. -/
def fly0 : sProp 𝕄 :=
  iprop(∃ (off : Fin 3 → Nat) (inb : ∀ a, off a + S1x320x128.size a ≤ S64x4096x128.size a) (f : Buf (Elt F) ((slot0).view.loc (thrOf d L))),
    Transfers.Flight countersEmb (thrOf d L) (SemLoc.dma cc0_scratch2.sem) (default : HIx 1) 1310720
        iprop(((slot0).view.loc (thrOf d L) ↦[(slot0).view.set]{fullShare}
            (slot0).view.writes (Elt F) f [⟨Rect.whole S320x128, ReadAs.same.apply ((chunkAt off inb).view.read (Elt F) X)⟩])
          ∗ ((xW).view.loc (thrOf d L) ↦[(chunkAt off inb).view.set]{Transfers.shareTokN q 0} X))
      ∗ ((xW).view.loc (thrOf d L) ↦[Finset.univ \ (chunkAt off inb).view.set]{Transfers.shareTokN q 0} X))

/-- Slot 0 at rest: held at some contents, its semaphore at zero, its read token whole. -/
def idle0 : sProp 𝕄 :=
  iprop((∃ f : Buf (Elt F) ((slot0).view.loc (thrOf d L)), (slot0).view.loc (thrOf d L) ↦[(slot0).view.set]{fullShare} f)
    ∗ semVal ((thrOf d L, SemLoc.dma cc0_scratch2.sem) : GSem nD τ sig) 0 ∗ ((xW).view.loc (thrOf d L) ↦{Transfers.shareTokN q 0} X))

/-- A copy into slot 1 in flight: the slot and the chunk's elements are the transfer's until its wait; the rest of
    the slot's read token of the input stays here. -/
def fly1 : sProp 𝕄 :=
  iprop(∃ (off : Fin 3 → Nat) (inb : ∀ a, off a + S1x320x128.size a ≤ S64x4096x128.size a) (f : Buf (Elt F) ((slot1).view.loc (thrOf d L))),
    Transfers.Flight countersEmb (thrOf d L) (SemLoc.dma cc0_scratch3.sem) (default : HIx 1) 1310720
        iprop(((slot1).view.loc (thrOf d L) ↦[(slot1).view.set]{fullShare}
            (slot1).view.writes (Elt F) f [⟨Rect.whole S320x128, ReadAs.same.apply ((chunkAt off inb).view.read (Elt F) X)⟩])
          ∗ ((xW).view.loc (thrOf d L) ↦[(chunkAt off inb).view.set]{Transfers.shareTokN q 1} X))
      ∗ ((xW).view.loc (thrOf d L) ↦[Finset.univ \ (chunkAt off inb).view.set]{Transfers.shareTokN q 1} X))

/-- Slot 1 at rest: held at some contents, its semaphore at zero, its read token whole. -/
def idle1 : sProp 𝕄 :=
  iprop((∃ f : Buf (Elt F) ((slot1).view.loc (thrOf d L)), (slot1).view.loc (thrOf d L) ↦[(slot1).view.set]{fullShare} f)
    ∗ semVal ((thrOf d L, SemLoc.dma cc0_scratch3.sem) : GSem nD τ sig) 0 ∗ ((xW).view.loc (thrOf d L) ↦{Transfers.shareTokN q 1} X))

/-- Before trip `p` of a pair loop: both slots' copies in flight while trips remain, both slots at rest after the last. -/
def invPair (p : Nat) (_ : FVec F S16 .f32 × FVec F S16 .f32 × FVec F S16 .f32 × FVec F S16 .f32 × FVec F S16 .f32 × FVec F S16 .f32 × FVec F S16 .f32 × FVec F S16 .f32) : sProp 𝕄 :=
  iprop(Transfers.MayWaits (thrOf d L) (none : HIx 1) O
    ∗ (if p < 2 then (iprop(fly0 d L q X ∗ fly1 d L q X) : sProp 𝕄) else (iprop(idle0 d L q X ∗ idle1 d L q X) : sProp 𝕄))
    ∗ ∃ W', ⌜∀ p ∈ W', p ∈ W ∨ p.2 = none⌝ ∗ owes (thrOf d L) O W')

theorem cond1_iff : ∀ k : Fin k0_t1_loop.trips, k0_cond1 k = 1#1 ↔ k.val = 0 := by decide +kernel
theorem cond2_iff : ∀ k : Fin k0_t1_loop.trips, k0_cond2 k = 1#1 ↔ k.val = 0 := by decide +kernel
theorem cond3_iff : ∀ k : Fin k0_t4_loop.trips, k0_cond3 k = 1#1 ↔ k.val = 0 := by decide +kernel
theorem cond4_iff : ∀ k : Fin k0_t4_loop.trips, k0_cond4 k = 1#1 ↔ k.val = 0 := by decide +kernel

/-- The invariant while trips remain, spelt out. -/
theorem invPair_lt {p : Nat} {acc : FVec F S16 .f32 × FVec F S16 .f32 × FVec F S16 .f32 × FVec F S16 .f32 × FVec F S16 .f32 × FVec F S16 .f32 × FVec F S16 .f32 × FVec F S16 .f32} (h : p < 2) :
    invPair (U := U) d L q X O W p acc
      = iprop(Transfers.MayWaits (thrOf d L) (none : HIx 1) O
        ∗ ((∃ (off : Fin 3 → Nat) (inb : ∀ a, off a + S1x320x128.size a ≤ S64x4096x128.size a) (f : Buf (Elt F) ((slot0).view.loc (thrOf d L))),
        Transfers.Flight countersEmb (thrOf d L) (SemLoc.dma cc0_scratch2.sem) (default : HIx 1) 1310720
            iprop(((slot0).view.loc (thrOf d L) ↦[(slot0).view.set]{fullShare}
                (slot0).view.writes (Elt F) f [⟨Rect.whole S320x128, ReadAs.same.apply ((chunkAt off inb).view.read (Elt F) X)⟩])
              ∗ ((xW).view.loc (thrOf d L) ↦[(chunkAt off inb).view.set]{Transfers.shareTokN q 0} X))
          ∗ ((xW).view.loc (thrOf d L) ↦[Finset.univ \ (chunkAt off inb).view.set]{Transfers.shareTokN q 0} X))
          ∗ (∃ (off : Fin 3 → Nat) (inb : ∀ a, off a + S1x320x128.size a ≤ S64x4096x128.size a) (f : Buf (Elt F) ((slot1).view.loc (thrOf d L))),
        Transfers.Flight countersEmb (thrOf d L) (SemLoc.dma cc0_scratch3.sem) (default : HIx 1) 1310720
            iprop(((slot1).view.loc (thrOf d L) ↦[(slot1).view.set]{fullShare}
                (slot1).view.writes (Elt F) f [⟨Rect.whole S320x128, ReadAs.same.apply ((chunkAt off inb).view.read (Elt F) X)⟩])
              ∗ ((xW).view.loc (thrOf d L) ↦[(chunkAt off inb).view.set]{Transfers.shareTokN q 1} X))
          ∗ ((xW).view.loc (thrOf d L) ↦[Finset.univ \ (chunkAt off inb).view.set]{Transfers.shareTokN q 1} X)))
        ∗ ∃ W', ⌜∀ p ∈ W', p ∈ W ∨ p.2 = none⌝ ∗ owes (thrOf d L) O W') := by
  unfold invPair fly0 fly1; rw [if_pos h]

/-- The invariant after the last trip, spelt out. -/
theorem invPair_ge {p : Nat} {acc : FVec F S16 .f32 × FVec F S16 .f32 × FVec F S16 .f32 × FVec F S16 .f32 × FVec F S16 .f32 × FVec F S16 .f32 × FVec F S16 .f32 × FVec F S16 .f32} (h : ¬ p < 2) :
    invPair (U := U) d L q X O W p acc
      = iprop(Transfers.MayWaits (thrOf d L) (none : HIx 1) O
        ∗ (((∃ f : Buf (Elt F) ((slot0).view.loc (thrOf d L)), (slot0).view.loc (thrOf d L) ↦[(slot0).view.set]{fullShare} f)
        ∗ semVal ((thrOf d L, SemLoc.dma cc0_scratch2.sem) : GSem nD τ sig) 0 ∗ ((xW).view.loc (thrOf d L) ↦{Transfers.shareTokN q 0} X))
          ∗ ((∃ f : Buf (Elt F) ((slot1).view.loc (thrOf d L)), (slot1).view.loc (thrOf d L) ↦[(slot1).view.set]{fullShare} f)
        ∗ semVal ((thrOf d L, SemLoc.dma cc0_scratch3.sem) : GSem nD τ sig) 0 ∗ ((xW).view.loc (thrOf d L) ↦{Transfers.shareTokN q 1} X)))
        ∗ ∃ W', ⌜∀ p ∈ W', p ∈ W ∨ p.2 = none⌝ ∗ owes (thrOf d L) O W') := by
  unfold invPair idle0 idle1; rw [if_neg h]

set_option maxHeartbeats 1600000 in
theorem pair0_step (k : Fin k0_t1_loop.trips) (acc : FVec F S16 .f32 × FVec F S16 .f32 × FVec F S16 .f32 × FVec F S16 .f32 × FVec F S16 .f32 × FVec F S16 .f32 × FVec F S16 .f32 × FVec F S16 .f32) :
    invPair (U := U) d L q X O W k.val acc
      ⊢ wp frame (wpE (defs₀ (F := F)) 𝒱₀ (thrOf d L) none) Set.univ
          (k0_t1_body L xW (Memref.isWhole_whole _) oW (Memref.isWhole_whole _) bW (Memref.isWhole_whole _) vW (Memref.isWhole_whole _)
            cc0_scratch2 cc0_scratch3 cc0_scoped0 k acc)
          (invPair (U := U) d L q X O W (k.val + 1)) := by
  have hk2 : k.val < 2 := lt_of_lt_of_le k.isLt k0_t1_abs.2.1
  obtain ⟨a9, a10, a11, a12, a13, a14, a15, a16⟩ := acc
  unfold k0_t1_body
  simp only [k0_part7_eq_skeleton]
  unfold k0_part7_skel
  simp only [Prog.bind_assoc]
  unfold invPair
  rw [if_pos hk2]
  rcases (by omega : k.val = 0 ∨ k.val = 1) with h0 | h1
  · have hc1 : k0_cond1 k = 1#1 := (cond1_iff k).2 h0
    have hc2 : k0_cond2 k = 1#1 := (cond2_iff k).2 h0
    rw [if_pos (by omega : k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s0_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s0_b d L _ _ k a9 a10 a11 a12 a13 a14 a15 a16 t acc _ rfl
    · iexists _; iexact HF1_dst
    iintro %acc2 ⟨%g1, Hb1⟩
    sl_exec
    sl_step
    isplitr; · iexact Hmw
    isplitl [HF0 Hx0 HF1 Hx1]
    · isplitl [HF0 Hx0]
      · iexists _, _, _; isplitl [HF0]; · iexact HF0
        iexact Hx0
      · iexists _, _, _; isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond1 k = 1#1 := fun h => by have := (cond1_iff k).1 h; omega
    have hc2 : ¬ k0_cond2 k = 1#1 := fun h => by have := (cond2_iff k).1 h; omega
    rw [if_neg (by omega : ¬ k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s0_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s0_b d L _ _ k a9 a10 a11 a12 a13 a14 a15 a16 t acc _ rfl
    · iexists _; iexact HF1_dst
    iintro %acc2 ⟨%g1, Hb1⟩
    sl_exec
    sl_step
    isplitr; · iexact Hmw
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

set_option maxHeartbeats 1600000 in
theorem pair1_step (v87 v88 v89 : FVec F S16 .f32) (cst_62 : F .f32) (k : Fin k0_t4_loop.trips) (acc : FVec F S16 .f32 × FVec F S16 .f32 × FVec F S16 .f32 × FVec F S16 .f32 × FVec F S16 .f32 × FVec F S16 .f32 × FVec F S16 .f32 × FVec F S16 .f32) :
    invPair (U := U) d L q X O W k.val acc
      ⊢ wp frame (wpE (defs₀ (F := F)) 𝒱₀ (thrOf d L) none) Set.univ
          (k0_t4_body L xW (Memref.isWhole_whole _) oW (Memref.isWhole_whole _) bW (Memref.isWhole_whole _) vW (Memref.isWhole_whole _)
            cc0_scratch2 cc0_scratch3 cc0_scoped0 v87 v88 v89 cst_62 k acc)
          (invPair (U := U) d L q X O W (k.val + 1)) := by
  have hk2 : k.val < 2 := lt_of_lt_of_le k.isLt k0_t4_abs.2.1
  obtain ⟨a9, a10, a11, a12, a13, a14, a15, a16⟩ := acc
  unfold k0_t4_body
  simp only [k0_part14_eq_skeleton]
  unfold k0_part14_skel
  simp only [Prog.bind_assoc]
  unfold invPair
  rw [if_pos hk2]
  rcases (by omega : k.val = 0 ∨ k.val = 1) with h0 | h1
  · have hc1 : k0_cond3 k = 1#1 := (cond3_iff k).2 h0
    have hc2 : k0_cond4 k = 1#1 := (cond4_iff k).2 h0
    rw [if_pos (by omega : k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s1_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s1_b d L _ _ k a9 a10 a11 a12 a13 a14 a15 a16 t acc _ rfl
    · iexists _; iexact HF1_dst
    iintro %acc2 ⟨%g1, Hb1⟩
    sl_exec
    sl_step
    isplitr; · iexact Hmw
    isplitl [HF0 Hx0 HF1 Hx1]
    · isplitl [HF0 Hx0]
      · iexists _, _, _; isplitl [HF0]; · iexact HF0
        iexact Hx0
      · iexists _, _, _; isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond3 k = 1#1 := fun h => by have := (cond3_iff k).1 h; omega
    have hc2 : ¬ k0_cond4 k = 1#1 := fun h => by have := (cond4_iff k).1 h; omega
    rw [if_neg (by omega : ¬ k.val + 1 < 2)]
    unfold fly0 fly1
    iintro ⟨#Hmw, ⟨⟨%off0, %inb0, %f0, HF0, Hx0⟩, ⟨%off1, %inb1, %f1, HF1, Hx1⟩⟩, %W', %hW', HO⟩
    sl_exec
    sl_for (fun _ _ => (iprop(∃ g : Buf (Elt F) ((slot0).view.loc (thrOf d L)), (slot0).view.loc (thrOf d L) ↦[(slot0).view.set]{fullShare} g) : sProp 𝕄)) $$ [HF0_dst]
    case region => intro t acc; exact rows_s1_a d L _ _ k a9 a10 a11 a12 a13 a14 a15 a16 t acc _ rfl
    · iexists _; iexact HF0_dst
    iintro %acc1 ⟨%g0, Hb0⟩
    sl_exec
    sl_rw [Prog.bind_assoc]
    sl_for (fun _ _ => (iprop(∃ g : Buf (Elt F) ((slot1).view.loc (thrOf d L)), (slot1).view.loc (thrOf d L) ↦[(slot1).view.set]{fullShare} g) : sProp 𝕄)) $$ [HF1_dst]
    case region => intro t acc; exact rows_s1_b d L _ _ k a9 a10 a11 a12 a13 a14 a15 a16 t acc _ rfl
    · iexists _; iexact HF1_dst
    iintro %acc2 ⟨%g1, Hb1⟩
    sl_exec
    sl_step
    isplitr; · iexact Hmw
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

end Pair

section Body

variable [FloatOps F]

set_option maxHeartbeats 4000000 in
/-- The tile's body: the input is only read, the tile's two result rows are written, and everything of the tile's own is
    handed back as it was found. -/
theorem tile_frame (hF : (K (F := F)).Facts)
    (d : Dev nD) (L : grid0.Coords) (q : PosShare TreeShare)
    (X : Buf (Elt F) (xLoc d)) (O : CellTallies nD τ sig (HIx 1)) (W : Waits sig (HIx 1)) (hO : ∀ g, O g none = 0) :
    iprop(levAts (K (F := F)).L (K (F := F)).lev ∗ (xLoc d ↦{q} X) ∗ (∃ f : Buf (Elt F) (sLoc d), sLoc d ↦[tileRows L]{fullShare} f)
        ∗ scopedBufs (thrOf d L) ∗ scopedSems0 (thrOf d L) ∗ owes (thrOf d L) O W)
      ⊢ (wp frame (wpE (defs₀ (F := F)) 𝒱₀ (thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scratch2 cc0_scratch3 cc0_scoped0)
          fun _ => iprop((xLoc d ↦{q} X) ∗ (∃ f : Buf (Elt F) (sLoc d), sLoc d ↦[tileRows L]{fullShare} f)
            ∗ scopedBufs (thrOf d L) ∗ scopedSems0 (thrOf d L) ∗ ∃ W', ⌜∀ p ∈ W', p ∈ W ∨ p.2 = none⌝ ∗ owes (thrOf d L) O W') : sProp 𝕄) := by
  simp only [cc0__sc_body_eq_skeleton]
  unfold cc0__sc_body_skel
  simp only [k0_part15_eq_skeleton, k0_part16_eq_skeleton, k0_part17_eq_skeleton, k0_part18_eq_skeleton]
  unfold k0_part15_skel k0_part16_skel k0_part17_skel k0_part18_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Hx, ⟨%fo, Ho⟩, ⟨⟨%fb, Hb⟩, ⟨%fv, Hv⟩, Hbufs⟩, ⟨Hs2, Hs3, Hs5, Hsems⟩, HO⟩
  ihave Hmw := ((K (F := F)).mayWaits_none (thr := thrOf d L) hO) $$ Hlv
  ihave Hx' := (Entails.of_eq (pts_x (F := F) d L q _).symm) $$ Hx
  ihave Hx'' := (pts_x_toks (F := F) d L q _).1 $$ Hx'
  icases Hx'' with ⟨Hxr, Hx0, Hx1⟩
  ihave Ho' := (Entails.of_eq (pts_o (F := F) d L _).symm) $$ Ho
  ihave Hb' := (Entails.of_eq (pts_b (F := F) d L _).symm) $$ Hb
  ihave Hb'' := (pts_b_split (F := F) d L _) $$ Hb'
  icases Hb'' with ⟨Hb0, Hb1, Hbr⟩
  ihave Hv' := (Entails.of_eq (pts_v (F := F) d L _).symm) $$ Hv
  sl_exec
  sl_for (invPair (U := U) d L q X O W) $$ [Hs2 Hx0 Hs3 Hx1 HO]
  case region => intro k acc; exact pair0_step d L q X O W k acc
  · iapply (Entails.of_eq (invPair_lt (U := U) d L q X O W (by decide : (0 : Nat) < 2)).symm)
    isplitr; · iexact Hmw
    isplitl [Hs2 Hx0 Hs3 Hx1]
    · isplitl [Hs2 Hx0]
      · iexists _, _, _; isplitl [Hs2]; · iexact Hs2
        iexact Hx0
      · iexists _, _, _; isplitl [Hs3]; · iexact Hs3
        iexact Hx1
    iexists W; isplitr
    · ipureintro; exact fun p hp => .inl hp
    · iexact HO
  iintro %acc1 HI
  have ht1 : ¬ Scf.trips k0_t1_loop.lb k0_t1_loop.ub k0_t1_loop.st < 2 := by decide
  ihave HI' := (Entails.of_eq (invPair_ge (U := U) d L q X O W ht1)) $$ HI
  icases HI' with ⟨-, ⟨⟨⟨%g0, Hb0⟩, Hs2, Hx0⟩, ⟨⟨%g1, Hb1⟩, Hs3, Hx1⟩⟩, %W1, %hW1, HO⟩
  sl_exec
  try sl_rw [Prog.bind_assoc]
  sl_for (invPair (U := U) d L q X O W) $$ [Hs2 Hx0 Hs3 Hx1 HO]
  case region => intro k acc; exact pair1_step d L q X O W _ _ _ _ k acc
  · iapply (Entails.of_eq (invPair_lt (U := U) d L q X O W (by decide : (0 : Nat) < 2)).symm)
    isplitr; · iexact Hmw
    isplitl [Hs2 Hx0 Hs3 Hx1]
    · isplitl [Hs2 Hx0]
      · iexists _, _, _; isplitl [Hs2]; · iexact Hs2
        iexact Hx0
      · iexists _, _, _; isplitl [Hs3]; · iexact Hs3
        iexact Hx1
    iexists W1; isplitr
    · ipureintro; exact hW1
    · iexact HO
  iintro %acc2 HI
  have ht4 : ¬ Scf.trips k0_t4_loop.lb k0_t4_loop.ub k0_t4_loop.st < 2 := by decide
  ihave HI' := (Entails.of_eq (invPair_ge (U := U) d L q X O W ht4)) $$ HI
  icases HI' with ⟨-, ⟨⟨⟨%g2, Hb0⟩, Hs2, Hx0⟩, ⟨⟨%g3, Hb1⟩, Hs3, Hx1⟩⟩, %W2, %hW2, HO⟩
  sl_exec
  sl_step
  isplitl [Hxr Hx0 Hx1]
  · iapply (Entails.of_eq (pts_x (F := F) d L q _))
    iapply (pts_x_toks (F := F) d L q _).2
    isplitl [Hxr]; · iexact Hxr
    isplitl [Hx0]; · iexact Hx0
    iexact Hx1
  isplitl [Ho']
  · iexists _; iapply (Entails.of_eq (pts_o (F := F) d L _)); iexact Ho'
  isplitl [Hb0 Hb1 Hbr Hv' Hbufs]
  · isplitl [Hb0 Hb1 Hbr]
    · iapply (pts_b_join (F := F) d L _ _ _)
      isplitl [Hb0]; · iexact Hb0
      isplitl [Hb1]; · iexact Hb1
      iexact Hbr
    isplitl [Hv']; · iexists _; iexact Hv'
    iexact Hbufs
  isplitl [Hs2 Hs3 Hs5 Hsems]
  · isplitl [Hs2]; · iexact Hs2
    isplitl [Hs3]; · iexact Hs3
    isplitl [Hs5]; · iexact Hs5
    iexact Hsems
  iexists (insert (SemLoc.dma cc0_scoped0.sem, (default : HIx 1)) W2); isplitr
  · ipureintro; intro p hp
    rcases Finset.mem_insert.mp hp with hp | hp
    · exact .inr (by rw [hp]; rfl)
    · exact hW2 p hp
  · iexact HO

end Body

end Cert.KB.Tile

end
-- ==== Proof.KB.TileVal.lean ====
/-
  The values a vector subcore computes, apart from the memory that carries them.

  The rows a tile writes: the last copy's target is rows 4 i + 2 c and 4 i + 2 c + 1 of the 64 × 128 result for
  vector subcore i of SparseCore c, which are the rows whose number halves to the worker number w = 2 i + c.

  The accumulators: accumulator g (of eight), lane j (of sixteen) follows column 16 g + j of the segment; one trip of
  a row loop adds four rows to it in row order, which is four steps of the specification's own accumulation, so after
  n rows it holds the specified running total for every reading of the floats.

  The stored rows: each accumulator times 2⁻⁷, re-laid as 1 × 16, is stored at row r, columns 16 g … 16 g + 15 of a
  two-row scratch, r = 0 for segment 2 w and r = 1 for segment 2 w + 1; those sixteen pieces are the blocks of one
  function, the specified partial means of the two segments, which is also what the tile's two result rows must hold.
-/
import proofs.«210774_g2740189135076_cont_9to1_1653_26_alg».proof.Proof.Spec
import proofs.«210774_g2740189135076_cont_9to1_1653_26_alg».proof.Proof.Gen.Kernel.Skeleton
import proofs.«210774_g2740189135076_cont_9to1_1653_26_alg».proof.Proof.KB.LaunchA
import Idealize.ShloMosaic.Lib.ValueIdx
import Idealize.ShloMosaic.Lib.Pipeline.Value

noncomputable section

namespace Cert.KB.TileVal

open Cert.Kernel Cert.Kernel.Gen

open Idealize.ShloMosaic Idealize.ShloMosaic.ValueIdx

variable {F : FTy → Type}

/-! ## The tile's two result rows -/

/-- The target of the tile's last copy: two rows of the result, as the body slices them. -/
abbrev outRows (L : grid0.Coords) : Memref sig .scVector .hbm S2x128 .f32 :=
  (Memref.whole main_v1_scv).slice (Rect.unit (s := S64x128) (k0_off41 L) S2x128.size (k0_off41_inb L)) (fun _ => rfl)

/-- Those rows are the ones whose number halves to the tile's worker number. -/
theorem outRows_set (L : grid0.Coords) : (outRows L).view.set = Cert.KB.Launch.rowsOf (Cert.KB.Launch.wid L) := by
  rw [show (outRows L).view.set = (Rect.unit (s := S64x128) (k0_off41 L) S2x128.size (k0_off41_inb L)).set from
    View.set_slice_whole _ _]
  have h0 : k0_off41 L 0 = 4 * (L 1).val + 2 * (L 0).val := by rw [k0_off41_eq]; rfl
  have h1 : k0_off41 L 1 = 0 := by rw [k0_off41_eq]; rfl
  ext j
  rw [Rect.mem_set_unit]
  unfold Cert.KB.Launch.rowsOf Cert.KB.Launch.wid
  constructor
  · intro h
    have h2 : k0_off41 L 0 ≤ (j 0).val ∧ (j 0).val < k0_off41 L 0 + 2 := h 0
    rw [h0] at h2
    exact Finset.mem_filter.mpr ⟨Finset.mem_univ _, by omega⟩
  · intro hm a
    have h : (j 0).val / 2 = (L 1).val * 2 + (L 0).val := (Finset.mem_filter.mp hm).2
    match a with
    | ⟨0, _⟩ =>
      show k0_off41 L 0 ≤ (j 0).val ∧ (j 0).val < k0_off41 L 0 + 2
      rw [h0]; omega
    | ⟨1, _⟩ =>
      show k0_off41 L 1 ≤ (j 1).val ∧ (j 1).val < k0_off41 L 1 + 128
      rw [h1]
      have : (j 1).val < 128 := (j 1).isLt
      omega

/-! ## The eight accumulators -/

variable [FloatOps F]

/-- Column `16 g + j` of a row: lane `j` of the row's `g`-th group of sixteen columns. -/
def col (g : Fin 8) (j : Fin 16) : Fin 128 := ⟨16 * g.val + j.val, by omega⟩

/-- Accumulator `g` after the first `n` rows of segment `s`: lane `j` holds the accumulated total of column
    `16 g + j` over rows `0 … n - 1`, added one after the other from zero. -/
def accVec (X : S64x4096x128.Idx → F .f32) (s : Fin 64) (g : Fin 8) (n : Nat) : FVec F S16 .f32 :=
  fun j => Cert.Spec.accN (F := F) (Cert.Spec.rowAt (F := F) X s (col g ⟨(j 0).val, (j 0).isLt⟩)) n

/-- Before any row every accumulator is the zero vector the loops start from. -/
theorem accVec_zero (X : S64x4096x128.Idx → F .f32) (s : Fin 64) (g : Fin 8) :
    accVec X s g 0 = broadcast S16 (Scalar.ofBits (F := F) .f32 0x00000000#32) := rfl

/-- A 1 × 16 vector re-laid as 16 lanes reads lane `j` at (0, j). -/
theorem lane_apply {α : Type} (v : S1x16.Idx → α) (j : Fin 16) :
    shapeCast S16 v shapeCasts_S1x16_S16 (ix1 j) = v (ix2 0 j) :=
  shapeCast_apply v shapeCasts_S1x16_S16 _ _ (by
    rw [Shape.rowMajor_val_one, Shape.rowMajor_val_two]
    show 0 * 16 + j.val = j.val
    omega)

/-- One more row: adding to accumulator `g` the sixteen entries of row `n` at its columns gives the accumulator
    after `n + 1` rows. -/
theorem accVec_succ (X : S64x4096x128.Idx → F .f32) (s : Fin 64) (g : Fin 8) (n : Nat) (hn : n < 4096)
    (v : Vec F S1x16 .f32) (hv : ∀ j : Fin 16, v (ix2 0 j) = X (ix3 s ⟨n, hn⟩ (col g j))) :
    addf (accVec X s g n) (shapeCast S16 v shapeCasts_S1x16_S16) = accVec X s g (n + 1) := by
  funext j
  obtain ⟨j, rfl⟩ : ∃ j' : Fin 16, j = ix1 j' := ⟨j 0, eq_ix1 j⟩
  show FloatOps.addf (accVec X s g n (ix1 j)) (shapeCast S16 v shapeCasts_S1x16_S16 (ix1 j)) = _
  rw [lane_apply, hv]
  show _ = FloatOps.addf (Cert.Spec.accN (F := F) (Cert.Spec.rowAt (F := F) X s (col g j)) n)
    (Cert.Spec.rowAt (F := F) X s (col g j) n)
  unfold Cert.Spec.rowAt
  rw [dif_pos hn]
  rfl

/-- One trip of a row loop: the four rows `n … n + 3` added, in row order, to accumulator `g` — the four additions
    of the loop's body — give the accumulator after `n + 4` rows. -/
theorem accVec_step4 (X : S64x4096x128.Idx → F .f32) (s : Fin 64) (g : Fin 8) (n : Nat) (hn : n + 4 ≤ 4096)
    (v0 v1 v2 v3 : Vec F S1x16 .f32)
    (h0 : ∀ j : Fin 16, v0 (ix2 0 j) = X (ix3 s ⟨n, by omega⟩ (col g j)))
    (h1 : ∀ j : Fin 16, v1 (ix2 0 j) = X (ix3 s ⟨n + 1, by omega⟩ (col g j)))
    (h2 : ∀ j : Fin 16, v2 (ix2 0 j) = X (ix3 s ⟨n + 2, by omega⟩ (col g j)))
    (h3 : ∀ j : Fin 16, v3 (ix2 0 j) = X (ix3 s ⟨n + 3, by omega⟩ (col g j))) :
    addf (addf (addf (addf (accVec X s g n) (shapeCast S16 v0 shapeCasts_S1x16_S16)) (shapeCast S16 v1 shapeCasts_S1x16_S16))
        (shapeCast S16 v2 shapeCasts_S1x16_S16)) (shapeCast S16 v3 shapeCasts_S1x16_S16)
      = accVec X s g (n + 4) := by
  rw [accVec_succ X s g n (by omega) v0 h0, accVec_succ X s g (n + 1) (by omega) v1 h1,
    accVec_succ X s g (n + 2) (by omega) v2 h2, accVec_succ X s g (n + 3) (by omega) v3 h3]

/-! ## One trip of a row loop

A trip loads rows 4k … 4k + 3 of its slot, eight 1 × 16 vectors per row, and adds them to the eight accumulators:
accumulator by accumulator, four additions in row order. -/

/-- Four rows added to an accumulator, in row order. -/
def step4 (a : FVec F S16 .f32) (v0 v1 v2 v3 : Vec F S1x16 .f32) : FVec F S16 .f32 :=
  addf (addf (addf (addf a (shapeCast S16 v0 shapeCasts_S1x16_S16)) (shapeCast S16 v1 shapeCasts_S1x16_S16))
    (shapeCast S16 v2 shapeCasts_S1x16_S16)) (shapeCast S16 v3 shapeCasts_S1x16_S16)

/-- Four rows `n … n + 3` of segment `s` added to accumulator `g` after `n` rows: the accumulator after `n + 4`. -/
theorem step4_accVec (X : S64x4096x128.Idx → F .f32) (s : Fin 64) (g : Fin 8) (n : Nat) (hn : n + 4 ≤ 4096)
    (v0 v1 v2 v3 : Vec F S1x16 .f32)
    (h0 : ∀ j : Fin 16, v0 (ix2 0 j) = X (ix3 s ⟨n, by omega⟩ (col g j)))
    (h1 : ∀ j : Fin 16, v1 (ix2 0 j) = X (ix3 s ⟨n + 1, by omega⟩ (col g j)))
    (h2 : ∀ j : Fin 16, v2 (ix2 0 j) = X (ix3 s ⟨n + 2, by omega⟩ (col g j)))
    (h3 : ∀ j : Fin 16, v3 (ix2 0 j) = X (ix3 s ⟨n + 3, by omega⟩ (col g j))) :
    step4 (accVec X s g n) v0 v1 v2 v3 = accVec X s g (n + 4) :=
  accVec_step4 X s g n hn v0 v1 v2 v3 h0 h1 h2 h3

/-! ## The rows a tile stores -/

/-- The segment whose partial means go to row `r` of the tile's two rows: `2 w + r` for worker `w`. -/
def segOf (L : grid0.Coords) (r : Fin 2) : Fin 64 :=
  ⟨2 * Cert.KB.Launch.wid L + r.val, by
    have h0 : (L 0).val < 2 := (L 0).isLt
    have h1 : (L 1).val < 16 := (L 1).isLt
    have := r.isLt
    unfold Cert.KB.Launch.wid
    omega⟩

/-- What the tile's two-row scratch holds at the end: row `r`, column `c` is the specified partial mean of column
    `c` of segment `2 w + r`. -/
def tileVals (X : S64x4096x128.Idx → F .f32) (L : grid0.Coords) : S2x128.Idx → F .f32 :=
  fun y => Cert.Spec.scVal (F := F) X (ix2 (segOf L ⟨(y 0).val, (y 0).isLt⟩) ⟨(y 1).val, (y 1).isLt⟩)

/-- The piece stored for an accumulator: the accumulator times 2⁻⁷, re-laid as 1 × 16. -/
def scaled (a : FVec F S16 .f32) : FVec F S1x16 .f32 :=
  shapeCast S1x16 (mulf a (broadcast S16 (Scalar.ofBits (F := F) .f32 0x3C000000#32))) shapeCasts_S16_S1x16

/-- The piece of accumulator `g` after all 1280 rows of segment `s`, at lane `j`: the specified partial mean of
    column `16 g + j` of the segment. -/
theorem scaled_apply (X : S64x4096x128.Idx → F .f32) (s : Fin 64) (g : Fin 8) (j : Fin 16) :
    scaled (accVec X s g 1280) (ix2 0 j) = Cert.Spec.scVal (F := F) X (ix2 s (col g j)) := by
  unfold scaled
  refine (shapeCast_apply _ shapeCasts_S16_S1x16 (ix2 (0 : Fin 1) j) (ix1 j) (by
    rw [Shape.rowMajor_val_one, Shape.rowMajor_val_two]
    show j.val = 0 * 16 + j.val
    omega)).trans ?_
  rfl

/-- Each stored piece is the block of `tileVals` under its rectangle: row `r`, columns `16 g … 16 g + 15`. -/
theorem piece_tileVals (X : S64x4096x128.Idx → F .f32) (L : grid0.Coords) (r : Fin 2) (g : Fin 8) (off : Fin 2 → Nat)
    (hoff0 : off 0 = r.val) (hoff1 : off 1 = 16 * g.val) (inb : ∀ a, off a + S1x16.size a ≤ S2x128.size a) (x : S1x16.Idx) :
    scaled (accVec X (segOf L r) g 1280) x
      = tileVals X L ((Rect.unit (s := S2x128) off S1x16.size inb).emb x) := by
  obtain ⟨x0, j, rfl⟩ : ∃ (x0 : Fin 1) (j : Fin 16), x = ix2 x0 j := ⟨x 0, x 1, eq_ix2 x⟩
  obtain rfl : x0 = 0 := Subsingleton.elim _ _
  rw [scaled_apply]
  unfold tileVals
  have e0 : ((Rect.unit (s := S2x128) off S1x16.size inb).emb (ix2 0 j) 0).val = r.val := by
    rw [Rect.emb_apply, Rect.off_unit, Rect.stride_unit, hoff0]
    show r.val + 1 * 0 = r.val
    omega
  have e1 : ((Rect.unit (s := S2x128) off S1x16.size inb).emb (ix2 0 j) 1).val = 16 * g.val + j.val := by
    rw [Rect.emb_apply, Rect.off_unit, Rect.stride_unit, hoff1]
    show 16 * g.val + 1 * j.val = 16 * g.val + j.val
    omega
  refine congrArg (Cert.Spec.scVal (F := F) X) (funext fun a => ?_)
  match a with
  | ⟨0, _⟩ => exact congrArg (segOf L) (Fin.ext e0.symm)
  | ⟨1, _⟩ => exact Fin.ext e1.symm

/-- The tile's two result rows at their specified values are `tileVals`: the result's entry under local index `y` of
    the last copy's target. -/
theorem out_tileVals (X : S64x4096x128.Idx → F .f32) (L : grid0.Coords) (y : S2x128.Idx) :
    Cert.Spec.scVal (F := F) X ((Rect.unit (s := S64x128) (k0_off41 L) S2x128.size (k0_off41_inb L)).emb y) = tileVals X L y := by
  unfold tileVals
  have h0 : k0_off41 L 0 = 4 * (L 1).val + 2 * (L 0).val := by rw [k0_off41_eq]; rfl
  have h1 : k0_off41 L 1 = 0 := by rw [k0_off41_eq]; rfl
  refine congrArg (Cert.Spec.scVal (F := F) X) (funext fun a => Fin.ext ?_)
  match a with
  | ⟨0, _⟩ =>
    show ((Rect.unit (s := S64x128) (k0_off41 L) S2x128.size (k0_off41_inb L)).emb y 0).val
      = 2 * Cert.KB.Launch.wid L + (y 0).val
    rw [Rect.emb_apply, Rect.off_unit, Rect.stride_unit, h0]
    unfold Cert.KB.Launch.wid
    omega
  | ⟨1, _⟩ =>
    show ((Rect.unit (s := S64x128) (k0_off41 L) S2x128.size (k0_off41_inb L)).emb y 1).val = (y 1).val
    rw [Rect.emb_apply, Rect.off_unit, Rect.stride_unit, h1]
    omega

end Cert.KB.TileVal

end
-- ==== Proof.KB.TileVal2.lean ====
/-
  What the tile's memory holds, read through the views the body uses.

  A slot after its chunk has landed: the staging scratch's rows 320 k … 320 k + 319 (slot k) hold rows
  base … base + 319 of the chunk's segment, so a 1 × 16 load at scratch row 320 k + u, columns 16 g … 16 g + 15 reads
  row base + u of the segment at those columns.  With that, a trip of a row loop over a landed slot advances the eight
  accumulators by its four rows.

  The two-row scratch after the sixteen stores, and the tile's two result rows after the last copy: both are the
  specified partial means of the tile's two segments.
-/
import proofs.«210774_g2740189135076_cont_9to1_1653_26_alg».proof.Proof.KB.TileVal
import Idealize.ShloMosaic.Lib.Writes
import Idealize.ShloMosaic.Lib.WholeRead

noncomputable section

namespace Cert.KB.TileVal

open Cert.Kernel Cert.Kernel.Gen

open Idealize.ShloMosaic Idealize.ShloMosaic.ValueIdx

variable {F : FTy → Type} [FloatOps F]

/-! ## The memrefs, as the body spells them -/

/-- The two slots of the staging scratch: rows 0 … 319 and rows 320 … 639. -/
abbrev slot0 : Memref sig .scVector .vmem S320x128 .f32 :=
  (Memref.whole cc0_scratch0).slice (Rect.unit (s := S640x128) ![0, 0] S320x128.size inb_S640x128_S320x128_0_0) (fun _ => rfl)
abbrev slot1 : Memref sig .scVector .vmem S320x128 .f32 :=
  (Memref.whole cc0_scratch0).slice (Rect.unit (s := S640x128) ![320, 0] S320x128.size inb_S640x128_S320x128_320_0) (fun _ => rfl)

/-- The 320 rows of the input at offsets `off`, as the copies address them. -/
abbrev chunkAt (off : Fin 3 → Nat) (inb : ∀ a, off a + S1x320x128.size a ≤ S64x4096x128.size a) : Memref sig .scVector .hbm S320x128 .f32 :=
  ((Memref.whole main_v0_scv).slice (Rect.unit (s := S64x4096x128) off S1x320x128.size inb) (fun _ => rfl)).squeeze S320x128 squeezes_S1x320x128_S320x128

/-! ## A landed slot -/

/-- Slot `k` of the staging scratch holds rows `base … base + 319` of segment `seg`. -/
def SlotIs (k : Fin 2) (g : S640x128.Idx → F .f32) (X : S64x4096x128.Idx → F .f32) (seg : Fin 64) (base : Nat)
    (hb : base + 320 ≤ 4096) : Prop :=
  ∀ (u : Fin 320) (c : Fin 128), g (ix2 ⟨320 * k.val + u.val, by have := k.isLt; have := u.isLt; omega⟩ c)
    = X (ix3 seg ⟨base + u.val, by have := u.isLt; omega⟩ c)

/-- A chunk's offsets stay inside the input: a segment, 320 rows, all 128 columns. -/
theorem chunk_bounds (off : Fin 3 → Nat) (inb : ∀ a, off a + S1x320x128.size a ≤ S64x4096x128.size a) :
    off 0 < 64 ∧ off 1 + 320 ≤ 4096 ∧ off 2 = 0 :=
  ⟨by have : off 0 + 1 ≤ 64 := inb 0; omega, inb 1, by have : off 2 + 128 ≤ 128 := inb 2; omega⟩

/-- What a copied chunk reads of the input: entry (u, c) is the input at (off 0, off 1 + u, c). -/
theorem chunk_read (off : Fin 3 → Nat) (inb : ∀ a, off a + S1x320x128.size a ≤ S64x4096x128.size a)
    (X : S64x4096x128.Idx → F .f32) (u : Fin 320) (c : Fin 128) :
    (chunkAt off inb).view.read (Elt F) X (ix2 u c)
      = X (ix3 ⟨off 0, (chunk_bounds off inb).1⟩ ⟨off 1 + u.val, by have := (chunk_bounds off inb).2.1; have := u.isLt; omega⟩ c) := by
  have hc : S1x320x128.ShapeCasts S320x128 := by decide
  refine (congrFun (Memref.read_squeeze_slice (Val := Elt F) (Memref.whole main_v0_scv)
    (Rect.unit (s := S64x4096x128) off S1x320x128.size inb) (fun _ => rfl) squeezes_S1x320x128_S320x128 hc X) (ix2 u c)).trans ?_
  refine (shapeCast_apply _ hc (ix2 u c) (ix3 (0 : Fin 1) u c) (by
    rw [Shape.rowMajor_val_three, Shape.rowMajor_val_two]
    show (0 * 320 + u.val) * 128 + c.val = u.val * 128 + c.val
    omega)).trans ?_
  rw [View.readAt_apply]
  show X _ = X _
  refine congrArg X (funext fun a => Fin.ext ?_)
  have h2 := (chunk_bounds off inb).2.2
  match a with
  | ⟨0, _⟩ => show off 0 + 1 * 0 = off 0; omega
  | ⟨1, _⟩ => show off 1 + 1 * u.val = off 1 + u.val; omega
  | ⟨2, _⟩ => show off 2 + 1 * c.val = c.val; omega

/-- Slot 0 after the chunk at (seg, base, 0) has landed in it holds rows base … base + 319 of segment seg. -/
theorem landed_slot0 (off : Fin 3 → Nat) (inb : ∀ a, off a + S1x320x128.size a ≤ S64x4096x128.size a)
    (f : (slot0).view.ty.Contents (Elt F)) (X : S64x4096x128.Idx → F .f32) (seg : Fin 64) (base : Nat) (hb : base + 320 ≤ 4096)
    (h0 : off 0 = seg.val) (h1 : off 1 = base) :
    SlotIs 0 ((slot0).view.writes (Elt F) f [⟨Rect.whole S320x128, ReadAs.same.apply ((chunkAt off inb).view.read (Elt F) X)⟩])
      X seg base hb := by
  intro u c
  have e := View.read_writes_cons_emb (slot0).view f (Rect.whole S320x128)
    (ReadAs.same.apply ((chunkAt off inb).view.read (Elt F) X)) [] (ix2 u c)
  rw [Rect.emb_whole_apply, View.read_apply] at e
  refine Eq.trans (congrArg _ (funext fun a => Fin.ext ?_)) (e.trans ((chunk_read off inb X u c).trans (congrArg X ?_)))
  · match a with
    | ⟨0, _⟩ => show 320 * 0 + u.val = 0 + 1 * u.val; omega
    | ⟨1, _⟩ => show c.val = 0 + 1 * c.val; omega
  · funext a
    match a with
    | ⟨0, _⟩ => exact Fin.ext h0
    | ⟨1, _⟩ => exact Fin.ext (by show off 1 + u.val = base + u.val; omega)
    | ⟨2, _⟩ => rfl

/-- Slot 1 after the chunk at (seg, base, 0) has landed in it holds rows base … base + 319 of segment seg. -/
theorem landed_slot1 (off : Fin 3 → Nat) (inb : ∀ a, off a + S1x320x128.size a ≤ S64x4096x128.size a)
    (f : (slot1).view.ty.Contents (Elt F)) (X : S64x4096x128.Idx → F .f32) (seg : Fin 64) (base : Nat) (hb : base + 320 ≤ 4096)
    (h0 : off 0 = seg.val) (h1 : off 1 = base) :
    SlotIs 1 ((slot1).view.writes (Elt F) f [⟨Rect.whole S320x128, ReadAs.same.apply ((chunkAt off inb).view.read (Elt F) X)⟩])
      X seg base hb := by
  intro u c
  have e := View.read_writes_cons_emb (slot1).view f (Rect.whole S320x128)
    (ReadAs.same.apply ((chunkAt off inb).view.read (Elt F) X)) [] (ix2 u c)
  rw [Rect.emb_whole_apply, View.read_apply] at e
  refine Eq.trans (congrArg _ (funext fun a => Fin.ext ?_)) (e.trans ((chunk_read off inb X u c).trans (congrArg X ?_)))
  · match a with
    | ⟨0, _⟩ => show 320 * 1 + u.val = 320 + 1 * u.val; omega
    | ⟨1, _⟩ => show c.val = 0 + 1 * c.val; omega
  · funext a
    match a with
    | ⟨0, _⟩ => exact Fin.ext h0
    | ⟨1, _⟩ => exact Fin.ext (by show off 1 + u.val = base + u.val; omega)
    | ⟨2, _⟩ => rfl

/-- A 1 × 16 load from a landed slot at scratch row 320 k + u, columns 16 g … 16 g + 15, reads row base + u of the
    segment at those columns. -/
theorem load_of_SlotIs {k : Fin 2} {g : S640x128.Idx → F .f32} {X : S64x4096x128.Idx → F .f32} {seg : Fin 64} {base : Nat}
    {hb : base + 320 ≤ 4096} (hS : SlotIs k g X seg base hb)
    (o : Fin 2 → Nat) (inbo : ∀ a, o a + S1x16.size a ≤ S640x128.size a) (u : Nat) (hu : u < 320) (grp : Fin 8)
    (ho0 : o 0 = 320 * k.val + u) (ho1 : o 1 = 16 * grp.val) (j : Fin 16) :
    View.readAt (Elt F) (Memref.whole cc0_scratch0).view (Rect.unit (s := S640x128) o S1x16.size inbo).toLoadRect g (ix2 0 j)
      = X (ix3 seg ⟨base + u, by omega⟩ (col grp j)) := by
  rw [View.readAt_apply]
  refine Eq.trans ?_ (hS ⟨u, hu⟩ (col grp j))
  show g _ = g _
  refine congrArg g (funext fun a => Fin.ext ?_)
  match a with
  | ⟨0, _⟩ => show o 0 + 1 * 0 = 320 * k.val + u; omega
  | ⟨1, _⟩ => show o 1 + 1 * j.val = 16 * grp.val + j.val; omega

/-- The same for the load of row `4 t + r` of slot `k` whose offsets are known in closed form `![c0, c1]`. -/
theorem load_row {k : Fin 2} {g : S640x128.Idx → F .f32} {X : S64x4096x128.Idx → F .f32} {seg : Fin 64} {base : Nat}
    {hb : base + 320 ≤ 4096} (hS : SlotIs k g X seg base hb)
    (o : Fin 2 → Nat) (inbo : ∀ a, o a + S1x16.size a ≤ S640x128.size a) (c0 c1 : Nat) (heq : o = ![c0, c1])
    (t : Nat) (r : Fin 4) (grp : Fin 8) (ht : 4 * t + r.val < 320)
    (h0 : c0 = 320 * k.val + (4 * t + r.val)) (h1 : c1 = 16 * grp.val) (j : Fin 16) :
    View.readAt (Elt F) (Memref.whole cc0_scratch0).view (Rect.unit (s := S640x128) o S1x16.size inbo).toLoadRect g (ix2 0 j)
      = X (ix3 seg ⟨base + 4 * t + r.val, by omega⟩ (col grp j)) := by
  refine (load_of_SlotIs hS o inbo (4 * t + r.val) ht grp (by rw [heq]; exact h0) (by rw [heq]; exact h1) j).trans
    (congrArg X (funext fun a => ?_))
  match a with
  | ⟨0, _⟩ => rfl
  | ⟨1, _⟩ => exact Fin.ext (by show base + (4 * t + r.val) = base + 4 * t + r.val; omega)
  | ⟨2, _⟩ => rfl

/-! ## The stored rows, read back -/

section Pieces

variable {sig' : RefSig} {κ : Kind} {sp : Space} {s : Shape} {e : EltTy} {Val : EltTy → Type}

/-- Stores whose payloads are all blocks of one function read back as that function at every element some store
    covers, whatever their order. -/
theorem read_writes_of_pieces (v : View sig' κ sp s e) (f : v.ty.Contents Val) (G : s.Idx → Val e) :
    ∀ (P : List (View.Piece Val s e)), (∀ p ∈ P, ∀ x : p.1.shape.Idx, p.2 x = G (p.1.emb x)) →
      ∀ y : s.Idx, (∃ p ∈ P, y ∈ p.1.set) → v.read Val (v.writes Val f P) y = G y
  | [], _, _, hy => by obtain ⟨p, hp, _⟩ := hy; exact absurd hp List.not_mem_nil
  | p :: P, hP, y, hy => by
    by_cases hm : y ∈ p.1.set
    · obtain ⟨x, rfl⟩ := p.1.exists_idx_of_mem hm
      rw [show p.1.idx x = p.1.emb x from rfl]
      exact (View.read_writes_cons_emb v f p.1 p.2 P x).trans (hP p List.mem_cons_self x)
    · rw [View.writes_cons, View.read_slice_write_of_not_mem p.1 _ _ _ (by rwa [Rect.map_emb_univ])]
      refine read_writes_of_pieces v f G P (fun q hq => hP q (List.mem_cons_of_mem _ hq)) y ?_
      obtain ⟨q, hq, hyq⟩ := hy
      rcases List.mem_cons.mp hq with rfl | hq'
      · exact absurd hyq hm
      · exact ⟨q, hq', hyq⟩

end Pieces

/-- Every entry of the two-row scratch lies under the store of its row and its group of sixteen columns. -/
theorem cover_rows (y : S2x128.Idx) :
    ∃ (r : Fin 2) (g : Fin 8), ∀ (off : Fin 2 → Nat) (inb : ∀ a, off a + S1x16.size a ≤ S2x128.size a),
      off 0 = r.val → off 1 = 16 * g.val → y ∈ (Rect.unit (s := S2x128) off S1x16.size inb).set := by
  have hy0 : (y 0).val < 2 := (y 0).isLt
  have hy1 : (y 1).val < 128 := (y 1).isLt
  refine ⟨⟨(y 0).val, hy0⟩, ⟨(y 1).val / 16, by omega⟩, fun off inb h0 h1 => ?_⟩
  have h0' : off 0 = (y 0).val := h0
  have h1' : off 1 = 16 * ((y 1).val / 16) := h1
  rw [Rect.mem_set_unit]
  intro a
  match a with
  | ⟨0, _⟩ => show off 0 ≤ (y 0).val ∧ (y 0).val < off 0 + 1; omega
  | ⟨1, _⟩ => show off 1 ≤ (y 1).val ∧ (y 1).val < off 1 + 16; omega

set_option maxHeartbeats 1600000 in
/-- The two-row scratch after the sixteen stores, newest first as the body makes them (segment 1's groups 7 … 0, then
    segment 0's groups 7 … 0), each store the scaled accumulator of its segment and group after all 1280 rows: it
    reads back as the specified partial means of the tile's two segments. -/
theorem scratch_read (X : S64x4096x128.Idx → F .f32) (L : grid0.Coords) (fv : (Memref.whole cc0_scratch1).view.ty.Contents (Elt F))
    (p00 p01 p02 p03 p04 p05 p06 p07 p10 p11 p12 p13 p14 p15 p16 p17 : FVec F S1x16 .f32)
    (h00 : p00 = scaled (accVec X (segOf L 0) 0 1280)) (h01 : p01 = scaled (accVec X (segOf L 0) 1 1280))
    (h02 : p02 = scaled (accVec X (segOf L 0) 2 1280)) (h03 : p03 = scaled (accVec X (segOf L 0) 3 1280))
    (h04 : p04 = scaled (accVec X (segOf L 0) 4 1280)) (h05 : p05 = scaled (accVec X (segOf L 0) 5 1280))
    (h06 : p06 = scaled (accVec X (segOf L 0) 6 1280)) (h07 : p07 = scaled (accVec X (segOf L 0) 7 1280))
    (h10 : p10 = scaled (accVec X (segOf L 1) 0 1280)) (h11 : p11 = scaled (accVec X (segOf L 1) 1 1280))
    (h12 : p12 = scaled (accVec X (segOf L 1) 2 1280)) (h13 : p13 = scaled (accVec X (segOf L 1) 3 1280))
    (h14 : p14 = scaled (accVec X (segOf L 1) 4 1280)) (h15 : p15 = scaled (accVec X (segOf L 1) 5 1280))
    (h16 : p16 = scaled (accVec X (segOf L 1) 6 1280)) (h17 : p17 = scaled (accVec X (segOf L 1) 7 1280)) :
    (Memref.whole cc0_scratch1).view.read (Elt F) ((Memref.whole cc0_scratch1).view.writes (Elt F) fv
      [⟨Rect.unit (s := S2x128) ![1, 112] S1x16.size inb_S2x128_S1x16_1_112, p17⟩,
       ⟨Rect.unit (s := S2x128) ![1, 96] S1x16.size inb_S2x128_S1x16_1_96, p16⟩,
       ⟨Rect.unit (s := S2x128) ![1, 80] S1x16.size inb_S2x128_S1x16_1_80, p15⟩,
       ⟨Rect.unit (s := S2x128) ![1, 64] S1x16.size inb_S2x128_S1x16_1_64, p14⟩,
       ⟨Rect.unit (s := S2x128) ![1, 48] S1x16.size inb_S2x128_S1x16_1_48, p13⟩,
       ⟨Rect.unit (s := S2x128) ![1, 32] S1x16.size inb_S2x128_S1x16_1_32, p12⟩,
       ⟨Rect.unit (s := S2x128) ![1, 16] S1x16.size inb_S2x128_S1x16_1_16, p11⟩,
       ⟨Rect.unit (s := S2x128) ![1, 0] S1x16.size inb_S2x128_S1x16_1_0, p10⟩,
       ⟨Rect.unit (s := S2x128) ![0, 112] S1x16.size inb_S2x128_S1x16_0_112, p07⟩,
       ⟨Rect.unit (s := S2x128) ![0, 96] S1x16.size inb_S2x128_S1x16_0_96, p06⟩,
       ⟨Rect.unit (s := S2x128) ![0, 80] S1x16.size inb_S2x128_S1x16_0_80, p05⟩,
       ⟨Rect.unit (s := S2x128) ![0, 64] S1x16.size inb_S2x128_S1x16_0_64, p04⟩,
       ⟨Rect.unit (s := S2x128) ![0, 48] S1x16.size inb_S2x128_S1x16_0_48, p03⟩,
       ⟨Rect.unit (s := S2x128) ![0, 32] S1x16.size inb_S2x128_S1x16_0_32, p02⟩,
       ⟨Rect.unit (s := S2x128) ![0, 16] S1x16.size inb_S2x128_S1x16_0_16, p01⟩,
       ⟨Rect.unit (s := S2x128) ![0, 0] S1x16.size inb_S2x128_S1x16_0_0, p00⟩])
      = tileVals X L := by
  subst h00 h01 h02 h03 h04 h05 h06 h07 h10 h11 h12 h13 h14 h15 h16 h17
  funext y
  generalize hP : ([⟨Rect.unit (s := S2x128) ![1, 112] S1x16.size inb_S2x128_S1x16_1_112, scaled (accVec X (segOf L 1) 7 1280)⟩,
       ⟨Rect.unit (s := S2x128) ![1, 96] S1x16.size inb_S2x128_S1x16_1_96, scaled (accVec X (segOf L 1) 6 1280)⟩,
       ⟨Rect.unit (s := S2x128) ![1, 80] S1x16.size inb_S2x128_S1x16_1_80, scaled (accVec X (segOf L 1) 5 1280)⟩,
       ⟨Rect.unit (s := S2x128) ![1, 64] S1x16.size inb_S2x128_S1x16_1_64, scaled (accVec X (segOf L 1) 4 1280)⟩,
       ⟨Rect.unit (s := S2x128) ![1, 48] S1x16.size inb_S2x128_S1x16_1_48, scaled (accVec X (segOf L 1) 3 1280)⟩,
       ⟨Rect.unit (s := S2x128) ![1, 32] S1x16.size inb_S2x128_S1x16_1_32, scaled (accVec X (segOf L 1) 2 1280)⟩,
       ⟨Rect.unit (s := S2x128) ![1, 16] S1x16.size inb_S2x128_S1x16_1_16, scaled (accVec X (segOf L 1) 1 1280)⟩,
       ⟨Rect.unit (s := S2x128) ![1, 0] S1x16.size inb_S2x128_S1x16_1_0, scaled (accVec X (segOf L 1) 0 1280)⟩,
       ⟨Rect.unit (s := S2x128) ![0, 112] S1x16.size inb_S2x128_S1x16_0_112, scaled (accVec X (segOf L 0) 7 1280)⟩,
       ⟨Rect.unit (s := S2x128) ![0, 96] S1x16.size inb_S2x128_S1x16_0_96, scaled (accVec X (segOf L 0) 6 1280)⟩,
       ⟨Rect.unit (s := S2x128) ![0, 80] S1x16.size inb_S2x128_S1x16_0_80, scaled (accVec X (segOf L 0) 5 1280)⟩,
       ⟨Rect.unit (s := S2x128) ![0, 64] S1x16.size inb_S2x128_S1x16_0_64, scaled (accVec X (segOf L 0) 4 1280)⟩,
       ⟨Rect.unit (s := S2x128) ![0, 48] S1x16.size inb_S2x128_S1x16_0_48, scaled (accVec X (segOf L 0) 3 1280)⟩,
       ⟨Rect.unit (s := S2x128) ![0, 32] S1x16.size inb_S2x128_S1x16_0_32, scaled (accVec X (segOf L 0) 2 1280)⟩,
       ⟨Rect.unit (s := S2x128) ![0, 16] S1x16.size inb_S2x128_S1x16_0_16, scaled (accVec X (segOf L 0) 1 1280)⟩,
       ⟨Rect.unit (s := S2x128) ![0, 0] S1x16.size inb_S2x128_S1x16_0_0, scaled (accVec X (segOf L 0) 0 1280)⟩]
      : List (View.Piece (Elt F) S2x128 .f32)) = P
  refine read_writes_of_pieces _ fv (tileVals X L) P ?_ y ?_
  · intro p hp x
    rw [← hP] at hp
    simp only [List.mem_cons, List.not_mem_nil, or_false] at hp
    rcases hp with rfl | rfl | rfl | rfl | rfl | rfl | rfl | rfl | rfl | rfl | rfl | rfl | rfl | rfl | rfl | rfl
    · exact piece_tileVals X L 1 7 ![1, 112] rfl rfl inb_S2x128_S1x16_1_112 x
    · exact piece_tileVals X L 1 6 ![1, 96] rfl rfl inb_S2x128_S1x16_1_96 x
    · exact piece_tileVals X L 1 5 ![1, 80] rfl rfl inb_S2x128_S1x16_1_80 x
    · exact piece_tileVals X L 1 4 ![1, 64] rfl rfl inb_S2x128_S1x16_1_64 x
    · exact piece_tileVals X L 1 3 ![1, 48] rfl rfl inb_S2x128_S1x16_1_48 x
    · exact piece_tileVals X L 1 2 ![1, 32] rfl rfl inb_S2x128_S1x16_1_32 x
    · exact piece_tileVals X L 1 1 ![1, 16] rfl rfl inb_S2x128_S1x16_1_16 x
    · exact piece_tileVals X L 1 0 ![1, 0] rfl rfl inb_S2x128_S1x16_1_0 x
    · exact piece_tileVals X L 0 7 ![0, 112] rfl rfl inb_S2x128_S1x16_0_112 x
    · exact piece_tileVals X L 0 6 ![0, 96] rfl rfl inb_S2x128_S1x16_0_96 x
    · exact piece_tileVals X L 0 5 ![0, 80] rfl rfl inb_S2x128_S1x16_0_80 x
    · exact piece_tileVals X L 0 4 ![0, 64] rfl rfl inb_S2x128_S1x16_0_64 x
    · exact piece_tileVals X L 0 3 ![0, 48] rfl rfl inb_S2x128_S1x16_0_48 x
    · exact piece_tileVals X L 0 2 ![0, 32] rfl rfl inb_S2x128_S1x16_0_32 x
    · exact piece_tileVals X L 0 1 ![0, 16] rfl rfl inb_S2x128_S1x16_0_16 x
    · exact piece_tileVals X L 0 0 ![0, 0] rfl rfl inb_S2x128_S1x16_0_0 x
  · obtain ⟨r, g, hmem⟩ := cover_rows y
    have hi : (1 - r.val) * 8 + (7 - g.val) < P.length := by
      rw [← hP]
      have := r.isLt
      have := g.isLt
      show _ < 16
      omega
    refine ⟨P[(1 - r.val) * 8 + (7 - g.val)]'hi, List.getElem_mem _, ?_⟩
    subst hP
    fin_cases r <;> fin_cases g <;> exact hmem _ (by decide) rfl rfl

/-- The tile's two result rows after the last copy has written the scratch's contents into them hold the specified
    values: on those rows the result's buffer is the SparseCore part of the specification. -/
theorem out_written (X : S64x4096x128.Idx → F .f32) (L : grid0.Coords) (fo : (outRows L).view.ty.Contents (Elt F))
    (i : S64x128.Idx) (hi : i ∈ (outRows L).view.set) :
    (outRows L).view.writes (Elt F) fo [⟨Rect.whole S2x128, ReadAs.same.apply (tileVals X L)⟩] i = Cert.Spec.scVal (F := F) X i := by
  obtain ⟨y, -, rfl⟩ := Finset.mem_map.mp hi
  have e := View.read_writes_cons_emb (outRows L).view fo (Rect.whole S2x128) (ReadAs.same.apply (tileVals X L)) [] y
  rw [Rect.emb_whole_apply, View.read_apply] at e
  exact e.trans (out_tileVals X L y).symm

end Cert.KB.TileVal

end
-- ==== Proof.KB.TileVRows.lean ====
/-
  The tile's row loops with the accumulators' values: one trip of a row loop over a slot that holds 320 rows of a
  segment advances each of the eight accumulators by the trip's four rows.
-/
import proofs.«210774_g2740189135076_cont_9to1_1653_26_alg».proof.Proof.KB.TileRows
import proofs.«210774_g2740189135076_cont_9to1_1653_26_alg».proof.Proof.KB.TileTrips
import proofs.«210774_g2740189135076_cont_9to1_1653_26_alg».proof.Proof.KB.TileVal2

noncomputable section

namespace Cert.KB.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.Kernel.main_v0_scv : Memref Cert.Kernel.sig Kind.scVector Space.hbm Cert.Kernel.S64x4096x128 EltTy.f32)
local notation "oW" => (Memref.whole Cert.Kernel.main_v1_scv : Memref Cert.Kernel.sig Kind.scVector Space.hbm Cert.Kernel.S64x128 EltTy.f32)
local notation "bW" => (Memref.whole Cert.Kernel.cc0_scratch0 : Memref Cert.Kernel.sig Kind.scVector Space.vmem Cert.Kernel.S640x128 EltTy.f32)
local notation "vW" => (Memref.whole Cert.Kernel.cc0_scratch1 : Memref Cert.Kernel.sig Kind.scVector Space.vmem Cert.Kernel.S2x128 EltTy.f32)

section Vals

variable [FloatOps F]

open Idealize.ShloMosaic.ValueIdx

/-- The eight accumulators of segment `s` after `n` rows. -/
def accTup (X : S64x4096x128.Idx → F .f32) (s : Fin 64) (n : Nat) : FVec F S16 .f32 × FVec F S16 .f32 × FVec F S16 .f32 × FVec F S16 .f32 × FVec F S16 .f32 × FVec F S16 .f32 × FVec F S16 .f32 × FVec F S16 .f32 :=
  (TileVal.accVec X s 0 n, TileVal.accVec X s 1 n, TileVal.accVec X s 2 n, TileVal.accVec X s 3 n,
    TileVal.accVec X s 4 n, TileVal.accVec X s 5 n, TileVal.accVec X s 6 n, TileVal.accVec X s 7 n)

theorem tup8_ext {α : Type} {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6) (h7 : a7 = b7) :
    (a0, a1, a2, a3, a4, a5, a6, a7) = (b0, b1, b2, b3, b4, b5, b6, b7) := by
  subst h0 h1 h2 h3 h4 h5 h6 h7; rfl

/-- A 1 × 16 load of row `4 t + r` of a landed slot, columns of group `grp`, reads row `base + 4 t + r` of the segment. -/
theorem ld {k : Fin 2} {g : S640x128.Idx → F .f32} {X : S64x4096x128.Idx → F .f32} {seg : Fin 64} {base : Nat}
    {hb : base + 320 ≤ 4096} (hS : TileVal.SlotIs k g X seg base hb)
    (o : Fin 2 → Nat) (inbo : ∀ a, o a + S1x16.size a ≤ S640x128.size a) (t r : Nat) (ht : t < 80) (hr : r < 4) (grp : Fin 8)
    (ho0 : o 0 = 320 * k.val + (4 * t + r)) (ho1 : o 1 = 16 * grp.val) (j : Fin 16) :
    View.readAt (Elt F) (Memref.whole cc0_scratch0).view (Rect.unit (s := S640x128) o S1x16.size inbo).toLoadRect g (ix2 0 j)
      = X (ix3 seg ⟨base + 4 * t + r, by omega⟩ (TileVal.col grp j)) :=
  (TileVal.load_of_SlotIs hS o inbo (4 * t + r) (by omega) grp ho0 ho1 j).trans
    (congrArg (fun i => X (ix3 seg i (TileVal.col grp j))) (Fin.ext (by show base + (4 * t + r) = base + 4 * t + r; omega)))

theorem off4_0 (k : Fin k0_t2_loop.trips) (r : Fin 4) : k0_off4 k (BitVec.ofNat 32 r.val) 0 = 320 * (0 : Fin 2).val + (4 * k.val + r.val) := by
  rw [k0_off4_eq]; show 4 * k.val + r.val = 320 * 0 + (4 * k.val + r.val); omega
theorem off4_1 (k : Fin k0_t2_loop.trips) (r : Fin 4) : k0_off4 k (BitVec.ofNat 32 r.val) 1 = 16 * (0 : Fin 8).val := by
  rw [k0_off4_eq]; rfl
theorem off5_0 (k : Fin k0_t2_loop.trips) (r : Fin 4) : k0_off5 k (BitVec.ofNat 32 r.val) 0 = 320 * (0 : Fin 2).val + (4 * k.val + r.val) := by
  rw [k0_off5_eq]; show 4 * k.val + r.val = 320 * 0 + (4 * k.val + r.val); omega
theorem off5_1 (k : Fin k0_t2_loop.trips) (r : Fin 4) : k0_off5 k (BitVec.ofNat 32 r.val) 1 = 16 * (1 : Fin 8).val := by
  rw [k0_off5_eq]; rfl
theorem off6_0 (k : Fin k0_t2_loop.trips) (r : Fin 4) : k0_off6 k (BitVec.ofNat 32 r.val) 0 = 320 * (0 : Fin 2).val + (4 * k.val + r.val) := by
  rw [k0_off6_eq]; show 4 * k.val + r.val = 320 * 0 + (4 * k.val + r.val); omega
theorem off6_1 (k : Fin k0_t2_loop.trips) (r : Fin 4) : k0_off6 k (BitVec.ofNat 32 r.val) 1 = 16 * (2 : Fin 8).val := by
  rw [k0_off6_eq]; rfl
theorem off7_0 (k : Fin k0_t2_loop.trips) (r : Fin 4) : k0_off7 k (BitVec.ofNat 32 r.val) 0 = 320 * (0 : Fin 2).val + (4 * k.val + r.val) := by
  rw [k0_off7_eq]; show 4 * k.val + r.val = 320 * 0 + (4 * k.val + r.val); omega
theorem off7_1 (k : Fin k0_t2_loop.trips) (r : Fin 4) : k0_off7 k (BitVec.ofNat 32 r.val) 1 = 16 * (3 : Fin 8).val := by
  rw [k0_off7_eq]; rfl
theorem off8_0 (k : Fin k0_t2_loop.trips) (r : Fin 4) : k0_off8 k (BitVec.ofNat 32 r.val) 0 = 320 * (0 : Fin 2).val + (4 * k.val + r.val) := by
  rw [k0_off8_eq]; show 4 * k.val + r.val = 320 * 0 + (4 * k.val + r.val); omega
theorem off8_1 (k : Fin k0_t2_loop.trips) (r : Fin 4) : k0_off8 k (BitVec.ofNat 32 r.val) 1 = 16 * (4 : Fin 8).val := by
  rw [k0_off8_eq]; rfl
theorem off9_0 (k : Fin k0_t2_loop.trips) (r : Fin 4) : k0_off9 k (BitVec.ofNat 32 r.val) 0 = 320 * (0 : Fin 2).val + (4 * k.val + r.val) := by
  rw [k0_off9_eq]; show 4 * k.val + r.val = 320 * 0 + (4 * k.val + r.val); omega
theorem off9_1 (k : Fin k0_t2_loop.trips) (r : Fin 4) : k0_off9 k (BitVec.ofNat 32 r.val) 1 = 16 * (5 : Fin 8).val := by
  rw [k0_off9_eq]; rfl
theorem off10_0 (k : Fin k0_t2_loop.trips) (r : Fin 4) : k0_off10 k (BitVec.ofNat 32 r.val) 0 = 320 * (0 : Fin 2).val + (4 * k.val + r.val) := by
  rw [k0_off10_eq]; show 4 * k.val + r.val = 320 * 0 + (4 * k.val + r.val); omega
theorem off10_1 (k : Fin k0_t2_loop.trips) (r : Fin 4) : k0_off10 k (BitVec.ofNat 32 r.val) 1 = 16 * (6 : Fin 8).val := by
  rw [k0_off10_eq]; rfl
theorem off11_0 (k : Fin k0_t2_loop.trips) (r : Fin 4) : k0_off11 k (BitVec.ofNat 32 r.val) 0 = 320 * (0 : Fin 2).val + (4 * k.val + r.val) := by
  rw [k0_off11_eq]; show 4 * k.val + r.val = 320 * 0 + (4 * k.val + r.val); omega
theorem off11_1 (k : Fin k0_t2_loop.trips) (r : Fin 4) : k0_off11 k (BitVec.ofNat 32 r.val) 1 = 16 * (7 : Fin 8).val := by
  rw [k0_off11_eq]; rfl
theorem off13_0 (k : Fin k0_t3_loop.trips) (r : Fin 4) : k0_off13 k (BitVec.ofNat 32 r.val) 0 = 320 * (1 : Fin 2).val + (4 * k.val + r.val) := by
  rw [k0_off13_eq]; show 4 * k.val + r.val + 320 = 320 * 1 + (4 * k.val + r.val); omega
theorem off13_1 (k : Fin k0_t3_loop.trips) (r : Fin 4) : k0_off13 k (BitVec.ofNat 32 r.val) 1 = 16 * (0 : Fin 8).val := by
  rw [k0_off13_eq]; rfl
theorem off14_0 (k : Fin k0_t3_loop.trips) (r : Fin 4) : k0_off14 k (BitVec.ofNat 32 r.val) 0 = 320 * (1 : Fin 2).val + (4 * k.val + r.val) := by
  rw [k0_off14_eq]; show 4 * k.val + r.val + 320 = 320 * 1 + (4 * k.val + r.val); omega
theorem off14_1 (k : Fin k0_t3_loop.trips) (r : Fin 4) : k0_off14 k (BitVec.ofNat 32 r.val) 1 = 16 * (1 : Fin 8).val := by
  rw [k0_off14_eq]; rfl
theorem off15_0 (k : Fin k0_t3_loop.trips) (r : Fin 4) : k0_off15 k (BitVec.ofNat 32 r.val) 0 = 320 * (1 : Fin 2).val + (4 * k.val + r.val) := by
  rw [k0_off15_eq]; show 4 * k.val + r.val + 320 = 320 * 1 + (4 * k.val + r.val); omega
theorem off15_1 (k : Fin k0_t3_loop.trips) (r : Fin 4) : k0_off15 k (BitVec.ofNat 32 r.val) 1 = 16 * (2 : Fin 8).val := by
  rw [k0_off15_eq]; rfl
theorem off16_0 (k : Fin k0_t3_loop.trips) (r : Fin 4) : k0_off16 k (BitVec.ofNat 32 r.val) 0 = 320 * (1 : Fin 2).val + (4 * k.val + r.val) := by
  rw [k0_off16_eq]; show 4 * k.val + r.val + 320 = 320 * 1 + (4 * k.val + r.val); omega
theorem off16_1 (k : Fin k0_t3_loop.trips) (r : Fin 4) : k0_off16 k (BitVec.ofNat 32 r.val) 1 = 16 * (3 : Fin 8).val := by
  rw [k0_off16_eq]; rfl
theorem off17_0 (k : Fin k0_t3_loop.trips) (r : Fin 4) : k0_off17 k (BitVec.ofNat 32 r.val) 0 = 320 * (1 : Fin 2).val + (4 * k.val + r.val) := by
  rw [k0_off17_eq]; show 4 * k.val + r.val + 320 = 320 * 1 + (4 * k.val + r.val); omega
theorem off17_1 (k : Fin k0_t3_loop.trips) (r : Fin 4) : k0_off17 k (BitVec.ofNat 32 r.val) 1 = 16 * (4 : Fin 8).val := by
  rw [k0_off17_eq]; rfl
theorem off18_0 (k : Fin k0_t3_loop.trips) (r : Fin 4) : k0_off18 k (BitVec.ofNat 32 r.val) 0 = 320 * (1 : Fin 2).val + (4 * k.val + r.val) := by
  rw [k0_off18_eq]; show 4 * k.val + r.val + 320 = 320 * 1 + (4 * k.val + r.val); omega
theorem off18_1 (k : Fin k0_t3_loop.trips) (r : Fin 4) : k0_off18 k (BitVec.ofNat 32 r.val) 1 = 16 * (5 : Fin 8).val := by
  rw [k0_off18_eq]; rfl
theorem off19_0 (k : Fin k0_t3_loop.trips) (r : Fin 4) : k0_off19 k (BitVec.ofNat 32 r.val) 0 = 320 * (1 : Fin 2).val + (4 * k.val + r.val) := by
  rw [k0_off19_eq]; show 4 * k.val + r.val + 320 = 320 * 1 + (4 * k.val + r.val); omega
theorem off19_1 (k : Fin k0_t3_loop.trips) (r : Fin 4) : k0_off19 k (BitVec.ofNat 32 r.val) 1 = 16 * (6 : Fin 8).val := by
  rw [k0_off19_eq]; rfl
theorem off20_0 (k : Fin k0_t3_loop.trips) (r : Fin 4) : k0_off20 k (BitVec.ofNat 32 r.val) 0 = 320 * (1 : Fin 2).val + (4 * k.val + r.val) := by
  rw [k0_off20_eq]; show 4 * k.val + r.val + 320 = 320 * 1 + (4 * k.val + r.val); omega
theorem off20_1 (k : Fin k0_t3_loop.trips) (r : Fin 4) : k0_off20 k (BitVec.ofNat 32 r.val) 1 = 16 * (7 : Fin 8).val := by
  rw [k0_off20_eq]; rfl
theorem off23_0 (k : Fin k0_t5_loop.trips) (r : Fin 4) : k0_off23 k (BitVec.ofNat 32 r.val) 0 = 320 * (0 : Fin 2).val + (4 * k.val + r.val) := by
  rw [k0_off23_eq]; show 4 * k.val + r.val = 320 * 0 + (4 * k.val + r.val); omega
theorem off23_1 (k : Fin k0_t5_loop.trips) (r : Fin 4) : k0_off23 k (BitVec.ofNat 32 r.val) 1 = 16 * (0 : Fin 8).val := by
  rw [k0_off23_eq]; rfl
theorem off24_0 (k : Fin k0_t5_loop.trips) (r : Fin 4) : k0_off24 k (BitVec.ofNat 32 r.val) 0 = 320 * (0 : Fin 2).val + (4 * k.val + r.val) := by
  rw [k0_off24_eq]; show 4 * k.val + r.val = 320 * 0 + (4 * k.val + r.val); omega
theorem off24_1 (k : Fin k0_t5_loop.trips) (r : Fin 4) : k0_off24 k (BitVec.ofNat 32 r.val) 1 = 16 * (1 : Fin 8).val := by
  rw [k0_off24_eq]; rfl
theorem off25_0 (k : Fin k0_t5_loop.trips) (r : Fin 4) : k0_off25 k (BitVec.ofNat 32 r.val) 0 = 320 * (0 : Fin 2).val + (4 * k.val + r.val) := by
  rw [k0_off25_eq]; show 4 * k.val + r.val = 320 * 0 + (4 * k.val + r.val); omega
theorem off25_1 (k : Fin k0_t5_loop.trips) (r : Fin 4) : k0_off25 k (BitVec.ofNat 32 r.val) 1 = 16 * (2 : Fin 8).val := by
  rw [k0_off25_eq]; rfl
theorem off26_0 (k : Fin k0_t5_loop.trips) (r : Fin 4) : k0_off26 k (BitVec.ofNat 32 r.val) 0 = 320 * (0 : Fin 2).val + (4 * k.val + r.val) := by
  rw [k0_off26_eq]; show 4 * k.val + r.val = 320 * 0 + (4 * k.val + r.val); omega
theorem off26_1 (k : Fin k0_t5_loop.trips) (r : Fin 4) : k0_off26 k (BitVec.ofNat 32 r.val) 1 = 16 * (3 : Fin 8).val := by
  rw [k0_off26_eq]; rfl
theorem off27_0 (k : Fin k0_t5_loop.trips) (r : Fin 4) : k0_off27 k (BitVec.ofNat 32 r.val) 0 = 320 * (0 : Fin 2).val + (4 * k.val + r.val) := by
  rw [k0_off27_eq]; show 4 * k.val + r.val = 320 * 0 + (4 * k.val + r.val); omega
theorem off27_1 (k : Fin k0_t5_loop.trips) (r : Fin 4) : k0_off27 k (BitVec.ofNat 32 r.val) 1 = 16 * (4 : Fin 8).val := by
  rw [k0_off27_eq]; rfl
theorem off28_0 (k : Fin k0_t5_loop.trips) (r : Fin 4) : k0_off28 k (BitVec.ofNat 32 r.val) 0 = 320 * (0 : Fin 2).val + (4 * k.val + r.val) := by
  rw [k0_off28_eq]; show 4 * k.val + r.val = 320 * 0 + (4 * k.val + r.val); omega
theorem off28_1 (k : Fin k0_t5_loop.trips) (r : Fin 4) : k0_off28 k (BitVec.ofNat 32 r.val) 1 = 16 * (5 : Fin 8).val := by
  rw [k0_off28_eq]; rfl
theorem off29_0 (k : Fin k0_t5_loop.trips) (r : Fin 4) : k0_off29 k (BitVec.ofNat 32 r.val) 0 = 320 * (0 : Fin 2).val + (4 * k.val + r.val) := by
  rw [k0_off29_eq]; show 4 * k.val + r.val = 320 * 0 + (4 * k.val + r.val); omega
theorem off29_1 (k : Fin k0_t5_loop.trips) (r : Fin 4) : k0_off29 k (BitVec.ofNat 32 r.val) 1 = 16 * (6 : Fin 8).val := by
  rw [k0_off29_eq]; rfl
theorem off30_0 (k : Fin k0_t5_loop.trips) (r : Fin 4) : k0_off30 k (BitVec.ofNat 32 r.val) 0 = 320 * (0 : Fin 2).val + (4 * k.val + r.val) := by
  rw [k0_off30_eq]; show 4 * k.val + r.val = 320 * 0 + (4 * k.val + r.val); omega
theorem off30_1 (k : Fin k0_t5_loop.trips) (r : Fin 4) : k0_off30 k (BitVec.ofNat 32 r.val) 1 = 16 * (7 : Fin 8).val := by
  rw [k0_off30_eq]; rfl
theorem off32_0 (k : Fin k0_t6_loop.trips) (r : Fin 4) : k0_off32 k (BitVec.ofNat 32 r.val) 0 = 320 * (1 : Fin 2).val + (4 * k.val + r.val) := by
  rw [k0_off32_eq]; show 4 * k.val + r.val + 320 = 320 * 1 + (4 * k.val + r.val); omega
theorem off32_1 (k : Fin k0_t6_loop.trips) (r : Fin 4) : k0_off32 k (BitVec.ofNat 32 r.val) 1 = 16 * (0 : Fin 8).val := by
  rw [k0_off32_eq]; rfl
theorem off33_0 (k : Fin k0_t6_loop.trips) (r : Fin 4) : k0_off33 k (BitVec.ofNat 32 r.val) 0 = 320 * (1 : Fin 2).val + (4 * k.val + r.val) := by
  rw [k0_off33_eq]; show 4 * k.val + r.val + 320 = 320 * 1 + (4 * k.val + r.val); omega
theorem off33_1 (k : Fin k0_t6_loop.trips) (r : Fin 4) : k0_off33 k (BitVec.ofNat 32 r.val) 1 = 16 * (1 : Fin 8).val := by
  rw [k0_off33_eq]; rfl
theorem off34_0 (k : Fin k0_t6_loop.trips) (r : Fin 4) : k0_off34 k (BitVec.ofNat 32 r.val) 0 = 320 * (1 : Fin 2).val + (4 * k.val + r.val) := by
  rw [k0_off34_eq]; show 4 * k.val + r.val + 320 = 320 * 1 + (4 * k.val + r.val); omega
theorem off34_1 (k : Fin k0_t6_loop.trips) (r : Fin 4) : k0_off34 k (BitVec.ofNat 32 r.val) 1 = 16 * (2 : Fin 8).val := by
  rw [k0_off34_eq]; rfl
theorem off35_0 (k : Fin k0_t6_loop.trips) (r : Fin 4) : k0_off35 k (BitVec.ofNat 32 r.val) 0 = 320 * (1 : Fin 2).val + (4 * k.val + r.val) := by
  rw [k0_off35_eq]; show 4 * k.val + r.val + 320 = 320 * 1 + (4 * k.val + r.val); omega
theorem off35_1 (k : Fin k0_t6_loop.trips) (r : Fin 4) : k0_off35 k (BitVec.ofNat 32 r.val) 1 = 16 * (3 : Fin 8).val := by
  rw [k0_off35_eq]; rfl
theorem off36_0 (k : Fin k0_t6_loop.trips) (r : Fin 4) : k0_off36 k (BitVec.ofNat 32 r.val) 0 = 320 * (1 : Fin 2).val + (4 * k.val + r.val) := by
  rw [k0_off36_eq]; show 4 * k.val + r.val + 320 = 320 * 1 + (4 * k.val + r.val); omega
theorem off36_1 (k : Fin k0_t6_loop.trips) (r : Fin 4) : k0_off36 k (BitVec.ofNat 32 r.val) 1 = 16 * (4 : Fin 8).val := by
  rw [k0_off36_eq]; rfl
theorem off37_0 (k : Fin k0_t6_loop.trips) (r : Fin 4) : k0_off37 k (BitVec.ofNat 32 r.val) 0 = 320 * (1 : Fin 2).val + (4 * k.val + r.val) := by
  rw [k0_off37_eq]; show 4 * k.val + r.val + 320 = 320 * 1 + (4 * k.val + r.val); omega
theorem off37_1 (k : Fin k0_t6_loop.trips) (r : Fin 4) : k0_off37 k (BitVec.ofNat 32 r.val) 1 = 16 * (5 : Fin 8).val := by
  rw [k0_off37_eq]; rfl
theorem off38_0 (k : Fin k0_t6_loop.trips) (r : Fin 4) : k0_off38 k (BitVec.ofNat 32 r.val) 0 = 320 * (1 : Fin 2).val + (4 * k.val + r.val) := by
  rw [k0_off38_eq]; show 4 * k.val + r.val + 320 = 320 * 1 + (4 * k.val + r.val); omega
theorem off38_1 (k : Fin k0_t6_loop.trips) (r : Fin 4) : k0_off38 k (BitVec.ofNat 32 r.val) 1 = 16 * (6 : Fin 8).val := by
  rw [k0_off38_eq]; rfl
theorem off39_0 (k : Fin k0_t6_loop.trips) (r : Fin 4) : k0_off39 k (BitVec.ofNat 32 r.val) 0 = 320 * (1 : Fin 2).val + (4 * k.val + r.val) := by
  rw [k0_off39_eq]; show 4 * k.val + r.val + 320 = 320 * 1 + (4 * k.val + r.val); omega
theorem off39_1 (k : Fin k0_t6_loop.trips) (r : Fin 4) : k0_off39 k (BitVec.ofNat 32 r.val) 1 = 16 * (7 : Fin 8).val := by
  rw [k0_off39_eq]; rfl

end Vals

section RowsV

variable [FloatOps F]
variable (d : Dev nD) (L : grid0.Coords)

/-- Before trip `t` of a row loop over slot 0, which holds rows `base … base + 319` of segment `s`: the
    accumulators have taken the segment's first `base + 4 t` rows. -/
def invRows0 (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) : sProp 𝕄 :=
  iprop(⌜acc = accTup X s (base + 4 * t)⌝ ∗ ∃ g : S640x128.Idx → F .f32, ⌜TileVal.SlotIs 0 g X s base hb⌝
    ∗ (slot0).view.loc (thrOf d L) ↦[(slot0).view.set]{fullShare} g)

theorem invRows0_def (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) :
    invRows0 (U := U) d L X s base hb t acc
      = iprop(⌜acc = accTup X s (base + 4 * t)⌝ ∗ ∃ g : S640x128.Idx → F .f32, ⌜TileVal.SlotIs 0 g X s base hb⌝
        ∗ (slot0).view.loc (thrOf d L) ↦[(slot0).view.set]{fullShare} g) := rfl

/-- Before trip `t` of a row loop over slot 1, which holds rows `base … base + 319` of segment `s`: the
    accumulators have taken the segment's first `base + 4 t` rows. -/
def invRows1 (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) : sProp 𝕄 :=
  iprop(⌜acc = accTup X s (base + 4 * t)⌝ ∗ ∃ g : S640x128.Idx → F .f32, ⌜TileVal.SlotIs 1 g X s base hb⌝
    ∗ (slot1).view.loc (thrOf d L) ↦[(slot1).view.set]{fullShare} g)

theorem invRows1_def (X : S64x4096x128.Idx → F .f32) (s : Fin 64) (base : Nat)
    (hb : base + 320 ≤ 4096) (t : Nat) (acc : FVec F S16 .f32 × FVec F S16 .f32 × FVec F S16 .f32 × FVec F S16 .f32 × FVec F S16 .f32 × FVec F S16 .f32 × FVec F S16 .f32 × FVec F S16 .f32) :
    invRows1 (U := U) d L X s base hb t acc
      = iprop(⌜acc = accTup X s (base + 4 * t)⌝ ∗ ∃ g : S640x128.Idx → F .f32, ⌜TileVal.SlotIs 1 g X s base hb⌝
        ∗ (slot1).view.loc (thrOf d L) ↦[(slot1).view.set]{fullShare} g) := rfl

set_option maxHeartbeats 1600000 in
/-- One trip of a row loop, with the accumulators' values. -/
theorem rowsV_s0_a (X : S64x4096x128.Idx → F .f32) (s : Fin 64) (base : Nat) (hb : base + 320 ≤ 4096)
    (c0 c1 : BitVec 32) (p : Fin k0_t1_loop.trips)
    (a9 a10 a11 a12 a13 a14 a15 a16 : FVec F S16 .f32) (k : Fin k0_t2_loop.trips) (acc : FVec F S16 .f32 × FVec F S16 .f32 × FVec F S16 .f32 × FVec F S16 .f32 × FVec F S16 .f32 × FVec F S16 .f32 × FVec F S16 .f32 × FVec F S16 .f32) :
    invRows0 (U := U) d L X s base hb k.val acc
      ⊢ wp frame (wpE (defs₀ (F := F)) 𝒱₀ (thrOf d L) none) Set.univ
          (k0_t2_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows0 (U := U) d L X s base hb (k.val + 1)) := by
  obtain ⟨b18, b19, b20, b21, b22, b23, b24, b25⟩ := acc
  unfold k0_t2_body
  simp only [k0_part1_eq_skeleton, k0_part2_eq_skeleton, k0_part3_eq_skeleton]
  unfold k0_part1_skel k0_part2_skel k0_part3_skel
  unfold invRows0
  iintro ⟨%hacc, %g, %hg, Hb⟩
  have hk80 : k.val < 80 := lt_of_lt_of_le k.isLt k0_t2_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t2 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off4 k (BitVec.ofNat 32 0)) S1x16.size (k0_off4_inb k ⟨0, by decide⟩)).toLoadRect g)
      (View.readAt (Elt F) (Memref.whole cc0_scratch0).view (Rect.unit (s := S640x128) (k0_off5 k (BitVec.ofNat 32 0)) S1x16.size (k0_off5_inb k ⟨0, by decide⟩)).toLoadRect g)
      (View.readAt (Elt F) (Memref.whole cc0_scratch0).view (Rect.unit (s := S640x128) (k0_off6 k (BitVec.ofNat 32 0)) S1x16.size (k0_off6_inb k ⟨0, by decide⟩)).toLoadRect g)
      (View.readAt (Elt F) (Memref.whole cc0_scratch0).view (Rect.unit (s := S640x128) (k0_off7 k (BitVec.ofNat 32 0)) S1x16.size (k0_off7_inb k ⟨0, by decide⟩)).toLoadRect g)
      (View.readAt (Elt F) (Memref.whole cc0_scratch0).view (Rect.unit (s := S640x128) (k0_off8 k (BitVec.ofNat 32 0)) S1x16.size (k0_off8_inb k ⟨0, by decide⟩)).toLoadRect g)
      (View.readAt (Elt F) (Memref.whole cc0_scratch0).view (Rect.unit (s := S640x128) (k0_off9 k (BitVec.ofNat 32 0)) S1x16.size (k0_off9_inb k ⟨0, by decide⟩)).toLoadRect g)
      (View.readAt (Elt F) (Memref.whole cc0_scratch0).view (Rect.unit (s := S640x128) (k0_off10 k (BitVec.ofNat 32 0)) S1x16.size (k0_off10_inb k ⟨0, by decide⟩)).toLoadRect g)
      (View.readAt (Elt F) (Memref.whole cc0_scratch0).view (Rect.unit (s := S640x128) (k0_off11 k (BitVec.ofNat 32 0)) S1x16.size (k0_off11_inb k ⟨0, by decide⟩)).toLoadRect g)
      (View.readAt (Elt F) (Memref.whole cc0_scratch0).view (Rect.unit (s := S640x128) (k0_off4 k (BitVec.ofNat 32 1)) S1x16.size (k0_off4_inb k ⟨1, by decide⟩)).toLoadRect g)
      (View.readAt (Elt F) (Memref.whole cc0_scratch0).view (Rect.unit (s := S640x128) (k0_off5 k (BitVec.ofNat 32 1)) S1x16.size (k0_off5_inb k ⟨1, by decide⟩)).toLoadRect g)
      (View.readAt (Elt F) (Memref.whole cc0_scratch0).view (Rect.unit (s := S640x128) (k0_off6 k (BitVec.ofNat 32 1)) S1x16.size (k0_off6_inb k ⟨1, by decide⟩)).toLoadRect g)
      (View.readAt (Elt F) (Memref.whole cc0_scratch0).view (Rect.unit (s := S640x128) (k0_off7 k (BitVec.ofNat 32 1)) S1x16.size (k0_off7_inb k ⟨1, by decide⟩)).toLoadRect g)
      (View.readAt (Elt F) (Memref.whole cc0_scratch0).view (Rect.unit (s := S640x128) (k0_off8 k (BitVec.ofNat 32 1)) S1x16.size (k0_off8_inb k ⟨1, by decide⟩)).toLoadRect g)
      (View.readAt (Elt F) (Memref.whole cc0_scratch0).view (Rect.unit (s := S640x128) (k0_off9 k (BitVec.ofNat 32 1)) S1x16.size (k0_off9_inb k ⟨1, by decide⟩)).toLoadRect g)
      (View.readAt (Elt F) (Memref.whole cc0_scratch0).view (Rect.unit (s := S640x128) (k0_off10 k (BitVec.ofNat 32 1)) S1x16.size (k0_off10_inb k ⟨1, by decide⟩)).toLoadRect g)
      (View.readAt (Elt F) (Memref.whole cc0_scratch0).view (Rect.unit (s := S640x128) (k0_off11 k (BitVec.ofNat 32 1)) S1x16.size (k0_off11_inb k ⟨1, by decide⟩)).toLoadRect g)
      (View.readAt (Elt F) (Memref.whole cc0_scratch0).view (Rect.unit (s := S640x128) (k0_off4 k (BitVec.ofNat 32 2)) S1x16.size (k0_off4_inb k ⟨2, by decide⟩)).toLoadRect g)
      (View.readAt (Elt F) (Memref.whole cc0_scratch0).view (Rect.unit (s := S640x128) (k0_off5 k (BitVec.ofNat 32 2)) S1x16.size (k0_off5_inb k ⟨2, by decide⟩)).toLoadRect g)
      (View.readAt (Elt F) (Memref.whole cc0_scratch0).view (Rect.unit (s := S640x128) (k0_off6 k (BitVec.ofNat 32 2)) S1x16.size (k0_off6_inb k ⟨2, by decide⟩)).toLoadRect g)
      (View.readAt (Elt F) (Memref.whole cc0_scratch0).view (Rect.unit (s := S640x128) (k0_off7 k (BitVec.ofNat 32 2)) S1x16.size (k0_off7_inb k ⟨2, by decide⟩)).toLoadRect g)
      (View.readAt (Elt F) (Memref.whole cc0_scratch0).view (Rect.unit (s := S640x128) (k0_off8 k (BitVec.ofNat 32 2)) S1x16.size (k0_off8_inb k ⟨2, by decide⟩)).toLoadRect g)
      (View.readAt (Elt F) (Memref.whole cc0_scratch0).view (Rect.unit (s := S640x128) (k0_off9 k (BitVec.ofNat 32 2)) S1x16.size (k0_off9_inb k ⟨2, by decide⟩)).toLoadRect g)
      (View.readAt (Elt F) (Memref.whole cc0_scratch0).view (Rect.unit (s := S640x128) (k0_off10 k (BitVec.ofNat 32 2)) S1x16.size (k0_off10_inb k ⟨2, by decide⟩)).toLoadRect g)
      (View.readAt (Elt F) (Memref.whole cc0_scratch0).view (Rect.unit (s := S640x128) (k0_off11 k (BitVec.ofNat 32 2)) S1x16.size (k0_off11_inb k ⟨2, by decide⟩)).toLoadRect g)
      (View.readAt (Elt F) (Memref.whole cc0_scratch0).view (Rect.unit (s := S640x128) (k0_off4 k (BitVec.ofNat 32 3)) S1x16.size (k0_off4_inb k ⟨3, by decide⟩)).toLoadRect g)
      (View.readAt (Elt F) (Memref.whole cc0_scratch0).view (Rect.unit (s := S640x128) (k0_off5 k (BitVec.ofNat 32 3)) S1x16.size (k0_off5_inb k ⟨3, by decide⟩)).toLoadRect g)
      (View.readAt (Elt F) (Memref.whole cc0_scratch0).view (Rect.unit (s := S640x128) (k0_off6 k (BitVec.ofNat 32 3)) S1x16.size (k0_off6_inb k ⟨3, by decide⟩)).toLoadRect g)
      (View.readAt (Elt F) (Memref.whole cc0_scratch0).view (Rect.unit (s := S640x128) (k0_off7 k (BitVec.ofNat 32 3)) S1x16.size (k0_off7_inb k ⟨3, by decide⟩)).toLoadRect g)
      (View.readAt (Elt F) (Memref.whole cc0_scratch0).view (Rect.unit (s := S640x128) (k0_off8 k (BitVec.ofNat 32 3)) S1x16.size (k0_off8_inb k ⟨3, by decide⟩)).toLoadRect g)
      (View.readAt (Elt F) (Memref.whole cc0_scratch0).view (Rect.unit (s := S640x128) (k0_off9 k (BitVec.ofNat 32 3)) S1x16.size (k0_off9_inb k ⟨3, by decide⟩)).toLoadRect g)
      (View.readAt (Elt F) (Memref.whole cc0_scratch0).view (Rect.unit (s := S640x128) (k0_off10 k (BitVec.ofNat 32 3)) S1x16.size (k0_off10_inb k ⟨3, by decide⟩)).toLoadRect g)
      (View.readAt (Elt F) (Memref.whole cc0_scratch0).view (Rect.unit (s := S640x128) (k0_off11 k (BitVec.ofNat 32 3)) S1x16.size (k0_off11_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off4_inb k ⟨0, by decide⟩) k.val 0 hk80 (by decide) 0 (off4_0 k ⟨0, by decide⟩) (off4_1 k ⟨0, by decide⟩) j) (fun j => ld hg _ (k0_off4_inb k ⟨1, by decide⟩) k.val 1 hk80 (by decide) 0 (off4_0 k ⟨1, by decide⟩) (off4_1 k ⟨1, by decide⟩) j) (fun j => ld hg _ (k0_off4_inb k ⟨2, by decide⟩) k.val 2 hk80 (by decide) 0 (off4_0 k ⟨2, by decide⟩) (off4_1 k ⟨2, by decide⟩) j) (fun j => ld hg _ (k0_off4_inb k ⟨3, by decide⟩) k.val 3 hk80 (by decide) 0 (off4_0 k ⟨3, by decide⟩) (off4_1 k ⟨3, by decide⟩) j))
      (TileVal.step4_accVec X s 1 (base + 4 * k.val) (by omega) _ _ _ _ (fun j => ld hg _ (k0_off5_inb k ⟨0, by decide⟩) k.val 0 hk80 (by decide) 1 (off5_0 k ⟨0, by decide⟩) (off5_1 k ⟨0, by decide⟩) j) (fun j => ld hg _ (k0_off5_inb k ⟨1, by decide⟩) k.val 1 hk80 (by decide) 1 (off5_0 k ⟨1, by decide⟩) (off5_1 k ⟨1, by decide⟩) j) (fun j => ld hg _ (k0_off5_inb k ⟨2, by decide⟩) k.val 2 hk80 (by decide) 1 (off5_0 k ⟨2, by decide⟩) (off5_1 k ⟨2, by decide⟩) j) (fun j => ld hg _ (k0_off5_inb k ⟨3, by decide⟩) k.val 3 hk80 (by decide) 1 (off5_0 k ⟨3, by decide⟩) (off5_1 k ⟨3, by decide⟩) j))
      (TileVal.step4_accVec X s 2 (base + 4 * k.val) (by omega) _ _ _ _ (fun j => ld hg _ (k0_off6_inb k ⟨0, by decide⟩) k.val 0 hk80 (by decide) 2 (off6_0 k ⟨0, by decide⟩) (off6_1 k ⟨0, by decide⟩) j) (fun j => ld hg _ (k0_off6_inb k ⟨1, by decide⟩) k.val 1 hk80 (by decide) 2 (off6_0 k ⟨1, by decide⟩) (off6_1 k ⟨1, by decide⟩) j) (fun j => ld hg _ (k0_off6_inb k ⟨2, by decide⟩) k.val 2 hk80 (by decide) 2 (off6_0 k ⟨2, by decide⟩) (off6_1 k ⟨2, by decide⟩) j) (fun j => ld hg _ (k0_off6_inb k ⟨3, by decide⟩) k.val 3 hk80 (by decide) 2 (off6_0 k ⟨3, by decide⟩) (off6_1 k ⟨3, by decide⟩) j))
      (TileVal.step4_accVec X s 3 (base + 4 * k.val) (by omega) _ _ _ _ (fun j => ld hg _ (k0_off7_inb k ⟨0, by decide⟩) k.val 0 hk80 (by decide) 3 (off7_0 k ⟨0, by decide⟩) (off7_1 k ⟨0, by decide⟩) j) (fun j => ld hg _ (k0_off7_inb k ⟨1, by decide⟩) k.val 1 hk80 (by decide) 3 (off7_0 k ⟨1, by decide⟩) (off7_1 k ⟨1, by decide⟩) j) (fun j => ld hg _ (k0_off7_inb k ⟨2, by decide⟩) k.val 2 hk80 (by decide) 3 (off7_0 k ⟨2, by decide⟩) (off7_1 k ⟨2, by decide⟩) j) (fun j => ld hg _ (k0_off7_inb k ⟨3, by decide⟩) k.val 3 hk80 (by decide) 3 (off7_0 k ⟨3, by decide⟩) (off7_1 k ⟨3, by decide⟩) j))
      (TileVal.step4_accVec X s 4 (base + 4 * k.val) (by omega) _ _ _ _ (fun j => ld hg _ (k0_off8_inb k ⟨0, by decide⟩) k.val 0 hk80 (by decide) 4 (off8_0 k ⟨0, by decide⟩) (off8_1 k ⟨0, by decide⟩) j) (fun j => ld hg _ (k0_off8_inb k ⟨1, by decide⟩) k.val 1 hk80 (by decide) 4 (off8_0 k ⟨1, by decide⟩) (off8_1 k ⟨1, by decide⟩) j) (fun j => ld hg _ (k0_off8_inb k ⟨2, by decide⟩) k.val 2 hk80 (by decide) 4 (off8_0 k ⟨2, by decide⟩) (off8_1 k ⟨2, by decide⟩) j) (fun j => ld hg _ (k0_off8_inb k ⟨3, by decide⟩) k.val 3 hk80 (by decide) 4 (off8_0 k ⟨3, by decide⟩) (off8_1 k ⟨3, by decide⟩) j))
      (TileVal.step4_accVec X s 5 (base + 4 * k.val) (by omega) _ _ _ _ (fun j => ld hg _ (k0_off9_inb k ⟨0, by decide⟩) k.val 0 hk80 (by decide) 5 (off9_0 k ⟨0, by decide⟩) (off9_1 k ⟨0, by decide⟩) j) (fun j => ld hg _ (k0_off9_inb k ⟨1, by decide⟩) k.val 1 hk80 (by decide) 5 (off9_0 k ⟨1, by decide⟩) (off9_1 k ⟨1, by decide⟩) j) (fun j => ld hg _ (k0_off9_inb k ⟨2, by decide⟩) k.val 2 hk80 (by decide) 5 (off9_0 k ⟨2, by decide⟩) (off9_1 k ⟨2, by decide⟩) j) (fun j => ld hg _ (k0_off9_inb k ⟨3, by decide⟩) k.val 3 hk80 (by decide) 5 (off9_0 k ⟨3, by decide⟩) (off9_1 k ⟨3, by decide⟩) j))
      (TileVal.step4_accVec X s 6 (base + 4 * k.val) (by omega) _ _ _ _ (fun j => ld hg _ (k0_off10_inb k ⟨0, by decide⟩) k.val 0 hk80 (by decide) 6 (off10_0 k ⟨0, by decide⟩) (off10_1 k ⟨0, by decide⟩) j) (fun j => ld hg _ (k0_off10_inb k ⟨1, by decide⟩) k.val 1 hk80 (by decide) 6 (off10_0 k ⟨1, by decide⟩) (off10_1 k ⟨1, by decide⟩) j) (fun j => ld hg _ (k0_off10_inb k ⟨2, by decide⟩) k.val 2 hk80 (by decide) 6 (off10_0 k ⟨2, by decide⟩) (off10_1 k ⟨2, by decide⟩) j) (fun j => ld hg _ (k0_off10_inb k ⟨3, by decide⟩) k.val 3 hk80 (by decide) 6 (off10_0 k ⟨3, by decide⟩) (off10_1 k ⟨3, by decide⟩) j))
      (TileVal.step4_accVec X s 7 (base + 4 * k.val) (by omega) _ _ _ _ (fun j => ld hg _ (k0_off11_inb k ⟨0, by decide⟩) k.val 0 hk80 (by decide) 7 (off11_0 k ⟨0, by decide⟩) (off11_1 k ⟨0, by decide⟩) j) (fun j => ld hg _ (k0_off11_inb k ⟨1, by decide⟩) k.val 1 hk80 (by decide) 7 (off11_0 k ⟨1, by decide⟩) (off11_1 k ⟨1, by decide⟩) j) (fun j => ld hg _ (k0_off11_inb k ⟨2, by decide⟩) k.val 2 hk80 (by decide) 7 (off11_0 k ⟨2, by decide⟩) (off11_1 k ⟨2, by decide⟩) j) (fun j => ld hg _ (k0_off11_inb k ⟨3, by decide⟩) k.val 3 hk80 (by decide) 7 (off11_0 k ⟨3, by decide⟩) (off11_1 k ⟨3, by decide⟩) j))
  · iexists g; isplitr; · ipureintro; exact hg
    iexact Hb

set_option maxHeartbeats 1600000 in
/-- One trip of a row loop, with the accumulators' values. -/
theorem rowsV_s0_b (X : S64x4096x128.Idx → F .f32) (s : Fin 64) (base : Nat) (hb : base + 320 ≤ 4096)
    (c0 c1 : BitVec 32) (p : Fin k0_t1_loop.trips)
    (a9 a10 a11 a12 a13 a14 a15 a16 : FVec F S16 .f32) (k : Fin k0_t3_loop.trips) (acc : FVec F S16 .f32 × FVec F S16 .f32 × FVec F S16 .f32 × FVec F S16 .f32 × FVec F S16 .f32 × FVec F S16 .f32 × FVec F S16 .f32 × FVec F S16 .f32) :
    invRows1 (U := U) d L X s base hb k.val acc
      ⊢ wp frame (wpE (defs₀ (F := F)) 𝒱₀ (thrOf d L) none) Set.univ
          (k0_t3_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows1 (U := U) d L X s base hb (k.val + 1)) := by
  obtain ⟨b18, b19, b20, b21, b22, b23, b24, b25⟩ := acc
  unfold k0_t3_body
  simp only [k0_part4_eq_skeleton, k0_part5_eq_skeleton, k0_part6_eq_skeleton]
  unfold k0_part4_skel k0_part5_skel k0_part6_skel
  unfold invRows1
  iintro ⟨%hacc, %g, %hg, Hb⟩
  have hk80 : k.val < 80 := lt_of_lt_of_le k.isLt k0_t3_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t3 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off13 k (BitVec.ofNat 32 0)) S1x16.size (k0_off13_inb k ⟨0, by decide⟩)).toLoadRect g)
      (View.readAt (Elt F) (Memref.whole cc0_scratch0).view (Rect.unit (s := S640x128) (k0_off14 k (BitVec.ofNat 32 0)) S1x16.size (k0_off14_inb k ⟨0, by decide⟩)).toLoadRect g)
      (View.readAt (Elt F) (Memref.whole cc0_scratch0).view (Rect.unit (s := S640x128) (k0_off15 k (BitVec.ofNat 32 0)) S1x16.size (k0_off15_inb k ⟨0, by decide⟩)).toLoadRect g)
      (View.readAt (Elt F) (Memref.whole cc0_scratch0).view (Rect.unit (s := S640x128) (k0_off16 k (BitVec.ofNat 32 0)) S1x16.size (k0_off16_inb k ⟨0, by decide⟩)).toLoadRect g)
      (View.readAt (Elt F) (Memref.whole cc0_scratch0).view (Rect.unit (s := S640x128) (k0_off17 k (BitVec.ofNat 32 0)) S1x16.size (k0_off17_inb k ⟨0, by decide⟩)).toLoadRect g)
      (View.readAt (Elt F) (Memref.whole cc0_scratch0).view (Rect.unit (s := S640x128) (k0_off18 k (BitVec.ofNat 32 0)) S1x16.size (k0_off18_inb k ⟨0, by decide⟩)).toLoadRect g)
      (View.readAt (Elt F) (Memref.whole cc0_scratch0).view (Rect.unit (s := S640x128) (k0_off19 k (BitVec.ofNat 32 0)) S1x16.size (k0_off19_inb k ⟨0, by decide⟩)).toLoadRect g)
      (View.readAt (Elt F) (Memref.whole cc0_scratch0).view (Rect.unit (s := S640x128) (k0_off20 k (BitVec.ofNat 32 0)) S1x16.size (k0_off20_inb k ⟨0, by decide⟩)).toLoadRect g)
      (View.readAt (Elt F) (Memref.whole cc0_scratch0).view (Rect.unit (s := S640x128) (k0_off13 k (BitVec.ofNat 32 1)) S1x16.size (k0_off13_inb k ⟨1, by decide⟩)).toLoadRect g)
      (View.readAt (Elt F) (Memref.whole cc0_scratch0).view (Rect.unit (s := S640x128) (k0_off14 k (BitVec.ofNat 32 1)) S1x16.size (k0_off14_inb k ⟨1, by decide⟩)).toLoadRect g)
      (View.readAt (Elt F) (Memref.whole cc0_scratch0).view (Rect.unit (s := S640x128) (k0_off15 k (BitVec.ofNat 32 1)) S1x16.size (k0_off15_inb k ⟨1, by decide⟩)).toLoadRect g)
      (View.readAt (Elt F) (Memref.whole cc0_scratch0).view (Rect.unit (s := S640x128) (k0_off16 k (BitVec.ofNat 32 1)) S1x16.size (k0_off16_inb k ⟨1, by decide⟩)).toLoadRect g)
      (View.readAt (Elt F) (Memref.whole cc0_scratch0).view (Rect.unit (s := S640x128) (k0_off17 k (BitVec.ofNat 32 1)) S1x16.size (k0_off17_inb k ⟨1, by decide⟩)).toLoadRect g)
      (View.readAt (Elt F) (Memref.whole cc0_scratch0).view (Rect.unit (s := S640x128) (k0_off18 k (BitVec.ofNat 32 1)) S1x16.size (k0_off18_inb k ⟨1, by decide⟩)).toLoadRect g)
      (View.readAt (Elt F) (Memref.whole cc0_scratch0).view (Rect.unit (s := S640x128) (k0_off19 k (BitVec.ofNat 32 1)) S1x16.size (k0_off19_inb k ⟨1, by decide⟩)).toLoadRect g)
      (View.readAt (Elt F) (Memref.whole cc0_scratch0).view (Rect.unit (s := S640x128) (k0_off20 k (BitVec.ofNat 32 1)) S1x16.size (k0_off20_inb k ⟨1, by decide⟩)).toLoadRect g)
      (View.readAt (Elt F) (Memref.whole cc0_scratch0).view (Rect.unit (s := S640x128) (k0_off13 k (BitVec.ofNat 32 2)) S1x16.size (k0_off13_inb k ⟨2, by decide⟩)).toLoadRect g)
      (View.readAt (Elt F) (Memref.whole cc0_scratch0).view (Rect.unit (s := S640x128) (k0_off14 k (BitVec.ofNat 32 2)) S1x16.size (k0_off14_inb k ⟨2, by decide⟩)).toLoadRect g)
      (View.readAt (Elt F) (Memref.whole cc0_scratch0).view (Rect.unit (s := S640x128) (k0_off15 k (BitVec.ofNat 32 2)) S1x16.size (k0_off15_inb k ⟨2, by decide⟩)).toLoadRect g)
      (View.readAt (Elt F) (Memref.whole cc0_scratch0).view (Rect.unit (s := S640x128) (k0_off16 k (BitVec.ofNat 32 2)) S1x16.size (k0_off16_inb k ⟨2, by decide⟩)).toLoadRect g)
      (View.readAt (Elt F) (Memref.whole cc0_scratch0).view (Rect.unit (s := S640x128) (k0_off17 k (BitVec.ofNat 32 2)) S1x16.size (k0_off17_inb k ⟨2, by decide⟩)).toLoadRect g)
      (View.readAt (Elt F) (Memref.whole cc0_scratch0).view (Rect.unit (s := S640x128) (k0_off18 k (BitVec.ofNat 32 2)) S1x16.size (k0_off18_inb k ⟨2, by decide⟩)).toLoadRect g)
      (View.readAt (Elt F) (Memref.whole cc0_scratch0).view (Rect.unit (s := S640x128) (k0_off19 k (BitVec.ofNat 32 2)) S1x16.size (k0_off19_inb k ⟨2, by decide⟩)).toLoadRect g)
      (View.readAt (Elt F) (Memref.whole cc0_scratch0).view (Rect.unit (s := S640x128) (k0_off20 k (BitVec.ofNat 32 2)) S1x16.size (k0_off20_inb k ⟨2, by decide⟩)).toLoadRect g)
      (View.readAt (Elt F) (Memref.whole cc0_scratch0).view (Rect.unit (s := S640x128) (k0_off13 k (BitVec.ofNat 32 3)) S1x16.size (k0_off13_inb k ⟨3, by decide⟩)).toLoadRect g)
      (View.readAt (Elt F) (Memref.whole cc0_scratch0).view (Rect.unit (s := S640x128) (k0_off14 k (BitVec.ofNat 32 3)) S1x16.size (k0_off14_inb k ⟨3, by decide⟩)).toLoadRect g)
      (View.readAt (Elt F) (Memref.whole cc0_scratch0).view (Rect.unit (s := S640x128) (k0_off15 k (BitVec.ofNat 32 3)) S1x16.size (k0_off15_inb k ⟨3, by decide⟩)).toLoadRect g)
      (View.readAt (Elt F) (Memref.whole cc0_scratch0).view (Rect.unit (s := S640x128) (k0_off16 k (BitVec.ofNat 32 3)) S1x16.size (k0_off16_inb k ⟨3, by decide⟩)).toLoadRect g)
      (View.readAt (Elt F) (Memref.whole cc0_scratch0).view (Rect.unit (s := S640x128) (k0_off17 k (BitVec.ofNat 32 3)) S1x16.size (k0_off17_inb k ⟨3, by decide⟩)).toLoadRect g)
      (View.readAt (Elt F) (Memref.whole cc0_scratch0).view (Rect.unit (s := S640x128) (k0_off18 k (BitVec.ofNat 32 3)) S1x16.size (k0_off18_inb k ⟨3, by decide⟩)).toLoadRect g)
      (View.readAt (Elt F) (Memref.whole cc0_scratch0).view (Rect.unit (s := S640x128) (k0_off19 k (BitVec.ofNat 32 3)) S1x16.size (k0_off19_inb k ⟨3, by decide⟩)).toLoadRect g)
      (View.readAt (Elt F) (Memref.whole cc0_scratch0).view (Rect.unit (s := S640x128) (k0_off20 k (BitVec.ofNat 32 3)) S1x16.size (k0_off20_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off13_inb k ⟨0, by decide⟩) k.val 0 hk80 (by decide) 0 (off13_0 k ⟨0, by decide⟩) (off13_1 k ⟨0, by decide⟩) j) (fun j => ld hg _ (k0_off13_inb k ⟨1, by decide⟩) k.val 1 hk80 (by decide) 0 (off13_0 k ⟨1, by decide⟩) (off13_1 k ⟨1, by decide⟩) j) (fun j => ld hg _ (k0_off13_inb k ⟨2, by decide⟩) k.val 2 hk80 (by decide) 0 (off13_0 k ⟨2, by decide⟩) (off13_1 k ⟨2, by decide⟩) j) (fun j => ld hg _ (k0_off13_inb k ⟨3, by decide⟩) k.val 3 hk80 (by decide) 0 (off13_0 k ⟨3, by decide⟩) (off13_1 k ⟨3, by decide⟩) j))
      (TileVal.step4_accVec X s 1 (base + 4 * k.val) (by omega) _ _ _ _ (fun j => ld hg _ (k0_off14_inb k ⟨0, by decide⟩) k.val 0 hk80 (by decide) 1 (off14_0 k ⟨0, by decide⟩) (off14_1 k ⟨0, by decide⟩) j) (fun j => ld hg _ (k0_off14_inb k ⟨1, by decide⟩) k.val 1 hk80 (by decide) 1 (off14_0 k ⟨1, by decide⟩) (off14_1 k ⟨1, by decide⟩) j) (fun j => ld hg _ (k0_off14_inb k ⟨2, by decide⟩) k.val 2 hk80 (by decide) 1 (off14_0 k ⟨2, by decide⟩) (off14_1 k ⟨2, by decide⟩) j) (fun j => ld hg _ (k0_off14_inb k ⟨3, by decide⟩) k.val 3 hk80 (by decide) 1 (off14_0 k ⟨3, by decide⟩) (off14_1 k ⟨3, by decide⟩) j))
      (TileVal.step4_accVec X s 2 (base + 4 * k.val) (by omega) _ _ _ _ (fun j => ld hg _ (k0_off15_inb k ⟨0, by decide⟩) k.val 0 hk80 (by decide) 2 (off15_0 k ⟨0, by decide⟩) (off15_1 k ⟨0, by decide⟩) j) (fun j => ld hg _ (k0_off15_inb k ⟨1, by decide⟩) k.val 1 hk80 (by decide) 2 (off15_0 k ⟨1, by decide⟩) (off15_1 k ⟨1, by decide⟩) j) (fun j => ld hg _ (k0_off15_inb k ⟨2, by decide⟩) k.val 2 hk80 (by decide) 2 (off15_0 k ⟨2, by decide⟩) (off15_1 k ⟨2, by decide⟩) j) (fun j => ld hg _ (k0_off15_inb k ⟨3, by decide⟩) k.val 3 hk80 (by decide) 2 (off15_0 k ⟨3, by decide⟩) (off15_1 k ⟨3, by decide⟩) j))
      (TileVal.step4_accVec X s 3 (base + 4 * k.val) (by omega) _ _ _ _ (fun j => ld hg _ (k0_off16_inb k ⟨0, by decide⟩) k.val 0 hk80 (by decide) 3 (off16_0 k ⟨0, by decide⟩) (off16_1 k ⟨0, by decide⟩) j) (fun j => ld hg _ (k0_off16_inb k ⟨1, by decide⟩) k.val 1 hk80 (by decide) 3 (off16_0 k ⟨1, by decide⟩) (off16_1 k ⟨1, by decide⟩) j) (fun j => ld hg _ (k0_off16_inb k ⟨2, by decide⟩) k.val 2 hk80 (by decide) 3 (off16_0 k ⟨2, by decide⟩) (off16_1 k ⟨2, by decide⟩) j) (fun j => ld hg _ (k0_off16_inb k ⟨3, by decide⟩) k.val 3 hk80 (by decide) 3 (off16_0 k ⟨3, by decide⟩) (off16_1 k ⟨3, by decide⟩) j))
      (TileVal.step4_accVec X s 4 (base + 4 * k.val) (by omega) _ _ _ _ (fun j => ld hg _ (k0_off17_inb k ⟨0, by decide⟩) k.val 0 hk80 (by decide) 4 (off17_0 k ⟨0, by decide⟩) (off17_1 k ⟨0, by decide⟩) j) (fun j => ld hg _ (k0_off17_inb k ⟨1, by decide⟩) k.val 1 hk80 (by decide) 4 (off17_0 k ⟨1, by decide⟩) (off17_1 k ⟨1, by decide⟩) j) (fun j => ld hg _ (k0_off17_inb k ⟨2, by decide⟩) k.val 2 hk80 (by decide) 4 (off17_0 k ⟨2, by decide⟩) (off17_1 k ⟨2, by decide⟩) j) (fun j => ld hg _ (k0_off17_inb k ⟨3, by decide⟩) k.val 3 hk80 (by decide) 4 (off17_0 k ⟨3, by decide⟩) (off17_1 k ⟨3, by decide⟩) j))
      (TileVal.step4_accVec X s 5 (base + 4 * k.val) (by omega) _ _ _ _ (fun j => ld hg _ (k0_off18_inb k ⟨0, by decide⟩) k.val 0 hk80 (by decide) 5 (off18_0 k ⟨0, by decide⟩) (off18_1 k ⟨0, by decide⟩) j) (fun j => ld hg _ (k0_off18_inb k ⟨1, by decide⟩) k.val 1 hk80 (by decide) 5 (off18_0 k ⟨1, by decide⟩) (off18_1 k ⟨1, by decide⟩) j) (fun j => ld hg _ (k0_off18_inb k ⟨2, by decide⟩) k.val 2 hk80 (by decide) 5 (off18_0 k ⟨2, by decide⟩) (off18_1 k ⟨2, by decide⟩) j) (fun j => ld hg _ (k0_off18_inb k ⟨3, by decide⟩) k.val 3 hk80 (by decide) 5 (off18_0 k ⟨3, by decide⟩) (off18_1 k ⟨3, by decide⟩) j))
      (TileVal.step4_accVec X s 6 (base + 4 * k.val) (by omega) _ _ _ _ (fun j => ld hg _ (k0_off19_inb k ⟨0, by decide⟩) k.val 0 hk80 (by decide) 6 (off19_0 k ⟨0, by decide⟩) (off19_1 k ⟨0, by decide⟩) j) (fun j => ld hg _ (k0_off19_inb k ⟨1, by decide⟩) k.val 1 hk80 (by decide) 6 (off19_0 k ⟨1, by decide⟩) (off19_1 k ⟨1, by decide⟩) j) (fun j => ld hg _ (k0_off19_inb k ⟨2, by decide⟩) k.val 2 hk80 (by decide) 6 (off19_0 k ⟨2, by decide⟩) (off19_1 k ⟨2, by decide⟩) j) (fun j => ld hg _ (k0_off19_inb k ⟨3, by decide⟩) k.val 3 hk80 (by decide) 6 (off19_0 k ⟨3, by decide⟩) (off19_1 k ⟨3, by decide⟩) j))
      (TileVal.step4_accVec X s 7 (base + 4 * k.val) (by omega) _ _ _ _ (fun j => ld hg _ (k0_off20_inb k ⟨0, by decide⟩) k.val 0 hk80 (by decide) 7 (off20_0 k ⟨0, by decide⟩) (off20_1 k ⟨0, by decide⟩) j) (fun j => ld hg _ (k0_off20_inb k ⟨1, by decide⟩) k.val 1 hk80 (by decide) 7 (off20_0 k ⟨1, by decide⟩) (off20_1 k ⟨1, by decide⟩) j) (fun j => ld hg _ (k0_off20_inb k ⟨2, by decide⟩) k.val 2 hk80 (by decide) 7 (off20_0 k ⟨2, by decide⟩) (off20_1 k ⟨2, by decide⟩) j) (fun j => ld hg _ (k0_off20_inb k ⟨3, by decide⟩) k.val 3 hk80 (by decide) 7 (off20_0 k ⟨3, by decide⟩) (off20_1 k ⟨3, by decide⟩) j))
  · iexists g; isplitr; · ipureintro; exact hg
    iexact Hb

set_option maxHeartbeats 1600000 in
/-- One trip of a row loop, with the accumulators' values. -/
theorem rowsV_s1_a (X : S64x4096x128.Idx → F .f32) (s : Fin 64) (base : Nat) (hb : base + 320 ≤ 4096)
    (c0 c1 : BitVec 32) (p : Fin k0_t4_loop.trips)
    (a9 a10 a11 a12 a13 a14 a15 a16 : FVec F S16 .f32) (k : Fin k0_t5_loop.trips) (acc : FVec F S16 .f32 × FVec F S16 .f32 × FVec F S16 .f32 × FVec F S16 .f32 × FVec F S16 .f32 × FVec F S16 .f32 × FVec F S16 .f32 × FVec F S16 .f32) :
    invRows0 (U := U) d L X s base hb k.val acc
      ⊢ wp frame (wpE (defs₀ (F := F)) 𝒱₀ (thrOf d L) none) Set.univ
          (k0_t5_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows0 (U := U) d L X s base hb (k.val + 1)) := by
  obtain ⟨b18, b19, b20, b21, b22, b23, b24, b25⟩ := acc
  unfold k0_t5_body
  simp only [k0_part8_eq_skeleton, k0_part9_eq_skeleton, k0_part10_eq_skeleton]
  unfold k0_part8_skel k0_part9_skel k0_part10_skel
  unfold invRows0
  iintro ⟨%hacc, %g, %hg, Hb⟩
  have hk80 : k.val < 80 := lt_of_lt_of_le k.isLt k0_t5_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t5 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off23 k (BitVec.ofNat 32 0)) S1x16.size (k0_off23_inb k ⟨0, by decide⟩)).toLoadRect g)
      (View.readAt (Elt F) (Memref.whole cc0_scratch0).view (Rect.unit (s := S640x128) (k0_off24 k (BitVec.ofNat 32 0)) S1x16.size (k0_off24_inb k ⟨0, by decide⟩)).toLoadRect g)
      (View.readAt (Elt F) (Memref.whole cc0_scratch0).view (Rect.unit (s := S640x128) (k0_off25 k (BitVec.ofNat 32 0)) S1x16.size (k0_off25_inb k ⟨0, by decide⟩)).toLoadRect g)
      (View.readAt (Elt F) (Memref.whole cc0_scratch0).view (Rect.unit (s := S640x128) (k0_off26 k (BitVec.ofNat 32 0)) S1x16.size (k0_off26_inb k ⟨0, by decide⟩)).toLoadRect g)
      (View.readAt (Elt F) (Memref.whole cc0_scratch0).view (Rect.unit (s := S640x128) (k0_off27 k (BitVec.ofNat 32 0)) S1x16.size (k0_off27_inb k ⟨0, by decide⟩)).toLoadRect g)
      (View.readAt (Elt F) (Memref.whole cc0_scratch0).view (Rect.unit (s := S640x128) (k0_off28 k (BitVec.ofNat 32 0)) S1x16.size (k0_off28_inb k ⟨0, by decide⟩)).toLoadRect g)
      (View.readAt (Elt F) (Memref.whole cc0_scratch0).view (Rect.unit (s := S640x128) (k0_off29 k (BitVec.ofNat 32 0)) S1x16.size (k0_off29_inb k ⟨0, by decide⟩)).toLoadRect g)
      (View.readAt (Elt F) (Memref.whole cc0_scratch0).view (Rect.unit (s := S640x128) (k0_off30 k (BitVec.ofNat 32 0)) S1x16.size (k0_off30_inb k ⟨0, by decide⟩)).toLoadRect g)
      (View.readAt (Elt F) (Memref.whole cc0_scratch0).view (Rect.unit (s := S640x128) (k0_off23 k (BitVec.ofNat 32 1)) S1x16.size (k0_off23_inb k ⟨1, by decide⟩)).toLoadRect g)
      (View.readAt (Elt F) (Memref.whole cc0_scratch0).view (Rect.unit (s := S640x128) (k0_off24 k (BitVec.ofNat 32 1)) S1x16.size (k0_off24_inb k ⟨1, by decide⟩)).toLoadRect g)
      (View.readAt (Elt F) (Memref.whole cc0_scratch0).view (Rect.unit (s := S640x128) (k0_off25 k (BitVec.ofNat 32 1)) S1x16.size (k0_off25_inb k ⟨1, by decide⟩)).toLoadRect g)
      (View.readAt (Elt F) (Memref.whole cc0_scratch0).view (Rect.unit (s := S640x128) (k0_off26 k (BitVec.ofNat 32 1)) S1x16.size (k0_off26_inb k ⟨1, by decide⟩)).toLoadRect g)
      (View.readAt (Elt F) (Memref.whole cc0_scratch0).view (Rect.unit (s := S640x128) (k0_off27 k (BitVec.ofNat 32 1)) S1x16.size (k0_off27_inb k ⟨1, by decide⟩)).toLoadRect g)
      (View.readAt (Elt F) (Memref.whole cc0_scratch0).view (Rect.unit (s := S640x128) (k0_off28 k (BitVec.ofNat 32 1)) S1x16.size (k0_off28_inb k ⟨1, by decide⟩)).toLoadRect g)
      (View.readAt (Elt F) (Memref.whole cc0_scratch0).view (Rect.unit (s := S640x128) (k0_off29 k (BitVec.ofNat 32 1)) S1x16.size (k0_off29_inb k ⟨1, by decide⟩)).toLoadRect g)
      (View.readAt (Elt F) (Memref.whole cc0_scratch0).view (Rect.unit (s := S640x128) (k0_off30 k (BitVec.ofNat 32 1)) S1x16.size (k0_off30_inb k ⟨1, by decide⟩)).toLoadRect g)
      (View.readAt (Elt F) (Memref.whole cc0_scratch0).view (Rect.unit (s := S640x128) (k0_off23 k (BitVec.ofNat 32 2)) S1x16.size (k0_off23_inb k ⟨2, by decide⟩)).toLoadRect g)
      (View.readAt (Elt F) (Memref.whole cc0_scratch0).view (Rect.unit (s := S640x128) (k0_off24 k (BitVec.ofNat 32 2)) S1x16.size (k0_off24_inb k ⟨2, by decide⟩)).toLoadRect g)
      (View.readAt (Elt F) (Memref.whole cc0_scratch0).view (Rect.unit (s := S640x128) (k0_off25 k (BitVec.ofNat 32 2)) S1x16.size (k0_off25_inb k ⟨2, by decide⟩)).toLoadRect g)
      (View.readAt (Elt F) (Memref.whole cc0_scratch0).view (Rect.unit (s := S640x128) (k0_off26 k (BitVec.ofNat 32 2)) S1x16.size (k0_off26_inb k ⟨2, by decide⟩)).toLoadRect g)
      (View.readAt (Elt F) (Memref.whole cc0_scratch0).view (Rect.unit (s := S640x128) (k0_off27 k (BitVec.ofNat 32 2)) S1x16.size (k0_off27_inb k ⟨2, by decide⟩)).toLoadRect g)
      (View.readAt (Elt F) (Memref.whole cc0_scratch0).view (Rect.unit (s := S640x128) (k0_off28 k (BitVec.ofNat 32 2)) S1x16.size (k0_off28_inb k ⟨2, by decide⟩)).toLoadRect g)
      (View.readAt (Elt F) (Memref.whole cc0_scratch0).view (Rect.unit (s := S640x128) (k0_off29 k (BitVec.ofNat 32 2)) S1x16.size (k0_off29_inb k ⟨2, by decide⟩)).toLoadRect g)
      (View.readAt (Elt F) (Memref.whole cc0_scratch0).view (Rect.unit (s := S640x128) (k0_off30 k (BitVec.ofNat 32 2)) S1x16.size (k0_off30_inb k ⟨2, by decide⟩)).toLoadRect g)
      (View.readAt (Elt F) (Memref.whole cc0_scratch0).view (Rect.unit (s := S640x128) (k0_off23 k (BitVec.ofNat 32 3)) S1x16.size (k0_off23_inb k ⟨3, by decide⟩)).toLoadRect g)
      (View.readAt (Elt F) (Memref.whole cc0_scratch0).view (Rect.unit (s := S640x128) (k0_off24 k (BitVec.ofNat 32 3)) S1x16.size (k0_off24_inb k ⟨3, by decide⟩)).toLoadRect g)
      (View.readAt (Elt F) (Memref.whole cc0_scratch0).view (Rect.unit (s := S640x128) (k0_off25 k (BitVec.ofNat 32 3)) S1x16.size (k0_off25_inb k ⟨3, by decide⟩)).toLoadRect g)
      (View.readAt (Elt F) (Memref.whole cc0_scratch0).view (Rect.unit (s := S640x128) (k0_off26 k (BitVec.ofNat 32 3)) S1x16.size (k0_off26_inb k ⟨3, by decide⟩)).toLoadRect g)
      (View.readAt (Elt F) (Memref.whole cc0_scratch0).view (Rect.unit (s := S640x128) (k0_off27 k (BitVec.ofNat 32 3)) S1x16.size (k0_off27_inb k ⟨3, by decide⟩)).toLoadRect g)
      (View.readAt (Elt F) (Memref.whole cc0_scratch0).view (Rect.unit (s := S640x128) (k0_off28 k (BitVec.ofNat 32 3)) S1x16.size (k0_off28_inb k ⟨3, by decide⟩)).toLoadRect g)
      (View.readAt (Elt F) (Memref.whole cc0_scratch0).view (Rect.unit (s := S640x128) (k0_off29 k (BitVec.ofNat 32 3)) S1x16.size (k0_off29_inb k ⟨3, by decide⟩)).toLoadRect g)
      (View.readAt (Elt F) (Memref.whole cc0_scratch0).view (Rect.unit (s := S640x128) (k0_off30 k (BitVec.ofNat 32 3)) S1x16.size (k0_off30_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off23_inb k ⟨0, by decide⟩) k.val 0 hk80 (by decide) 0 (off23_0 k ⟨0, by decide⟩) (off23_1 k ⟨0, by decide⟩) j) (fun j => ld hg _ (k0_off23_inb k ⟨1, by decide⟩) k.val 1 hk80 (by decide) 0 (off23_0 k ⟨1, by decide⟩) (off23_1 k ⟨1, by decide⟩) j) (fun j => ld hg _ (k0_off23_inb k ⟨2, by decide⟩) k.val 2 hk80 (by decide) 0 (off23_0 k ⟨2, by decide⟩) (off23_1 k ⟨2, by decide⟩) j) (fun j => ld hg _ (k0_off23_inb k ⟨3, by decide⟩) k.val 3 hk80 (by decide) 0 (off23_0 k ⟨3, by decide⟩) (off23_1 k ⟨3, by decide⟩) j))
      (TileVal.step4_accVec X s 1 (base + 4 * k.val) (by omega) _ _ _ _ (fun j => ld hg _ (k0_off24_inb k ⟨0, by decide⟩) k.val 0 hk80 (by decide) 1 (off24_0 k ⟨0, by decide⟩) (off24_1 k ⟨0, by decide⟩) j) (fun j => ld hg _ (k0_off24_inb k ⟨1, by decide⟩) k.val 1 hk80 (by decide) 1 (off24_0 k ⟨1, by decide⟩) (off24_1 k ⟨1, by decide⟩) j) (fun j => ld hg _ (k0_off24_inb k ⟨2, by decide⟩) k.val 2 hk80 (by decide) 1 (off24_0 k ⟨2, by decide⟩) (off24_1 k ⟨2, by decide⟩) j) (fun j => ld hg _ (k0_off24_inb k ⟨3, by decide⟩) k.val 3 hk80 (by decide) 1 (off24_0 k ⟨3, by decide⟩) (off24_1 k ⟨3, by decide⟩) j))
      (TileVal.step4_accVec X s 2 (base + 4 * k.val) (by omega) _ _ _ _ (fun j => ld hg _ (k0_off25_inb k ⟨0, by decide⟩) k.val 0 hk80 (by decide) 2 (off25_0 k ⟨0, by decide⟩) (off25_1 k ⟨0, by decide⟩) j) (fun j => ld hg _ (k0_off25_inb k ⟨1, by decide⟩) k.val 1 hk80 (by decide) 2 (off25_0 k ⟨1, by decide⟩) (off25_1 k ⟨1, by decide⟩) j) (fun j => ld hg _ (k0_off25_inb k ⟨2, by decide⟩) k.val 2 hk80 (by decide) 2 (off25_0 k ⟨2, by decide⟩) (off25_1 k ⟨2, by decide⟩) j) (fun j => ld hg _ (k0_off25_inb k ⟨3, by decide⟩) k.val 3 hk80 (by decide) 2 (off25_0 k ⟨3, by decide⟩) (off25_1 k ⟨3, by decide⟩) j))
      (TileVal.step4_accVec X s 3 (base + 4 * k.val) (by omega) _ _ _ _ (fun j => ld hg _ (k0_off26_inb k ⟨0, by decide⟩) k.val 0 hk80 (by decide) 3 (off26_0 k ⟨0, by decide⟩) (off26_1 k ⟨0, by decide⟩) j) (fun j => ld hg _ (k0_off26_inb k ⟨1, by decide⟩) k.val 1 hk80 (by decide) 3 (off26_0 k ⟨1, by decide⟩) (off26_1 k ⟨1, by decide⟩) j) (fun j => ld hg _ (k0_off26_inb k ⟨2, by decide⟩) k.val 2 hk80 (by decide) 3 (off26_0 k ⟨2, by decide⟩) (off26_1 k ⟨2, by decide⟩) j) (fun j => ld hg _ (k0_off26_inb k ⟨3, by decide⟩) k.val 3 hk80 (by decide) 3 (off26_0 k ⟨3, by decide⟩) (off26_1 k ⟨3, by decide⟩) j))
      (TileVal.step4_accVec X s 4 (base + 4 * k.val) (by omega) _ _ _ _ (fun j => ld hg _ (k0_off27_inb k ⟨0, by decide⟩) k.val 0 hk80 (by decide) 4 (off27_0 k ⟨0, by decide⟩) (off27_1 k ⟨0, by decide⟩) j) (fun j => ld hg _ (k0_off27_inb k ⟨1, by decide⟩) k.val 1 hk80 (by decide) 4 (off27_0 k ⟨1, by decide⟩) (off27_1 k ⟨1, by decide⟩) j) (fun j => ld hg _ (k0_off27_inb k ⟨2, by decide⟩) k.val 2 hk80 (by decide) 4 (off27_0 k ⟨2, by decide⟩) (off27_1 k ⟨2, by decide⟩) j) (fun j => ld hg _ (k0_off27_inb k ⟨3, by decide⟩) k.val 3 hk80 (by decide) 4 (off27_0 k ⟨3, by decide⟩) (off27_1 k ⟨3, by decide⟩) j))
      (TileVal.step4_accVec X s 5 (base + 4 * k.val) (by omega) _ _ _ _ (fun j => ld hg _ (k0_off28_inb k ⟨0, by decide⟩) k.val 0 hk80 (by decide) 5 (off28_0 k ⟨0, by decide⟩) (off28_1 k ⟨0, by decide⟩) j) (fun j => ld hg _ (k0_off28_inb k ⟨1, by decide⟩) k.val 1 hk80 (by decide) 5 (off28_0 k ⟨1, by decide⟩) (off28_1 k ⟨1, by decide⟩) j) (fun j => ld hg _ (k0_off28_inb k ⟨2, by decide⟩) k.val 2 hk80 (by decide) 5 (off28_0 k ⟨2, by decide⟩) (off28_1 k ⟨2, by decide⟩) j) (fun j => ld hg _ (k0_off28_inb k ⟨3, by decide⟩) k.val 3 hk80 (by decide) 5 (off28_0 k ⟨3, by decide⟩) (off28_1 k ⟨3, by decide⟩) j))
      (TileVal.step4_accVec X s 6 (base + 4 * k.val) (by omega) _ _ _ _ (fun j => ld hg _ (k0_off29_inb k ⟨0, by decide⟩) k.val 0 hk80 (by decide) 6 (off29_0 k ⟨0, by decide⟩) (off29_1 k ⟨0, by decide⟩) j) (fun j => ld hg _ (k0_off29_inb k ⟨1, by decide⟩) k.val 1 hk80 (by decide) 6 (off29_0 k ⟨1, by decide⟩) (off29_1 k ⟨1, by decide⟩) j) (fun j => ld hg _ (k0_off29_inb k ⟨2, by decide⟩) k.val 2 hk80 (by decide) 6 (off29_0 k ⟨2, by decide⟩) (off29_1 k ⟨2, by decide⟩) j) (fun j => ld hg _ (k0_off29_inb k ⟨3, by decide⟩) k.val 3 hk80 (by decide) 6 (off29_0 k ⟨3, by decide⟩) (off29_1 k ⟨3, by decide⟩) j))
      (TileVal.step4_accVec X s 7 (base + 4 * k.val) (by omega) _ _ _ _ (fun j => ld hg _ (k0_off30_inb k ⟨0, by decide⟩) k.val 0 hk80 (by decide) 7 (off30_0 k ⟨0, by decide⟩) (off30_1 k ⟨0, by decide⟩) j) (fun j => ld hg _ (k0_off30_inb k ⟨1, by decide⟩) k.val 1 hk80 (by decide) 7 (off30_0 k ⟨1, by decide⟩) (off30_1 k ⟨1, by decide⟩) j) (fun j => ld hg _ (k0_off30_inb k ⟨2, by decide⟩) k.val 2 hk80 (by decide) 7 (off30_0 k ⟨2, by decide⟩) (off30_1 k ⟨2, by decide⟩) j) (fun j => ld hg _ (k0_off30_inb k ⟨3, by decide⟩) k.val 3 hk80 (by decide) 7 (off30_0 k ⟨3, by decide⟩) (off30_1 k ⟨3, by decide⟩) j))
  · iexists g; isplitr; · ipureintro; exact hg
    iexact Hb

set_option maxHeartbeats 1600000 in
/-- One trip of a row loop, with the accumulators' values. -/
theorem rowsV_s1_b (X : S64x4096x128.Idx → F .f32) (s : Fin 64) (base : Nat) (hb : base + 320 ≤ 4096)
    (c0 c1 : BitVec 32) (p : Fin k0_t4_loop.trips)
    (a9 a10 a11 a12 a13 a14 a15 a16 : FVec F S16 .f32) (k : Fin k0_t6_loop.trips) (acc : FVec F S16 .f32 × FVec F S16 .f32 × FVec F S16 .f32 × FVec F S16 .f32 × FVec F S16 .f32 × FVec F S16 .f32 × FVec F S16 .f32 × FVec F S16 .f32) :
    invRows1 (U := U) d L X s base hb k.val acc
      ⊢ wp frame (wpE (defs₀ (F := F)) 𝒱₀ (thrOf d L) none) Set.univ
          (k0_t6_body L xW (Memref.isWhole_whole _) oW (Memref.isWhole_whole _) bW (Memref.isWhole_whole _) vW (Memref.isWhole_whole _)
            cc0_scratch2 cc0_scratch3 cc0_scoped0 c0 c1 p a9 a10 a11 a12 a13 a14 a15 a16 k acc)
          (invRows1 (U := U) d L X s base hb (k.val + 1)) := by
  obtain ⟨b18, b19, b20, b21, b22, b23, b24, b25⟩ := acc
  unfold k0_t6_body
  simp only [k0_part11_eq_skeleton, k0_part12_eq_skeleton, k0_part13_eq_skeleton]
  unfold k0_part11_skel k0_part12_skel k0_part13_skel
  unfold invRows1
  iintro ⟨%hacc, %g, %hg, Hb⟩
  have hk80 : k.val < 80 := lt_of_lt_of_le k.isLt k0_t6_abs.2.1
  sl_exec
  sl_step
  isplitr
  · ipureintro
    unfold accTup at hacc
    obtain ⟨rfl, rfl, rfl, rfl, rfl, rfl, rfl, rfl⟩ : b18 = _ ∧ b19 = _ ∧ b20 = _ ∧ b21 = _ ∧ b22 = _ ∧ b23 = _ ∧ b24 = _ ∧ b25 = _ := by
      simpa only [Prod.mk.injEq] using hacc
    refine Eq.trans (TileVal.trip_t6 (F := F)
      (TileVal.accVec X s 0 (base + 4 * k.val))
      (TileVal.accVec X s 1 (base + 4 * k.val))
      (TileVal.accVec X s 2 (base + 4 * k.val))
      (TileVal.accVec X s 3 (base + 4 * k.val))
      (TileVal.accVec X s 4 (base + 4 * k.val))
      (TileVal.accVec X s 5 (base + 4 * k.val))
      (TileVal.accVec X s 6 (base + 4 * k.val))
      (TileVal.accVec X s 7 (base + 4 * k.val))
      (View.readAt (Elt F) (Memref.whole cc0_scratch0).view (Rect.unit (s := S640x128) (k0_off32 k (BitVec.ofNat 32 0)) S1x16.size (k0_off32_inb k ⟨0, by decide⟩)).toLoadRect g)
      (View.readAt (Elt F) (Memref.whole cc0_scratch0).view (Rect.unit (s := S640x128) (k0_off33 k (BitVec.ofNat 32 0)) S1x16.size (k0_off33_inb k ⟨0, by decide⟩)).toLoadRect g)
      (View.readAt (Elt F) (Memref.whole cc0_scratch0).view (Rect.unit (s := S640x128) (k0_off34 k (BitVec.ofNat 32 0)) S1x16.size (k0_off34_inb k ⟨0, by decide⟩)).toLoadRect g)
      (View.readAt (Elt F) (Memref.whole cc0_scratch0).view (Rect.unit (s := S640x128) (k0_off35 k (BitVec.ofNat 32 0)) S1x16.size (k0_off35_inb k ⟨0, by decide⟩)).toLoadRect g)
      (View.readAt (Elt F) (Memref.whole cc0_scratch0).view (Rect.unit (s := S640x128) (k0_off36 k (BitVec.ofNat 32 0)) S1x16.size (k0_off36_inb k ⟨0, by decide⟩)).toLoadRect g)
      (View.readAt (Elt F) (Memref.whole cc0_scratch0).view (Rect.unit (s := S640x128) (k0_off37 k (BitVec.ofNat 32 0)) S1x16.size (k0_off37_inb k ⟨0, by decide⟩)).toLoadRect g)
      (View.readAt (Elt F) (Memref.whole cc0_scratch0).view (Rect.unit (s := S640x128) (k0_off38 k (BitVec.ofNat 32 0)) S1x16.size (k0_off38_inb k ⟨0, by decide⟩)).toLoadRect g)
      (View.readAt (Elt F) (Memref.whole cc0_scratch0).view (Rect.unit (s := S640x128) (k0_off39 k (BitVec.ofNat 32 0)) S1x16.size (k0_off39_inb k ⟨0, by decide⟩)).toLoadRect g)
      (View.readAt (Elt F) (Memref.whole cc0_scratch0).view (Rect.unit (s := S640x128) (k0_off32 k (BitVec.ofNat 32 1)) S1x16.size (k0_off32_inb k ⟨1, by decide⟩)).toLoadRect g)
      (View.readAt (Elt F) (Memref.whole cc0_scratch0).view (Rect.unit (s := S640x128) (k0_off33 k (BitVec.ofNat 32 1)) S1x16.size (k0_off33_inb k ⟨1, by decide⟩)).toLoadRect g)
      (View.readAt (Elt F) (Memref.whole cc0_scratch0).view (Rect.unit (s := S640x128) (k0_off34 k (BitVec.ofNat 32 1)) S1x16.size (k0_off34_inb k ⟨1, by decide⟩)).toLoadRect g)
      (View.readAt (Elt F) (Memref.whole cc0_scratch0).view (Rect.unit (s := S640x128) (k0_off35 k (BitVec.ofNat 32 1)) S1x16.size (k0_off35_inb k ⟨1, by decide⟩)).toLoadRect g)
      (View.readAt (Elt F) (Memref.whole cc0_scratch0).view (Rect.unit (s := S640x128) (k0_off36 k (BitVec.ofNat 32 1)) S1x16.size (k0_off36_inb k ⟨1, by decide⟩)).toLoadRect g)
      (View.readAt (Elt F) (Memref.whole cc0_scratch0).view (Rect.unit (s := S640x128) (k0_off37 k (BitVec.ofNat 32 1)) S1x16.size (k0_off37_inb k ⟨1, by decide⟩)).toLoadRect g)
      (View.readAt (Elt F) (Memref.whole cc0_scratch0).view (Rect.unit (s := S640x128) (k0_off38 k (BitVec.ofNat 32 1)) S1x16.size (k0_off38_inb k ⟨1, by decide⟩)).toLoadRect g)
      (View.readAt (Elt F) (Memref.whole cc0_scratch0).view (Rect.unit (s := S640x128) (k0_off39 k (BitVec.ofNat 32 1)) S1x16.size (k0_off39_inb k ⟨1, by decide⟩)).toLoadRect g)
      (View.readAt (Elt F) (Memref.whole cc0_scratch0).view (Rect.unit (s := S640x128) (k0_off32 k (BitVec.ofNat 32 2)) S1x16.size (k0_off32_inb k ⟨2, by decide⟩)).toLoadRect g)
      (View.readAt (Elt F) (Memref.whole cc0_scratch0).view (Rect.unit (s := S640x128) (k0_off33 k (BitVec.ofNat 32 2)) S1x16.size (k0_off33_inb k ⟨2, by decide⟩)).toLoadRect g)
      (View.readAt (Elt F) (Memref.whole cc0_scratch0).view (Rect.unit (s := S640x128) (k0_off34 k (BitVec.ofNat 32 2)) S1x16.size (k0_off34_inb k ⟨2, by decide⟩)).toLoadRect g)
      (View.readAt (Elt F) (Memref.whole cc0_scratch0).view (Rect.unit (s := S640x128) (k0_off35 k (BitVec.ofNat 32 2)) S1x16.size (k0_off35_inb k ⟨2, by decide⟩)).toLoadRect g)
      (View.readAt (Elt F) (Memref.whole cc0_scratch0).view (Rect.unit (s := S640x128) (k0_off36 k (BitVec.ofNat 32 2)) S1x16.size (k0_off36_inb k ⟨2, by decide⟩)).toLoadRect g)
      (View.readAt (Elt F) (Memref.whole cc0_scratch0).view (Rect.unit (s := S640x128) (k0_off37 k (BitVec.ofNat 32 2)) S1x16.size (k0_off37_inb k ⟨2, by decide⟩)).toLoadRect g)
      (View.readAt (Elt F) (Memref.whole cc0_scratch0).view (Rect.unit (s := S640x128) (k0_off38 k (BitVec.ofNat 32 2)) S1x16.size (k0_off38_inb k ⟨2, by decide⟩)).toLoadRect g)
      (View.readAt (Elt F) (Memref.whole cc0_scratch0).view (Rect.unit (s := S640x128) (k0_off39 k (BitVec.ofNat 32 2)) S1x16.size (k0_off39_inb k ⟨2, by decide⟩)).toLoadRect g)
      (View.readAt (Elt F) (Memref.whole cc0_scratch0).view (Rect.unit (s := S640x128) (k0_off32 k (BitVec.ofNat 32 3)) S1x16.size (k0_off32_inb k ⟨3, by decide⟩)).toLoadRect g)
      (View.readAt (Elt F) (Memref.whole cc0_scratch0).view (Rect.unit (s := S640x128) (k0_off33 k (BitVec.ofNat 32 3)) S1x16.size (k0_off33_inb k ⟨3, by decide⟩)).toLoadRect g)
      (View.readAt (Elt F) (Memref.whole cc0_scratch0).view (Rect.unit (s := S640x128) (k0_off34 k (BitVec.ofNat 32 3)) S1x16.size (k0_off34_inb k ⟨3, by decide⟩)).toLoadRect g)
      (View.readAt (Elt F) (Memref.whole cc0_scratch0).view (Rect.unit (s := S640x128) (k0_off35 k (BitVec.ofNat 32 3)) S1x16.size (k0_off35_inb k ⟨3, by decide⟩)).toLoadRect g)
      (View.readAt (Elt F) (Memref.whole cc0_scratch0).view (Rect.unit (s := S640x128) (k0_off36 k (BitVec.ofNat 32 3)) S1x16.size (k0_off36_inb k ⟨3, by decide⟩)).toLoadRect g)
      (View.readAt (Elt F) (Memref.whole cc0_scratch0).view (Rect.unit (s := S640x128) (k0_off37 k (BitVec.ofNat 32 3)) S1x16.size (k0_off37_inb k ⟨3, by decide⟩)).toLoadRect g)
      (View.readAt (Elt F) (Memref.whole cc0_scratch0).view (Rect.unit (s := S640x128) (k0_off38 k (BitVec.ofNat 32 3)) S1x16.size (k0_off38_inb k ⟨3, by decide⟩)).toLoadRect g)
      (View.readAt (Elt F) (Memref.whole cc0_scratch0).view (Rect.unit (s := S640x128) (k0_off39 k (BitVec.ofNat 32 3)) S1x16.size (k0_off39_inb k ⟨3, by decide⟩)).toLoadRect g)) ?_
    rw [show base + 4 * (k.val + 1) = base + 4 * k.val + 4 from by omega]
    exact tup8_ext (TileVal.step4_accVec X s 0 (base + 4 * k.val) (by omega) _ _ _ _ (fun j => ld hg _ (k0_off32_inb k ⟨0, by decide⟩) k.val 0 hk80 (by decide) 0 (off32_0 k ⟨0, by decide⟩) (off32_1 k ⟨0, by decide⟩) j) (fun j => ld hg _ (k0_off32_inb k ⟨1, by decide⟩) k.val 1 hk80 (by decide) 0 (off32_0 k ⟨1, by decide⟩) (off32_1 k ⟨1, by decide⟩) j) (fun j => ld hg _ (k0_off32_inb k ⟨2, by decide⟩) k.val 2 hk80 (by decide) 0 (off32_0 k ⟨2, by decide⟩) (off32_1 k ⟨2, by decide⟩) j) (fun j => ld hg _ (k0_off32_inb k ⟨3, by decide⟩) k.val 3 hk80 (by decide) 0 (off32_0 k ⟨3, by decide⟩) (off32_1 k ⟨3, by decide⟩) j))
      (TileVal.step4_accVec X s 1 (base + 4 * k.val) (by omega) _ _ _ _ (fun j => ld hg _ (k0_off33_inb k ⟨0, by decide⟩) k.val 0 hk80 (by decide) 1 (off33_0 k ⟨0, by decide⟩) (off33_1 k ⟨0, by decide⟩) j) (fun j => ld hg _ (k0_off33_inb k ⟨1, by decide⟩) k.val 1 hk80 (by decide) 1 (off33_0 k ⟨1, by decide⟩) (off33_1 k ⟨1, by decide⟩) j) (fun j => ld hg _ (k0_off33_inb k ⟨2, by decide⟩) k.val 2 hk80 (by decide) 1 (off33_0 k ⟨2, by decide⟩) (off33_1 k ⟨2, by decide⟩) j) (fun j => ld hg _ (k0_off33_inb k ⟨3, by decide⟩) k.val 3 hk80 (by decide) 1 (off33_0 k ⟨3, by decide⟩) (off33_1 k ⟨3, by decide⟩) j))
      (TileVal.step4_accVec X s 2 (base + 4 * k.val) (by omega) _ _ _ _ (fun j => ld hg _ (k0_off34_inb k ⟨0, by decide⟩) k.val 0 hk80 (by decide) 2 (off34_0 k ⟨0, by decide⟩) (off34_1 k ⟨0, by decide⟩) j) (fun j => ld hg _ (k0_off34_inb k ⟨1, by decide⟩) k.val 1 hk80 (by decide) 2 (off34_0 k ⟨1, by decide⟩) (off34_1 k ⟨1, by decide⟩) j) (fun j => ld hg _ (k0_off34_inb k ⟨2, by decide⟩) k.val 2 hk80 (by decide) 2 (off34_0 k ⟨2, by decide⟩) (off34_1 k ⟨2, by decide⟩) j) (fun j => ld hg _ (k0_off34_inb k ⟨3, by decide⟩) k.val 3 hk80 (by decide) 2 (off34_0 k ⟨3, by decide⟩) (off34_1 k ⟨3, by decide⟩) j))
      (TileVal.step4_accVec X s 3 (base + 4 * k.val) (by omega) _ _ _ _ (fun j => ld hg _ (k0_off35_inb k ⟨0, by decide⟩) k.val 0 hk80 (by decide) 3 (off35_0 k ⟨0, by decide⟩) (off35_1 k ⟨0, by decide⟩) j) (fun j => ld hg _ (k0_off35_inb k ⟨1, by decide⟩) k.val 1 hk80 (by decide) 3 (off35_0 k ⟨1, by decide⟩) (off35_1 k ⟨1, by decide⟩) j) (fun j => ld hg _ (k0_off35_inb k ⟨2, by decide⟩) k.val 2 hk80 (by decide) 3 (off35_0 k ⟨2, by decide⟩) (off35_1 k ⟨2, by decide⟩) j) (fun j => ld hg _ (k0_off35_inb k ⟨3, by decide⟩) k.val 3 hk80 (by decide) 3 (off35_0 k ⟨3, by decide⟩) (off35_1 k ⟨3, by decide⟩) j))
      (TileVal.step4_accVec X s 4 (base + 4 * k.val) (by omega) _ _ _ _ (fun j => ld hg _ (k0_off36_inb k ⟨0, by decide⟩) k.val 0 hk80 (by decide) 4 (off36_0 k ⟨0, by decide⟩) (off36_1 k ⟨0, by decide⟩) j) (fun j => ld hg _ (k0_off36_inb k ⟨1, by decide⟩) k.val 1 hk80 (by decide) 4 (off36_0 k ⟨1, by decide⟩) (off36_1 k ⟨1, by decide⟩) j) (fun j => ld hg _ (k0_off36_inb k ⟨2, by decide⟩) k.val 2 hk80 (by decide) 4 (off36_0 k ⟨2, by decide⟩) (off36_1 k ⟨2, by decide⟩) j) (fun j => ld hg _ (k0_off36_inb k ⟨3, by decide⟩) k.val 3 hk80 (by decide) 4 (off36_0 k ⟨3, by decide⟩) (off36_1 k ⟨3, by decide⟩) j))
      (TileVal.step4_accVec X s 5 (base + 4 * k.val) (by omega) _ _ _ _ (fun j => ld hg _ (k0_off37_inb k ⟨0, by decide⟩) k.val 0 hk80 (by decide) 5 (off37_0 k ⟨0, by decide⟩) (off37_1 k ⟨0, by decide⟩) j) (fun j => ld hg _ (k0_off37_inb k ⟨1, by decide⟩) k.val 1 hk80 (by decide) 5 (off37_0 k ⟨1, by decide⟩) (off37_1 k ⟨1, by decide⟩) j) (fun j => ld hg _ (k0_off37_inb k ⟨2, by decide⟩) k.val 2 hk80 (by decide) 5 (off37_0 k ⟨2, by decide⟩) (off37_1 k ⟨2, by decide⟩) j) (fun j => ld hg _ (k0_off37_inb k ⟨3, by decide⟩) k.val 3 hk80 (by decide) 5 (off37_0 k ⟨3, by decide⟩) (off37_1 k ⟨3, by decide⟩) j))
      (TileVal.step4_accVec X s 6 (base + 4 * k.val) (by omega) _ _ _ _ (fun j => ld hg _ (k0_off38_inb k ⟨0, by decide⟩) k.val 0 hk80 (by decide) 6 (off38_0 k ⟨0, by decide⟩) (off38_1 k ⟨0, by decide⟩) j) (fun j => ld hg _ (k0_off38_inb k ⟨1, by decide⟩) k.val 1 hk80 (by decide) 6 (off38_0 k ⟨1, by decide⟩) (off38_1 k ⟨1, by decide⟩) j) (fun j => ld hg _ (k0_off38_inb k ⟨2, by decide⟩) k.val 2 hk80 (by decide) 6 (off38_0 k ⟨2, by decide⟩) (off38_1 k ⟨2, by decide⟩) j) (fun j => ld hg _ (k0_off38_inb k ⟨3, by decide⟩) k.val 3 hk80 (by decide) 6 (off38_0 k ⟨3, by decide⟩) (off38_1 k ⟨3, by decide⟩) j))
      (TileVal.step4_accVec X s 7 (base + 4 * k.val) (by omega) _ _ _ _ (fun j => ld hg _ (k0_off39_inb k ⟨0, by decide⟩) k.val 0 hk80 (by decide) 7 (off39_0 k ⟨0, by decide⟩) (off39_1 k ⟨0, by decide⟩) j) (fun j => ld hg _ (k0_off39_inb k ⟨1, by decide⟩) k.val 1 hk80 (by decide) 7 (off39_0 k ⟨1, by decide⟩) (off39_1 k ⟨1, by decide⟩) j) (fun j => ld hg _ (k0_off39_inb k ⟨2, by decide⟩) k.val 2 hk80 (by decide) 7 (off39_0 k ⟨2, by decide⟩) (off39_1 k ⟨2, by decide⟩) j) (fun j => ld hg _ (k0_off39_inb k ⟨3, by decide⟩) k.val 3 hk80 (by decide) 7 (off39_0 k ⟨3, by decide⟩) (off39_1 k ⟨3, by decide⟩) j))
  · iexists g; isplitr; · ipureintro; exact hg
    iexact Hb

end RowsV

end Cert.KB.Tile

end
-- ==== Proof.KB.TileV.lean ====
/-
  The tile's body with its value: each segment's pair loop carries the eight accumulators at the segment's first
  640 p rows, the sixteen stored pieces are the specified partial means, and the last copy leaves them in the tile's
  two rows of the result.
-/
import proofs.«210774_g2740189135076_cont_9to1_1653_26_alg».proof.Proof.KB.TileVRows
import proofs.«210774_g2740189135076_cont_9to1_1653_26_alg».proof.Proof.KB.TileTrips2
import proofs.«210774_g2740189135076_cont_9to1_1653_26_alg».proof.Proof.KB.Tile

noncomputable section

namespace Cert.KB.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

-- the kernel's memrefs, spelt as the body table passes them
local notation "xW" => (Memref.whole Cert.Kernel.main_v0_scv : Memref Cert.Kernel.sig Kind.scVector Space.hbm Cert.Kernel.S64x4096x128 EltTy.f32)
local notation "oW" => (Memref.whole Cert.Kernel.main_v1_scv : Memref Cert.Kernel.sig Kind.scVector Space.hbm Cert.Kernel.S64x128 EltTy.f32)
local notation "bW" => (Memref.whole Cert.Kernel.cc0_scratch0 : Memref Cert.Kernel.sig Kind.scVector Space.vmem Cert.Kernel.S640x128 EltTy.f32)
local notation "vW" => (Memref.whole Cert.Kernel.cc0_scratch1 : Memref Cert.Kernel.sig Kind.scVector Space.vmem Cert.Kernel.S2x128 EltTy.f32)

section PairV

variable [FloatOps F]
variable (d : Dev nD) (L : grid0.Coords) (q : PosShare TreeShare) (X : S64x4096x128.Idx → F .f32)
  (O : CellTallies nD τ sig (HIx 1)) (W : Waits sig (HIx 1))

/-- A copy of rows `base … base + 319` of segment `s` into slot 0 in flight. -/
def flyV0 (s : Fin 64) (base : Nat) : sProp 𝕄 :=
  iprop(∃ (off : Fin 3 → Nat) (inb : ∀ a, off a + S1x320x128.size a ≤ S64x4096x128.size a) (f : Buf (Elt F) ((slot0).view.loc (thrOf d L))),
    ⌜off 0 = s.val ∧ off 1 = base⌝ ∗
    Transfers.Flight countersEmb (thrOf d L) (SemLoc.dma cc0_scratch2.sem) (default : HIx 1) 1310720
        iprop(((slot0).view.loc (thrOf d L) ↦[(slot0).view.set]{fullShare}
            (slot0).view.writes (Elt F) f [⟨Rect.whole S320x128, ReadAs.same.apply ((chunkAt off inb).view.read (Elt F) X)⟩])
          ∗ ((xW).view.loc (thrOf d L) ↦[(chunkAt off inb).view.set]{Transfers.shareTokN q 0} X))
      ∗ ((xW).view.loc (thrOf d L) ↦[Finset.univ \ (chunkAt off inb).view.set]{Transfers.shareTokN q 0} X))

/-- A copy of rows `base … base + 319` of segment `s` into slot 1 in flight. -/
def flyV1 (s : Fin 64) (base : Nat) : sProp 𝕄 :=
  iprop(∃ (off : Fin 3 → Nat) (inb : ∀ a, off a + S1x320x128.size a ≤ S64x4096x128.size a) (f : Buf (Elt F) ((slot1).view.loc (thrOf d L))),
    ⌜off 0 = s.val ∧ off 1 = base⌝ ∗
    Transfers.Flight countersEmb (thrOf d L) (SemLoc.dma cc0_scratch3.sem) (default : HIx 1) 1310720
        iprop(((slot1).view.loc (thrOf d L) ↦[(slot1).view.set]{fullShare}
            (slot1).view.writes (Elt F) f [⟨Rect.whole S320x128, ReadAs.same.apply ((chunkAt off inb).view.read (Elt F) X)⟩])
          ∗ ((xW).view.loc (thrOf d L) ↦[(chunkAt off inb).view.set]{Transfers.shareTokN q 1} X))
      ∗ ((xW).view.loc (thrOf d L) ↦[Finset.univ \ (chunkAt off inb).view.set]{Transfers.shareTokN q 1} X))

/-- Before trip `p` of segment `s`'s pair loop: the accumulators have taken the segment's first `640 p` rows; while
    trips remain the copies of the next two chunks are in flight, after the last both slots are at rest. -/
def invPairV (s : Fin 64) (p : Nat) (acc : FVec F S16 .f32 × FVec F S16 .f32 × FVec F S16 .f32 × FVec F S16 .f32 × FVec F S16 .f32 × FVec F S16 .f32 × FVec F S16 .f32 × FVec F S16 .f32) : sProp 𝕄 :=
  iprop(Transfers.MayWaits (thrOf d L) (none : HIx 1) O
    ∗ ⌜acc = accTup X s (640 * p)⌝
    ∗ (if p < 2 then (iprop(flyV0 d L q X s (640 * p) ∗ flyV1 d L q X s (640 * p + 320)) : sProp 𝕄) else (iprop(idle0 d L q X ∗ idle1 d L q X) : sProp 𝕄))
    ∗ ∃ W', ⌜∀ p ∈ W', p ∈ W ∨ p.2 = none⌝ ∗ owes (thrOf d L) O W')

theorem invPairV_lt (s : Fin 64) {p : Nat} {acc : FVec F S16 .f32 × FVec F S16 .f32 × FVec F S16 .f32 × FVec F S16 .f32 × FVec F S16 .f32 × FVec F S16 .f32 × FVec F S16 .f32 × FVec F S16 .f32} (h : p < 2) :
    invPairV (U := U) d L q X O W s p acc
      = iprop(Transfers.MayWaits (thrOf d L) (none : HIx 1) O
        ∗ ⌜acc = accTup X s (640 * p)⌝
        ∗ ((∃ (off : Fin 3 → Nat) (inb : ∀ a, off a + S1x320x128.size a ≤ S64x4096x128.size a) (f : Buf (Elt F) ((slot0).view.loc (thrOf d L))),
        ⌜off 0 = s.val ∧ off 1 = 640 * p⌝ ∗
        Transfers.Flight countersEmb (thrOf d L) (SemLoc.dma cc0_scratch2.sem) (default : HIx 1) 1310720
            iprop(((slot0).view.loc (thrOf d L) ↦[(slot0).view.set]{fullShare}
                (slot0).view.writes (Elt F) f [⟨Rect.whole S320x128, ReadAs.same.apply ((chunkAt off inb).view.read (Elt F) X)⟩])
              ∗ ((xW).view.loc (thrOf d L) ↦[(chunkAt off inb).view.set]{Transfers.shareTokN q 0} X))
          ∗ ((xW).view.loc (thrOf d L) ↦[Finset.univ \ (chunkAt off inb).view.set]{Transfers.shareTokN q 0} X))
          ∗ (∃ (off : Fin 3 → Nat) (inb : ∀ a, off a + S1x320x128.size a ≤ S64x4096x128.size a) (f : Buf (Elt F) ((slot1).view.loc (thrOf d L))),
        ⌜off 0 = s.val ∧ off 1 = 640 * p + 320⌝ ∗
        Transfers.Flight countersEmb (thrOf d L) (SemLoc.dma cc0_scratch3.sem) (default : HIx 1) 1310720
            iprop(((slot1).view.loc (thrOf d L) ↦[(slot1).view.set]{fullShare}
                (slot1).view.writes (Elt F) f [⟨Rect.whole S320x128, ReadAs.same.apply ((chunkAt off inb).view.read (Elt F) X)⟩])
              ∗ ((xW).view.loc (thrOf d L) ↦[(chunkAt off inb).view.set]{Transfers.shareTokN q 1} X))
          ∗ ((xW).view.loc (thrOf d L) ↦[Finset.univ \ (chunkAt off inb).view.set]{Transfers.shareTokN q 1} X)))
        ∗ ∃ W', ⌜∀ p ∈ W', p ∈ W ∨ p.2 = none⌝ ∗ owes (thrOf d L) O W') := by
  unfold invPairV flyV0 flyV1; rw [if_pos h]

theorem invPairV_ge (s : Fin 64) {p : Nat} {acc : FVec F S16 .f32 × FVec F S16 .f32 × FVec F S16 .f32 × FVec F S16 .f32 × FVec F S16 .f32 × FVec F S16 .f32 × FVec F S16 .f32 × FVec F S16 .f32} (h : ¬ p < 2) :
    invPairV (U := U) d L q X O W s p acc
      = iprop(Transfers.MayWaits (thrOf d L) (none : HIx 1) O
        ∗ ⌜acc = accTup X s (640 * p)⌝
        ∗ (((∃ f : Buf (Elt F) ((slot0).view.loc (thrOf d L)), (slot0).view.loc (thrOf d L) ↦[(slot0).view.set]{fullShare} f)
        ∗ semVal ((thrOf d L, SemLoc.dma cc0_scratch2.sem) : GSem nD τ sig) 0 ∗ ((xW).view.loc (thrOf d L) ↦{Transfers.shareTokN q 0} X))
          ∗ ((∃ f : Buf (Elt F) ((slot1).view.loc (thrOf d L)), (slot1).view.loc (thrOf d L) ↦[(slot1).view.set]{fullShare} f)
        ∗ semVal ((thrOf d L, SemLoc.dma cc0_scratch3.sem) : GSem nD τ sig) 0 ∗ ((xW).view.loc (thrOf d L) ↦{Transfers.shareTokN q 1} X)))
        ∗ ∃ W', ⌜∀ p ∈ W', p ∈ W ∨ p.2 = none⌝ ∗ owes (thrOf d L) O W') := by
  unfold invPairV idle0 idle1; rw [if_neg h]

theorem trips_t2 : Scf.trips k0_t2_loop.lb k0_t2_loop.ub k0_t2_loop.st = 80 := by decide
theorem trips_t3 : Scf.trips k0_t3_loop.lb k0_t3_loop.ub k0_t3_loop.st = 80 := by decide
theorem trips_t5 : Scf.trips k0_t5_loop.lb k0_t5_loop.ub k0_t5_loop.st = 80 := by decide
theorem trips_t6 : Scf.trips k0_t6_loop.lb k0_t6_loop.ub k0_t6_loop.st = 80 := by decide

set_option maxHeartbeats 3200000 in
theorem pairV0_step (s : Fin 64) (hs : s.val = 4 * (L 1).val + 2 * (L 0).val) (k : Fin k0_t1_loop.trips) (acc : FVec F S16 .f32 × FVec F S16 .f32 × FVec F S16 .f32 × FVec F S16 .f32 × FVec F S16 .f32 × FVec F S16 .f32 × FVec F S16 .f32 × FVec F S16 .f32) :
    invPairV (U := U) d L q X O W s k.val acc
      ⊢ wp frame (wpE (defs₀ (F := F)) 𝒱₀ (thrOf d L) none) Set.univ
          (k0_t1_body L xW (Memref.isWhole_whole _) oW (Memref.isWhole_whole _) bW (Memref.isWhole_whole _) vW (Memref.isWhole_whole _)
            cc0_scratch2 cc0_scratch3 cc0_scoped0 k acc)
          (invPairV (U := U) d L q X O W s (k.val + 1)) := by
  have hk2 : k.val < 2 := lt_of_lt_of_le k.isLt k0_t1_abs.2.1
  obtain ⟨a9, a10, a11, a12, a13, a14, a15, a16⟩ := acc
  unfold k0_t1_body
  simp only [k0_part7_eq_skeleton]
  unfold k0_part7_skel
  simp only [Prog.bind_assoc]
  unfold invPairV
  rw [if_pos hk2]
  rcases (by omega : k.val = 0 ∨ k.val = 1) with h0 | h1
  · have hc1 : k0_cond1 k = 1#1 := (cond1_iff k).2 h0
    have hc2 : k0_cond2 k = 1#1 := (cond2_iff k).2 h0
    rw [if_pos (by omega : k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s0_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t2] at hacc1
    subst hacc1
    sl_exec
    sl_rw [Prog.bind_assoc]
    sl_for (invRows1 (U := U) d L X s (640 * k.val + 320) (by omega)) $$ [HF1_dst]
    case region => intro t acc; exact rowsV_s0_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t3] at hacc2
    subst hacc2
    sl_exec
    sl_step
    isplitr; · iexact Hmw
    isplitr
    · ipureintro
      rw [show 640 * (k.val + 1) = 640 * k.val + 320 + 4 * 80 from by omega]
    isplitl [HF0 Hx0 HF1 Hx1]
    · isplitl [HF0 Hx0]
      · iexists (k0_off12 L k), (k0_off12_inb L k hc1), _; isplitr
        · ipureintro; exact ⟨by rw [k0_off12_eq]; exact hs.symm, by rw [k0_off12_eq]; show 640 * k.val + 640 = 640 * (k.val + 1); omega⟩
        isplitl [HF0]; · iexact HF0
        iexact Hx0
      · iexists (k0_off21 L k), (k0_off21_inb L k hc2), _; isplitr
        · ipureintro; exact ⟨by rw [k0_off21_eq]; exact hs.symm, by rw [k0_off21_eq]; show 640 * k.val + 960 = 640 * (k.val + 1) + 320; omega⟩
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond1 k = 1#1 := fun h => by have := (cond1_iff k).1 h; omega
    have hc2 : ¬ k0_cond2 k = 1#1 := fun h => by have := (cond2_iff k).1 h; omega
    rw [if_neg (by omega : ¬ k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s0_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t2] at hacc1
    subst hacc1
    sl_exec
    sl_rw [Prog.bind_assoc]
    sl_for (invRows1 (U := U) d L X s (640 * k.val + 320) (by omega)) $$ [HF1_dst]
    case region => intro t acc; exact rowsV_s0_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t3] at hacc2
    subst hacc2
    sl_exec
    sl_step
    isplitr; · iexact Hmw
    isplitr
    · ipureintro
      rw [show 640 * (k.val + 1) = 640 * k.val + 320 + 4 * 80 from by omega]
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

set_option maxHeartbeats 3200000 in
theorem pairV1_step (s : Fin 64) (hs : s.val = 4 * (L 1).val + 2 * (L 0).val + 1) (v87 v88 v89 : FVec F S16 .f32) (cst_62 : F .f32) (k : Fin k0_t4_loop.trips) (acc : FVec F S16 .f32 × FVec F S16 .f32 × FVec F S16 .f32 × FVec F S16 .f32 × FVec F S16 .f32 × FVec F S16 .f32 × FVec F S16 .f32 × FVec F S16 .f32) :
    invPairV (U := U) d L q X O W s k.val acc
      ⊢ wp frame (wpE (defs₀ (F := F)) 𝒱₀ (thrOf d L) none) Set.univ
          (k0_t4_body L xW (Memref.isWhole_whole _) oW (Memref.isWhole_whole _) bW (Memref.isWhole_whole _) vW (Memref.isWhole_whole _)
            cc0_scratch2 cc0_scratch3 cc0_scoped0 v87 v88 v89 cst_62 k acc)
          (invPairV (U := U) d L q X O W s (k.val + 1)) := by
  have hk2 : k.val < 2 := lt_of_lt_of_le k.isLt k0_t4_abs.2.1
  obtain ⟨a9, a10, a11, a12, a13, a14, a15, a16⟩ := acc
  unfold k0_t4_body
  simp only [k0_part14_eq_skeleton]
  unfold k0_part14_skel
  simp only [Prog.bind_assoc]
  unfold invPairV
  rw [if_pos hk2]
  rcases (by omega : k.val = 0 ∨ k.val = 1) with h0 | h1
  · have hc1 : k0_cond3 k = 1#1 := (cond3_iff k).2 h0
    have hc2 : k0_cond4 k = 1#1 := (cond4_iff k).2 h0
    rw [if_pos (by omega : k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s1_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t5] at hacc1
    subst hacc1
    sl_exec
    sl_rw [Prog.bind_assoc]
    sl_for (invRows1 (U := U) d L X s (640 * k.val + 320) (by omega)) $$ [HF1_dst]
    case region => intro t acc; exact rowsV_s1_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t6] at hacc2
    subst hacc2
    sl_exec
    sl_step
    isplitr; · iexact Hmw
    isplitr
    · ipureintro
      rw [show 640 * (k.val + 1) = 640 * k.val + 320 + 4 * 80 from by omega]
    isplitl [HF0 Hx0 HF1 Hx1]
    · isplitl [HF0 Hx0]
      · iexists (k0_off31 L k), (k0_off31_inb L k hc1), _; isplitr
        · ipureintro; exact ⟨by rw [k0_off31_eq]; exact hs.symm, by rw [k0_off31_eq]; show 640 * k.val + 640 = 640 * (k.val + 1); omega⟩
        isplitl [HF0]; · iexact HF0
        iexact Hx0
      · iexists (k0_off40 L k), (k0_off40_inb L k hc2), _; isplitr
        · ipureintro; exact ⟨by rw [k0_off40_eq]; exact hs.symm, by rw [k0_off40_eq]; show 640 * k.val + 960 = 640 * (k.val + 1) + 320; omega⟩
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO
  · have hc1 : ¬ k0_cond3 k = 1#1 := fun h => by have := (cond3_iff k).1 h; omega
    have hc2 : ¬ k0_cond4 k = 1#1 := fun h => by have := (cond4_iff k).1 h; omega
    rw [if_neg (by omega : ¬ k.val + 1 < 2)]
    unfold flyV0 flyV1
    iintro ⟨#Hmw, %hacc, ⟨⟨%off0, %inb0, %f0, %ho0, HF0, Hx0⟩, ⟨%off1, %inb1, %f1, %ho1, HF1, Hx1⟩⟩, %W', %hW', HO⟩
    sl_exec
    sl_for (invRows0 (U := U) d L X s (640 * k.val) (by omega)) $$ [HF0_dst]
    case region => intro t acc; exact rowsV_s1_a d L X s _ _ _ _ k a9 a10 a11 a12 a13 a14 a15 a16 t acc
    · iapply (Entails.of_eq (invRows0_def (U := U) d L X s _ _ _ _).symm)
      isplitr; · ipureintro; exact hacc
      iexists _; isplitr
      pick_goal 2
      · iexact HF0_dst
      · ipureintro; exact TileVal.landed_slot0 off0 inb0 _ X s (640 * k.val) (by omega) ho0.1 ho0.2
    iintro %acc1 HI
    ihave HI' := (Entails.of_eq (invRows0_def (U := U) d L X s _ _ _ acc1)) $$ HI
    icases HI' with ⟨%hacc1, %g0, %hg0, Hb0⟩
    rw [trips_t5] at hacc1
    subst hacc1
    sl_exec
    sl_rw [Prog.bind_assoc]
    sl_for (invRows1 (U := U) d L X s (640 * k.val + 320) (by omega)) $$ [HF1_dst]
    case region => intro t acc; exact rowsV_s1_b d L X s _ _ _ _ k a9 a10 a11 a12 a13 a14 a15 a16 t acc
    · iapply (Entails.of_eq (invRows1_def (U := U) d L X s _ _ _ _).symm)
      isplitr; · ipureintro; rfl
      iexists _; isplitr
      pick_goal 2
      · iexact HF1_dst
      · ipureintro; exact TileVal.landed_slot1 off1 inb1 _ X s (640 * k.val + 320) (by omega) ho1.1 ho1.2
    iintro %acc2 HI
    ihave HI' := (Entails.of_eq (invRows1_def (U := U) d L X s _ _ _ acc2)) $$ HI
    icases HI' with ⟨%hacc2, %g1, %hg1, Hb1⟩
    rw [trips_t6] at hacc2
    subst hacc2
    sl_exec
    sl_step
    isplitr; · iexact Hmw
    isplitr
    · ipureintro
      rw [show 640 * (k.val + 1) = 640 * k.val + 320 + 4 * 80 from by omega]
    isplitl [Hb0 HF0 Hx0 Hb1 HF1 Hx1]
    · unfold idle0 idle1
      isplitl [Hb0 HF0 Hx0]
      · isplitl [Hb0]; · iexists _; iexact Hb0
        isplitl [HF0]; · iexact HF0
        iexact Hx0
      · isplitl [Hb1]; · iexists _; iexact Hb1
        isplitl [HF1]; · iexact HF1
        iexact Hx1
    iexists (insert (SemLoc.dma cc0_scratch3.sem, (default : HIx 1)) (insert (SemLoc.dma cc0_scratch2.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      · exact hW' p hp
    · iexact HO

end PairV

section BodyV

variable [FloatOps F]

theorem seg0_val (L : grid0.Coords) : (TileVal.segOf L 0).val = 4 * (L 1).val + 2 * (L 0).val := by
  show 2 * Cert.KB.Launch.wid L + 0 = _
  unfold Cert.KB.Launch.wid; omega
theorem seg1_val (L : grid0.Coords) : (TileVal.segOf L 1).val = 4 * (L 1).val + 2 * (L 0).val + 1 := by
  show 2 * Cert.KB.Launch.wid L + 1 = _
  unfold Cert.KB.Launch.wid; omega

/-- The tile's result rows, written whole by the last copy with the scratch's sixteen pieces, hold the specified values. -/
theorem out_congr (d : Dev nD) (L : grid0.Coords) (X : S64x4096x128.Idx → F .f32) (fo : Buf (Elt F) (sLoc d))
    (P : S2x128.Idx → Elt F .f32) (hP : P = (ReadAs.same.apply (TileVal.tileVals X L) : S2x128.Idx → Elt F .f32)) :
    ((outRows L).view.loc (thrOf d L) ↦[(outRows L).view.set]{fullShare} (outRows L).view.writes (Elt F) fo [⟨Rect.whole S2x128, P⟩] : sProp 𝕄)
      ⊢ (sLoc d ↦[tileRows L]{fullShare} (Cert.Spec.scVal X : Buf (Elt F) (sLoc d)) : sProp 𝕄) := by
  subst hP
  exact Entails.of_eq (pointsTo_congr fun i hi => TileVal.out_written X L fo i hi)

set_option maxHeartbeats 8000000 in
/-- The tile's body: the input is only read, the tile's two result rows end at the specified partial means of its two
    segments, and everything of the tile's own is handed back as it was found. -/
theorem tile_body (hF : (K (F := F)).Facts)
    (d : Dev nD) (L : grid0.Coords) (q : PosShare TreeShare)
    (X : Buf (Elt F) (xLoc d)) (O : CellTallies nD τ sig (HIx 1)) (W : Waits sig (HIx 1)) (hO : ∀ g, O g none = 0) :
    iprop(levAts (K (F := F)).L (K (F := F)).lev ∗ (xLoc d ↦{q} X) ∗ (∃ f : Buf (Elt F) (sLoc d), sLoc d ↦[tileRows L]{fullShare} f)
        ∗ scopedBufs (thrOf d L) ∗ scopedSems0 (thrOf d L) ∗ owes (thrOf d L) O W)
      ⊢ (wp frame (wpE (defs₀ (F := F)) 𝒱₀ (thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scratch2 cc0_scratch3 cc0_scoped0)
          fun _ => iprop((xLoc d ↦{q} X) ∗ (sLoc d ↦[tileRows L]{fullShare} (Cert.Spec.scVal X : Buf (Elt F) (sLoc d)))
            ∗ scopedBufs (thrOf d L) ∗ scopedSems0 (thrOf d L) ∗ ∃ W', ⌜∀ p ∈ W', p ∈ W ∨ p.2 = none⌝ ∗ owes (thrOf d L) O W') : sProp 𝕄) := by
  simp only [cc0__sc_body_eq_skeleton]
  unfold cc0__sc_body_skel
  simp only [k0_part15_eq_skeleton, k0_part16_eq_skeleton, k0_part17_eq_skeleton, k0_part18_eq_skeleton]
  unfold k0_part15_skel k0_part16_skel k0_part17_skel k0_part18_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Hx, ⟨%fo, Ho⟩, ⟨⟨%fb, Hb⟩, ⟨%fv, Hv⟩, Hbufs⟩, ⟨Hs2, Hs3, Hs5, Hsems⟩, HO⟩
  ihave Hmw := ((K (F := F)).mayWaits_none (thr := thrOf d L) hO) $$ Hlv
  ihave Hx' := (Entails.of_eq (pts_x (F := F) d L q _).symm) $$ Hx
  ihave Hx'' := (pts_x_toks (F := F) d L q _).1 $$ Hx'
  icases Hx'' with ⟨Hxr, Hx0, Hx1⟩
  ihave Ho' := (Entails.of_eq (pts_o (F := F) d L _).symm) $$ Ho
  ihave Hb' := (Entails.of_eq (pts_b (F := F) d L _).symm) $$ Hb
  ihave Hb'' := (pts_b_split (F := F) d L _) $$ Hb'
  icases Hb'' with ⟨Hb0, Hb1, Hbr⟩
  ihave Hv' := (Entails.of_eq (pts_v (F := F) d L _).symm) $$ Hv
  sl_exec
  sl_for (invPairV (U := U) d L q X O W (TileVal.segOf L 0)) $$ [Hs2 Hx0 Hs3 Hx1 HO]
  case region => intro k acc; exact pairV0_step d L q X O W _ (seg0_val L) k acc
  · iapply (Entails.of_eq (invPairV_lt (U := U) d L q X O W (TileVal.segOf L 0) (by decide : (0 : Nat) < 2)).symm)
    isplitr; · iexact Hmw
    isplitr; · ipureintro; rfl
    isplitl [Hs2 Hx0 Hs3 Hx1]
    · isplitl [Hs2 Hx0]
      · iexists (k0_off1 L 0#32), (k0_off1_inb L 0), _; isplitr
        · ipureintro
          have e : k0_off1 L 0#32 = ![4 * (L 1).val + 2 * (L 0).val + 0, 0, 0] := k0_off1_eq L ⟨0, by decide⟩
          exact ⟨by rw [e]; exact (seg0_val L).symm, by rw [e]; rfl⟩
        isplitl [Hs2]; · iexact Hs2
        iexact Hx0
      · iexists (k0_off2 L 0#32), (k0_off2_inb L 0), _; isplitr
        · ipureintro
          have e : k0_off2 L 0#32 = ![4 * (L 1).val + 2 * (L 0).val + 0, 320, 0] := k0_off2_eq L ⟨0, by decide⟩
          exact ⟨by rw [e]; exact (seg0_val L).symm, by rw [e]; rfl⟩
        isplitl [Hs3]; · iexact Hs3
        iexact Hx1
    iexists W; isplitr
    · ipureintro; exact fun p hp => .inl hp
    · iexact HO
  iintro %acc1 HI
  have ht1 : ¬ Scf.trips k0_t1_loop.lb k0_t1_loop.ub k0_t1_loop.st < 2 := by decide
  have ht1' : 640 * Scf.trips k0_t1_loop.lb k0_t1_loop.ub k0_t1_loop.st = 1280 := by decide
  ihave HI' := (Entails.of_eq (invPairV_ge (U := U) d L q X O W (TileVal.segOf L 0) ht1)) $$ HI
  icases HI' with ⟨-, %hacc1, ⟨⟨⟨%g0, Hb0⟩, Hs2, Hx0⟩, ⟨⟨%g1, Hb1⟩, Hs3, Hx1⟩⟩, %W1, %hW1, HO⟩
  rw [ht1'] at hacc1
  subst hacc1
  sl_exec
  try sl_rw [Prog.bind_assoc]
  sl_for (invPairV (U := U) d L q X O W (TileVal.segOf L 1)) $$ [Hs2 Hx0 Hs3 Hx1 HO]
  case region => intro k acc; exact pairV1_step d L q X O W _ (seg1_val L) _ _ _ _ k acc
  · iapply (Entails.of_eq (invPairV_lt (U := U) d L q X O W (TileVal.segOf L 1) (by decide : (0 : Nat) < 2)).symm)
    isplitr; · iexact Hmw
    isplitr; · ipureintro; rfl
    isplitl [Hs2 Hx0 Hs3 Hx1]
    · isplitl [Hs2 Hx0]
      · iexists (k0_off1 L 1#32), (k0_off1_inb L 1), _; isplitr
        · ipureintro
          have e : k0_off1 L 1#32 = ![4 * (L 1).val + 2 * (L 0).val + 1, 0, 0] := k0_off1_eq L ⟨1, by decide⟩
          exact ⟨by rw [e]; exact (seg1_val L).symm, by rw [e]; rfl⟩
        isplitl [Hs2]; · iexact Hs2
        iexact Hx0
      · iexists (k0_off2 L 1#32), (k0_off2_inb L 1), _; isplitr
        · ipureintro
          have e : k0_off2 L 1#32 = ![4 * (L 1).val + 2 * (L 0).val + 1, 320, 0] := k0_off2_eq L ⟨1, by decide⟩
          exact ⟨by rw [e]; exact (seg1_val L).symm, by rw [e]; rfl⟩
        isplitl [Hs3]; · iexact Hs3
        iexact Hx1
    iexists W1; isplitr
    · ipureintro; exact hW1
    · iexact HO
  iintro %acc2 HI
  have ht4 : ¬ Scf.trips k0_t4_loop.lb k0_t4_loop.ub k0_t4_loop.st < 2 := by decide
  have ht4' : 640 * Scf.trips k0_t4_loop.lb k0_t4_loop.ub k0_t4_loop.st = 1280 := by decide
  ihave HI' := (Entails.of_eq (invPairV_ge (U := U) d L q X O W (TileVal.segOf L 1) ht4)) $$ HI
  icases HI' with ⟨-, %hacc2, ⟨⟨⟨%g2, Hb0⟩, Hs2, Hx0⟩, ⟨⟨%g3, Hb1⟩, Hs3, Hx1⟩⟩, %W2, %hW2, HO⟩
  rw [ht4'] at hacc2
  subst hacc2
  sl_exec
  sl_step
  isplitl [Hxr Hx0 Hx1]
  · iapply (Entails.of_eq (pts_x (F := F) d L q _))
    iapply (pts_x_toks (F := F) d L q _).2
    isplitl [Hxr]; · iexact Hxr
    isplitl [Hx0]; · iexact Hx0
    iexact Hx1
  isplitl [Ho']
  · iapply (out_congr (F := F) (U := U) d L X fo _ ?hP) $$ [Ho']
    all_goals first
      | iexact Ho'
      | skip
    exact congrArg _ (TileVal.scratch_read X L fv _ _ _ _ _ _ _ _ _ _ _ _ _ _ _ _
      (TileVal.stored_0_0 _) (TileVal.stored_0_1 _) (TileVal.stored_0_2 _) (TileVal.stored_0_3 _)
      (TileVal.stored_0_4 _) (TileVal.stored_0_5 _) (TileVal.stored_0_6 _) (TileVal.stored_0_7 _)
      (TileVal.stored_1_0 _) (TileVal.stored_1_1 _) (TileVal.stored_1_2 _) (TileVal.stored_1_3 _)
      (TileVal.stored_1_4 _) (TileVal.stored_1_5 _) (TileVal.stored_1_6 _) (TileVal.stored_1_7 _))
  isplitl [Hb0 Hb1 Hbr Hv' Hbufs]
  · isplitl [Hb0 Hb1 Hbr]
    · iapply (pts_b_join (F := F) d L _ _ _)
      isplitl [Hb0]; · iexact Hb0
      isplitl [Hb1]; · iexact Hb1
      iexact Hbr
    isplitl [Hv']; · iexists _; iexact Hv'
    iexact Hbufs
  isplitl [Hs2 Hs3 Hs5 Hsems]
  · isplitl [Hs2]; · iexact Hs2
    isplitl [Hs3]; · iexact Hs3
    isplitl [Hs5]; · iexact Hs5
    iexact Hsems
  iexists (insert (SemLoc.dma cc0_scoped0.sem, (default : HIx 1)) W2); isplitr
  · ipureintro; intro p hp
    rcases Finset.mem_insert.mp hp with hp | hp
    · exact .inr (by rw [hp]; rfl)
    · exact hW2 p hp
  · iexact HO

end BodyV

end Cert.KB.Tile

end
-- ==== Proof.KB.Glue.lean ====
/-
  The two facts about the kernels' bodies, in the launch's own words.

  The vector subcores: the body's theorem at a symbolic tile is stated over the set of the tile's two result rows as the
  last copy's target spells it; that set is the rows whose number halves to the tile's number, which is how the launch
  deals the rows, and the specified values are the SparseCore part of the specification.

  The TensorCore kernel's region: the record of the region is stated over the kernel's own spelling of the two arrays'
  locations, which are the TensorCore's buffers of the segment array and of the TensorCore result.
-/
import proofs.«210774_g2740189135076_cont_9to1_1653_26_alg».proof.Proof.KB.LaunchC
import proofs.«210774_g2740189135076_cont_9to1_1653_26_alg».proof.Proof.KB.Tile
import proofs.«210774_g2740189135076_cont_9to1_1653_26_alg».proof.Proof.KB.TileV

noncomputable section

namespace Cert.KB.Glue

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KB.Launch

variable {F : FTy → Type} [FloatOps F]

local notation "𝕄" => MT nD τ sig (HIx 1) (Elt F) ℕ UU ℕ

/-! ## The vector subcores' body -/

/-- The body's theorem at a symbolic tile, in the body's own spelling: from a read share of the segment array and the
    tile's two result rows (the set of the last copy's target), the body runs and leaves the rows at the SparseCore
    part of the specification. -/
def TileBody : Prop :=
  ∀ (d : Dev nD) (L : grid0.Coords) (q : PosShare TreeShare) (X : Buf (Elt F) (Cert.KB.Tile.xLoc d))
    (O : CellTallies nD τ sig (HIx 1)) (W : Waits sig (HIx 1)), (∀ g, O g none = 0) →
    iprop(levAts (Cert.KB.Tile.K (F := F)).L (Cert.KB.Tile.K (F := F)).lev ∗ (Cert.KB.Tile.xLoc d ↦{q} X)
        ∗ (∃ f : Buf (Elt F) (Cert.KB.Tile.sLoc d), Cert.KB.Tile.sLoc d ↦[Cert.KB.Tile.tileRows L]{fullShare} f)
        ∗ scopedBufs (Cert.KB.Tile.thrOf d L) ∗ scopedSems0 (Cert.KB.Tile.thrOf d L) ∗ owes (Cert.KB.Tile.thrOf d L) O W)
      ⊢ (wp frame (wpE (defs₀ (F := F)) Cert.KB.Tile.𝒱₀ (Cert.KB.Tile.thrOf d L) none) Set.univ
          (cc0__sc_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scratch2 cc0_scratch3 cc0_scoped0)
          fun _ => iprop((Cert.KB.Tile.xLoc d ↦{q} X)
            ∗ (Cert.KB.Tile.sLoc d ↦[Cert.KB.Tile.tileRows L]{fullShare} Cert.Spec.scVal (F := F) X)
            ∗ scopedBufs (Cert.KB.Tile.thrOf d L) ∗ scopedSems0 (Cert.KB.Tile.thrOf d L)
            ∗ ∃ W', ⌜∀ p ∈ W', p ∈ W ∨ p.2 = none⌝ ∗ owes (Cert.KB.Tile.thrOf d L) O W') : sProp 𝕄)

/-- The body's theorem is what the launch asks of the vector subcores: the last copy's target is the tile's two rows
    as the launch deals them. -/
theorem tileSpec_of (hb : TileBody (F := F)) : TileSpec (F := F) := by
  intro d L q X O W hO
  have h := hb d L q X O W hO
  rw [Cert.KB.Tile.tileRows_eq] at h
  exact h

/-- What the launch asks of the vector subcores, from the body's theorem. -/
theorem tileSpec : TileSpec (F := F) :=
  tileSpec_of fun d L q X O W hO => Cert.KB.Tile.tile_body (F := F) (U := UU) facts d L q X O W hO

/-! ## The TensorCore kernel's region -/

/-- The region's record in the kernel's own spelling of the two arrays: entered from the segment array at `Xin`, the
    TensorCore result's buffer at `V2` and the TensorCore owing nothing, it leaves the result at the TensorCore part
    of the specification and the recorded waits grown only by waits at no call. -/
def RegionRecord : Prop :=
  ∀ (Xin : (c : Dev nD) → S64x4096x128.Idx → F .f32) (V2 : (c : Dev nD) → S64x128.Idx → F .f32)
    (W₀ : Dev nD → Waits sig (HIx 1)),
    ∃ (rdats : (p : Fin 1) → (c : Dev nD) → Pipeline.RDat τ (Elt F) (HIx 1) ℕ UU ℕ (cfgsP (F := F) p) c)
      (R : Pipeline.RDat.RegionSeg (pcfgs (F := F)) aP rdats (none : HIx 1) defs₀ 𝒱₀ (K (F := F)).L (K (F := F)).lev 0),
      (∀ c, R.pre c = (iprop(((Memref.whole main_v0).view.loc (T c) ↦{fullShare} Xin c)
          ∗ ((Memref.whole main_v2).view.loc (T c) ↦{fullShare} V2 c) ∗ owes (T c) 0 (W₀ c)) : sProp 𝕄))
      ∧ (∀ c, R.post c ⊢ (iprop(((Memref.whole main_v0).view.loc (T c) ↦{fullShare} Xin c)
          ∗ ((Memref.whole main_v2).view.loc (T c) ↦{fullShare} Cert.Spec.tcVal (F := F) reduces_S2816x128_S128 (Xin c))
          ∗ ∃ W', ⌜∀ p ∈ W', p ∈ W₀ c ∨ p.2 = none⌝ ∗ owes (T c) 0 W') : sProp 𝕄))

/-- The record is what @main's proof asks of the region: the kernel's two arrays are the TensorCore's buffers of the
    segment array and of the TensorCore result. -/
theorem regionSpec_of (ha : RegionRecord (F := F)) : RegionSpec (F := F) := by
  intro X Y W₀
  obtain ⟨rdats, R, hpre, hpost⟩ := ha X Y W₀
  refine ⟨rdats, R, fun c => ?_, fun c => (hpost c).trans ?_⟩
  · rw [hpre c]
  · exact Entails.of_eq rfl

end Cert.KB.Glue

end
-- ==== Proof.KB.Tc.lean ====
/-
  The TensorCore kernel's region of the program: its body run once, from the input held whole and a four-slot ring of
  copies, to the staging buffer holding, in row `s`, the total of rows 1280 … 4095 of segment `s` times 1/128.

  The body starts the copies of segments 0 … 3 into the four slots, one semaphore per slot; each of 16 trips then, slot
  by slot, waits for the slot's copy, loads the slot whole, reduces it along its rows, multiplies by 1/128, stores the
  row, and (but in the last trip) starts the copy of the segment four further on into the same slot.  The loop's
  invariant holds, per slot, the copy in flight with what it will deliver, and of the staging buffer that the rows
  below `4k` are done.
-/
import proofs.«210774_g2740189135076_cont_9to1_1653_26_alg».proof.Kernel
import proofs.«210774_g2740189135076_cont_9to1_1653_26_alg».proof.Proof.Gen.Kernel
import proofs.«210774_g2740189135076_cont_9to1_1653_26_alg».proof.Proof.Gen.Kernel.Skeleton
import proofs.«210774_g2740189135076_cont_9to1_1653_26_alg».proof.Proof.Gen.Kernel.Loops
import proofs.«210774_g2740189135076_cont_9to1_1653_26_alg».proof.Proof.Gen.Kernel.Launch
import proofs.«210774_g2740189135076_cont_9to1_1653_26_alg».proof.Proof.Gen.Kernel.Points
import proofs.«210774_g2740189135076_cont_9to1_1653_26_alg».proof.Proof.Spec
import Idealize.ShloMosaic.Lib.SparseCore.Launch
import Idealize.ShloMosaic.Lib.Pipeline.Regions
import Idealize.ShloMosaic.Lib.Pipeline.Kit
import Idealize.ShloMosaic.Lib.Tactic
import Idealize.ShloMosaic.Lib.ValueLayout
import Idealize.ShloMosaic.Lib.WritesUnit
import Idealize.ShloMosaic.Lib.Ring

noncomputable section

namespace Cert.KB.Tc

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

/-! ## The kernel's buffers as its body names them -/

/-- The DMA semaphore of slot `j` of the ring. -/
abbrev slotSem (j : Fin 4) : DmaSem sig := ⟨4 + j.val, by have := j.isLt; show 4 + j.val < 8; omega⟩

/-- Slot `j` of the scratch, as a 2816 × 128 array. -/
abbrev slot0 : Memref sig .tc .vmem S2816x128 .f32 := ((Memref.whole cc1_scratch0).slice (Rect.unit (s := S4x2816x128) ![0, 0, 0] S1x2816x128.size inb_S4x2816x128_S1x2816x128_0_0_0) (fun _ => rfl)).squeeze S2816x128 squeezes_S1x2816x128_S2816x128
abbrev slot1 : Memref sig .tc .vmem S2816x128 .f32 := ((Memref.whole cc1_scratch0).slice (Rect.unit (s := S4x2816x128) ![1, 0, 0] S1x2816x128.size inb_S4x2816x128_S1x2816x128_1_0_0) (fun _ => rfl)).squeeze S2816x128 squeezes_S1x2816x128_S2816x128
abbrev slot2 : Memref sig .tc .vmem S2816x128 .f32 := ((Memref.whole cc1_scratch0).slice (Rect.unit (s := S4x2816x128) ![2, 0, 0] S1x2816x128.size inb_S4x2816x128_S1x2816x128_2_0_0) (fun _ => rfl)).squeeze S2816x128 squeezes_S1x2816x128_S2816x128
abbrev slot3 : Memref sig .tc .vmem S2816x128 .f32 := ((Memref.whole cc1_scratch0).slice (Rect.unit (s := S4x2816x128) ![3, 0, 0] S1x2816x128.size inb_S4x2816x128_S1x2816x128_3_0_0) (fun _ => rfl)).squeeze S2816x128 squeezes_S1x2816x128_S2816x128

/-- A segment number from a natural number (only numbers below 64 are ever asked). -/
def segOf (n : Nat) : Fin 64 := ⟨n % 64, Nat.mod_lt _ (by decide)⟩

theorem segOf_val {n : Nat} (h : n < 64) : (segOf n).val = n := Nat.mod_eq_of_lt h

/-- Rows 1280 … 4095 of a segment lie inside the input. -/
theorem srcInb (s : Fin 64) : ∀ a, (![s.val, 1280, 0] : Fin 3 → Nat) a + S1x2816x128.size a ≤ S64x4096x128.size a := by
  intro a; have := s.isLt
  fin_cases a <;> simp <;> omega

/-- Rows 1280 … 4095 of segment `s` of the input, as a 2816 × 128 array: what one copy reads. -/
abbrev srcSeg (s : Fin 64) : Memref sig .tc .hbm S2816x128 .f32 :=
  ((Memref.whole main_v0).slice (Rect.unit (s := S64x4096x128) ![s.val, 1280, 0] S1x2816x128.size (srcInb s)) (fun _ => rfl)).squeeze S2816x128 squeezes_S1x2816x128_S2816x128

/-- The read share of the input that the copies completing on slot `j`'s semaphore borrow. -/
abbrev tok (j : Fin 4) : PosShare TreeShare := Transfers.shareTok fullShare 8 (slotSem j)

/-- One slot of the ring before the trip that consumes segment `n`: while `n` is a segment, the copy of its rows
    1280 … 4095 into the slot is in flight on the slot's semaphore, to deliver the slot at those rows and the borrowed
    part of the input; past the last segment the slot, the input's share and the semaphore at zero are all back. -/
def slotInv (c : Dev nD) (X : S64x4096x128.Idx → F .f32) (sm : DmaSem sig) (slot : Memref sig .tc .vmem S2816x128 .f32)
    (q : PosShare TreeShare) (n : Nat) : sProp 𝕄 :=
  if n < 64 then
    iprop(∃ G, ⌜slot.view.read (Elt F) G = Cert.Spec.tailRows X (segOf n)⌝
      ∗ Transfers.Flight countersEmb (c : Thread nD τ) (SemLoc.dma sm) (default : HIx 1) 45056
          iprop((slot.view.loc (c : Thread nD τ) ↦[slot.view.set]{fullShare} G)
            ∗ ((Memref.whole main_v0).view.loc (c : Thread nD τ) ↦[(srcSeg (segOf n)).view.set]{q} X))
      ∗ ((Memref.whole main_v0).view.loc (c : Thread nD τ) ↦[Finset.univ \ (srcSeg (segOf n)).view.set]{q} X))
  else
    iprop((∃ G, slot.view.loc (c : Thread nD τ) ↦[slot.view.set]{fullShare} G)
      ∗ ((Memref.whole main_v0).view.loc (c : Thread nD τ) ↦{q} X)
      ∗ semVal ((c : Thread nD τ), SemLoc.dma sm) 0)

open Idealize.ShloMosaic.ValueIdx

/-! ## Values -/

/-- One stored row: the reduction of the loaded slot along its rows, times 1/128, read at a column. -/
theorem pay_apply (v : Vec F S1x2816x128 .f32) (x : S1x128.Idx) :
    k1_pay2 v x = FloatOps.mulf (multiReduction .add [0] S128 (shapeCast S2816x128 v shapeCasts_S1x2816x128_S2816x128) 0x00000000#32
        reduces_S2816x128_S128 (.inl rfl) rfl (ix1 (x 1))) (FloatOps.ofBits .f32 0x3C000000#32) := by
  unfold k1_pay2
  refine congrArg (fun t => FloatOps.mulf t (FloatOps.ofBits .f32 0x3C000000#32)) ?_
  exact (congrArg (shapeCast S1x128 _ shapeCasts_S128_S1x128) (eq_ix2 x)).trans (shapeCast_a_1a_apply _ shapeCasts_S128_S1x128 (x 0) (x 1))

/-- Rows 1280 … 4095 of segment `s`, read through the memref one copy reads from. -/
theorem srcSeg_read (X : S64x4096x128.Idx → F .f32) (s : Fin 64) :
    (srcSeg s).view.read (Elt F) X = Cert.Spec.tailRows X s := by
  funext y
  refine (congrArg (shapeCast S2816x128 ((Memref.whole main_v0).view.readAt (Elt F) (Rect.unit (s := S64x4096x128) ![s.val, 1280, 0] S1x2816x128.size (srcInb s)).toLoadRect X) shapeCasts_S1x2816x128_S2816x128) (eq_ix2 y)).trans
    ((shapeCast_1ab_ab_apply _ shapeCasts_S1x2816x128_S2816x128 (y 0) (y 1)).trans ?_)
  unfold Cert.Spec.tailRows
  show X _ = X _
  refine congrArg X (funext fun a => Fin.ext ?_)
  fin_cases a <;> simp <;> omega

/-- The memref one copy reads from, at offsets as the body computes them. -/
abbrev srcAt (off : Fin 3 → ℕ) (h : ∀ a, off a + S1x2816x128.size a ≤ S64x4096x128.size a) : Memref sig .tc .hbm S2816x128 .f32 :=
  ((Memref.whole main_v0).slice (Rect.unit (s := S64x4096x128) off S1x2816x128.size h) (fun _ => rfl)).squeeze S2816x128 squeezes_S1x2816x128_S2816x128

theorem srcAt_eq (off : Fin 3 → ℕ) (h : ∀ a, off a + S1x2816x128.size a ≤ S64x4096x128.size a) (s : Fin 64)
    (e : off = ![s.val, 1280, 0]) : srcAt off h = srcSeg s := by
  subst e; rfl

/-- A stored row is the specification's value there: the slot holds the segment's last 2816 rows. -/
theorem row_val (X : S64x4096x128.Idx → F .f32) (v : Vec F S1x2816x128 .f32) (s : Fin 64)
    (hv : shapeCast S2816x128 v shapeCasts_S1x2816x128_S2816x128 = Cert.Spec.tailRows X s)
    (i : S64x128.Idx) (x : S1x128.Idx) (h0 : (i 0).val = s.val) (h1 : (x 1).val = (i 1).val) :
    k1_pay2 v x = Cert.Spec.tcVal reduces_S2816x128_S128 X i := by
  rw [pay_apply, hv]
  unfold Cert.Spec.tcVal
  have e0 : i 0 = s := Fin.ext h0
  have e1 : (ix1 (x 1) : S128.Idx) = ix1 (i 1) := congrArg ix1 (Fin.ext h1)
  rw [e0, e1]
  rfl

/-- One stored row read back: row `r` reads the piece, every other row what was there before. -/
theorem read_row_cons (v : View sig .tc .vmem S64x128 .f32) (f : v.ty.Contents (Elt F)) {off : Fin 2 → ℕ}
    (inb : ∀ a : Fin 2, off a + S1x128.size a ≤ S64x128.size a)
    (w : (Rect.unit (s := S64x128) off S1x128.size inb).shape.Idx → Elt F .f32) (L : List (View.Piece (Elt F) S64x128 .f32))
    (y : S64x128.Idx) (r : ℕ) (hoff : off = ![r, 0]) (T : F .f32)
    (hin : (y 0).val = r → ∀ x : S1x128.Idx, (x 1).val = (y 1).val → w x = T)
    (hout : (y 0).val ≠ r → v.read (Elt F) (v.writes (Elt F) f L) y = T) :
    v.read (Elt F) (v.writes (Elt F) f ((⟨Rect.unit (s := S64x128) off S1x128.size inb, w⟩ : View.Piece (Elt F) S64x128 .f32) :: L)) y = T := by
  rw [View.read_writes_cons_rows v f inb w L y hoff (W := 1) rfl rfl]
  split
  · next h => exact hin (by omega) _ (by rw [Rect.unitLocal_val]; rfl)
  · next h => exact hout (by omega)

theorem conds : ∀ k : Fin k1_t1_loop.trips, (k1_cond1 k = 1#1 ↔ k.val < 15) ∧ (k1_cond2 k = 1#1 ↔ k.val < 15)
    ∧ (k1_cond3 k = 1#1 ↔ k.val < 15) ∧ (k1_cond4 k = 1#1 ↔ k.val < 15) := by decide +kernel

theorem slotInv_pos (c : Dev nD) (X : S64x4096x128.Idx → F .f32) (sm : DmaSem sig) (slot : Memref sig .tc .vmem S2816x128 .f32)
    (q : PosShare TreeShare) {n : Nat} (hn : n < 64) :
    (slotInv c X sm slot q n : sProp 𝕄) = iprop(∃ G, ⌜slot.view.read (Elt F) G = Cert.Spec.tailRows X (segOf n)⌝
      ∗ Transfers.Flight countersEmb (c : Thread nD τ) (SemLoc.dma sm) (default : HIx 1) 45056
          iprop((slot.view.loc (c : Thread nD τ) ↦[slot.view.set]{fullShare} G)
            ∗ ((Memref.whole main_v0).view.loc (c : Thread nD τ) ↦[(srcSeg (segOf n)).view.set]{q} X))
      ∗ ((Memref.whole main_v0).view.loc (c : Thread nD τ) ↦[Finset.univ \ (srcSeg (segOf n)).view.set]{q} X)) := by
  unfold slotInv; rw [if_pos hn]

theorem slotInv_neg (c : Dev nD) (X : S64x4096x128.Idx → F .f32) (sm : DmaSem sig) (slot : Memref sig .tc .vmem S2816x128 .f32)
    (q : PosShare TreeShare) {n : Nat} (hn : ¬ n < 64) :
    (slotInv c X sm slot q n : sProp 𝕄) = iprop((∃ G, slot.view.loc (c : Thread nD τ) ↦[slot.view.set]{fullShare} G)
      ∗ ((Memref.whole main_v0).view.loc (c : Thread nD τ) ↦{q} X)
      ∗ semVal ((c : Thread nD τ), SemLoc.dma sm) 0) := by
  unfold slotInv; rw [if_neg hn]

/-- A copy just started on a slot's semaphore, from the segment's rows at the offsets the body computed, is that slot's
    state before the trip that consumes the segment. -/
theorem slotInv_of_flight (c : Dev nD) (X : S64x4096x128.Idx → F .f32) (sm : DmaSem sig) (slot : Memref sig .tc .vmem S2816x128 .f32)
    (q : PosShare TreeShare) (n : Nat) (hn : n < 64) (off : Fin 3 → ℕ) (h : ∀ a, off a + S1x2816x128.size a ≤ S64x4096x128.size a)
    (e : off = ![n, 1280, 0]) (G0 : slot.view.ty.Contents (Elt F)) (P : S2816x128.Idx → Elt F .f32)
    (hP : P = ReadAs.same.apply ((srcAt off h).view.read (Elt F) X)) :
    iprop(Transfers.Flight countersEmb (c : Thread nD τ) (SemLoc.dma sm) (default : HIx 1) 45056
          iprop((slot.view.loc (c : Thread nD τ) ↦[slot.view.set]{fullShare} slot.view.writes (Elt F) G0 [⟨Rect.whole S2816x128, P⟩])
            ∗ ((Memref.whole main_v0).view.loc (c : Thread nD τ) ↦[(srcAt off h).view.set]{q} X))
        ∗ ((Memref.whole main_v0).view.loc (c : Thread nD τ) ↦[Finset.univ \ (srcAt off h).view.set]{q} X))
      ⊢ (slotInv c X sm slot q n : sProp 𝕄) := by
  have e' : off = ![(segOf n).val, 1280, 0] := by rw [e, segOf_val hn]
  subst e'
  rw [slotInv_pos c X sm slot q hn]
  iintro ⟨Hf, Hr⟩
  iexists (slot.view.writes (Elt F) G0 [⟨Rect.whole S2816x128, P⟩])
  isplitr
  · ipureintro
    rw [View.read_writes_whole, hP, ReadAs.apply_same]
    exact srcSeg_read X (segOf n)
  isplitl [Hf]; · iexact Hf
  iexact Hr

/-! ## The loop's invariant -/

/-- The staging buffer before trip `k`: rows below `4k` hold their results. -/
def stageInv (c : Dev nD) (X : S64x4096x128.Idx → F .f32) (k : Nat) : sProp 𝕄 :=
  iprop(∃ f, ((win1_0.stage 0).view.loc (c : Thread nD τ) ↦{fullShare} f)
    ∗ ⌜∀ i : S64x128.Idx, (i 0).val < 4 * k → (win1_0.stage 0).view.read (Elt F) f i = Cert.Spec.tcVal reduces_S2816x128_S128 X i⌝)

/-- The thread owes nothing, and the waits it has recorded beyond `W₀` are at the kernels' own index. -/
def owesInv (c : Dev nD) (W₀ : Waits sig (HIx 1)) : sProp 𝕄 :=
  iprop(∃ W', owes (c : Thread nD τ) (0 : CellTallies nD τ sig (HIx 1)) W' ∗ ⌜∀ p ∈ W', p ∈ W₀ ∨ p.2 = none⌝)

/-- Before trip `k`: the staged rows, the four slots each with the copy of segment `4k + j` in flight (or, past the last
    segment, handed back), and what the thread owes. -/
def inv (c : Dev nD) (X : S64x4096x128.Idx → F .f32) (W₀ : Waits sig (HIx 1)) (k : Nat) (_ : PUnit) : sProp 𝕄 :=
  iprop(stageInv c X k
    ∗ slotInv c X (slotSem 0) slot0 (tok 0) (4 * k + 0)
    ∗ slotInv c X (slotSem 1) slot1 (tok 1) (4 * k + 1)
    ∗ slotInv c X (slotSem 2) slot2 (tok 2) (4 * k + 2)
    ∗ slotInv c X (slotSem 3) slot3 (tok 3) (4 * k + 3)
    ∗ owesInv c W₀)

/-- The four rows a trip stores, read back: every row below `4(k+1)` holds its result. -/
theorem stage_rows (X : S64x4096x128.Idx → F .f32) (k : Fin k1_t1_loop.trips) (hk16 : k.val < 16)
    (f : (win1_0.stage 0).view.ty.Contents (Elt F))
    (hf : ∀ i : S64x128.Idx, (i 0).val < 4 * k.val → (win1_0.stage 0).view.read (Elt F) f i = Cert.Spec.tcVal reduces_S2816x128_S128 X i)
    (v0 v1 v2 v3 : Vec F S1x2816x128 .f32)
    (h0 : shapeCast S2816x128 v0 shapeCasts_S1x2816x128_S2816x128 = Cert.Spec.tailRows X (segOf (4 * k.val + 0)))
    (h1 : shapeCast S2816x128 v1 shapeCasts_S1x2816x128_S2816x128 = Cert.Spec.tailRows X (segOf (4 * k.val + 1)))
    (h2 : shapeCast S2816x128 v2 shapeCasts_S1x2816x128_S2816x128 = Cert.Spec.tailRows X (segOf (4 * k.val + 2)))
    (h3 : shapeCast S2816x128 v3 shapeCasts_S1x2816x128_S2816x128 = Cert.Spec.tailRows X (segOf (4 * k.val + 3)))
    (i : S64x128.Idx) (hi : (i 0).val < 4 * (k.val + 1)) :
    (win1_0.stage 0).view.read (Elt F) ((win1_0.stage 0).view.writes (Elt F) f
      [⟨Rect.unit (s := S64x128) (k1_off2 k 3#32) S1x128.size (k1_off2_inb k 3), k1_pay1 v3⟩,
       ⟨Rect.unit (s := S64x128) (k1_off2 k 2#32) S1x128.size (k1_off2_inb k 2), k1_pay4 v2⟩,
       ⟨Rect.unit (s := S64x128) (k1_off2 k 1#32) S1x128.size (k1_off2_inb k 1), k1_pay3 v1⟩,
       ⟨Rect.unit (s := S64x128) (k1_off2 k 0#32) S1x128.size (k1_off2_inb k 0), k1_pay2 v0⟩]) i
      = Cert.Spec.tcVal reduces_S2816x128_S128 X i := by
  have b0 : 4 * k.val + 0 < 64 := by omega
  have b1 : 4 * k.val + 1 < 64 := by omega
  have b2 : 4 * k.val + 2 < 64 := by omega
  have b3 : 4 * k.val + 3 < 64 := by omega
  refine read_row_cons _ f _ _ _ i (4 * k.val + 3) (k1_off2_eq k ⟨3, by decide⟩) _ (fun h x hx => ?_) (fun n3 => ?_)
  · exact row_val X v3 _ h3 i x (by rw [segOf_val b3]; exact h) hx
  refine read_row_cons _ f _ _ _ i (4 * k.val + 2) (k1_off2_eq k ⟨2, by decide⟩) _ (fun h x hx => ?_) (fun n2 => ?_)
  · exact row_val X v2 _ h2 i x (by rw [segOf_val b2]; exact h) hx
  refine read_row_cons _ f _ _ _ i (4 * k.val + 1) (k1_off2_eq k ⟨1, by decide⟩) _ (fun h x hx => ?_) (fun n1 => ?_)
  · exact row_val X v1 _ h1 i x (by rw [segOf_val b1]; exact h) hx
  refine read_row_cons _ f _ _ _ i (4 * k.val + 0) (k1_off2_eq k ⟨0, by decide⟩) _ (fun h x hx => ?_) (fun n0 => ?_)
  · exact row_val X v0 _ h0 i x (by rw [segOf_val b0]; exact h) hx
  exact hf i (by omega)

/-- One trip that starts the next four copies. -/
theorem tripA (c : Dev nD) (X : S64x4096x128.Idx → F .f32) (W₀ : Waits sig (HIx 1)) (k : Fin k1_t1_loop.trips) (hk : k.val < 15) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  have h1 : k1_cond1 k = 1#1 := (conds k).1.2 hk
  have h2 : k1_cond2 k = 1#1 := (conds k).2.1.2 hk
  have h3 : k1_cond3 k = 1#1 := (conds k).2.2.1.2 hk
  have h4 : k1_cond4 k = 1#1 := (conds k).2.2.2.2 hk
  have n0 : 4 * (k.val + 1) + 0 < 64 := by omega
  have n1 : 4 * (k.val + 1) + 1 < 64 := by omega
  have n2 : 4 * (k.val + 1) + 2 < 64 := by omega
  have n3 : 4 * (k.val + 1) + 3 < 64 := by omega
  have hk16 : k.val < 16 := lt_of_lt_of_le k.isLt k1_t1_abs.2.1
  have b0 : 4 * k.val + 0 < 64 := by omega
  have b1 : 4 * k.val + 1 < 64 := by omega
  have b2 : 4 * k.val + 2 < 64 := by omega
  have b3 : 4 * k.val + 3 < 64 := by omega
  unfold inv
  rw [slotInv_pos c X (slotSem 0) slot0 (tok 0) b0, slotInv_pos c X (slotSem 1) slot1 (tok 1) b1,
    slotInv_pos c X (slotSem 2) slot2 (tok 2) b2, slotInv_pos c X (slotSem 3) slot3 (tok 3) b3]
  unfold stageInv owesInv
  unfold k1_t1_body
  rw [k1_part1_eq_skeleton, k1_part2_eq_skeleton]; unfold k1_part1_skel k1_part2_skel
  iintro ⟨⟨%f, Hst, %hf⟩, ⟨%G0, %hG0, Hf0, Hr0⟩, ⟨%G1, %hG1, Hf1, Hr1⟩, ⟨%G2, %hG2, Hf2, Hr2⟩, ⟨%G3, %hG3, Hf3, Hr3⟩, ⟨%W', HO, %hW'⟩⟩
  sl_exec
  sl_step
  isplitl [Hst]
  · iexists _
    isplitl [Hst]; · iexact Hst
    ipureintro
    intro i hi
    exact stage_rows X k hk16 f hf
      (View.readAt (Elt F) (Memref.whole cc1_scratch0).view (Rect.unit (s := S4x2816x128) ![0, 0, 0] S1x2816x128.size inb_S4x2816x128_S1x2816x128_0_0_0).toLoadRect G0)
      (View.readAt (Elt F) (Memref.whole cc1_scratch0).view (Rect.unit (s := S4x2816x128) ![1, 0, 0] S1x2816x128.size inb_S4x2816x128_S1x2816x128_1_0_0).toLoadRect G1)
      (View.readAt (Elt F) (Memref.whole cc1_scratch0).view (Rect.unit (s := S4x2816x128) ![2, 0, 0] S1x2816x128.size inb_S4x2816x128_S1x2816x128_2_0_0).toLoadRect G2)
      (View.readAt (Elt F) (Memref.whole cc1_scratch0).view (Rect.unit (s := S4x2816x128) ![3, 0, 0] S1x2816x128.size inb_S4x2816x128_S1x2816x128_3_0_0).toLoadRect G3)
      hG0 hG1 hG2 hG3 i hi
  isplitl [Hf0 Hr0]
  · iapply (slotInv_of_flight c X (slotSem 0) slot0 (tok 0) (4 * (k.val + 1) + 0) n0 (k1_off3 k) (k1_off3_inb k h1)
      (by rw [show 4 * (k.val + 1) + 0 = 4 * k.val + 4 by omega]; exact k1_off3_eq k) G0 _ rfl)
    isplitl [Hf0]; · iexact Hf0
    iexact Hr0
  isplitl [Hf1 Hr1]
  · iapply (slotInv_of_flight c X (slotSem 1) slot1 (tok 1) (4 * (k.val + 1) + 1) n1 (k1_off4 k) (k1_off4_inb k h2)
      (by rw [show 4 * (k.val + 1) + 1 = 4 * k.val + 5 by omega]; exact k1_off4_eq k) G1 _ rfl)
    isplitl [Hf1]; · iexact Hf1
    iexact Hr1
  isplitl [Hf2 Hr2]
  · iapply (slotInv_of_flight c X (slotSem 2) slot2 (tok 2) (4 * (k.val + 1) + 2) n2 (k1_off5 k) (k1_off5_inb k h3)
      (by rw [show 4 * (k.val + 1) + 2 = 4 * k.val + 6 by omega]; exact k1_off5_eq k) G2 _ rfl)
    isplitl [Hf2]; · iexact Hf2
    iexact Hr2
  isplitl [Hf3 Hr3]
  · iapply (slotInv_of_flight c X (slotSem 3) slot3 (tok 3) (4 * (k.val + 1) + 3) n3 (k1_off6 k) (k1_off6_inb k h4)
      (by rw [show 4 * (k.val + 1) + 3 = 4 * k.val + 7 by omega]; exact k1_off6_eq k) G3 _ rfl)
    isplitl [Hf3]; · iexact Hf3
    iexact Hr3
  iexists _
  isplitl [HO]; · iexact HO
  ipureintro
  intro p hp
  simp only [Finset.mem_insert] at hp
  rcases hp with rfl | rfl | rfl | rfl | hp
  · exact .inr rfl
  · exact .inr rfl
  · exact .inr rfl
  · exact .inr rfl
  · exact hW' p hp

/-- The last trip: no further copy; slots, shares of the input and semaphores are handed back. -/
theorem tripB (c : Dev nD) (X : S64x4096x128.Idx → F .f32) (W₀ : Waits sig (HIx 1)) (k : Fin k1_t1_loop.trips) (hk : ¬ k.val < 15) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  have h1 : ¬ k1_cond1 k = 1#1 := fun h => hk ((conds k).1.1 h)
  have h2 : ¬ k1_cond2 k = 1#1 := fun h => hk ((conds k).2.1.1 h)
  have h3 : ¬ k1_cond3 k = 1#1 := fun h => hk ((conds k).2.2.1.1 h)
  have h4 : ¬ k1_cond4 k = 1#1 := fun h => hk ((conds k).2.2.2.1 h)
  have n0 : ¬ 4 * (k.val + 1) + 0 < 64 := by omega
  have n1 : ¬ 4 * (k.val + 1) + 1 < 64 := by omega
  have n2 : ¬ 4 * (k.val + 1) + 2 < 64 := by omega
  have n3 : ¬ 4 * (k.val + 1) + 3 < 64 := by omega
  have hk16 : k.val < 16 := lt_of_lt_of_le k.isLt k1_t1_abs.2.1
  have b0 : 4 * k.val + 0 < 64 := by omega
  have b1 : 4 * k.val + 1 < 64 := by omega
  have b2 : 4 * k.val + 2 < 64 := by omega
  have b3 : 4 * k.val + 3 < 64 := by omega
  unfold inv
  rw [slotInv_pos c X (slotSem 0) slot0 (tok 0) b0, slotInv_pos c X (slotSem 1) slot1 (tok 1) b1,
    slotInv_pos c X (slotSem 2) slot2 (tok 2) b2, slotInv_pos c X (slotSem 3) slot3 (tok 3) b3]
  unfold stageInv owesInv
  unfold k1_t1_body
  rw [k1_part1_eq_skeleton, k1_part2_eq_skeleton]; unfold k1_part1_skel k1_part2_skel
  iintro ⟨⟨%f, Hst, %hf⟩, ⟨%G0, %hG0, Hf0, Hr0⟩, ⟨%G1, %hG1, Hf1, Hr1⟩, ⟨%G2, %hG2, Hf2, Hr2⟩, ⟨%G3, %hG3, Hf3, Hr3⟩, ⟨%W', HO, %hW'⟩⟩
  sl_exec
  sl_step
  isplitl [Hst]
  · iexists _
    isplitl [Hst]; · iexact Hst
    ipureintro
    intro i hi
    exact stage_rows X k hk16 f hf
      (View.readAt (Elt F) (Memref.whole cc1_scratch0).view (Rect.unit (s := S4x2816x128) ![0, 0, 0] S1x2816x128.size inb_S4x2816x128_S1x2816x128_0_0_0).toLoadRect G0)
      (View.readAt (Elt F) (Memref.whole cc1_scratch0).view (Rect.unit (s := S4x2816x128) ![1, 0, 0] S1x2816x128.size inb_S4x2816x128_S1x2816x128_1_0_0).toLoadRect G1)
      (View.readAt (Elt F) (Memref.whole cc1_scratch0).view (Rect.unit (s := S4x2816x128) ![2, 0, 0] S1x2816x128.size inb_S4x2816x128_S1x2816x128_2_0_0).toLoadRect G2)
      (View.readAt (Elt F) (Memref.whole cc1_scratch0).view (Rect.unit (s := S4x2816x128) ![3, 0, 0] S1x2816x128.size inb_S4x2816x128_S1x2816x128_3_0_0).toLoadRect G3)
      hG0 hG1 hG2 hG3 i hi
  rw [slotInv_neg c X (slotSem 0) slot0 (tok 0) n0, slotInv_neg c X (slotSem 1) slot1 (tok 1) n1,
    slotInv_neg c X (slotSem 2) slot2 (tok 2) n2, slotInv_neg c X (slotSem 3) slot3 (tok 3) n3]
  isplitl [Hf0_dst Hr0 Hf0]
  · isplitl [Hf0_dst]; · iexists _; iexact Hf0_dst
    isplitl [Hr0]; · iexact Hr0
    iexact Hf0
  isplitl [Hf1_dst Hr1 Hf1]
  · isplitl [Hf1_dst]; · iexists _; iexact Hf1_dst
    isplitl [Hr1]; · iexact Hr1
    iexact Hf1
  isplitl [Hf2_dst Hr2 Hf2]
  · isplitl [Hf2_dst]; · iexists _; iexact Hf2_dst
    isplitl [Hr2]; · iexact Hr2
    iexact Hf2
  isplitl [Hf3_dst Hr3 Hf3]
  · isplitl [Hf3_dst]; · iexists _; iexact Hf3_dst
    isplitl [Hr3]; · iexact Hr3
    iexact Hf3
  iexists _
  isplitl [HO]; · iexact HO
  ipureintro
  intro p hp
  simp only [Finset.mem_insert] at hp
  rcases hp with rfl | rfl | rfl | rfl | hp
  · exact .inr rfl
  · exact .inr rfl
  · exact .inr rfl
  · exact .inr rfl
  · exact hW' p hp

/-- One trip of the loop, at any trip. -/
theorem trip (c : Dev nD) (X : S64x4096x128.Idx → F .f32) (W₀ : Waits sig (HIx 1)) (k : Fin k1_t1_loop.trips) :
    (inv c X W₀ k.val PUnit.unit : sProp 𝕄)
      ⊢ wp frame (wpE (defs₀ (F := F)) Variants.none (c : Thread nD τ) none) Set.univ
          (k1_t1_body (F := F) (Memref.whole main_v0) (Memref.isWhole_whole _) (win1_0.stage 0) (hstage1_0 0) (Memref.whole cc1_scratch0) (Memref.isWhole_whole _) cc1_scratch1 0#32 1#32 k ())
          fun acc => inv c X W₀ (k.val + 1) acc := by
  by_cases hk : k.val < 15
  · exact tripA c X W₀ k hk
  · exact tripB c X W₀ k hk

/-! ## The scratch as its four slots, the input as its read shares -/

set_option quotPrecheck false in
local notation "SL(" c ")" => (Memref.whole cc1_scratch0).view.loc (c : Thread nD τ)
set_option quotPrecheck false in
local notation "ML(" c ")" => (Memref.whole main_v0).view.loc (c : Thread nD τ)

abbrev slotOff (b : Fin 4) : Fin 3 → ℕ := ![b.val, 0, 0]

theorem slotInb (b : Fin 4) : ∀ a, slotOff b a + S1x2816x128.size a ≤ S4x2816x128.size a := by
  intro a; have := b.isLt
  fin_cases a <;> simp <;> omega

/-- The elements of slot `b`. -/
abbrev slotSet (c : Dev nD) (b : Fin 4) : Finset (Idx (SL(c))) :=
  (Rect.unit (s := S4x2816x128) (slotOff b) S1x2816x128.size (slotInb b)).set

theorem slot_disj (c : Dev nD) : ∀ b b', b ≠ b' → Disjoint (slotSet c b) (slotSet c b') :=
  Ring.lead_disjoint (s := S4x2816x128) (0 : Fin 3) 1 slotOff S1x2816x128.size slotInb (fun b => (Nat.one_mul _).symm) rfl

theorem slot_cover (c : Dev nD) : Finset.univ.biUnion (slotSet c) = Finset.univ :=
  Ring.lead_cover (s := S4x2816x128) (0 : Fin 3) 1 slotOff S1x2816x128.size slotInb (fun b => (Nat.one_mul _).symm)
    (by intro b a ha; fin_cases a <;> simp_all) rfl (by intro a ha; fin_cases a <;> simp_all) rfl

theorem slot0_set (c : Dev nD) : (slot0.view.set : Finset (Idx (SL(c)))) = slotSet c 0 :=
  (View.set_reshape (v := ((Memref.whole cc1_scratch0).slice (Rect.unit (s := S4x2816x128) ![0, 0, 0] S1x2816x128.size inb_S4x2816x128_S1x2816x128_0_0_0) (fun _ => rfl)).view) squeezes_S1x2816x128_S2816x128.numel_eq).trans (View.set_slice_whole cc1_scratch0 _)
theorem slot1_set (c : Dev nD) : (slot1.view.set : Finset (Idx (SL(c)))) = slotSet c 1 :=
  (View.set_reshape (v := ((Memref.whole cc1_scratch0).slice (Rect.unit (s := S4x2816x128) ![1, 0, 0] S1x2816x128.size inb_S4x2816x128_S1x2816x128_1_0_0) (fun _ => rfl)).view) squeezes_S1x2816x128_S2816x128.numel_eq).trans (View.set_slice_whole cc1_scratch0 _)
theorem slot2_set (c : Dev nD) : (slot2.view.set : Finset (Idx (SL(c)))) = slotSet c 2 :=
  (View.set_reshape (v := ((Memref.whole cc1_scratch0).slice (Rect.unit (s := S4x2816x128) ![2, 0, 0] S1x2816x128.size inb_S4x2816x128_S1x2816x128_2_0_0) (fun _ => rfl)).view) squeezes_S1x2816x128_S2816x128.numel_eq).trans (View.set_slice_whole cc1_scratch0 _)
theorem slot3_set (c : Dev nD) : (slot3.view.set : Finset (Idx (SL(c)))) = slotSet c 3 :=
  (View.set_reshape (v := ((Memref.whole cc1_scratch0).slice (Rect.unit (s := S4x2816x128) ![3, 0, 0] S1x2816x128.size inb_S4x2816x128_S1x2816x128_3_0_0) (fun _ => rfl)).view) squeezes_S1x2816x128_S2816x128.numel_eq).trans (View.set_slice_whole cc1_scratch0 _)

/-- The scratch held whole is its four slots, each held on its own elements. -/
theorem scratch_split (c : Dev nD) (g : Buf (Elt F) (SL(c))) :
    (SL(c) ↦{fullShare} g : sProp 𝕄)
      ⊢ iprop((slot0.view.loc (c : Thread nD τ) ↦[slot0.view.set]{fullShare} g) ∗ (slot1.view.loc (c : Thread nD τ) ↦[slot1.view.set]{fullShare} g)
          ∗ (slot2.view.loc (c : Thread nD τ) ↦[slot2.view.set]{fullShare} g) ∗ (slot3.view.loc (c : Thread nD τ) ↦[slot3.view.set]{fullShare} g)) := by
  rw [slot0_set c, slot1_set c, slot2_set c, slot3_set c,
    Ring.pointsTo_blocks (slotSet c) (slot_disj c) (slot_cover c) g,
    bigSep_univ_eq_bigSepL [(0 : Fin 4), 1, 2, 3] (by decide) (by decide)]
  exact .rfl

/-- The four slots, each at some contents, are the scratch whole at some contents. -/
theorem scratch_join (c : Dev nD) :
    iprop((∃ g, slot0.view.loc (c : Thread nD τ) ↦[slot0.view.set]{fullShare} g) ∗ (∃ g, slot1.view.loc (c : Thread nD τ) ↦[slot1.view.set]{fullShare} g)
        ∗ (∃ g, slot2.view.loc (c : Thread nD τ) ↦[slot2.view.set]{fullShare} g) ∗ (∃ g, slot3.view.loc (c : Thread nD τ) ↦[slot3.view.set]{fullShare} g))
      ⊢ (iprop(∃ g, SL(c) ↦{fullShare} g) : sProp 𝕄) := by
  rw [slot0_set c, slot1_set c, slot2_set c, slot3_set c]
  iintro ⟨⟨%g0, H0⟩, ⟨%g1, H1⟩, ⟨%g2, H2⟩, ⟨%g3, H3⟩⟩
  have hj := Ring.pointsTo_blocks_join_exists (Ix := HIx 1) (Val := Elt F) (Name := ℕ) (U := U) (Lvl := ℕ) (q := fullShare) (slotSet c) (slot_disj c) (slot_cover c) g0
  rw [bigSep_univ_eq_bigSepL [(0 : Fin 4), 1, 2, 3] (by decide) (by decide)] at hj
  have hj' : (iprop((∃ f, SL(c) ↦[slotSet c 0]{fullShare} f) ∗ (∃ f, SL(c) ↦[slotSet c 1]{fullShare} f)
      ∗ (∃ f, SL(c) ↦[slotSet c 2]{fullShare} f) ∗ (∃ f, SL(c) ↦[slotSet c 3]{fullShare} f)) : sProp 𝕄)
      ⊢ iprop(∃ g, SL(c) ↦{fullShare} g) := hj
  iapply hj'
  isplitl [H0]; · iexists g0; iexact H0
  isplitl [H1]; · iexists g1; iexact H1
  isplitl [H2]; · iexists g2; iexact H2
  iexists g3; iexact H3

/-- The shares of the input no copy borrows. -/
def mainRest (c : Dev nD) (X : S64x4096x128.Idx → F .f32) : sProp 𝕄 :=
  iprop((ML(c) ↦{Transfers.shareDrop fullShare 8} X)
    ∗ (ML(c) ↦{Transfers.shareTok fullShare 8 0} X) ∗ (ML(c) ↦{Transfers.shareTok fullShare 8 1} X)
    ∗ (ML(c) ↦{Transfers.shareTok fullShare 8 2} X) ∗ (ML(c) ↦{Transfers.shareTok fullShare 8 3} X))

/-- The input held whole is a read share per slot semaphore and a remainder. -/
theorem main_toks (c : Dev nD) (X : S64x4096x128.Idx → F .f32) :
    (ML(c) ↦{fullShare} X : sProp 𝕄) ⊣⊢ iprop(mainRest c X
      ∗ (ML(c) ↦{tok 0} X) ∗ (ML(c) ↦{tok 1} X) ∗ (ML(c) ↦{tok 2} X) ∗ (ML(c) ↦{tok 3} X)) := by
  have h0 : (ML(c) ↦[Finset.univ]{fullShare} X : sProp 𝕄) ⊣⊢ _ := Transfers.pointsTo_toks fullShare 8
  rw [bigSep_univ_eq_bigSepL [(0 : Fin 8), 1, 2, 3, 4, 5, 6, 7] (by decide) (by decide)] at h0
  have h : (ML(c) ↦{fullShare} X : sProp 𝕄) ⊣⊢ iprop((ML(c) ↦{Transfers.shareDrop fullShare 8} X)
      ∗ (ML(c) ↦{Transfers.shareTok fullShare 8 0} X) ∗ (ML(c) ↦{Transfers.shareTok fullShare 8 1} X)
      ∗ (ML(c) ↦{Transfers.shareTok fullShare 8 2} X) ∗ (ML(c) ↦{Transfers.shareTok fullShare 8 3} X)
      ∗ (ML(c) ↦{Transfers.shareTok fullShare 8 4} X) ∗ (ML(c) ↦{Transfers.shareTok fullShare 8 5} X)
      ∗ (ML(c) ↦{Transfers.shareTok fullShare 8 6} X) ∗ (ML(c) ↦{Transfers.shareTok fullShare 8 7} X)) := h0
  refine ⟨h.1.trans ?_, BIBase.Entails.trans ?_ h.2⟩
  · unfold mainRest
    iintro ⟨Hd, H0, H1, H2, H3, K0, K1, K2, K3⟩
    isplitl [Hd H0 H1 H2 H3]
    · isplitl [Hd]; · iexact Hd
      isplitl [H0]; · iexact H0
      isplitl [H1]; · iexact H1
      isplitl [H2]; · iexact H2
      iexact H3
    isplitl [K0]; · iexact K0
    isplitl [K1]; · iexact K1
    isplitl [K2]; · iexact K2
    iexact K3
  · unfold mainRest
    iintro ⟨⟨Hd, H0, H1, H2, H3⟩, K0, K1, K2, K3⟩
    isplitl [Hd]; · iexact Hd
    isplitl [H0]; · iexact H0
    isplitl [H1]; · iexact H1
    isplitl [H2]; · iexact H2
    isplitl [H3]; · iexact H3
    isplitl [K0]; · iexact K0
    isplitl [K1]; · iexact K1
    isplitl [K2]; · iexact K2
    iexact K3

/-! ## The body -/

/-- What the body ends with: the input whole, the staging buffer at the specification's values, the scratch at some
    contents, the four semaphores at zero, nothing owed. -/
def bodyPost (c : Dev nD) (X : S64x4096x128.Idx → F .f32) (W₀ : Waits sig (HIx 1)) : sProp 𝕄 :=
  iprop((ML(c) ↦{fullShare} X)
    ∗ (∃ f, ((win1_0.stage 0).view.loc (c : Thread nD τ) ↦{fullShare} f)
        ∗ ⌜(win1_0.stage 0).view.read (Elt F) f = Cert.Spec.tcVal reduces_S2816x128_S128 X⌝)
    ∗ (∃ g, SL(c) ↦{fullShare} g)
    ∗ semVal ((c : Thread nD τ), SemLoc.dma (slotSem 0)) 0 ∗ semVal ((c : Thread nD τ), SemLoc.dma (slotSem 1)) 0
    ∗ semVal ((c : Thread nD τ), SemLoc.dma (slotSem 2)) 0 ∗ semVal ((c : Thread nD τ), SemLoc.dma (slotSem 3)) 0
    ∗ owesInv c W₀)

/-- After the last trip: every row staged, every slot, share and semaphore handed back. -/
theorem inv_done (c : Dev nD) (X : S64x4096x128.Idx → F .f32) (W₀ : Waits sig (HIx 1)) (n : Nat) (hn : 16 ≤ n) (u : PUnit) :
    (inv c X W₀ n u : sProp 𝕄) ⊢ iprop((∃ f, ((win1_0.stage 0).view.loc (c : Thread nD τ) ↦{fullShare} f)
          ∗ ⌜(win1_0.stage 0).view.read (Elt F) f = Cert.Spec.tcVal reduces_S2816x128_S128 X⌝)
      ∗ ((∃ G, slot0.view.loc (c : Thread nD τ) ↦[slot0.view.set]{fullShare} G) ∗ (ML(c) ↦{tok 0} X) ∗ semVal ((c : Thread nD τ), SemLoc.dma (slotSem 0)) 0)
      ∗ ((∃ G, slot1.view.loc (c : Thread nD τ) ↦[slot1.view.set]{fullShare} G) ∗ (ML(c) ↦{tok 1} X) ∗ semVal ((c : Thread nD τ), SemLoc.dma (slotSem 1)) 0)
      ∗ ((∃ G, slot2.view.loc (c : Thread nD τ) ↦[slot2.view.set]{fullShare} G) ∗ (ML(c) ↦{tok 2} X) ∗ semVal ((c : Thread nD τ), SemLoc.dma (slotSem 2)) 0)
      ∗ ((∃ G, slot3.view.loc (c : Thread nD τ) ↦[slot3.view.set]{fullShare} G) ∗ (ML(c) ↦{tok 3} X) ∗ semVal ((c : Thread nD τ), SemLoc.dma (slotSem 3)) 0)
      ∗ owesInv c W₀) := by
  unfold inv
  rw [slotInv_neg c X (slotSem 0) slot0 (tok 0) (n := 4 * n + 0) (by omega), slotInv_neg c X (slotSem 1) slot1 (tok 1) (n := 4 * n + 1) (by omega),
    slotInv_neg c X (slotSem 2) slot2 (tok 2) (n := 4 * n + 2) (by omega), slotInv_neg c X (slotSem 3) slot3 (tok 3) (n := 4 * n + 3) (by omega)]
  unfold stageInv
  iintro ⟨⟨%f, Hst, %hf⟩, H0, H1, H2, H3, HO⟩
  isplitl [Hst]
  · iexists f
    isplitl [Hst]; · iexact Hst
    ipureintro
    funext i
    have hi : (i 0).val < 64 := (i 0).isLt
    exact hf i (by omega)
  isplitl [H0]; · iexact H0
  isplitl [H1]; · iexact H1
  isplitl [H2]; · iexact H2
  isplitl [H3]; · iexact H3
  iexact HO

set_option maxHeartbeats 1000000 in
/-- The kernel's body, run once: from the input and the three buffers whole, the four semaphores at zero and nothing
    owed, to `bodyPost`. -/
theorem body (c : Dev nD) (X : S64x4096x128.Idx → F .f32) (W₀ W : Waits sig (HIx 1)) (hW : ∀ p ∈ W, p ∈ W₀ ∨ p.2 = none)
    (f0 : Buf (Elt F) ((win1_0.stage 0).view.loc (c : Thread nD τ))) (g0 : Buf (Elt F) (SL(c))) (Q : PUnit → sProp 𝕄) :
    iprop((ML(c) ↦{fullShare} X)
        ∗ ((win1_0.stage 0).view.loc (c : Thread nD τ) ↦{fullShare} f0)
        ∗ (SL(c) ↦{fullShare} g0)
        ∗ semVal ((c : Thread nD τ), SemLoc.dma (slotSem 0)) 0 ∗ semVal ((c : Thread nD τ), SemLoc.dma (slotSem 1)) 0
        ∗ semVal ((c : Thread nD τ), SemLoc.dma (slotSem 2)) 0 ∗ semVal ((c : Thread nD τ), SemLoc.dma (slotSem 3)) 0
        ∗ owes (c : Thread nD τ) (0 : CellTallies nD τ sig (HIx 1)) W
        ∗ (bodyPost c X W₀ -∗ Q ⟨⟩) : sProp 𝕄)
      ⊢ wp frame (wpE (defs₀ (F := F)) Variants.none (c : Thread nD τ) none) Set.univ
          (cc1__tc_body (F := F) (Memref.whole main_v0) (Memref.isWhole_whole _) (win1_0.stage 0) (hstage1_0 0) (Memref.whole cc1_scratch0) (Memref.isWhole_whole _) cc1_scratch1)
          Q := by
  rw [cc1__tc_body_eq_skeleton]; unfold cc1__tc_body_skel
  rw [k1_part3_eq_skeleton]; unfold k1_part3_skel
  iintro ⟨Hx, Hst, Hsc, Hs0, Hs1, Hs2, Hs3, HO, Hk⟩
  ihave Hx' := (main_toks c X).1 $$ Hx
  icases Hx' with ⟨Hxd, Hx0, Hx1, Hx2, Hx3⟩
  ihave Hsc' := (scratch_split c g0) $$ Hsc
  icases Hsc' with ⟨Hc0, Hc1, Hc2, Hc3⟩
  sl_exec
  sl_for (inv c X W₀) $$ [Hst Hs0 Hx0 Hs1 Hx1 Hs2 Hx2 Hs3 Hx3 HO]
  case region =>
    intro k acc
    cases acc
    unfold body.sl.prog.body_1
    exact trip c X W₀ k
  · unfold inv stageInv owesInv
    isplitl [Hst]
    · iexists _
      isplitl [Hst]; · iexact Hst
      ipureintro; intro i hi; omega
    isplitl [Hs0 Hx0]
    · iapply (slotInv_of_flight c X (slotSem 0) slot0 (tok 0) (4 * 0 + 0) (by decide) ![0, 1280, 0] inb_S64x4096x128_S1x2816x128_0_1280_0 rfl g0 _ rfl)
      isplitl [Hs0]; · iexact Hs0
      iexact Hx0
    isplitl [Hs1 Hx1]
    · iapply (slotInv_of_flight c X (slotSem 1) slot1 (tok 1) (4 * 0 + 1) (by decide) ![1, 1280, 0] inb_S64x4096x128_S1x2816x128_1_1280_0 rfl g0 _ rfl)
      isplitl [Hs1]; · iexact Hs1
      iexact Hx1
    isplitl [Hs2 Hx2]
    · iapply (slotInv_of_flight c X (slotSem 2) slot2 (tok 2) (4 * 0 + 2) (by decide) ![2, 1280, 0] inb_S64x4096x128_S1x2816x128_2_1280_0 rfl g0 _ rfl)
      isplitl [Hs2]; · iexact Hs2
      iexact Hx2
    isplitl [Hs3 Hx3]
    · iapply (slotInv_of_flight c X (slotSem 3) slot3 (tok 3) (4 * 0 + 3) (by decide) ![3, 1280, 0] inb_S64x4096x128_S1x2816x128_3_1280_0 rfl g0 _ rfl)
      isplitl [Hs3]; · iexact Hs3
      iexact Hx3
    iexists W
    isplitl [HO]; · iexact HO
    ipureintro; exact hW
  iintro %u
  iintro HI
  ihave HI' := (inv_done c X W₀ _ (by decide) u) $$ HI
  icases HI' with ⟨Hst, ⟨Hc0, Hx0, Hs0⟩, ⟨Hc1, Hx1, Hs1⟩, ⟨Hc2, Hx2, Hs2⟩, ⟨Hc3, Hx3, Hs3⟩, HO⟩
  sl_exec
  sl_step
  iapply Hk
  unfold bodyPost
  isplitl [Hxd Hx0 Hx1 Hx2 Hx3]
  · iapply (main_toks c X).2
    isplitl [Hxd]; · iexact Hxd
    isplitl [Hx0]; · iexact Hx0
    isplitl [Hx1]; · iexact Hx1
    isplitl [Hx2]; · iexact Hx2
    iexact Hx3
  isplitl [Hst]; · iexact Hst
  isplitl [Hc0 Hc1 Hc2 Hc3]
  · iapply (scratch_join c)
    isplitl [Hc0]; · iexact Hc0
    isplitl [Hc1]; · iexact Hc1
    isplitl [Hc2]; · iexact Hc2
    iexact Hc3
  isplitl [Hs0]; · iexact Hs0
  isplitl [Hs1]; · iexact Hs1
  isplitl [Hs2]; · iexact Hs2
  isplitl [Hs3]; · iexact Hs3
  iexact HO

/-! ## The region's proof data and record -/

/-- The pipeline's tables: it prefetches none. -/
abbrev adm : (p : Fin 1) → (pcfgs (F := F) p).Adm := fun p => (cfgs p).toPCfg_adm

/-- The kernel's own semaphores: one per slot. -/
abbrev osem : Fin 4 → SemLoc sig := fun j => SemLoc.dma (slotSem j)

theorem ownSems0_eq (c : Dev nD) :
    (Pipeline.ownSems0 osem c : sProp 𝕄) = iprop(semVal ((c : Thread nD τ), SemLoc.dma (slotSem 0)) 0 ∗ semVal ((c : Thread nD τ), SemLoc.dma (slotSem 1)) 0
      ∗ semVal ((c : Thread nD τ), SemLoc.dma (slotSem 2)) 0 ∗ semVal ((c : Thread nD τ), SemLoc.dma (slotSem 3)) 0) := by
  unfold Pipeline.ownSems0
  rw [bigSep_univ_eq_bigSepL [(0 : Fin 4), 1, 2, 3] (by decide) (by decide)]
  rfl

/-- The staging buffer owned at `Y` is its points-to at contents that read `Y`. -/
theorem owns_stage (c : Dev nD) (Y : S64x128.Idx → F .f32) :
    (owns (c : Thread nD τ) (win1_0.stage 0) fullShare Y : sProp 𝕄)
      = iprop(∃ f, ⌜(win1_0.stage 0).view.read (Elt F) f = Y⌝ ∗ ((win1_0.stage 0).view.loc (c : Thread nD τ) ↦{fullShare} f)) := by
  unfold owns
  rw [(hstage1_0 0).set_eq_univ]

section Region

variable (Xin : (c : Dev nD) → S64x4096x128.Idx → F .f32) (V2 : (c : Dev nD) → S64x128.Idx → F .f32) (W₀ : Dev nD → Waits sig (HIx 1))

/-- What the body runs from and ends with besides the staging buffer: the input whole, the scratch at some contents, the
    slots' semaphores at zero. -/
def phi (c : Dev nD) : sProp 𝕄 :=
  iprop((ML(c) ↦{fullShare} Xin c) ∗ (∃ g, SL(c) ↦{fullShare} g)
    ∗ semVal ((c : Thread nD τ), SemLoc.dma (slotSem 0)) 0 ∗ semVal ((c : Thread nD τ), SemLoc.dma (slotSem 1)) 0
    ∗ semVal ((c : Thread nD τ), SemLoc.dma (slotSem 2)) 0 ∗ semVal ((c : Thread nD τ), SemLoc.dma (slotSem 3)) 0)

/-- The proof data: the result array at entry holds `V2`; the body leaves the specification's values in the staging
    buffer whatever it found there; the invariant is the same before and after the one point; nothing is owed, and the
    recorded waits stay within `W₀` and the kernels' own index. -/
def rdat (c : Dev nD) : Pipeline.RDat τ (Elt F) (HIx 1) ℕ U ℕ cfg1 c where
  A := fun (w : Fin 1) => match w with
    | 0 => V2 c
    | ⟨_ + 1, h⟩ => absurd h (Nat.not_lt.2 (Nat.le_add_left _ _))
  after := fun (w : Fin 1) => match w with
    | 0 => fun _ _ X' => X' = Cert.Spec.tcVal reduces_S2816x128_S128 (Xin c)
    | ⟨_ + 1, h⟩ => absurd h (Nat.not_lt.2 (Nat.le_add_left _ _))
  Φ _ := phi Xin c
  q _ := fullShare
  owed _ := 0
  recorded _ := {p | p ∈ W₀ c ∨ p.2 = none}

def rdats (p : Fin 1) (c : Dev nD) : Pipeline.RDat τ (Elt F) (HIx 1) ℕ U ℕ (Pipeline.pin (pcfgs (F := F)) adm p) c :=
  rdat Xin V2 W₀ c

set_option maxHeartbeats 1000000 in
/-- The body obligation at the one point: the body's run, with the staging buffer handed over at any contents and handed
    back at the specification's values. -/
theorem hbody (c : Dev nD) :
    (rdats (U := U) Xin V2 W₀ 0 c).BodyObligation (defs₀ (F := F)) Variants.none (none : HIx 1) Set.univ := by
  intro t Y hY
  obtain rfl := Gen.fin_N1 t
  rw [Gen.bigSep_W1, Gen.bigSep_W1]
  rw [show (rdats (U := U) Xin V2 W₀ 0 c).Φ Gen.t1_0.castSucc = phi Xin c from rfl, show (rdats (U := U) Xin V2 W₀ 0 c).Φ Gen.t1_0.succ = phi Xin c from rfl]
  unfold Pipeline.RDat.owesAt Pipeline.owesWithin
  rw [show (rdats (U := U) Xin V2 W₀ 0 c).owed Gen.t1_0.castSucc = 0 from rfl, show (rdats (U := U) Xin V2 W₀ 0 c).owed Gen.t1_0.succ = 0 from rfl]
  unfold phi
  iintro ⟨⟨Hx, ⟨%g, Hsc⟩, Hs0, Hs1, Hs2, Hs3⟩, ⟨%W, %hW, HO⟩, Hown⟩
  ihave Hown' := (Entails.of_eq (owns_stage c (Y 0))) $$ Hown
  icases Hown' with ⟨%f0, -, Hst⟩
  sl_whnfR [defs₀]
  iapply (body c (Xin c) (W₀ c) W (fun p hp => by
      rcases hW hp with h | ⟨w, s, rfl⟩
      · exact h
      · exact .inr rfl) f0 g _)
  isplitl [Hx]; · iexact Hx
  isplitl [Hst]; · iexact Hst
  isplitl [Hsc]; · iexact Hsc
  isplitl [Hs0]; · iexact Hs0
  isplitl [Hs1]; · iexact Hs1
  isplitl [Hs2]; · iexact Hs2
  isplitl [Hs3]; · iexact Hs3
  isplitl [HO]; · iexact HO
  unfold bodyPost owesInv
  iintro ⟨Hx, ⟨%f, Hst, %hf⟩, Hsc, Hs0, Hs1, Hs2, Hs3, ⟨%W', HO, %hW'⟩⟩
  isplitl [Hx Hsc Hs0 Hs1 Hs2 Hs3]
  · isplitl [Hx]; · iexact Hx
    isplitl [Hsc]; · iexact Hsc
    isplitl [Hs0]; · iexact Hs0
    isplitl [Hs1]; · iexact Hs1
    isplitl [Hs2]; · iexact Hs2
    iexact Hs3
  isplitl [HO]
  · iexists W'
    isplitr
    · ipureintro; exact fun p hp => .inl (hW' p hp)
    iexact HO
  iexists (Cert.Spec.tcVal reduces_S2816x128_S128 (Xin c))
  isplitr
  · ipureintro; rfl
  iapply (Entails.of_eq (owns_stage c _).symm)
  iexists f
  isplitr
  · ipureintro; exact hf
  iexact Hst

end Region

/-! ## The record -/

/-- The one write-back of the whole window leaves the staged contents in the array. -/
theorem flush_whole (G₀ T : S64x128.Idx → F .f32) :
    View.write (Elt F) (win1_0.blk Gen.t1_0).view G₀ (win1_0.cut (grid1.coords Gen.t1_0) T) Finset.univ = T := by
  refine (View.write_whole_slice_unit (Val := Elt F) main_v2 _ _ _ G₀ _).trans ?_
  funext i
  unfold updateSlice
  rw [dif_pos (by
    intro a
    have hi := (i a).isLt
    refine ⟨?_, ?_⟩
    · show 0 * _ ≤ _
      rw [Nat.zero_mul]; exact Nat.zero_le _
    · show _ < 0 * _ + _
      rw [Nat.zero_mul, Nat.zero_add]; exact hi)]
  refine congrArg T (funext fun a => Fin.ext ?_)
  show (i a).val - 0 * _ = (i a).val
  rw [Nat.zero_mul]; rfl

section Record

variable (Xin : (c : Dev nD) → S64x4096x128.Idx → F .f32) (V2 : (c : Dev nD) → S64x128.Idx → F .f32) (W₀ : Dev nD → Waits sig (HIx 1))
  (L : GSem nD τ sig → Finset (HIx 1)) (lv : GSem nD τ sig → HIx 1 → ℕ)

set_option quotPrecheck false in
local notation "VL(" c ")" => (Memref.whole main_v2).view.loc (c : Thread nD τ)

/-- The thread state the region is entered from: the input and the result array whole, nothing owed. -/
def pre (c : Dev nD) : sProp 𝕄 :=
  iprop((ML(c) ↦{fullShare} Xin c) ∗ (VL(c) ↦{fullShare} V2 c) ∗ owes (c : Thread nD τ) (0 : CellTallies nD τ sig (HIx 1)) (W₀ c))

/-- The thread state it leaves: the input unchanged, the result array at the specification's values, nothing owed. -/
def post (c : Dev nD) : sProp 𝕄 :=
  iprop((ML(c) ↦{fullShare} Xin c) ∗ (VL(c) ↦{fullShare} Cert.Spec.tcVal reduces_S2816x128_S128 (Xin c))
    ∗ ∃ W', ⌜∀ p ∈ W', p ∈ W₀ c ∨ p.2 = none⌝ ∗ owes (c : Thread nD τ) (0 : CellTallies nD τ sig (HIx 1)) W')

theorem bigSep_W0 {M : Type} [URA M] (Φ : Fin 0 → sProp M) : bigSep Finset.univ Φ = (BI.emp : sProp M) :=
  bigSep_univ_eq_bigSepL [] (by decide) (by decide) Φ

theorem prefHeld_eq (c : Dev nD) (q) (pf) :
    (Pipeline.prefHeld (Ix := HIx 1) (Name := ℕ) (U := U) (Lvl := ℕ) (Val := Elt F) (pcfgs (F := F) 0).pre c q pf : sProp 𝕄) = BI.emp :=
  bigSep_W0 _

theorem arrays_eq (c : Dev nD) (Fa) :
    ((rdats (U := U) Xin V2 W₀ 0 c).arrays Fa : sProp 𝕄) = (VL(c) ↦{fullShare} Fa 0) := by
  unfold Pipeline.RDat.arrays
  rw [Gen.bigSep_W1]
  rw [(Gen.arr_whole1 0).set_eq_univ]
  rfl

theorem arr_pts (c : Dev nD) (f) :
    (((Pipeline.pin (pcfgs (F := F)) adm 0).win 0).arr.view.loc (c : Thread nD τ) ↦[((Pipeline.pin (pcfgs (F := F)) adm 0).win 0).arr.view.set]{(rdats (U := U) Xin V2 W₀ 0 c).share 0} f : sProp 𝕄)
      = (VL(c) ↦{fullShare} f) := by
  have hs : ((Pipeline.pin (pcfgs (F := F)) adm 0).win 0).arr.view.set = Finset.univ := (Gen.arr_whole1 0).set_eq_univ
  rw [hs]
  rfl

theorem hentry (c : Dev nD) :
    iprop(pre Xin V2 W₀ c ∗ Pipeline.ownSems0 osem c ∗ levAts L lv)
      ⊢ |={Set.univ}=> (iprop((rdats (U := U) Xin V2 W₀ 0 c).arrays (rdats (U := U) Xin V2 W₀ 0 c).A ∗ Pipeline.prefHeld (pcfgs (F := F) 0).pre c (fun _ => fullShare) (adm (F := F) 0).1
        ∗ (rdats (U := U) Xin V2 W₀ 0 c).owesAt (none : HIx 1) 0 ∗ iprop((ML(c) ↦{fullShare} Xin c) ∗ Pipeline.ownSems0 osem c) ∗ iprop(emp)) : sProp 𝕄) := by
  rw [arrays_eq, prefHeld_eq]
  unfold pre Pipeline.RDat.owesAt Pipeline.owesWithin
  iintro ⟨⟨Hx, Hv, HO⟩, Hs, -⟩
  imodintro
  isplitl [Hv]; · iexact Hv
  isplitr; · iempintro
  isplitl [HO]
  · iexists (W₀ c)
    isplitr
    · ipureintro; exact fun p hp => .inl (.inl hp)
    iexact HO
  isplitl [Hx Hs]
  · isplitl [Hx]; · iexact Hx
    iexact Hs
  iempintro

theorem scr_pts (c : Dev nD) (f) :
    (SL(c) ↦{fullShare} f : sProp 𝕄) = (((c : Thread nD τ).loc cc1_scratch0) ↦{fullShare} f) := rfl

theorem hin (c : Dev nD) :
    iprop(iprop((ML(c) ↦{fullShare} Xin c) ∗ Pipeline.ownSems0 osem c)
        ∗ Pipeline.prefHeld (pcfgs (F := F) 0).pre c (fun _ => fullShare) (adm (F := F) 0).1
        ∗ Pipeline.scopedRest (Pipeline.pin (pcfgs (F := F)) adm 0).spec c)
      ⊢ ((rdats (U := U) Xin V2 W₀ 0 c).Φ 0 : sProp 𝕄) := by
  rw [show (rdats (U := U) Xin V2 W₀ 0 c).Φ 0 = phi Xin c from rfl, ownSems0_eq, Gen.scopedRest1_eq]
  unfold phi
  iintro ⟨⟨Hx, Hs0, Hs1, Hs2, Hs3⟩, -, ⟨%g, Hsc⟩⟩
  isplitl [Hx]; · iexact Hx
  isplitl [Hsc]; · iexists g; iexact Hsc
  isplitl [Hs0]; · iexact Hs0
  isplitl [Hs1]; · iexact Hs1
  isplitl [Hs2]; · iexact Hs2
  iexact Hs3

theorem hout (c : Dev nD) :
    ((rdats (U := U) Xin V2 W₀ 0 c).Φ (Fin.last (Pipeline.pin (pcfgs (F := F)) adm 0).N) : sProp 𝕄)
      ⊢ iprop(iprop(ML(c) ↦{fullShare} Xin c) ∗ Pipeline.ownSems0 osem c ∗ Pipeline.scopedRest (Pipeline.pin (pcfgs (F := F)) adm 0).spec c) := by
  rw [show (rdats (U := U) Xin V2 W₀ 0 c).Φ (Fin.last _) = phi Xin c from rfl, ownSems0_eq, Gen.scopedRest1_eq]
  unfold phi
  iintro ⟨Hx, ⟨%g, Hsc⟩, Hs0, Hs1, Hs2, Hs3⟩
  isplitl [Hx]; · iexact Hx
  isplitl [Hs0 Hs1 Hs2 Hs3]
  · isplitl [Hs0]; · iexact Hs0
    isplitl [Hs1]; · iexact Hs1
    isplitl [Hs2]; · iexact Hs2
    iexact Hs3
  iexists g; iexact Hsc

theorem hexit (c : Dev nD) :
    iprop((rdats (U := U) Xin V2 W₀ 0 c).arraysAt (Pipeline.pin (pcfgs (F := F)) adm 0).N
        ∗ (rdats (U := U) Xin V2 W₀ 0 c).owesAt (none : HIx 1) (Fin.last (Pipeline.pin (pcfgs (F := F)) adm 0).N)
        ∗ iprop(ML(c) ↦{fullShare} Xin c) ∗ iprop(emp))
      ⊢ |={Set.univ}=> (post Xin W₀ c : sProp 𝕄) := by
  unfold Pipeline.RDat.arraysAt
  rw [Gen.bigSep_W1]
  unfold Pipeline.RDat.owesAt Pipeline.owesWithin post
  iintro ⟨⟨%Fa, %hFa, Ha⟩, ⟨%W', %hW', HO⟩, Hx, -⟩
  have hFa' : (rdats (U := U) Xin V2 W₀ 0 c).ArrAt 0 (Gen.t1_0.val + 1) Fa := hFa
  have hfl : ((Pipeline.pin (pcfgs (F := F)) adm 0).win 0).flush Gen.t1_0 = true := Gen.flush1_0 Gen.t1_0
  rw [Pipeline.RDat.ArrAt_succ, if_pos hfl] at hFa'
  obtain ⟨G₀, X', -, ⟨Yf, -, hX'⟩, rfl⟩ := hFa'
  have hX'' : X' = Cert.Spec.tcVal reduces_S2816x128_S128 (Xin c) := hX'
  subst hX''
  have hE := flush_whole (F := F) G₀ (Cert.Spec.tcVal reduces_S2816x128_S128 (Xin c))
  imodintro
  isplitl [Hx]; · iexact Hx
  isplitl [Ha]
  · iapply (Entails.of_eq (arr_pts Xin V2 W₀ c (Cert.Spec.tcVal reduces_S2816x128_S128 (Xin c))))
    iapply (Entails.of_eq (congrArg (fun f => (((Pipeline.pin (pcfgs (F := F)) adm 0).win 0).arr.view.loc (c : Thread nD τ) ↦[((Pipeline.pin (pcfgs (F := F)) adm 0).win 0).arr.view.set]{(rdats (U := U) Xin V2 W₀ 0 c).share 0} f : sProp 𝕄)) hE))
    iexact Ha
  iexists W'
  isplitr
  · ipureintro
    intro p hp
    rcases hW' hp with h | ⟨w, s, rfl⟩
    · exact h
    · exact .inr rfl
  iexact HO

/-- The slots' semaphores are scoped, distinct, and none is the staging buffer's. -/
theorem ownSemFacts : Pipeline.OwnSemFacts spec1 osem := by decide

/-- The region's record: the launch's layout facts, the kernel's four semaphores, the body obligation, wait evidence from
    nothing owed, and the four entailments between the thread states `pre` / `post` and the pipeline's. -/
def R : Pipeline.RDat.RegionSeg (pcfgs (F := F)) adm (rdats (U := U) Xin V2 W₀) (none : HIx 1) (defs₀ (F := F)) Variants.none L lv 0 where
  win := Gen.winFacts1.to₀
  block_pos := Gen.block_pos1
  stage_whole := Gen.stage_whole1
  K := Fin 4
  osem := osem
  ho := ownSemFacts
  hbody c := hbody Xin V2 W₀ c
  hwaits := Pipeline.RDat.hwaits_of_owed_zero _ _ _ _ L lv 0 fun _ _ => rfl
  pre := pre Xin V2 W₀
  post := post Xin W₀
  X c := iprop((ML(c) ↦{fullShare} Xin c) ∗ Pipeline.ownSems0 osem c)
  Y c := iprop(ML(c) ↦{fullShare} Xin c)
  Z _ := iprop(emp)
  hentry c := hentry Xin V2 W₀ L lv c
  hin c := hin Xin V2 W₀ c
  hout c := hout Xin V2 W₀ c
  hexit c := hexit Xin V2 W₀ c

theorem R_pre (c : Dev nD) : (R Xin V2 W₀ L lv).pre c = (pre (U := U) Xin V2 W₀ c : sProp 𝕄) := rfl
theorem R_post (c : Dev nD) : (R Xin V2 W₀ L lv).post c = (post (U := U) Xin W₀ c : sProp 𝕄) := rfl

/-- The record's entry state, over the TensorCore's thread and arrays as the program's main function names them. -/
theorem R_pre_of (c : Dev nD) :
    (iprop(((SparseCore.T c).loc main_v0 ↦{fullShare} Xin c) ∗ ((SparseCore.T c).loc main_v2 ↦{fullShare} V2 c)
        ∗ owes (SparseCore.T c) (0 : CellTallies nD τ sig (HIx 1)) (W₀ c)) : sProp 𝕄) ⊢ (R Xin V2 W₀ L lv).pre c := .rfl

/-- The record's exit state, likewise. -/
theorem R_post_to (c : Dev nD) :
    ((R Xin V2 W₀ L lv).post c : sProp 𝕄) ⊢ iprop(((SparseCore.T c).loc main_v0 ↦{fullShare} Xin c)
        ∗ ((SparseCore.T c).loc main_v2 ↦{fullShare} Cert.Spec.tcVal reduces_S2816x128_S128 (Xin c))
        ∗ ∃ W', ⌜∀ p ∈ W', p ∈ W₀ c ∨ p.2 = none⌝ ∗ owes (SparseCore.T c) (0 : CellTallies nD τ sig (HIx 1)) W') := .rfl

end Record

end Cert.KB.Tc

end
-- ==== Proof.KB.GlueR.lean ====
/-
  The TensorCore kernel's region, in the form @main's proof takes it: for any contents of the segment array and of
  the result's buffer at entry, the region's record, entered from the two arrays and left with the result at the
  specified values.
-/
import proofs.«210774_g2740189135076_cont_9to1_1653_26_alg».proof.Proof.KB.LaunchC
import proofs.«210774_g2740189135076_cont_9to1_1653_26_alg».proof.Proof.KB.Tc

noncomputable section

namespace Cert.KB.Glue

open Cert.Kernel Cert.Kernel.Gen
open Idealize.ShloMosaic
open Idealize.ShloMosaic.SparseCore.Cfg (HIx)
open Cert.KB.Launch

variable {F : FTy → Type} [FloatOps F]

theorem regionSpec : Cert.KB.Launch.RegionSpec (F := F) := fun X Y W₀ =>
  ⟨Cert.KB.Tc.rdats (U := UU) X Y W₀, Cert.KB.Tc.R X Y W₀ (K (F := F)).L (K (F := F)).lev,
    Cert.KB.Tc.R_pre_of X Y W₀ (K (F := F)).L (K (F := F)).lev, Cert.KB.Tc.R_post_to X Y W₀ (K (F := F)).L (K (F := F)).lev⟩

end Cert.KB.Glue

end
-- ==== Proof.lean ====
/-
  The kernel averages each of the 64 segments (8 × 8) of the input over its 4096 rows, column by column, dividing the
  total by 128, and replaces a result that is not a number by zero.  It computes the total in two parts: the first 1280
  rows of a segment are added row by row on a vector subcore of a SparseCore (thirty-two of them, two segments each,
  fetched in chunks of 320 rows through two alternating slots), the remaining 2816 rows by one reduction per segment
  on the TensorCore (fetched through a ring of four slots); each part is multiplied by 1/128 and the two are added.

  The three frames: the reference is a straight line of host operations; the kernel's threads — @main on the
  TensorCore, two sequencers, thirty-two vector subcores — run under the SparseCore launch protocol, every copy waited
  for on its own semaphore before its destination is read and before the next copy into it is started, so every
  weakly fair execution terminates without a fault and the input is only read.  The same run, with each buffer's
  contents named, gives the kernel's result as one function of the input (`Cert.Spec.kernelOut`), for any reading of
  the floats; at the ideal reading, when every input is a real number, that function is the reference's: the sum over
  4096 rows splits into the two partial sums, and multiplying each by 1/128 and adding is dividing the whole by 128
  (`Cert.Bridge`).  The idealization rewrote nothing, so it preserves the kernel trivially.
-/
import proofs.«210774_g2740189135076_cont_9to1_1653_26_alg».proof.Defs
import proofs.«210774_g2740189135076_cont_9to1_1653_26_alg».proof.Proof.Assemble
import proofs.«210774_g2740189135076_cont_9to1_1653_26_alg».proof.Proof.KI.Glue
import proofs.«210774_g2740189135076_cont_9to1_1653_26_alg».proof.Proof.KI.GlueR
import proofs.«210774_g2740189135076_cont_9to1_1653_26_alg».proof.Proof.KB.Glue
import proofs.«210774_g2740189135076_cont_9to1_1653_26_alg».proof.Proof.KB.GlueR

noncomputable section

namespace Cert.Proof

theorem claim : Cert.Claim :=
  Cert.Proof.Assemble.claim_of (Cert.KI.Glue.tileSpec (F := Idealize.ShloMosaic.Ideal)) (Cert.KI.Glue.regionSpec (F := Idealize.ShloMosaic.Ideal))
    (Cert.KB.Glue.tileSpec (F := Idealize.ShloMosaic.Bits)) (Cert.KB.Glue.regionSpec (F := Idealize.ShloMosaic.Bits))

end Cert.Proof

end
